-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x384x224x224 : Shape := ⟨4, ![2, 384, 224, 224]⟩
abbrev S_ : Shape := ⟨0, ![]⟩

class Facts : Prop where
  bcast_S_S2x384x224x224 : S_.BroadcastsInDim S2x384x224x224 (![] : Fin 0 → Fin S2x384x224x224.rank)
  reducesTo_S2x384x224x224_S_d0_1_2_3 : S2x384x224x224.ReducesTo [0, 1, 2, 3] S_
  h_S_ : 0 < S_.numel

variable [Facts]

def fn {F : FTy → Type} [FloatOps F] (main_arg0 : FVec F S2x384x224x224 .f32) : IVec S_ 1 :=
  let main_v0 : FVec F S2x384x224x224 .f32 := Host.absf main_arg0
  let main_cst : FVec F S_ .f32 := constant S_ .f32 0x7F800000#32
  let main_v1 : FVec F S2x384x224x224 .f32 := broadcastInDim S2x384x224x224 ![] bcast_S_S2x384x224x224 main_cst
  let main_v2 : IVec S2x384x224x224 1 := cmpf .olt main_v0 main_v1
  let main_c : IVec S_ 1 := constantI S_ 1 1#1
  let main_v3 : IVec S_ 1 := (fun x v => Host.reduce IntOp.andi x v reducesTo_S2x384x224x224_S_d0_1_2_3 h_S_) main_v2 main_c
  main_v3
-- ==== Kernel.lean ====
abbrev S2x384x224x224 : Shape := ⟨4, ![2, 384, 224, 224]⟩
abbrev S224x224 : Shape := ⟨2, ![224, 224]⟩
abbrev S_ : Shape := ⟨0, ![]⟩
abbrev S1x1x224x224 : Shape := ⟨4, ![1, 1, 224, 224]⟩
abbrev S1x16 : Shape := ⟨2, ![1, 16]⟩
abbrev S16 : Shape := ⟨1, ![16]⟩
abbrev S1x16x224x224 : Shape := ⟨4, ![1, 16, 224, 224]⟩

abbrev nBuf : Table → Nat
  | .hbm => 3
  | .local .tc .vmem => 4
  | .local .scVector .vmem => 2
  | _ => 0

abbrev bufTy : (tb : Table) → Fin (nBuf tb) → BufTy
  | .hbm, ⟨0, _⟩ => ⟨S2x384x224x224, .f32⟩
  | .hbm, ⟨1, _⟩ => ⟨S2x384x224x224, .f32⟩
  | .hbm, ⟨2, _⟩ => ⟨S2x384x224x224, .f32⟩
  | .local .tc .vmem, ⟨0, _⟩ => ⟨S1x16x224x224, .f32⟩
  | .local .tc .vmem, ⟨1, _⟩ => ⟨S1x16x224x224, .f32⟩
  | .local .tc .vmem, ⟨2, _⟩ => ⟨S1x16x224x224, .f32⟩
  | .local .tc .vmem, ⟨3, _⟩ => ⟨S1x16x224x224, .f32⟩
  | .local .scVector .vmem, ⟨0, _⟩ => ⟨S224x224, .f32⟩
  | .local .scVector .vmem, ⟨1, _⟩ => ⟨S224x224, .f32⟩
  | _, _ => ⟨S2x384x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c0_i32_4 : BitVec 32 := 0#32
  let v15 : BitVec 1 := Scalar.cmpi .sgt v2 c0_i32_4
  let v16 : BitVec 32 := Scalar.extui v15
  let c0_i32_5 : BitVec 32 := 0#32
  let v17 : BitVec 1 := Scalar.cmpi .slt v2 c0_i32_5
  let v18 : BitVec 32 := Scalar.extui v17
  let v19 : BitVec 32 := Scalar.subi v16 v18
  let c144_i32_3 : BitVec 32 := 144#32
  let c0_i32_6 : BitVec 32 := 0#32
  let v20 : BitVec 1 := Scalar.cmpi .sgt c144_i32_3 c0_i32_6
  let v21 : BitVec 32 := Scalar.extui v20
  let c0_i32_7 : BitVec 32 := 0#32
  let v22 : BitVec 1 := Scalar.cmpi .slt c144_i32_3 c0_i32_7
  let v23 : BitVec 32 := Scalar.extui v22
  let v24 : BitVec 32 := Scalar.subi v21 v23
  let v25 : BitVec 1 := Scalar.cmpi .ne v19 v24
  let v26 : BitVec 32 := Scalar.remsi v2 c144_i32_3
  let c0_i32_8 : BitVec 32 := 0#32
  let v27 : BitVec 1 := Scalar.cmpi .ne v26 c0_i32_8
  let v28 : BitVec 1 := Scalar.andi v25 v27
  let v14 : BitVec 32 := Scalar.divsi v2 c144_i32_3
  let c1_i32_9 : BitVec 32 := 1#32
  let v29 : BitVec 32 := Scalar.subi v14 c1_i32_9
  let v30 : BitVec 32 := Scalar.select v28 v29 v14
  let c240_i32 : BitVec 32 := 240#32
  let c144_i32 : BitVec 32 := 144#32
  let c0_i32 : BitVec 32 := 0#32
  let v3 : BitVec 1 := Scalar.cmpi .eq c144_i32 c0_i32
  let c1_i32 : BitVec 32 := 1#32
  let v4 : BitVec 32 := Scalar.select v3 c1_i32 c144_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v13 : BitVec 32 := Scalar.addi c240_i32 v12
  let c0_i32_10 : BitVec 32 := 0#32
  let c0_i32_11 : BitVec 32 := 0#32
  ![v30.toNat, v13.toNat, 0, 0]
@[reducible] def k0_t1_loop : Scf.Loop 32 :=
  let c0_i32_15 : BitVec 32 := 0#32
  let c4_i32 : BitVec 32 := 4#32
  let v35 : BitVec 32 := Scalar.addi c0_i32_15 c4_i32
  let c1_i32_16 : BitVec 32 := 1#32
  ⟨c0_i32_15, v35, c1_i32_16⟩
def k0_cond1 (k0_t1 : Fin k0_t1_loop.trips) : BitVec 1 :=
  let c0_i32_15 : BitVec 32 := 0#32
  let c1_i32_16 : BitVec 32 := 1#32
  let arg10 : BitVec 32 := Scf.iv c0_i32_15 c1_i32_16 k0_t1
  let c0_i32_130 : BitVec 32 := 0#32
  let v236 : BitVec 1 := Scalar.cmpi .sgt arg10 c0_i32_130
  let v237 : BitVec 32 := Scalar.extui v236
  let c0_i32_131 : BitVec 32 := 0#32
  let v238 : BitVec 1 := Scalar.cmpi .ne v237 c0_i32_131
  v238

def k0_off2 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c1_i32_101 : BitVec 32 := 1#32
  let v179 : BitVec 32 := Scalar.addi v178 c1_i32_101
  let c0_i32_124 : BitVec 32 := 0#32
  let v220 : BitVec 1 := Scalar.cmpi .sgt v179 c0_i32_124
  let v221 : BitVec 32 := Scalar.extui v220
  let c0_i32_125 : BitVec 32 := 0#32
  let v222 : BitVec 1 := Scalar.cmpi .slt v179 c0_i32_125
  let v223 : BitVec 32 := Scalar.extui v222
  let v224 : BitVec 32 := Scalar.subi v221 v223
  let c144_i32_123 : BitVec 32 := 144#32
  let c0_i32_126 : BitVec 32 := 0#32
  let v225 : BitVec 1 := Scalar.cmpi .sgt c144_i32_123 c0_i32_126
  let v226 : BitVec 32 := Scalar.extui v225
  let c0_i32_127 : BitVec 32 := 0#32
  let v227 : BitVec 1 := Scalar.cmpi .slt c144_i32_123 c0_i32_127
  let v228 : BitVec 32 := Scalar.extui v227
  let v229 : BitVec 32 := Scalar.subi v226 v228
  let v230 : BitVec 1 := Scalar.cmpi .ne v224 v229
  let v231 : BitVec 32 := Scalar.remsi v179 c144_i32_123
  let c0_i32_128 : BitVec 32 := 0#32
  let v232 : BitVec 1 := Scalar.cmpi .ne v231 c0_i32_128
  let v233 : BitVec 1 := Scalar.andi v230 v232
  let v219 : BitVec 32 := Scalar.divsi v179 c144_i32_123
  let c1_i32_129 : BitVec 32 := 1#32
  let v234 : BitVec 32 := Scalar.subi v219 c1_i32_129
  let v235 : BitVec 32 := Scalar.select v233 v234 v219
  let c240_i32_122 : BitVec 32 := 240#32
  let c144_i32_116 : BitVec 32 := 144#32
  let c0_i32_117 : BitVec 32 := 0#32
  let v208 : BitVec 1 := Scalar.cmpi .eq c144_i32_116 c0_i32_117
  let c1_i32_118 : BitVec 32 := 1#32
  let v209 : BitVec 32 := Scalar.select v208 c1_i32_118 c144_i32_116
  let v210 : BitVec 32 := Scalar.remsi v179 v209
  let c0_i32_120 : BitVec 32 := 0#32
  let v212 : BitVec 1 := Scalar.cmpi .slt v210 c0_i32_120
  let c0_i32_121 : BitVec 32 := 0#32
  let v213 : BitVec 1 := Scalar.cmpi .slt v209 c0_i32_121
  let v214 : BitVec 1 := Scalar.xori v212 v213
  let c0_i32_119 : BitVec 32 := 0#32
  let v211 : BitVec 1 := Scalar.cmpi .ne v210 c0_i32_119
  let v215 : BitVec 1 := Scalar.andi v214 v211
  let v216 : BitVec 32 := Scalar.addi v210 v209
  let v217 : BitVec 32 := Scalar.select v215 v216 v210
  let v218 : BitVec 32 := Scalar.addi c240_i32_122 v217
  let c0_i32_182 : BitVec 32 := 0#32
  let c0_i32_183 : BitVec 32 := 0#32
  ![v235.toNat, v218.toNat, 0, 0]
def k0_off3 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c1_i32_101 : BitVec 32 := 1#32
  let v179 : BitVec 32 := Scalar.addi v178 c1_i32_101
  let c0_i32_124 : BitVec 32 := 0#32
  let v220 : BitVec 1 := Scalar.cmpi .sgt v179 c0_i32_124
  let v221 : BitVec 32 := Scalar.extui v220
  let c0_i32_125 : BitVec 32 := 0#32
  let v222 : BitVec 1 := Scalar.cmpi .slt v179 c0_i32_125
  let v223 : BitVec 32 := Scalar.extui v222
  let v224 : BitVec 32 := Scalar.subi v221 v223
  let c144_i32_123 : BitVec 32 := 144#32
  let c0_i32_126 : BitVec 32 := 0#32
  let v225 : BitVec 1 := Scalar.cmpi .sgt c144_i32_123 c0_i32_126
  let v226 : BitVec 32 := Scalar.extui v225
  let c0_i32_127 : BitVec 32 := 0#32
  let v227 : BitVec 1 := Scalar.cmpi .slt c144_i32_123 c0_i32_127
  let v228 : BitVec 32 := Scalar.extui v227
  let v229 : BitVec 32 := Scalar.subi v226 v228
  let v230 : BitVec 1 := Scalar.cmpi .ne v224 v229
  let v231 : BitVec 32 := Scalar.remsi v179 c144_i32_123
  let c0_i32_128 : BitVec 32 := 0#32
  let v232 : BitVec 1 := Scalar.cmpi .ne v231 c0_i32_128
  let v233 : BitVec 1 := Scalar.andi v230 v232
  let v219 : BitVec 32 := Scalar.divsi v179 c144_i32_123
  let c1_i32_129 : BitVec 32 := 1#32
  let v234 : BitVec 32 := Scalar.subi v219 c1_i32_129
  let v235 : BitVec 32 := Scalar.select v233 v234 v219
  let c240_i32_122 : BitVec 32 := 240#32
  let c144_i32_116 : BitVec 32 := 144#32
  let c0_i32_117 : BitVec 32 := 0#32
  let v208 : BitVec 1 := Scalar.cmpi .eq c144_i32_116 c0_i32_117
  let c1_i32_118 : BitVec 32 := 1#32
  let v209 : BitVec 32 := Scalar.select v208 c1_i32_118 c144_i32_116
  let v210 : BitVec 32 := Scalar.remsi v179 v209
  let c0_i32_120 : BitVec 32 := 0#32
  let v212 : BitVec 1 := Scalar.cmpi .slt v210 c0_i32_120
  let c0_i32_121 : BitVec 32 := 0#32
  let v213 : BitVec 1 := Scalar.cmpi .slt v209 c0_i32_121
  let v214 : BitVec 1 := Scalar.xori v212 v213
  let c0_i32_119 : BitVec 32 := 0#32
  let v211 : BitVec 1 := Scalar.cmpi .ne v210 c0_i32_119
  let v215 : BitVec 1 := Scalar.andi v214 v211
  let v216 : BitVec 32 := Scalar.addi v210 v209
  let v217 : BitVec 32 := Scalar.select v215 v216 v210
  let v218 : BitVec 32 := Scalar.addi c240_i32_122 v217
  let c0_i32_132 : BitVec 32 := 0#32
  let c0_i32_133 : BitVec 32 := 0#32
  ![v235.toNat, v218.toNat, 0, 0]
def k0_off4 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c0_i32_110 : BitVec 32 := 0#32
  let v192 : BitVec 1 := Scalar.cmpi .sgt v178 c0_i32_110
  let v193 : BitVec 32 := Scalar.extui v192
  let c0_i32_111 : BitVec 32 := 0#32
  let v194 : BitVec 1 := Scalar.cmpi .slt v178 c0_i32_111
  let v195 : BitVec 32 := Scalar.extui v194
  let v196 : BitVec 32 := Scalar.subi v193 v195
  let c144_i32_109 : BitVec 32 := 144#32
  let c0_i32_112 : BitVec 32 := 0#32
  let v197 : BitVec 1 := Scalar.cmpi .sgt c144_i32_109 c0_i32_112
  let v198 : BitVec 32 := Scalar.extui v197
  let c0_i32_113 : BitVec 32 := 0#32
  let v199 : BitVec 1 := Scalar.cmpi .slt c144_i32_109 c0_i32_113
  let v200 : BitVec 32 := Scalar.extui v199
  let v201 : BitVec 32 := Scalar.subi v198 v200
  let v202 : BitVec 1 := Scalar.cmpi .ne v196 v201
  let v203 : BitVec 32 := Scalar.remsi v178 c144_i32_109
  let c0_i32_114 : BitVec 32 := 0#32
  let v204 : BitVec 1 := Scalar.cmpi .ne v203 c0_i32_114
  let v205 : BitVec 1 := Scalar.andi v202 v204
  let v191 : BitVec 32 := Scalar.divsi v178 c144_i32_109
  let c1_i32_115 : BitVec 32 := 1#32
  let v206 : BitVec 32 := Scalar.subi v191 c1_i32_115
  let v207 : BitVec 32 := Scalar.select v205 v206 v191
  let c240_i32_108 : BitVec 32 := 240#32
  let c144_i32_102 : BitVec 32 := 144#32
  let c0_i32_103 : BitVec 32 := 0#32
  let v180 : BitVec 1 := Scalar.cmpi .eq c144_i32_102 c0_i32_103
  let c1_i32_104 : BitVec 32 := 1#32
  let v181 : BitVec 32 := Scalar.select v180 c1_i32_104 c144_i32_102
  let v182 : BitVec 32 := Scalar.remsi v178 v181
  let c0_i32_106 : BitVec 32 := 0#32
  let v184 : BitVec 1 := Scalar.cmpi .slt v182 c0_i32_106
  let c0_i32_107 : BitVec 32 := 0#32
  let v185 : BitVec 1 := Scalar.cmpi .slt v181 c0_i32_107
  let v186 : BitVec 1 := Scalar.xori v184 v185
  let c0_i32_105 : BitVec 32 := 0#32
  let v183 : BitVec 1 := Scalar.cmpi .ne v182 c0_i32_105
  let v187 : BitVec 1 := Scalar.andi v186 v183
  let v188 : BitVec 32 := Scalar.addi v182 v181
  let v189 : BitVec 32 := Scalar.select v187 v188 v182
  let v190 : BitVec 32 := Scalar.addi c240_i32_108 v189
  let c0_i32_136 : BitVec 32 := 0#32
  let c0_i32_137 : BitVec 32 := 0#32
  ![v207.toNat, v190.toNat, 0, 0]
def k0_cond2 (i : grid0.Coords) (k0_t1 : Fin k0_t1_loop.trips) : BitVec 1 :=
  let c240_i32_108 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c144_i32_102 : BitVec 32 := 144#32
  let c0_i32_103 : BitVec 32 := 0#32
  let v180 : BitVec 1 := Scalar.cmpi .eq c144_i32_102 c0_i32_103
  let c1_i32_104 : BitVec 32 := 1#32
  let v181 : BitVec 32 := Scalar.select v180 c1_i32_104 c144_i32_102
  let v182 : BitVec 32 := Scalar.remsi v178 v181
  let c0_i32_106 : BitVec 32 := 0#32
  let v184 : BitVec 1 := Scalar.cmpi .slt v182 c0_i32_106
  let c0_i32_107 : BitVec 32 := 0#32
  let v185 : BitVec 1 := Scalar.cmpi .slt v181 c0_i32_107
  let v186 : BitVec 1 := Scalar.xori v184 v185
  let c0_i32_105 : BitVec 32 := 0#32
  let v183 : BitVec 1 := Scalar.cmpi .ne v182 c0_i32_105
  let v187 : BitVec 1 := Scalar.andi v186 v183
  let v188 : BitVec 32 := Scalar.addi v182 v181
  let v189 : BitVec 32 := Scalar.select v187 v188 v182
  let v190 : BitVec 32 := Scalar.addi c240_i32_108 v189
  let c192_i32_140 : BitVec 32 := 192#32
  let v247 : BitVec 32 := Scalar.subi v190 c192_i32_140
  let c0_i32_142 : BitVec 32 := 0#32
  let v249 : BitVec 1 := Scalar.cmpi .sgt v247 c0_i32_142
  let v250 : BitVec 32 := Scalar.extui v249
  let c0_i32_143 : BitVec 32 := 0#32
  let v251 : BitVec 1 := Scalar.cmpi .slt v247 c0_i32_143
  let v252 : BitVec 32 := Scalar.extui v251
  let v253 : BitVec 32 := Scalar.subi v250 v252
  let c48_i32_141 : BitVec 32 := 48#32
  let c0_i32_144 : BitVec 32 := 0#32
  let v254 : BitVec 1 := Scalar.cmpi .sgt c48_i32_141 c0_i32_144
  let v255 : BitVec 32 := Scalar.extui v254
  let c0_i32_145 : BitVec 32 := 0#32
  let v256 : BitVec 1 := Scalar.cmpi .slt c48_i32_141 c0_i32_145
  let v257 : BitVec 32 := Scalar.extui v256
  let v258 : BitVec 32 := Scalar.subi v255 v257
  let v259 : BitVec 1 := Scalar.cmpi .ne v253 v258
  let v260 : BitVec 32 := Scalar.remsi v247 c48_i32_141
  let c0_i32_146 : BitVec 32 := 0#32
  let v261 : BitVec 1 := Scalar.cmpi .ne v260 c0_i32_146
  let v262 : BitVec 1 := Scalar.andi v259 v261
  let v248 : BitVec 32 := Scalar.divsi v247 c48_i32_141
  let c1_i32_147 : BitVec 32 := 1#32
  let v263 : BitVec 32 := Scalar.subi v248 c1_i32_147
  let v264 : BitVec 32 := Scalar.select v262 v263 v248
  let c1_i32_148 : BitVec 32 := 1#32
  let v265 : BitVec 1 := Scalar.cmpi .eq v264 c1_i32_148
  let v266 : BitVec 32 := Scalar.extui v265
  let c0_i32_149 : BitVec 32 := 0#32
  let v267 : BitVec 1 := Scalar.cmpi .ne v266 c0_i32_149
  v267

@[reducible] def k0_t2_loop : Scf.Loop 32 :=
  let c0_i32_183 : BitVec 32 := 0#32
  let c112_i32 : BitVec 32 := 112#32
  let v316 : BitVec 32 := Scalar.addi c0_i32_183 c112_i32
  let c1_i32_184 : BitVec 32 := 1#32
  ⟨c0_i32_183, v316, c1_i32_184⟩
def k0_off5 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v317 : Index := Scalar.indexCast arg11
  let c0 : Index := 0#32
  ![v317.toNat, 0]
def k0_off6 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v320 : Index := Scalar.indexCast arg11
  let c112 : Index := 112#32
  ![v320.toNat, 112]
def k0_off7 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_187 : BitVec 32 := 112#32
  let v327 : BitVec 32 := Scalar.addi arg11 c112_i32_187
  let v328 : Index := Scalar.indexCast v327
  let c0_188 : Index := 0#32
  ![v328.toNat, 0]
def k0_off8 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_190 : BitVec 32 := 112#32
  let v335 : BitVec 32 := Scalar.addi arg11 c112_i32_190
  let v336 : Index := Scalar.indexCast v335
  let c112_191 : Index := 112#32
  ![v336.toNat, 112]
def k0_off9 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v349 : Index := Scalar.indexCast arg11
  let c16 : Index := 16#32
  ![v349.toNat, 16]
def k0_off10 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v352 : Index := Scalar.indexCast arg11
  let c128 : Index := 128#32
  ![v352.toNat, 128]
def k0_off11 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_197 : BitVec 32 := 112#32
  let v359 : BitVec 32 := Scalar.addi arg11 c112_i32_197
  let v360 : Index := Scalar.indexCast v359
  let c16_198 : Index := 16#32
  ![v360.toNat, 16]
def k0_off12 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_200 : BitVec 32 := 112#32
  let v367 : BitVec 32 := Scalar.addi arg11 c112_i32_200
  let v368 : Index := Scalar.indexCast v367
  let c128_201 : Index := 128#32
  ![v368.toNat, 128]
def k0_off13 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v381 : Index := Scalar.indexCast arg11
  let c32 : Index := 32#32
  ![v381.toNat, 32]
def k0_off14 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v384 : Index := Scalar.indexCast arg11
  let c144 : Index := 144#32
  ![v384.toNat, 144]
def k0_off15 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_207 : BitVec 32 := 112#32
  let v391 : BitVec 32 := Scalar.addi arg11 c112_i32_207
  let v392 : Index := Scalar.indexCast v391
  let c32_208 : Index := 32#32
  ![v392.toNat, 32]
def k0_off16 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_210 : BitVec 32 := 112#32
  let v399 : BitVec 32 := Scalar.addi arg11 c112_i32_210
  let v400 : Index := Scalar.indexCast v399
  let c144_211 : Index := 144#32
  ![v400.toNat, 144]
def k0_off17 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v413 : Index := Scalar.indexCast arg11
  let c48 : Index := 48#32
  ![v413.toNat, 48]
def k0_off18 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v416 : Index := Scalar.indexCast arg11
  let c160 : Index := 160#32
  ![v416.toNat, 160]
def k0_off19 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_217 : BitVec 32 := 112#32
  let v423 : BitVec 32 := Scalar.addi arg11 c112_i32_217
  let v424 : Index := Scalar.indexCast v423
  let c48_218 : Index := 48#32
  ![v424.toNat, 48]
def k0_off20 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_220 : BitVec 32 := 112#32
  let v431 : BitVec 32 := Scalar.addi arg11 c112_i32_220
  let v432 : Index := Scalar.indexCast v431
  let c160_221 : Index := 160#32
  ![v432.toNat, 160]
def k0_off21 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v445 : Index := Scalar.indexCast arg11
  let c64 : Index := 64#32
  ![v445.toNat, 64]
def k0_off22 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v448 : Index := Scalar.indexCast arg11
  let c176 : Index := 176#32
  ![v448.toNat, 176]
def k0_off23 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_227 : BitVec 32 := 112#32
  let v455 : BitVec 32 := Scalar.addi arg11 c112_i32_227
  let v456 : Index := Scalar.indexCast v455
  let c64_228 : Index := 64#32
  ![v456.toNat, 64]
def k0_off24 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_230 : BitVec 32 := 112#32
  let v463 : BitVec 32 := Scalar.addi arg11 c112_i32_230
  let v464 : Index := Scalar.indexCast v463
  let c176_231 : Index := 176#32
  ![v464.toNat, 176]
def k0_off25 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v477 : Index := Scalar.indexCast arg11
  let c80 : Index := 80#32
  ![v477.toNat, 80]
def k0_off26 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v480 : Index := Scalar.indexCast arg11
  let c192 : Index := 192#32
  ![v480.toNat, 192]
def k0_off27 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_237 : BitVec 32 := 112#32
  let v487 : BitVec 32 := Scalar.addi arg11 c112_i32_237
  let v488 : Index := Scalar.indexCast v487
  let c80_238 : Index := 80#32
  ![v488.toNat, 80]
def k0_off28 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_240 : BitVec 32 := 112#32
  let v495 : BitVec 32 := Scalar.addi arg11 c112_i32_240
  let v496 : Index := Scalar.indexCast v495
  let c192_241 : Index := 192#32
  ![v496.toNat, 192]
def k0_off29 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v509 : Index := Scalar.indexCast arg11
  let c96 : Index := 96#32
  ![v509.toNat, 96]
def k0_off30 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let v512 : Index := Scalar.indexCast arg11
  let c208 : Index := 208#32
  ![v512.toNat, 208]
def k0_off31 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_247 : BitVec 32 := 112#32
  let v519 : BitVec 32 := Scalar.addi arg11 c112_i32_247
  let v520 : Index := Scalar.indexCast v519
  let c96_248 : Index := 96#32
  ![v520.toNat, 96]
def k0_off32 (k0_t2 : Fin k0_t2_loop.trips) : Fin 2 → Nat :=
  let c0_i32_183 : BitVec 32 := 0#32
  let c1_i32_184 : BitVec 32 := 1#32
  let arg11 : BitVec 32 := Scf.iv c0_i32_183 c1_i32_184 k0_t2
  let c112_i32_250 : BitVec 32 := 112#32
  let v527 : BitVec 32 := Scalar.addi arg11 c112_i32_250
  let v528 : Index := Scalar.indexCast v527
  let c208_251 : Index := 208#32
  ![v528.toNat, 208]
def k0_cond3 (i : grid0.Coords) (k0_t1 : Fin k0_t1_loop.trips) : BitVec 1 :=
  let c240_i32_108 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c144_i32_102 : BitVec 32 := 144#32
  let c0_i32_103 : BitVec 32 := 0#32
  let v180 : BitVec 1 := Scalar.cmpi .eq c144_i32_102 c0_i32_103
  let c1_i32_104 : BitVec 32 := 1#32
  let v181 : BitVec 32 := Scalar.select v180 c1_i32_104 c144_i32_102
  let v182 : BitVec 32 := Scalar.remsi v178 v181
  let c0_i32_106 : BitVec 32 := 0#32
  let v184 : BitVec 1 := Scalar.cmpi .slt v182 c0_i32_106
  let c0_i32_107 : BitVec 32 := 0#32
  let v185 : BitVec 1 := Scalar.cmpi .slt v181 c0_i32_107
  let v186 : BitVec 1 := Scalar.xori v184 v185
  let c0_i32_105 : BitVec 32 := 0#32
  let v183 : BitVec 1 := Scalar.cmpi .ne v182 c0_i32_105
  let v187 : BitVec 1 := Scalar.andi v186 v183
  let v188 : BitVec 32 := Scalar.addi v182 v181
  let v189 : BitVec 32 := Scalar.select v187 v188 v182
  let v190 : BitVec 32 := Scalar.addi c240_i32_108 v189
  let c192_i32_140 : BitVec 32 := 192#32
  let v247 : BitVec 32 := Scalar.subi v190 c192_i32_140
  let c0_i32_142 : BitVec 32 := 0#32
  let v249 : BitVec 1 := Scalar.cmpi .sgt v247 c0_i32_142
  let v250 : BitVec 32 := Scalar.extui v249
  let c0_i32_143 : BitVec 32 := 0#32
  let v251 : BitVec 1 := Scalar.cmpi .slt v247 c0_i32_143
  let v252 : BitVec 32 := Scalar.extui v251
  let v253 : BitVec 32 := Scalar.subi v250 v252
  let c48_i32_141 : BitVec 32 := 48#32
  let c0_i32_144 : BitVec 32 := 0#32
  let v254 : BitVec 1 := Scalar.cmpi .sgt c48_i32_141 c0_i32_144
  let v255 : BitVec 32 := Scalar.extui v254
  let c0_i32_145 : BitVec 32 := 0#32
  let v256 : BitVec 1 := Scalar.cmpi .slt c48_i32_141 c0_i32_145
  let v257 : BitVec 32 := Scalar.extui v256
  let v258 : BitVec 32 := Scalar.subi v255 v257
  let v259 : BitVec 1 := Scalar.cmpi .ne v253 v258
  let v260 : BitVec 32 := Scalar.remsi v247 c48_i32_141
  let c0_i32_146 : BitVec 32 := 0#32
  let v261 : BitVec 1 := Scalar.cmpi .ne v260 c0_i32_146
  let v262 : BitVec 1 := Scalar.andi v259 v261
  let v248 : BitVec 32 := Scalar.divsi v247 c48_i32_141
  let c1_i32_147 : BitVec 32 := 1#32
  let v263 : BitVec 32 := Scalar.subi v248 c1_i32_147
  let v264 : BitVec 32 := Scalar.select v262 v263 v248
  let c2_i32_150 : BitVec 32 := 2#32
  let v268 : BitVec 1 := Scalar.cmpi .eq v264 c2_i32_150
  let v269 : BitVec 32 := Scalar.extui v268
  let c0_i32_151 : BitVec 32 := 0#32
  let v270 : BitVec 1 := Scalar.cmpi .ne v269 c0_i32_151
  v270

@[reducible] def k0_t3_loop : Scf.Loop 32 :=
  let c0_i32_183 : BitVec 32 := 0#32
  let c112_i32 : BitVec 32 := 112#32
  let v316 : BitVec 32 := Scalar.addi c0_i32_183 c112_i32
  let c1_i32_184 : BitVec 32 := 1#32
  ⟨c0_i32_183, v316, c1_i32_184⟩
def k0_off33 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v317 : Index := Scalar.indexCast arg11
  let c0 : Index := 0#32
  ![v317.toNat, 0]
def k0_off34 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_186 : BitVec 32 := 112#32
  let v320 : BitVec 32 := Scalar.addi arg11 c112_i32_186
  let v321 : Index := Scalar.indexCast v320
  let c0_187 : Index := 0#32
  ![v321.toNat, 0]
def k0_off35 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v333 : Index := Scalar.indexCast arg11
  let c16 : Index := 16#32
  ![v333.toNat, 16]
def k0_off36 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_191 : BitVec 32 := 112#32
  let v336 : BitVec 32 := Scalar.addi arg11 c112_i32_191
  let v337 : Index := Scalar.indexCast v336
  let c16_192 : Index := 16#32
  ![v337.toNat, 16]
def k0_off37 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v349 : Index := Scalar.indexCast arg11
  let c32 : Index := 32#32
  ![v349.toNat, 32]
def k0_off38 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_196 : BitVec 32 := 112#32
  let v352 : BitVec 32 := Scalar.addi arg11 c112_i32_196
  let v353 : Index := Scalar.indexCast v352
  let c32_197 : Index := 32#32
  ![v353.toNat, 32]
def k0_off39 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v365 : Index := Scalar.indexCast arg11
  let c48 : Index := 48#32
  ![v365.toNat, 48]
def k0_off40 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_201 : BitVec 32 := 112#32
  let v368 : BitVec 32 := Scalar.addi arg11 c112_i32_201
  let v369 : Index := Scalar.indexCast v368
  let c48_202 : Index := 48#32
  ![v369.toNat, 48]
def k0_off41 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v381 : Index := Scalar.indexCast arg11
  let c64 : Index := 64#32
  ![v381.toNat, 64]
def k0_off42 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_206 : BitVec 32 := 112#32
  let v384 : BitVec 32 := Scalar.addi arg11 c112_i32_206
  let v385 : Index := Scalar.indexCast v384
  let c64_207 : Index := 64#32
  ![v385.toNat, 64]
def k0_off43 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v397 : Index := Scalar.indexCast arg11
  let c80 : Index := 80#32
  ![v397.toNat, 80]
def k0_off44 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_211 : BitVec 32 := 112#32
  let v400 : BitVec 32 := Scalar.addi arg11 c112_i32_211
  let v401 : Index := Scalar.indexCast v400
  let c80_212 : Index := 80#32
  ![v401.toNat, 80]
def k0_off45 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v413 : Index := Scalar.indexCast arg11
  let c96 : Index := 96#32
  ![v413.toNat, 96]
def k0_off46 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_216 : BitVec 32 := 112#32
  let v416 : BitVec 32 := Scalar.addi arg11 c112_i32_216
  let v417 : Index := Scalar.indexCast v416
  let c96_217 : Index := 96#32
  ![v417.toNat, 96]
def k0_off47 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v429 : Index := Scalar.indexCast arg11
  let c112 : Index := 112#32
  ![v429.toNat, 112]
def k0_off48 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_221 : BitVec 32 := 112#32
  let v432 : BitVec 32 := Scalar.addi arg11 c112_i32_221
  let v433 : Index := Scalar.indexCast v432
  let c112_222 : Index := 112#32
  ![v433.toNat, 112]
def k0_off49 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v445 : Index := Scalar.indexCast arg11
  let c128 : Index := 128#32
  ![v445.toNat, 128]
def k0_off50 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_226 : BitVec 32 := 112#32
  let v448 : BitVec 32 := Scalar.addi arg11 c112_i32_226
  let v449 : Index := Scalar.indexCast v448
  let c128_227 : Index := 128#32
  ![v449.toNat, 128]
def k0_off51 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v461 : Index := Scalar.indexCast arg11
  let c144 : Index := 144#32
  ![v461.toNat, 144]
def k0_off52 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_231 : BitVec 32 := 112#32
  let v464 : BitVec 32 := Scalar.addi arg11 c112_i32_231
  let v465 : Index := Scalar.indexCast v464
  let c144_232 : Index := 144#32
  ![v465.toNat, 144]
def k0_off53 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v477 : Index := Scalar.indexCast arg11
  let c160 : Index := 160#32
  ![v477.toNat, 160]
def k0_off54 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_236 : BitVec 32 := 112#32
  let v480 : BitVec 32 := Scalar.addi arg11 c112_i32_236
  let v481 : Index := Scalar.indexCast v480
  let c160_237 : Index := 160#32
  ![v481.toNat, 160]
def k0_off55 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v493 : Index := Scalar.indexCast arg11
  let c176 : Index := 176#32
  ![v493.toNat, 176]
def k0_off56 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_241 : BitVec 32 := 112#32
  let v496 : BitVec 32 := Scalar.addi arg11 c112_i32_241
  let v497 : Index := Scalar.indexCast v496
  let c176_242 : Index := 176#32
  ![v497.toNat, 176]
def k0_off57 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v509 : Index := Scalar.indexCast arg11
  let c192 : Index := 192#32
  ![v509.toNat, 192]
def k0_off58 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_246 : BitVec 32 := 112#32
  let v512 : BitVec 32 := Scalar.addi arg11 c112_i32_246
  let v513 : Index := Scalar.indexCast v512
  let c192_247 : Index := 192#32
  ![v513.toNat, 192]
def k0_off59 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let v525 : Index := Scalar.indexCast arg11
  let c208 : Index := 208#32
  ![v525.toNat, 208]
def k0_off60 (k0_t3 : Fin k0_t3_loop.trips) : Fin 2 → Nat :=
  let c0_i32_183 : BitVec 32 := 0#32
  let c1_i32_184 : BitVec 32 := 1#32
  let arg11 : BitVec 32 := Scf.iv c0_i32_183 c1_i32_184 k0_t3
  let c112_i32_251 : BitVec 32 := 112#32
  let v528 : BitVec 32 := Scalar.addi arg11 c112_i32_251
  let v529 : Index := Scalar.indexCast v528
  let c208_252 : Index := 208#32
  ![v529.toNat, 208]
def k0_cond4 (i : grid0.Coords) (k0_t1 : Fin k0_t1_loop.trips) : BitVec 1 :=
  let c240_i32_108 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c144_i32_102 : BitVec 32 := 144#32
  let c0_i32_103 : BitVec 32 := 0#32
  let v180 : BitVec 1 := Scalar.cmpi .eq c144_i32_102 c0_i32_103
  let c1_i32_104 : BitVec 32 := 1#32
  let v181 : BitVec 32 := Scalar.select v180 c1_i32_104 c144_i32_102
  let v182 : BitVec 32 := Scalar.remsi v178 v181
  let c0_i32_106 : BitVec 32 := 0#32
  let v184 : BitVec 1 := Scalar.cmpi .slt v182 c0_i32_106
  let c0_i32_107 : BitVec 32 := 0#32
  let v185 : BitVec 1 := Scalar.cmpi .slt v181 c0_i32_107
  let v186 : BitVec 1 := Scalar.xori v184 v185
  let c0_i32_105 : BitVec 32 := 0#32
  let v183 : BitVec 1 := Scalar.cmpi .ne v182 c0_i32_105
  let v187 : BitVec 1 := Scalar.andi v186 v183
  let v188 : BitVec 32 := Scalar.addi v182 v181
  let v189 : BitVec 32 := Scalar.select v187 v188 v182
  let v190 : BitVec 32 := Scalar.addi c240_i32_108 v189
  let c192_i32_140 : BitVec 32 := 192#32
  let v247 : BitVec 32 := Scalar.subi v190 c192_i32_140
  let c0_i32_142 : BitVec 32 := 0#32
  let v249 : BitVec 1 := Scalar.cmpi .sgt v247 c0_i32_142
  let v250 : BitVec 32 := Scalar.extui v249
  let c0_i32_143 : BitVec 32 := 0#32
  let v251 : BitVec 1 := Scalar.cmpi .slt v247 c0_i32_143
  let v252 : BitVec 32 := Scalar.extui v251
  let v253 : BitVec 32 := Scalar.subi v250 v252
  let c48_i32_141 : BitVec 32 := 48#32
  let c0_i32_144 : BitVec 32 := 0#32
  let v254 : BitVec 1 := Scalar.cmpi .sgt c48_i32_141 c0_i32_144
  let v255 : BitVec 32 := Scalar.extui v254
  let c0_i32_145 : BitVec 32 := 0#32
  let v256 : BitVec 1 := Scalar.cmpi .slt c48_i32_141 c0_i32_145
  let v257 : BitVec 32 := Scalar.extui v256
  let v258 : BitVec 32 := Scalar.subi v255 v257
  let v259 : BitVec 1 := Scalar.cmpi .ne v253 v258
  let v260 : BitVec 32 := Scalar.remsi v247 c48_i32_141
  let c0_i32_146 : BitVec 32 := 0#32
  let v261 : BitVec 1 := Scalar.cmpi .ne v260 c0_i32_146
  let v262 : BitVec 1 := Scalar.andi v259 v261
  let v248 : BitVec 32 := Scalar.divsi v247 c48_i32_141
  let c1_i32_147 : BitVec 32 := 1#32
  let v263 : BitVec 32 := Scalar.subi v248 c1_i32_147
  let v264 : BitVec 32 := Scalar.select v262 v263 v248
  let c3_i32_152 : BitVec 32 := 3#32
  let v271 : BitVec 1 := Scalar.cmpi .eq v264 c3_i32_152
  let v272 : BitVec 32 := Scalar.extui v271
  let c0_i32_153 : BitVec 32 := 0#32
  let v273 : BitVec 1 := Scalar.cmpi .ne v272 c0_i32_153
  v273

@[reducible] def k0_t4_loop : Scf.Loop 32 :=
  let c0_i32_183 : BitVec 32 := 0#32
  let c112_i32 : BitVec 32 := 112#32
  let v316 : BitVec 32 := Scalar.addi c0_i32_183 c112_i32
  let c1_i32_184 : BitVec 32 := 1#32
  ⟨c0_i32_183, v316, c1_i32_184⟩
def k0_off61 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v317 : Index := Scalar.indexCast arg11
  let c0 : Index := 0#32
  ![v317.toNat, 0]
def k0_off62 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_186 : BitVec 32 := 112#32
  let v320 : BitVec 32 := Scalar.addi arg11 c112_i32_186
  let v321 : Index := Scalar.indexCast v320
  let c112 : Index := 112#32
  ![v321.toNat, 112]
def k0_off63 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_188 : BitVec 32 := 112#32
  let v328 : BitVec 32 := Scalar.addi arg11 c112_i32_188
  let v329 : Index := Scalar.indexCast v328
  let c0_189 : Index := 0#32
  ![v329.toNat, 0]
def k0_off64 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v337 : Index := Scalar.indexCast arg11
  let c112_192 : Index := 112#32
  ![v337.toNat, 112]
def k0_off65 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v349 : Index := Scalar.indexCast arg11
  let c16 : Index := 16#32
  ![v349.toNat, 16]
def k0_off66 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_196 : BitVec 32 := 112#32
  let v352 : BitVec 32 := Scalar.addi arg11 c112_i32_196
  let v353 : Index := Scalar.indexCast v352
  let c128 : Index := 128#32
  ![v353.toNat, 128]
def k0_off67 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_198 : BitVec 32 := 112#32
  let v360 : BitVec 32 := Scalar.addi arg11 c112_i32_198
  let v361 : Index := Scalar.indexCast v360
  let c16_199 : Index := 16#32
  ![v361.toNat, 16]
def k0_off68 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v369 : Index := Scalar.indexCast arg11
  let c128_202 : Index := 128#32
  ![v369.toNat, 128]
def k0_off69 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v381 : Index := Scalar.indexCast arg11
  let c32 : Index := 32#32
  ![v381.toNat, 32]
def k0_off70 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_206 : BitVec 32 := 112#32
  let v384 : BitVec 32 := Scalar.addi arg11 c112_i32_206
  let v385 : Index := Scalar.indexCast v384
  let c144 : Index := 144#32
  ![v385.toNat, 144]
def k0_off71 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_208 : BitVec 32 := 112#32
  let v392 : BitVec 32 := Scalar.addi arg11 c112_i32_208
  let v393 : Index := Scalar.indexCast v392
  let c32_209 : Index := 32#32
  ![v393.toNat, 32]
def k0_off72 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v401 : Index := Scalar.indexCast arg11
  let c144_212 : Index := 144#32
  ![v401.toNat, 144]
def k0_off73 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v413 : Index := Scalar.indexCast arg11
  let c48 : Index := 48#32
  ![v413.toNat, 48]
def k0_off74 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_216 : BitVec 32 := 112#32
  let v416 : BitVec 32 := Scalar.addi arg11 c112_i32_216
  let v417 : Index := Scalar.indexCast v416
  let c160 : Index := 160#32
  ![v417.toNat, 160]
def k0_off75 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_218 : BitVec 32 := 112#32
  let v424 : BitVec 32 := Scalar.addi arg11 c112_i32_218
  let v425 : Index := Scalar.indexCast v424
  let c48_219 : Index := 48#32
  ![v425.toNat, 48]
def k0_off76 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v433 : Index := Scalar.indexCast arg11
  let c160_222 : Index := 160#32
  ![v433.toNat, 160]
def k0_off77 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v445 : Index := Scalar.indexCast arg11
  let c64 : Index := 64#32
  ![v445.toNat, 64]
def k0_off78 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_226 : BitVec 32 := 112#32
  let v448 : BitVec 32 := Scalar.addi arg11 c112_i32_226
  let v449 : Index := Scalar.indexCast v448
  let c176 : Index := 176#32
  ![v449.toNat, 176]
def k0_off79 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_228 : BitVec 32 := 112#32
  let v456 : BitVec 32 := Scalar.addi arg11 c112_i32_228
  let v457 : Index := Scalar.indexCast v456
  let c64_229 : Index := 64#32
  ![v457.toNat, 64]
def k0_off80 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v465 : Index := Scalar.indexCast arg11
  let c176_232 : Index := 176#32
  ![v465.toNat, 176]
def k0_off81 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v477 : Index := Scalar.indexCast arg11
  let c80 : Index := 80#32
  ![v477.toNat, 80]
def k0_off82 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_236 : BitVec 32 := 112#32
  let v480 : BitVec 32 := Scalar.addi arg11 c112_i32_236
  let v481 : Index := Scalar.indexCast v480
  let c192 : Index := 192#32
  ![v481.toNat, 192]
def k0_off83 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_238 : BitVec 32 := 112#32
  let v488 : BitVec 32 := Scalar.addi arg11 c112_i32_238
  let v489 : Index := Scalar.indexCast v488
  let c80_239 : Index := 80#32
  ![v489.toNat, 80]
def k0_off84 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v497 : Index := Scalar.indexCast arg11
  let c192_242 : Index := 192#32
  ![v497.toNat, 192]
def k0_off85 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v509 : Index := Scalar.indexCast arg11
  let c96 : Index := 96#32
  ![v509.toNat, 96]
def k0_off86 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_246 : BitVec 32 := 112#32
  let v512 : BitVec 32 := Scalar.addi arg11 c112_i32_246
  let v513 : Index := Scalar.indexCast v512
  let c208 : Index := 208#32
  ![v513.toNat, 208]
def k0_off87 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let c112_i32_248 : BitVec 32 := 112#32
  let v520 : BitVec 32 := Scalar.addi arg11 c112_i32_248
  let v521 : Index := Scalar.indexCast v520
  let c96_249 : Index := 96#32
  ![v521.toNat, 96]
def k0_off88 (k0_t4 : Fin k0_t4_loop.trips) : Fin 2 → Nat :=
  let c0_i32_183 : BitVec 32 := 0#32
  let c1_i32_184 : BitVec 32 := 1#32
  let arg11 : BitVec 32 := Scf.iv c0_i32_183 c1_i32_184 k0_t4
  let v529 : Index := Scalar.indexCast arg11
  let c208_252 : Index := 208#32
  ![v529.toNat, 208]
def k0_cond5 (i : grid0.Coords) (k0_t1 : Fin k0_t1_loop.trips) : BitVec 1 :=
  let c240_i32_122 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c1_i32_101 : BitVec 32 := 1#32
  let v179 : BitVec 32 := Scalar.addi v178 c1_i32_101
  let c144_i32_116 : BitVec 32 := 144#32
  let c0_i32_117 : BitVec 32 := 0#32
  let v208 : BitVec 1 := Scalar.cmpi .eq c144_i32_116 c0_i32_117
  let c1_i32_118 : BitVec 32 := 1#32
  let v209 : BitVec 32 := Scalar.select v208 c1_i32_118 c144_i32_116
  let v210 : BitVec 32 := Scalar.remsi v179 v209
  let c0_i32_120 : BitVec 32 := 0#32
  let v212 : BitVec 1 := Scalar.cmpi .slt v210 c0_i32_120
  let c0_i32_121 : BitVec 32 := 0#32
  let v213 : BitVec 1 := Scalar.cmpi .slt v209 c0_i32_121
  let v214 : BitVec 1 := Scalar.xori v212 v213
  let c0_i32_119 : BitVec 32 := 0#32
  let v211 : BitVec 1 := Scalar.cmpi .ne v210 c0_i32_119
  let v215 : BitVec 1 := Scalar.andi v214 v211
  let v216 : BitVec 32 := Scalar.addi v210 v209
  let v217 : BitVec 32 := Scalar.select v215 v216 v210
  let v218 : BitVec 32 := Scalar.addi c240_i32_122 v217
  let c192_i32_162 : BitVec 32 := 192#32
  let v282 : BitVec 32 := Scalar.subi v218 c192_i32_162
  let c0_i32_164 : BitVec 32 := 0#32
  let v284 : BitVec 1 := Scalar.cmpi .sgt v282 c0_i32_164
  let v285 : BitVec 32 := Scalar.extui v284
  let c0_i32_165 : BitVec 32 := 0#32
  let v286 : BitVec 1 := Scalar.cmpi .slt v282 c0_i32_165
  let v287 : BitVec 32 := Scalar.extui v286
  let v288 : BitVec 32 := Scalar.subi v285 v287
  let c48_i32_163 : BitVec 32 := 48#32
  let c0_i32_166 : BitVec 32 := 0#32
  let v289 : BitVec 1 := Scalar.cmpi .sgt c48_i32_163 c0_i32_166
  let v290 : BitVec 32 := Scalar.extui v289
  let c0_i32_167 : BitVec 32 := 0#32
  let v291 : BitVec 1 := Scalar.cmpi .slt c48_i32_163 c0_i32_167
  let v292 : BitVec 32 := Scalar.extui v291
  let v293 : BitVec 32 := Scalar.subi v290 v292
  let v294 : BitVec 1 := Scalar.cmpi .ne v288 v293
  let v295 : BitVec 32 := Scalar.remsi v282 c48_i32_163
  let c0_i32_168 : BitVec 32 := 0#32
  let v296 : BitVec 1 := Scalar.cmpi .ne v295 c0_i32_168
  let v297 : BitVec 1 := Scalar.andi v294 v296
  let v283 : BitVec 32 := Scalar.divsi v282 c48_i32_163
  let c1_i32_169 : BitVec 32 := 1#32
  let v298 : BitVec 32 := Scalar.subi v283 c1_i32_169
  let v299 : BitVec 32 := Scalar.select v297 v298 v283
  let c1_i32_170 : BitVec 32 := 1#32
  let v300 : BitVec 1 := Scalar.cmpi .eq v299 c1_i32_170
  let v301 : BitVec 32 := Scalar.extui v300
  let c0_i32_171 : BitVec 32 := 0#32
  let v302 : BitVec 1 := Scalar.cmpi .ne v301 c0_i32_171
  v302

@[reducible] def k0_t5_loop : Scf.Loop 32 :=
  let c0_i32_183 : BitVec 32 := 0#32
  let c112_i32 : BitVec 32 := 112#32
  let v316 : BitVec 32 := Scalar.addi c0_i32_183 c112_i32
  let c1_i32_184 : BitVec 32 := 1#32
  ⟨c0_i32_183, v316, c1_i32_184⟩
def k0_off89 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v317 : Index := Scalar.indexCast arg11
  let c0 : Index := 0#32
  ![v317.toNat, 0]
def k0_off90 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v320 : Index := Scalar.indexCast arg11
  let c112 : Index := 112#32
  ![v320.toNat, 112]
def k0_off91 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_187 : BitVec 32 := 112#32
  let v327 : BitVec 32 := Scalar.addi arg11 c112_i32_187
  let v328 : Index := Scalar.indexCast v327
  let c0_188 : Index := 0#32
  ![v328.toNat, 0]
def k0_off92 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_190 : BitVec 32 := 112#32
  let v335 : BitVec 32 := Scalar.addi arg11 c112_i32_190
  let v336 : Index := Scalar.indexCast v335
  let c112_191 : Index := 112#32
  ![v336.toNat, 112]
def k0_off93 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v349 : Index := Scalar.indexCast arg11
  let c16 : Index := 16#32
  ![v349.toNat, 16]
def k0_off94 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v352 : Index := Scalar.indexCast arg11
  let c128 : Index := 128#32
  ![v352.toNat, 128]
def k0_off95 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_197 : BitVec 32 := 112#32
  let v359 : BitVec 32 := Scalar.addi arg11 c112_i32_197
  let v360 : Index := Scalar.indexCast v359
  let c16_198 : Index := 16#32
  ![v360.toNat, 16]
def k0_off96 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_200 : BitVec 32 := 112#32
  let v367 : BitVec 32 := Scalar.addi arg11 c112_i32_200
  let v368 : Index := Scalar.indexCast v367
  let c128_201 : Index := 128#32
  ![v368.toNat, 128]
def k0_off97 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v381 : Index := Scalar.indexCast arg11
  let c32 : Index := 32#32
  ![v381.toNat, 32]
def k0_off98 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v384 : Index := Scalar.indexCast arg11
  let c144 : Index := 144#32
  ![v384.toNat, 144]
def k0_off99 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_207 : BitVec 32 := 112#32
  let v391 : BitVec 32 := Scalar.addi arg11 c112_i32_207
  let v392 : Index := Scalar.indexCast v391
  let c32_208 : Index := 32#32
  ![v392.toNat, 32]
def k0_off100 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_210 : BitVec 32 := 112#32
  let v399 : BitVec 32 := Scalar.addi arg11 c112_i32_210
  let v400 : Index := Scalar.indexCast v399
  let c144_211 : Index := 144#32
  ![v400.toNat, 144]
def k0_off101 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v413 : Index := Scalar.indexCast arg11
  let c48 : Index := 48#32
  ![v413.toNat, 48]
def k0_off102 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v416 : Index := Scalar.indexCast arg11
  let c160 : Index := 160#32
  ![v416.toNat, 160]
def k0_off103 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_217 : BitVec 32 := 112#32
  let v423 : BitVec 32 := Scalar.addi arg11 c112_i32_217
  let v424 : Index := Scalar.indexCast v423
  let c48_218 : Index := 48#32
  ![v424.toNat, 48]
def k0_off104 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_220 : BitVec 32 := 112#32
  let v431 : BitVec 32 := Scalar.addi arg11 c112_i32_220
  let v432 : Index := Scalar.indexCast v431
  let c160_221 : Index := 160#32
  ![v432.toNat, 160]
def k0_off105 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v445 : Index := Scalar.indexCast arg11
  let c64 : Index := 64#32
  ![v445.toNat, 64]
def k0_off106 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v448 : Index := Scalar.indexCast arg11
  let c176 : Index := 176#32
  ![v448.toNat, 176]
def k0_off107 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_227 : BitVec 32 := 112#32
  let v455 : BitVec 32 := Scalar.addi arg11 c112_i32_227
  let v456 : Index := Scalar.indexCast v455
  let c64_228 : Index := 64#32
  ![v456.toNat, 64]
def k0_off108 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_230 : BitVec 32 := 112#32
  let v463 : BitVec 32 := Scalar.addi arg11 c112_i32_230
  let v464 : Index := Scalar.indexCast v463
  let c176_231 : Index := 176#32
  ![v464.toNat, 176]
def k0_off109 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v477 : Index := Scalar.indexCast arg11
  let c80 : Index := 80#32
  ![v477.toNat, 80]
def k0_off110 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v480 : Index := Scalar.indexCast arg11
  let c192 : Index := 192#32
  ![v480.toNat, 192]
def k0_off111 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_237 : BitVec 32 := 112#32
  let v487 : BitVec 32 := Scalar.addi arg11 c112_i32_237
  let v488 : Index := Scalar.indexCast v487
  let c80_238 : Index := 80#32
  ![v488.toNat, 80]
def k0_off112 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_240 : BitVec 32 := 112#32
  let v495 : BitVec 32 := Scalar.addi arg11 c112_i32_240
  let v496 : Index := Scalar.indexCast v495
  let c192_241 : Index := 192#32
  ![v496.toNat, 192]
def k0_off113 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v509 : Index := Scalar.indexCast arg11
  let c96 : Index := 96#32
  ![v509.toNat, 96]
def k0_off114 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let v512 : Index := Scalar.indexCast arg11
  let c208 : Index := 208#32
  ![v512.toNat, 208]
def k0_off115 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_247 : BitVec 32 := 112#32
  let v519 : BitVec 32 := Scalar.addi arg11 c112_i32_247
  let v520 : Index := Scalar.indexCast v519
  let c96_248 : Index := 96#32
  ![v520.toNat, 96]
def k0_off116 (k0_t5 : Fin k0_t5_loop.trips) : Fin 2 → Nat :=
  let c0_i32_183 : BitVec 32 := 0#32
  let c1_i32_184 : BitVec 32 := 1#32
  let arg11 : BitVec 32 := Scf.iv c0_i32_183 c1_i32_184 k0_t5
  let c112_i32_250 : BitVec 32 := 112#32
  let v527 : BitVec 32 := Scalar.addi arg11 c112_i32_250
  let v528 : Index := Scalar.indexCast v527
  let c208_251 : Index := 208#32
  ![v528.toNat, 208]
def k0_cond6 (i : grid0.Coords) (k0_t1 : Fin k0_t1_loop.trips) : BitVec 1 :=
  let c240_i32_122 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c1_i32_101 : BitVec 32 := 1#32
  let v179 : BitVec 32 := Scalar.addi v178 c1_i32_101
  let c144_i32_116 : BitVec 32 := 144#32
  let c0_i32_117 : BitVec 32 := 0#32
  let v208 : BitVec 1 := Scalar.cmpi .eq c144_i32_116 c0_i32_117
  let c1_i32_118 : BitVec 32 := 1#32
  let v209 : BitVec 32 := Scalar.select v208 c1_i32_118 c144_i32_116
  let v210 : BitVec 32 := Scalar.remsi v179 v209
  let c0_i32_120 : BitVec 32 := 0#32
  let v212 : BitVec 1 := Scalar.cmpi .slt v210 c0_i32_120
  let c0_i32_121 : BitVec 32 := 0#32
  let v213 : BitVec 1 := Scalar.cmpi .slt v209 c0_i32_121
  let v214 : BitVec 1 := Scalar.xori v212 v213
  let c0_i32_119 : BitVec 32 := 0#32
  let v211 : BitVec 1 := Scalar.cmpi .ne v210 c0_i32_119
  let v215 : BitVec 1 := Scalar.andi v214 v211
  let v216 : BitVec 32 := Scalar.addi v210 v209
  let v217 : BitVec 32 := Scalar.select v215 v216 v210
  let v218 : BitVec 32 := Scalar.addi c240_i32_122 v217
  let c192_i32_162 : BitVec 32 := 192#32
  let v282 : BitVec 32 := Scalar.subi v218 c192_i32_162
  let c0_i32_164 : BitVec 32 := 0#32
  let v284 : BitVec 1 := Scalar.cmpi .sgt v282 c0_i32_164
  let v285 : BitVec 32 := Scalar.extui v284
  let c0_i32_165 : BitVec 32 := 0#32
  let v286 : BitVec 1 := Scalar.cmpi .slt v282 c0_i32_165
  let v287 : BitVec 32 := Scalar.extui v286
  let v288 : BitVec 32 := Scalar.subi v285 v287
  let c48_i32_163 : BitVec 32 := 48#32
  let c0_i32_166 : BitVec 32 := 0#32
  let v289 : BitVec 1 := Scalar.cmpi .sgt c48_i32_163 c0_i32_166
  let v290 : BitVec 32 := Scalar.extui v289
  let c0_i32_167 : BitVec 32 := 0#32
  let v291 : BitVec 1 := Scalar.cmpi .slt c48_i32_163 c0_i32_167
  let v292 : BitVec 32 := Scalar.extui v291
  let v293 : BitVec 32 := Scalar.subi v290 v292
  let v294 : BitVec 1 := Scalar.cmpi .ne v288 v293
  let v295 : BitVec 32 := Scalar.remsi v282 c48_i32_163
  let c0_i32_168 : BitVec 32 := 0#32
  let v296 : BitVec 1 := Scalar.cmpi .ne v295 c0_i32_168
  let v297 : BitVec 1 := Scalar.andi v294 v296
  let v283 : BitVec 32 := Scalar.divsi v282 c48_i32_163
  let c1_i32_169 : BitVec 32 := 1#32
  let v298 : BitVec 32 := Scalar.subi v283 c1_i32_169
  let v299 : BitVec 32 := Scalar.select v297 v298 v283
  let c2_i32_172 : BitVec 32 := 2#32
  let v303 : BitVec 1 := Scalar.cmpi .eq v299 c2_i32_172
  let v304 : BitVec 32 := Scalar.extui v303
  let c0_i32_173 : BitVec 32 := 0#32
  let v305 : BitVec 1 := Scalar.cmpi .ne v304 c0_i32_173
  v305

@[reducible] def k0_t6_loop : Scf.Loop 32 :=
  let c0_i32_183 : BitVec 32 := 0#32
  let c112_i32 : BitVec 32 := 112#32
  let v316 : BitVec 32 := Scalar.addi c0_i32_183 c112_i32
  let c1_i32_184 : BitVec 32 := 1#32
  ⟨c0_i32_183, v316, c1_i32_184⟩
def k0_off117 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v317 : Index := Scalar.indexCast arg11
  let c0 : Index := 0#32
  ![v317.toNat, 0]
def k0_off118 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_186 : BitVec 32 := 112#32
  let v320 : BitVec 32 := Scalar.addi arg11 c112_i32_186
  let v321 : Index := Scalar.indexCast v320
  let c0_187 : Index := 0#32
  ![v321.toNat, 0]
def k0_off119 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v333 : Index := Scalar.indexCast arg11
  let c16 : Index := 16#32
  ![v333.toNat, 16]
def k0_off120 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_191 : BitVec 32 := 112#32
  let v336 : BitVec 32 := Scalar.addi arg11 c112_i32_191
  let v337 : Index := Scalar.indexCast v336
  let c16_192 : Index := 16#32
  ![v337.toNat, 16]
def k0_off121 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v349 : Index := Scalar.indexCast arg11
  let c32 : Index := 32#32
  ![v349.toNat, 32]
def k0_off122 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_196 : BitVec 32 := 112#32
  let v352 : BitVec 32 := Scalar.addi arg11 c112_i32_196
  let v353 : Index := Scalar.indexCast v352
  let c32_197 : Index := 32#32
  ![v353.toNat, 32]
def k0_off123 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v365 : Index := Scalar.indexCast arg11
  let c48 : Index := 48#32
  ![v365.toNat, 48]
def k0_off124 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_201 : BitVec 32 := 112#32
  let v368 : BitVec 32 := Scalar.addi arg11 c112_i32_201
  let v369 : Index := Scalar.indexCast v368
  let c48_202 : Index := 48#32
  ![v369.toNat, 48]
def k0_off125 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v381 : Index := Scalar.indexCast arg11
  let c64 : Index := 64#32
  ![v381.toNat, 64]
def k0_off126 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_206 : BitVec 32 := 112#32
  let v384 : BitVec 32 := Scalar.addi arg11 c112_i32_206
  let v385 : Index := Scalar.indexCast v384
  let c64_207 : Index := 64#32
  ![v385.toNat, 64]
def k0_off127 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v397 : Index := Scalar.indexCast arg11
  let c80 : Index := 80#32
  ![v397.toNat, 80]
def k0_off128 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_211 : BitVec 32 := 112#32
  let v400 : BitVec 32 := Scalar.addi arg11 c112_i32_211
  let v401 : Index := Scalar.indexCast v400
  let c80_212 : Index := 80#32
  ![v401.toNat, 80]
def k0_off129 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v413 : Index := Scalar.indexCast arg11
  let c96 : Index := 96#32
  ![v413.toNat, 96]
def k0_off130 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_216 : BitVec 32 := 112#32
  let v416 : BitVec 32 := Scalar.addi arg11 c112_i32_216
  let v417 : Index := Scalar.indexCast v416
  let c96_217 : Index := 96#32
  ![v417.toNat, 96]
def k0_off131 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v429 : Index := Scalar.indexCast arg11
  let c112 : Index := 112#32
  ![v429.toNat, 112]
def k0_off132 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_221 : BitVec 32 := 112#32
  let v432 : BitVec 32 := Scalar.addi arg11 c112_i32_221
  let v433 : Index := Scalar.indexCast v432
  let c112_222 : Index := 112#32
  ![v433.toNat, 112]
def k0_off133 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v445 : Index := Scalar.indexCast arg11
  let c128 : Index := 128#32
  ![v445.toNat, 128]
def k0_off134 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_226 : BitVec 32 := 112#32
  let v448 : BitVec 32 := Scalar.addi arg11 c112_i32_226
  let v449 : Index := Scalar.indexCast v448
  let c128_227 : Index := 128#32
  ![v449.toNat, 128]
def k0_off135 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v461 : Index := Scalar.indexCast arg11
  let c144 : Index := 144#32
  ![v461.toNat, 144]
def k0_off136 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_231 : BitVec 32 := 112#32
  let v464 : BitVec 32 := Scalar.addi arg11 c112_i32_231
  let v465 : Index := Scalar.indexCast v464
  let c144_232 : Index := 144#32
  ![v465.toNat, 144]
def k0_off137 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v477 : Index := Scalar.indexCast arg11
  let c160 : Index := 160#32
  ![v477.toNat, 160]
def k0_off138 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_236 : BitVec 32 := 112#32
  let v480 : BitVec 32 := Scalar.addi arg11 c112_i32_236
  let v481 : Index := Scalar.indexCast v480
  let c160_237 : Index := 160#32
  ![v481.toNat, 160]
def k0_off139 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v493 : Index := Scalar.indexCast arg11
  let c176 : Index := 176#32
  ![v493.toNat, 176]
def k0_off140 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_241 : BitVec 32 := 112#32
  let v496 : BitVec 32 := Scalar.addi arg11 c112_i32_241
  let v497 : Index := Scalar.indexCast v496
  let c176_242 : Index := 176#32
  ![v497.toNat, 176]
def k0_off141 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v509 : Index := Scalar.indexCast arg11
  let c192 : Index := 192#32
  ![v509.toNat, 192]
def k0_off142 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_246 : BitVec 32 := 112#32
  let v512 : BitVec 32 := Scalar.addi arg11 c112_i32_246
  let v513 : Index := Scalar.indexCast v512
  let c192_247 : Index := 192#32
  ![v513.toNat, 192]
def k0_off143 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let v525 : Index := Scalar.indexCast arg11
  let c208 : Index := 208#32
  ![v525.toNat, 208]
def k0_off144 (k0_t6 : Fin k0_t6_loop.trips) : Fin 2 → Nat :=
  let c0_i32_183 : BitVec 32 := 0#32
  let c1_i32_184 : BitVec 32 := 1#32
  let arg11 : BitVec 32 := Scf.iv c0_i32_183 c1_i32_184 k0_t6
  let c112_i32_251 : BitVec 32 := 112#32
  let v528 : BitVec 32 := Scalar.addi arg11 c112_i32_251
  let v529 : Index := Scalar.indexCast v528
  let c208_252 : Index := 208#32
  ![v529.toNat, 208]
def k0_cond7 (i : grid0.Coords) (k0_t1 : Fin k0_t1_loop.trips) : BitVec 1 :=
  let c240_i32_122 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c1_i32_101 : BitVec 32 := 1#32
  let v179 : BitVec 32 := Scalar.addi v178 c1_i32_101
  let c144_i32_116 : BitVec 32 := 144#32
  let c0_i32_117 : BitVec 32 := 0#32
  let v208 : BitVec 1 := Scalar.cmpi .eq c144_i32_116 c0_i32_117
  let c1_i32_118 : BitVec 32 := 1#32
  let v209 : BitVec 32 := Scalar.select v208 c1_i32_118 c144_i32_116
  let v210 : BitVec 32 := Scalar.remsi v179 v209
  let c0_i32_120 : BitVec 32 := 0#32
  let v212 : BitVec 1 := Scalar.cmpi .slt v210 c0_i32_120
  let c0_i32_121 : BitVec 32 := 0#32
  let v213 : BitVec 1 := Scalar.cmpi .slt v209 c0_i32_121
  let v214 : BitVec 1 := Scalar.xori v212 v213
  let c0_i32_119 : BitVec 32 := 0#32
  let v211 : BitVec 1 := Scalar.cmpi .ne v210 c0_i32_119
  let v215 : BitVec 1 := Scalar.andi v214 v211
  let v216 : BitVec 32 := Scalar.addi v210 v209
  let v217 : BitVec 32 := Scalar.select v215 v216 v210
  let v218 : BitVec 32 := Scalar.addi c240_i32_122 v217
  let c192_i32_162 : BitVec 32 := 192#32
  let v282 : BitVec 32 := Scalar.subi v218 c192_i32_162
  let c0_i32_164 : BitVec 32 := 0#32
  let v284 : BitVec 1 := Scalar.cmpi .sgt v282 c0_i32_164
  let v285 : BitVec 32 := Scalar.extui v284
  let c0_i32_165 : BitVec 32 := 0#32
  let v286 : BitVec 1 := Scalar.cmpi .slt v282 c0_i32_165
  let v287 : BitVec 32 := Scalar.extui v286
  let v288 : BitVec 32 := Scalar.subi v285 v287
  let c48_i32_163 : BitVec 32 := 48#32
  let c0_i32_166 : BitVec 32 := 0#32
  let v289 : BitVec 1 := Scalar.cmpi .sgt c48_i32_163 c0_i32_166
  let v290 : BitVec 32 := Scalar.extui v289
  let c0_i32_167 : BitVec 32 := 0#32
  let v291 : BitVec 1 := Scalar.cmpi .slt c48_i32_163 c0_i32_167
  let v292 : BitVec 32 := Scalar.extui v291
  let v293 : BitVec 32 := Scalar.subi v290 v292
  let v294 : BitVec 1 := Scalar.cmpi .ne v288 v293
  let v295 : BitVec 32 := Scalar.remsi v282 c48_i32_163
  let c0_i32_168 : BitVec 32 := 0#32
  let v296 : BitVec 1 := Scalar.cmpi .ne v295 c0_i32_168
  let v297 : BitVec 1 := Scalar.andi v294 v296
  let v283 : BitVec 32 := Scalar.divsi v282 c48_i32_163
  let c1_i32_169 : BitVec 32 := 1#32
  let v298 : BitVec 32 := Scalar.subi v283 c1_i32_169
  let v299 : BitVec 32 := Scalar.select v297 v298 v283
  let c3_i32_174 : BitVec 32 := 3#32
  let v306 : BitVec 1 := Scalar.cmpi .eq v299 c3_i32_174
  let v307 : BitVec 32 := Scalar.extui v306
  let c0_i32_175 : BitVec 32 := 0#32
  let v308 : BitVec 1 := Scalar.cmpi .ne v307 c0_i32_175
  v308

@[reducible] def k0_t7_loop : Scf.Loop 32 :=
  let c0_i32_183 : BitVec 32 := 0#32
  let c112_i32 : BitVec 32 := 112#32
  let v316 : BitVec 32 := Scalar.addi c0_i32_183 c112_i32
  let c1_i32_184 : BitVec 32 := 1#32
  ⟨c0_i32_183, v316, c1_i32_184⟩
def k0_off145 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v317 : Index := Scalar.indexCast arg11
  let c0 : Index := 0#32
  ![v317.toNat, 0]
def k0_off146 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_186 : BitVec 32 := 112#32
  let v320 : BitVec 32 := Scalar.addi arg11 c112_i32_186
  let v321 : Index := Scalar.indexCast v320
  let c112 : Index := 112#32
  ![v321.toNat, 112]
def k0_off147 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_188 : BitVec 32 := 112#32
  let v328 : BitVec 32 := Scalar.addi arg11 c112_i32_188
  let v329 : Index := Scalar.indexCast v328
  let c0_189 : Index := 0#32
  ![v329.toNat, 0]
def k0_off148 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v337 : Index := Scalar.indexCast arg11
  let c112_192 : Index := 112#32
  ![v337.toNat, 112]
def k0_off149 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v349 : Index := Scalar.indexCast arg11
  let c16 : Index := 16#32
  ![v349.toNat, 16]
def k0_off150 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_196 : BitVec 32 := 112#32
  let v352 : BitVec 32 := Scalar.addi arg11 c112_i32_196
  let v353 : Index := Scalar.indexCast v352
  let c128 : Index := 128#32
  ![v353.toNat, 128]
def k0_off151 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_198 : BitVec 32 := 112#32
  let v360 : BitVec 32 := Scalar.addi arg11 c112_i32_198
  let v361 : Index := Scalar.indexCast v360
  let c16_199 : Index := 16#32
  ![v361.toNat, 16]
def k0_off152 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v369 : Index := Scalar.indexCast arg11
  let c128_202 : Index := 128#32
  ![v369.toNat, 128]
def k0_off153 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v381 : Index := Scalar.indexCast arg11
  let c32 : Index := 32#32
  ![v381.toNat, 32]
def k0_off154 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_206 : BitVec 32 := 112#32
  let v384 : BitVec 32 := Scalar.addi arg11 c112_i32_206
  let v385 : Index := Scalar.indexCast v384
  let c144 : Index := 144#32
  ![v385.toNat, 144]
def k0_off155 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_208 : BitVec 32 := 112#32
  let v392 : BitVec 32 := Scalar.addi arg11 c112_i32_208
  let v393 : Index := Scalar.indexCast v392
  let c32_209 : Index := 32#32
  ![v393.toNat, 32]
def k0_off156 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v401 : Index := Scalar.indexCast arg11
  let c144_212 : Index := 144#32
  ![v401.toNat, 144]
def k0_off157 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v413 : Index := Scalar.indexCast arg11
  let c48 : Index := 48#32
  ![v413.toNat, 48]
def k0_off158 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_216 : BitVec 32 := 112#32
  let v416 : BitVec 32 := Scalar.addi arg11 c112_i32_216
  let v417 : Index := Scalar.indexCast v416
  let c160 : Index := 160#32
  ![v417.toNat, 160]
def k0_off159 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_218 : BitVec 32 := 112#32
  let v424 : BitVec 32 := Scalar.addi arg11 c112_i32_218
  let v425 : Index := Scalar.indexCast v424
  let c48_219 : Index := 48#32
  ![v425.toNat, 48]
def k0_off160 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v433 : Index := Scalar.indexCast arg11
  let c160_222 : Index := 160#32
  ![v433.toNat, 160]
def k0_off161 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v445 : Index := Scalar.indexCast arg11
  let c64 : Index := 64#32
  ![v445.toNat, 64]
def k0_off162 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_226 : BitVec 32 := 112#32
  let v448 : BitVec 32 := Scalar.addi arg11 c112_i32_226
  let v449 : Index := Scalar.indexCast v448
  let c176 : Index := 176#32
  ![v449.toNat, 176]
def k0_off163 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_228 : BitVec 32 := 112#32
  let v456 : BitVec 32 := Scalar.addi arg11 c112_i32_228
  let v457 : Index := Scalar.indexCast v456
  let c64_229 : Index := 64#32
  ![v457.toNat, 64]
def k0_off164 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v465 : Index := Scalar.indexCast arg11
  let c176_232 : Index := 176#32
  ![v465.toNat, 176]
def k0_off165 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v477 : Index := Scalar.indexCast arg11
  let c80 : Index := 80#32
  ![v477.toNat, 80]
def k0_off166 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_236 : BitVec 32 := 112#32
  let v480 : BitVec 32 := Scalar.addi arg11 c112_i32_236
  let v481 : Index := Scalar.indexCast v480
  let c192 : Index := 192#32
  ![v481.toNat, 192]
def k0_off167 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_238 : BitVec 32 := 112#32
  let v488 : BitVec 32 := Scalar.addi arg11 c112_i32_238
  let v489 : Index := Scalar.indexCast v488
  let c80_239 : Index := 80#32
  ![v489.toNat, 80]
def k0_off168 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v497 : Index := Scalar.indexCast arg11
  let c192_242 : Index := 192#32
  ![v497.toNat, 192]
def k0_off169 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v509 : Index := Scalar.indexCast arg11
  let c96 : Index := 96#32
  ![v509.toNat, 96]
def k0_off170 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_246 : BitVec 32 := 112#32
  let v512 : BitVec 32 := Scalar.addi arg11 c112_i32_246
  let v513 : Index := Scalar.indexCast v512
  let c208 : Index := 208#32
  ![v513.toNat, 208]
def k0_off171 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let c112_i32_248 : BitVec 32 := 112#32
  let v520 : BitVec 32 := Scalar.addi arg11 c112_i32_248
  let v521 : Index := Scalar.indexCast v520
  let c96_249 : Index := 96#32
  ![v521.toNat, 96]
def k0_off172 (k0_t7 : Fin k0_t7_loop.trips) : Fin 2 → Nat :=
  let c0_i32_183 : BitVec 32 := 0#32
  let c1_i32_184 : BitVec 32 := 1#32
  let arg11 : BitVec 32 := Scf.iv c0_i32_183 c1_i32_184 k0_t7
  let v529 : Index := Scalar.indexCast arg11
  let c208_252 : Index := 208#32
  ![v529.toNat, 208]
def k0_cond8 (k0_t1 : Fin k0_t1_loop.trips) : BitVec 1 :=
  let c0_i32_15 : BitVec 32 := 0#32
  let c1_i32_16 : BitVec 32 := 1#32
  let arg10 : BitVec 32 := Scf.iv c0_i32_15 c1_i32_16 k0_t1
  let c3_i32_180 : BitVec 32 := 3#32
  let v313 : BitVec 1 := Scalar.cmpi .slt arg10 c3_i32_180
  let v314 : BitVec 32 := Scalar.extui v313
  let c0_i32_181 : BitVec 32 := 0#32
  let v315 : BitVec 1 := Scalar.cmpi .ne v314 c0_i32_181
  v315

def k0_off173 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c0_i32_110 : BitVec 32 := 0#32
  let v192 : BitVec 1 := Scalar.cmpi .sgt v178 c0_i32_110
  let v193 : BitVec 32 := Scalar.extui v192
  let c0_i32_111 : BitVec 32 := 0#32
  let v194 : BitVec 1 := Scalar.cmpi .slt v178 c0_i32_111
  let v195 : BitVec 32 := Scalar.extui v194
  let v196 : BitVec 32 := Scalar.subi v193 v195
  let c144_i32_109 : BitVec 32 := 144#32
  let c0_i32_112 : BitVec 32 := 0#32
  let v197 : BitVec 1 := Scalar.cmpi .sgt c144_i32_109 c0_i32_112
  let v198 : BitVec 32 := Scalar.extui v197
  let c0_i32_113 : BitVec 32 := 0#32
  let v199 : BitVec 1 := Scalar.cmpi .slt c144_i32_109 c0_i32_113
  let v200 : BitVec 32 := Scalar.extui v199
  let v201 : BitVec 32 := Scalar.subi v198 v200
  let v202 : BitVec 1 := Scalar.cmpi .ne v196 v201
  let v203 : BitVec 32 := Scalar.remsi v178 c144_i32_109
  let c0_i32_114 : BitVec 32 := 0#32
  let v204 : BitVec 1 := Scalar.cmpi .ne v203 c0_i32_114
  let v205 : BitVec 1 := Scalar.andi v202 v204
  let v191 : BitVec 32 := Scalar.divsi v178 c144_i32_109
  let c1_i32_115 : BitVec 32 := 1#32
  let v206 : BitVec 32 := Scalar.subi v191 c1_i32_115
  let v207 : BitVec 32 := Scalar.select v205 v206 v191
  let c240_i32_108 : BitVec 32 := 240#32
  let c144_i32_102 : BitVec 32 := 144#32
  let c0_i32_103 : BitVec 32 := 0#32
  let v180 : BitVec 1 := Scalar.cmpi .eq c144_i32_102 c0_i32_103
  let c1_i32_104 : BitVec 32 := 1#32
  let v181 : BitVec 32 := Scalar.select v180 c1_i32_104 c144_i32_102
  let v182 : BitVec 32 := Scalar.remsi v178 v181
  let c0_i32_106 : BitVec 32 := 0#32
  let v184 : BitVec 1 := Scalar.cmpi .slt v182 c0_i32_106
  let c0_i32_107 : BitVec 32 := 0#32
  let v185 : BitVec 1 := Scalar.cmpi .slt v181 c0_i32_107
  let v186 : BitVec 1 := Scalar.xori v184 v185
  let c0_i32_105 : BitVec 32 := 0#32
  let v183 : BitVec 1 := Scalar.cmpi .ne v182 c0_i32_105
  let v187 : BitVec 1 := Scalar.andi v186 v183
  let v188 : BitVec 32 := Scalar.addi v182 v181
  let v189 : BitVec 32 := Scalar.select v187 v188 v182
  let v190 : BitVec 32 := Scalar.addi c240_i32_108 v189
  let c0_i32_182 : BitVec 32 := 0#32
  let c0_i32_183 : BitVec 32 := 0#32
  ![v207.toNat, v190.toNat, 0, 0]
def k0_off174 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c2_i32_100 : BitVec 32 := 2#32
  let c0_i32_15 : BitVec 32 := 0#32
  let c1_i32_16 : BitVec 32 := 1#32
  let arg10 : BitVec 32 := Scf.iv c0_i32_15 c1_i32_16 k0_t1
  let v177 : BitVec 32 := Scalar.muli c2_i32_100 arg10
  let v178 : BitVec 32 := Scalar.addi v2 v177
  let c2_i32_186 : BitVec 32 := 2#32
  let v320 : BitVec 32 := Scalar.addi v178 c2_i32_186
  let c0_i32_195 : BitVec 32 := 0#32
  let v333 : BitVec 1 := Scalar.cmpi .sgt v320 c0_i32_195
  let v334 : BitVec 32 := Scalar.extui v333
  let c0_i32_196 : BitVec 32 := 0#32
  let v335 : BitVec 1 := Scalar.cmpi .slt v320 c0_i32_196
  let v336 : BitVec 32 := Scalar.extui v335
  let v337 : BitVec 32 := Scalar.subi v334 v336
  let c144_i32_194 : BitVec 32 := 144#32
  let c0_i32_197 : BitVec 32 := 0#32
  let v338 : BitVec 1 := Scalar.cmpi .sgt c144_i32_194 c0_i32_197
  let v339 : BitVec 32 := Scalar.extui v338
  let c0_i32_198 : BitVec 32 := 0#32
  let v340 : BitVec 1 := Scalar.cmpi .slt c144_i32_194 c0_i32_198
  let v341 : BitVec 32 := Scalar.extui v340
  let v342 : BitVec 32 := Scalar.subi v339 v341
  let v343 : BitVec 1 := Scalar.cmpi .ne v337 v342
  let v344 : BitVec 32 := Scalar.remsi v320 c144_i32_194
  let c0_i32_199 : BitVec 32 := 0#32
  let v345 : BitVec 1 := Scalar.cmpi .ne v344 c0_i32_199
  let v346 : BitVec 1 := Scalar.andi v343 v345
  let v332 : BitVec 32 := Scalar.divsi v320 c144_i32_194
  let c1_i32_200 : BitVec 32 := 1#32
  let v347 : BitVec 32 := Scalar.subi v332 c1_i32_200
  let v348 : BitVec 32 := Scalar.select v346 v347 v332
  let c240_i32_193 : BitVec 32 := 240#32
  let c144_i32_187 : BitVec 32 := 144#32
  let c0_i32_188 : BitVec 32 := 0#32
  let v321 : BitVec 1 := Scalar.cmpi .eq c144_i32_187 c0_i32_188
  let c1_i32_189 : BitVec 32 := 1#32
  let v322 : BitVec 32 := Scalar.select v321 c1_i32_189 c144_i32_187
  let v323 : BitVec 32 := Scalar.remsi v320 v322
  let c0_i32_191 : BitVec 32 := 0#32
  let v325 : BitVec 1 := Scalar.cmpi .slt v323 c0_i32_191
  let c0_i32_192 : BitVec 32 := 0#32
  let v326 : BitVec 1 := Scalar.cmpi .slt v322 c0_i32_192
  let v327 : BitVec 1 := Scalar.xori v325 v326
  let c0_i32_190 : BitVec 32 := 0#32
  let v324 : BitVec 1 := Scalar.cmpi .ne v323 c0_i32_190
  let v328 : BitVec 1 := Scalar.andi v327 v324
  let v329 : BitVec 32 := Scalar.addi v323 v322
  let v330 : BitVec 32 := Scalar.select v328 v329 v323
  let v331 : BitVec 32 := Scalar.addi c240_i32_193 v330
  let c0_i32_201 : BitVec 32 := 0#32
  let c0_i32_202 : BitVec 32 := 0#32
  ![v348.toNat, v331.toNat, 0, 0]
def k0_off175 (i : grid0.Coords) (c8_i32 : BitVec 32) (c2_i32_18 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let v36 : BitVec 32 := Scalar.addi v2 c8_i32
  let v37 : BitVec 32 := Scalar.subi v36 c2_i32_18
  let c0_i32_27 : BitVec 32 := 0#32
  let v50 : BitVec 1 := Scalar.cmpi .sgt v37 c0_i32_27
  let v51 : BitVec 32 := Scalar.extui v50
  let c0_i32_28 : BitVec 32 := 0#32
  let v52 : BitVec 1 := Scalar.cmpi .slt v37 c0_i32_28
  let v53 : BitVec 32 := Scalar.extui v52
  let v54 : BitVec 32 := Scalar.subi v51 v53
  let c144_i32_26 : BitVec 32 := 144#32
  let c0_i32_29 : BitVec 32 := 0#32
  let v55 : BitVec 1 := Scalar.cmpi .sgt c144_i32_26 c0_i32_29
  let v56 : BitVec 32 := Scalar.extui v55
  let c0_i32_30 : BitVec 32 := 0#32
  let v57 : BitVec 1 := Scalar.cmpi .slt c144_i32_26 c0_i32_30
  let v58 : BitVec 32 := Scalar.extui v57
  let v59 : BitVec 32 := Scalar.subi v56 v58
  let v60 : BitVec 1 := Scalar.cmpi .ne v54 v59
  let v61 : BitVec 32 := Scalar.remsi v37 c144_i32_26
  let c0_i32_31 : BitVec 32 := 0#32
  let v62 : BitVec 1 := Scalar.cmpi .ne v61 c0_i32_31
  let v63 : BitVec 1 := Scalar.andi v60 v62
  let v49 : BitVec 32 := Scalar.divsi v37 c144_i32_26
  let c1_i32_32 : BitVec 32 := 1#32
  let v64 : BitVec 32 := Scalar.subi v49 c1_i32_32
  let v65 : BitVec 32 := Scalar.select v63 v64 v49
  let c240_i32_25 : BitVec 32 := 240#32
  let c144_i32_19 : BitVec 32 := 144#32
  let c0_i32_20 : BitVec 32 := 0#32
  let v38 : BitVec 1 := Scalar.cmpi .eq c144_i32_19 c0_i32_20
  let c1_i32_21 : BitVec 32 := 1#32
  let v39 : BitVec 32 := Scalar.select v38 c1_i32_21 c144_i32_19
  let v40 : BitVec 32 := Scalar.remsi v37 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let v48 : BitVec 32 := Scalar.addi c240_i32_25 v47
  let c0_i32_33 : BitVec 32 := 0#32
  let c0_i32_34 : BitVec 32 := 0#32
  ![v65.toNat, v48.toNat, 0, 0]
def k0_off175_at (r : Fin 3) : BitVec 32 × BitVec 32 :=
  if r.val < 1 then
    (8#32, 2#32)
  else
    if r.val < 2 then
      (9#32, 1#32)
    else
      (8#32, 1#32)
def k0_cond9 (i : grid0.Coords) : BitVec 1 :=
  let c240_i32_45 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c9_i32_37 : BitVec 32 := 9#32
  let v70 : BitVec 32 := Scalar.addi v2 c9_i32_37
  let c1_i32_38 : BitVec 32 := 1#32
  let v71 : BitVec 32 := Scalar.subi v70 c1_i32_38
  let c144_i32_39 : BitVec 32 := 144#32
  let c0_i32_40 : BitVec 32 := 0#32
  let v72 : BitVec 1 := Scalar.cmpi .eq c144_i32_39 c0_i32_40
  let c1_i32_41 : BitVec 32 := 1#32
  let v73 : BitVec 32 := Scalar.select v72 c1_i32_41 c144_i32_39
  let v74 : BitVec 32 := Scalar.remsi v71 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let v82 : BitVec 32 := Scalar.addi c240_i32_45 v81
  let c192_i32 : BitVec 32 := 192#32
  let v108 : BitVec 32 := Scalar.subi v82 c192_i32
  let c0_i32_61 : BitVec 32 := 0#32
  let v110 : BitVec 1 := Scalar.cmpi .sgt v108 c0_i32_61
  let v111 : BitVec 32 := Scalar.extui v110
  let c0_i32_62 : BitVec 32 := 0#32
  let v112 : BitVec 1 := Scalar.cmpi .slt v108 c0_i32_62
  let v113 : BitVec 32 := Scalar.extui v112
  let v114 : BitVec 32 := Scalar.subi v111 v113
  let c48_i32 : BitVec 32 := 48#32
  let c0_i32_63 : BitVec 32 := 0#32
  let v115 : BitVec 1 := Scalar.cmpi .sgt c48_i32 c0_i32_63
  let v116 : BitVec 32 := Scalar.extui v115
  let c0_i32_64 : BitVec 32 := 0#32
  let v117 : BitVec 1 := Scalar.cmpi .slt c48_i32 c0_i32_64
  let v118 : BitVec 32 := Scalar.extui v117
  let v119 : BitVec 32 := Scalar.subi v116 v118
  let v120 : BitVec 1 := Scalar.cmpi .ne v114 v119
  let v121 : BitVec 32 := Scalar.remsi v108 c48_i32
  let c0_i32_65 : BitVec 32 := 0#32
  let v122 : BitVec 1 := Scalar.cmpi .ne v121 c0_i32_65
  let v123 : BitVec 1 := Scalar.andi v120 v122
  let v109 : BitVec 32 := Scalar.divsi v108 c48_i32
  let c1_i32_66 : BitVec 32 := 1#32
  let v124 : BitVec 32 := Scalar.subi v109 c1_i32_66
  let v125 : BitVec 32 := Scalar.select v123 v124 v109
  let c1_i32_67 : BitVec 32 := 1#32
  let v126 : BitVec 1 := Scalar.cmpi .eq v125 c1_i32_67
  let v127 : BitVec 32 := Scalar.extui v126
  let c0_i32_68 : BitVec 32 := 0#32
  let v128 : BitVec 1 := Scalar.cmpi .ne v127 c0_i32_68
  v128

@[reducible] def k0_t8_loop : Scf.Loop 32 :=
  let c0_i32_101 : BitVec 32 := 0#32
  let c112_i32 : BitVec 32 := 112#32
  let v177 : BitVec 32 := Scalar.addi c0_i32_101 c112_i32
  let c1_i32_102 : BitVec 32 := 1#32
  ⟨c0_i32_101, v177, c1_i32_102⟩
def k0_off176 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v178 : Index := Scalar.indexCast arg10
  let c0 : Index := 0#32
  ![v178.toNat, 0]
def k0_off177 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v181 : Index := Scalar.indexCast arg10
  let c112 : Index := 112#32
  ![v181.toNat, 112]
def k0_off178 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_105 : BitVec 32 := 112#32
  let v188 : BitVec 32 := Scalar.addi arg10 c112_i32_105
  let v189 : Index := Scalar.indexCast v188
  let c0_106 : Index := 0#32
  ![v189.toNat, 0]
def k0_off179 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_108 : BitVec 32 := 112#32
  let v196 : BitVec 32 := Scalar.addi arg10 c112_i32_108
  let v197 : Index := Scalar.indexCast v196
  let c112_109 : Index := 112#32
  ![v197.toNat, 112]
def k0_off180 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v210 : Index := Scalar.indexCast arg10
  let c16 : Index := 16#32
  ![v210.toNat, 16]
def k0_off181 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v213 : Index := Scalar.indexCast arg10
  let c128 : Index := 128#32
  ![v213.toNat, 128]
def k0_off182 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_115 : BitVec 32 := 112#32
  let v220 : BitVec 32 := Scalar.addi arg10 c112_i32_115
  let v221 : Index := Scalar.indexCast v220
  let c16_116 : Index := 16#32
  ![v221.toNat, 16]
def k0_off183 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_118 : BitVec 32 := 112#32
  let v228 : BitVec 32 := Scalar.addi arg10 c112_i32_118
  let v229 : Index := Scalar.indexCast v228
  let c128_119 : Index := 128#32
  ![v229.toNat, 128]
def k0_off184 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v242 : Index := Scalar.indexCast arg10
  let c32 : Index := 32#32
  ![v242.toNat, 32]
def k0_off185 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v245 : Index := Scalar.indexCast arg10
  let c144 : Index := 144#32
  ![v245.toNat, 144]
def k0_off186 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_125 : BitVec 32 := 112#32
  let v252 : BitVec 32 := Scalar.addi arg10 c112_i32_125
  let v253 : Index := Scalar.indexCast v252
  let c32_126 : Index := 32#32
  ![v253.toNat, 32]
def k0_off187 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_128 : BitVec 32 := 112#32
  let v260 : BitVec 32 := Scalar.addi arg10 c112_i32_128
  let v261 : Index := Scalar.indexCast v260
  let c144_129 : Index := 144#32
  ![v261.toNat, 144]
def k0_off188 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v274 : Index := Scalar.indexCast arg10
  let c48 : Index := 48#32
  ![v274.toNat, 48]
def k0_off189 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v277 : Index := Scalar.indexCast arg10
  let c160 : Index := 160#32
  ![v277.toNat, 160]
def k0_off190 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_135 : BitVec 32 := 112#32
  let v284 : BitVec 32 := Scalar.addi arg10 c112_i32_135
  let v285 : Index := Scalar.indexCast v284
  let c48_136 : Index := 48#32
  ![v285.toNat, 48]
def k0_off191 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_138 : BitVec 32 := 112#32
  let v292 : BitVec 32 := Scalar.addi arg10 c112_i32_138
  let v293 : Index := Scalar.indexCast v292
  let c160_139 : Index := 160#32
  ![v293.toNat, 160]
def k0_off192 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v306 : Index := Scalar.indexCast arg10
  let c64 : Index := 64#32
  ![v306.toNat, 64]
def k0_off193 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v309 : Index := Scalar.indexCast arg10
  let c176 : Index := 176#32
  ![v309.toNat, 176]
def k0_off194 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_145 : BitVec 32 := 112#32
  let v316 : BitVec 32 := Scalar.addi arg10 c112_i32_145
  let v317 : Index := Scalar.indexCast v316
  let c64_146 : Index := 64#32
  ![v317.toNat, 64]
def k0_off195 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_148 : BitVec 32 := 112#32
  let v324 : BitVec 32 := Scalar.addi arg10 c112_i32_148
  let v325 : Index := Scalar.indexCast v324
  let c176_149 : Index := 176#32
  ![v325.toNat, 176]
def k0_off196 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v338 : Index := Scalar.indexCast arg10
  let c80 : Index := 80#32
  ![v338.toNat, 80]
def k0_off197 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v341 : Index := Scalar.indexCast arg10
  let c192 : Index := 192#32
  ![v341.toNat, 192]
def k0_off198 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_155 : BitVec 32 := 112#32
  let v348 : BitVec 32 := Scalar.addi arg10 c112_i32_155
  let v349 : Index := Scalar.indexCast v348
  let c80_156 : Index := 80#32
  ![v349.toNat, 80]
def k0_off199 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_158 : BitVec 32 := 112#32
  let v356 : BitVec 32 := Scalar.addi arg10 c112_i32_158
  let v357 : Index := Scalar.indexCast v356
  let c192_159 : Index := 192#32
  ![v357.toNat, 192]
def k0_off200 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v370 : Index := Scalar.indexCast arg10
  let c96 : Index := 96#32
  ![v370.toNat, 96]
def k0_off201 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let v373 : Index := Scalar.indexCast arg10
  let c208 : Index := 208#32
  ![v373.toNat, 208]
def k0_off202 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_165 : BitVec 32 := 112#32
  let v380 : BitVec 32 := Scalar.addi arg10 c112_i32_165
  let v381 : Index := Scalar.indexCast v380
  let c96_166 : Index := 96#32
  ![v381.toNat, 96]
def k0_off203 (k0_t8 : Fin k0_t8_loop.trips) : Fin 2 → Nat :=
  let c0_i32_101 : BitVec 32 := 0#32
  let c1_i32_102 : BitVec 32 := 1#32
  let arg10 : BitVec 32 := Scf.iv c0_i32_101 c1_i32_102 k0_t8
  let c112_i32_168 : BitVec 32 := 112#32
  let v388 : BitVec 32 := Scalar.addi arg10 c112_i32_168
  let v389 : Index := Scalar.indexCast v388
  let c208_169 : Index := 208#32
  ![v389.toNat, 208]
def k0_cond10 (i : grid0.Coords) : BitVec 1 :=
  let c240_i32_45 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c9_i32_37 : BitVec 32 := 9#32
  let v70 : BitVec 32 := Scalar.addi v2 c9_i32_37
  let c1_i32_38 : BitVec 32 := 1#32
  let v71 : BitVec 32 := Scalar.subi v70 c1_i32_38
  let c144_i32_39 : BitVec 32 := 144#32
  let c0_i32_40 : BitVec 32 := 0#32
  let v72 : BitVec 1 := Scalar.cmpi .eq c144_i32_39 c0_i32_40
  let c1_i32_41 : BitVec 32 := 1#32
  let v73 : BitVec 32 := Scalar.select v72 c1_i32_41 c144_i32_39
  let v74 : BitVec 32 := Scalar.remsi v71 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let v82 : BitVec 32 := Scalar.addi c240_i32_45 v81
  let c192_i32 : BitVec 32 := 192#32
  let v108 : BitVec 32 := Scalar.subi v82 c192_i32
  let c0_i32_61 : BitVec 32 := 0#32
  let v110 : BitVec 1 := Scalar.cmpi .sgt v108 c0_i32_61
  let v111 : BitVec 32 := Scalar.extui v110
  let c0_i32_62 : BitVec 32 := 0#32
  let v112 : BitVec 1 := Scalar.cmpi .slt v108 c0_i32_62
  let v113 : BitVec 32 := Scalar.extui v112
  let v114 : BitVec 32 := Scalar.subi v111 v113
  let c48_i32 : BitVec 32 := 48#32
  let c0_i32_63 : BitVec 32 := 0#32
  let v115 : BitVec 1 := Scalar.cmpi .sgt c48_i32 c0_i32_63
  let v116 : BitVec 32 := Scalar.extui v115
  let c0_i32_64 : BitVec 32 := 0#32
  let v117 : BitVec 1 := Scalar.cmpi .slt c48_i32 c0_i32_64
  let v118 : BitVec 32 := Scalar.extui v117
  let v119 : BitVec 32 := Scalar.subi v116 v118
  let v120 : BitVec 1 := Scalar.cmpi .ne v114 v119
  let v121 : BitVec 32 := Scalar.remsi v108 c48_i32
  let c0_i32_65 : BitVec 32 := 0#32
  let v122 : BitVec 1 := Scalar.cmpi .ne v121 c0_i32_65
  let v123 : BitVec 1 := Scalar.andi v120 v122
  let v109 : BitVec 32 := Scalar.divsi v108 c48_i32
  let c1_i32_66 : BitVec 32 := 1#32
  let v124 : BitVec 32 := Scalar.subi v109 c1_i32_66
  let v125 : BitVec 32 := Scalar.select v123 v124 v109
  let c2_i32_69 : BitVec 32 := 2#32
  let v129 : BitVec 1 := Scalar.cmpi .eq v125 c2_i32_69
  let v130 : BitVec 32 := Scalar.extui v129
  let c0_i32_70 : BitVec 32 := 0#32
  let v131 : BitVec 1 := Scalar.cmpi .ne v130 c0_i32_70
  v131

@[reducible] def k0_t9_loop : Scf.Loop 32 :=
  let c0_i32_101 : BitVec 32 := 0#32
  let c112_i32 : BitVec 32 := 112#32
  let v177 : BitVec 32 := Scalar.addi c0_i32_101 c112_i32
  let c1_i32_102 : BitVec 32 := 1#32
  ⟨c0_i32_101, v177, c1_i32_102⟩
def k0_off204 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v178 : Index := Scalar.indexCast arg10
  let c0 : Index := 0#32
  ![v178.toNat, 0]
def k0_off205 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_104 : BitVec 32 := 112#32
  let v181 : BitVec 32 := Scalar.addi arg10 c112_i32_104
  let v182 : Index := Scalar.indexCast v181
  let c0_105 : Index := 0#32
  ![v182.toNat, 0]
def k0_off206 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v194 : Index := Scalar.indexCast arg10
  let c16 : Index := 16#32
  ![v194.toNat, 16]
def k0_off207 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_109 : BitVec 32 := 112#32
  let v197 : BitVec 32 := Scalar.addi arg10 c112_i32_109
  let v198 : Index := Scalar.indexCast v197
  let c16_110 : Index := 16#32
  ![v198.toNat, 16]
def k0_off208 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v210 : Index := Scalar.indexCast arg10
  let c32 : Index := 32#32
  ![v210.toNat, 32]
def k0_off209 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_114 : BitVec 32 := 112#32
  let v213 : BitVec 32 := Scalar.addi arg10 c112_i32_114
  let v214 : Index := Scalar.indexCast v213
  let c32_115 : Index := 32#32
  ![v214.toNat, 32]
def k0_off210 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v226 : Index := Scalar.indexCast arg10
  let c48 : Index := 48#32
  ![v226.toNat, 48]
def k0_off211 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_119 : BitVec 32 := 112#32
  let v229 : BitVec 32 := Scalar.addi arg10 c112_i32_119
  let v230 : Index := Scalar.indexCast v229
  let c48_120 : Index := 48#32
  ![v230.toNat, 48]
def k0_off212 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v242 : Index := Scalar.indexCast arg10
  let c64 : Index := 64#32
  ![v242.toNat, 64]
def k0_off213 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_124 : BitVec 32 := 112#32
  let v245 : BitVec 32 := Scalar.addi arg10 c112_i32_124
  let v246 : Index := Scalar.indexCast v245
  let c64_125 : Index := 64#32
  ![v246.toNat, 64]
def k0_off214 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v258 : Index := Scalar.indexCast arg10
  let c80 : Index := 80#32
  ![v258.toNat, 80]
def k0_off215 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_129 : BitVec 32 := 112#32
  let v261 : BitVec 32 := Scalar.addi arg10 c112_i32_129
  let v262 : Index := Scalar.indexCast v261
  let c80_130 : Index := 80#32
  ![v262.toNat, 80]
def k0_off216 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v274 : Index := Scalar.indexCast arg10
  let c96 : Index := 96#32
  ![v274.toNat, 96]
def k0_off217 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_134 : BitVec 32 := 112#32
  let v277 : BitVec 32 := Scalar.addi arg10 c112_i32_134
  let v278 : Index := Scalar.indexCast v277
  let c96_135 : Index := 96#32
  ![v278.toNat, 96]
def k0_off218 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v290 : Index := Scalar.indexCast arg10
  let c112 : Index := 112#32
  ![v290.toNat, 112]
def k0_off219 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_139 : BitVec 32 := 112#32
  let v293 : BitVec 32 := Scalar.addi arg10 c112_i32_139
  let v294 : Index := Scalar.indexCast v293
  let c112_140 : Index := 112#32
  ![v294.toNat, 112]
def k0_off220 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v306 : Index := Scalar.indexCast arg10
  let c128 : Index := 128#32
  ![v306.toNat, 128]
def k0_off221 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_144 : BitVec 32 := 112#32
  let v309 : BitVec 32 := Scalar.addi arg10 c112_i32_144
  let v310 : Index := Scalar.indexCast v309
  let c128_145 : Index := 128#32
  ![v310.toNat, 128]
def k0_off222 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v322 : Index := Scalar.indexCast arg10
  let c144 : Index := 144#32
  ![v322.toNat, 144]
def k0_off223 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_149 : BitVec 32 := 112#32
  let v325 : BitVec 32 := Scalar.addi arg10 c112_i32_149
  let v326 : Index := Scalar.indexCast v325
  let c144_150 : Index := 144#32
  ![v326.toNat, 144]
def k0_off224 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v338 : Index := Scalar.indexCast arg10
  let c160 : Index := 160#32
  ![v338.toNat, 160]
def k0_off225 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_154 : BitVec 32 := 112#32
  let v341 : BitVec 32 := Scalar.addi arg10 c112_i32_154
  let v342 : Index := Scalar.indexCast v341
  let c160_155 : Index := 160#32
  ![v342.toNat, 160]
def k0_off226 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v354 : Index := Scalar.indexCast arg10
  let c176 : Index := 176#32
  ![v354.toNat, 176]
def k0_off227 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_159 : BitVec 32 := 112#32
  let v357 : BitVec 32 := Scalar.addi arg10 c112_i32_159
  let v358 : Index := Scalar.indexCast v357
  let c176_160 : Index := 176#32
  ![v358.toNat, 176]
def k0_off228 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v370 : Index := Scalar.indexCast arg10
  let c192 : Index := 192#32
  ![v370.toNat, 192]
def k0_off229 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_164 : BitVec 32 := 112#32
  let v373 : BitVec 32 := Scalar.addi arg10 c112_i32_164
  let v374 : Index := Scalar.indexCast v373
  let c192_165 : Index := 192#32
  ![v374.toNat, 192]
def k0_off230 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let v386 : Index := Scalar.indexCast arg10
  let c208 : Index := 208#32
  ![v386.toNat, 208]
def k0_off231 (k0_t9 : Fin k0_t9_loop.trips) : Fin 2 → Nat :=
  let c0_i32_101 : BitVec 32 := 0#32
  let c1_i32_102 : BitVec 32 := 1#32
  let arg10 : BitVec 32 := Scf.iv c0_i32_101 c1_i32_102 k0_t9
  let c112_i32_169 : BitVec 32 := 112#32
  let v389 : BitVec 32 := Scalar.addi arg10 c112_i32_169
  let v390 : Index := Scalar.indexCast v389
  let c208_170 : Index := 208#32
  ![v390.toNat, 208]
def k0_cond11 (i : grid0.Coords) : BitVec 1 :=
  let c240_i32_45 : BitVec 32 := 240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v2 : BitVec 32 := Scalar.muli v1 c9_i32
  let c9_i32_37 : BitVec 32 := 9#32
  let v70 : BitVec 32 := Scalar.addi v2 c9_i32_37
  let c1_i32_38 : BitVec 32 := 1#32
  let v71 : BitVec 32 := Scalar.subi v70 c1_i32_38
  let c144_i32_39 : BitVec 32 := 144#32
  let c0_i32_40 : BitVec 32 := 0#32
  let v72 : BitVec 1 := Scalar.cmpi .eq c144_i32_39 c0_i32_40
  let c1_i32_41 : BitVec 32 := 1#32
  let v73 : BitVec 32 := Scalar.select v72 c1_i32_41 c144_i32_39
  let v74 : BitVec 32 := Scalar.remsi v71 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let v82 : BitVec 32 := Scalar.addi c240_i32_45 v81
  let c192_i32 : BitVec 32 := 192#32
  let v108 : BitVec 32 := Scalar.subi v82 c192_i32
  let c0_i32_61 : BitVec 32 := 0#32
  let v110 : BitVec 1 := Scalar.cmpi .sgt v108 c0_i32_61
  let v111 : BitVec 32 := Scalar.extui v110
  let c0_i32_62 : BitVec 32 := 0#32
  let v112 : BitVec 1 := Scalar.cmpi .slt v108 c0_i32_62
  let v113 : BitVec 32 := Scalar.extui v112
  let v114 : BitVec 32 := Scalar.subi v111 v113
  let c48_i32 : BitVec 32 := 48#32
  let c0_i32_63 : BitVec 32 := 0#32
  let v115 : BitVec 1 := Scalar.cmpi .sgt c48_i32 c0_i32_63
  let v116 : BitVec 32 := Scalar.extui v115
  let c0_i32_64 : BitVec 32 := 0#32
  let v117 : BitVec 1 := Scalar.cmpi .slt c48_i32 c0_i32_64
  let v118 : BitVec 32 := Scalar.extui v117
  let v119 : BitVec 32 := Scalar.subi v116 v118
  let v120 : BitVec 1 := Scalar.cmpi .ne v114 v119
  let v121 : BitVec 32 := Scalar.remsi v108 c48_i32
  let c0_i32_65 : BitVec 32 := 0#32
  let v122 : BitVec 1 := Scalar.cmpi .ne v121 c0_i32_65
  let v123 : BitVec 1 := Scalar.andi v120 v122
  let v109 : BitVec 32 := Scalar.divsi v108 c48_i32
  let c1_i32_66 : BitVec 32 := 1#32
  let v124 : BitVec 32 := Scalar.subi v109 c1_i32_66
  let v125 : BitVec 32 := Scalar.select v123 v124 v109
  let c3_i32 : BitVec 32 := 3#32
  let v132 : BitVec 1 := Scalar.cmpi .eq v125 c3_i32
  let v133 : BitVec 32 := Scalar.extui v132
  let c0_i32_71 : BitVec 32 := 0#32
  let v134 : BitVec 1 := Scalar.cmpi .ne v133 c0_i32_71
  v134

@[reducible] def k0_t10_loop : Scf.Loop 32 :=
  let c0_i32_101 : BitVec 32 := 0#32
  let c112_i32 : BitVec 32 := 112#32
  let v177 : BitVec 32 := Scalar.addi c0_i32_101 c112_i32
  let c1_i32_102 : BitVec 32 := 1#32
  ⟨c0_i32_101, v177, c1_i32_102⟩
def k0_off232 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v178 : Index := Scalar.indexCast arg10
  let c0 : Index := 0#32
  ![v178.toNat, 0]
def k0_off233 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_104 : BitVec 32 := 112#32
  let v181 : BitVec 32 := Scalar.addi arg10 c112_i32_104
  let v182 : Index := Scalar.indexCast v181
  let c112 : Index := 112#32
  ![v182.toNat, 112]
def k0_off234 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_106 : BitVec 32 := 112#32
  let v189 : BitVec 32 := Scalar.addi arg10 c112_i32_106
  let v190 : Index := Scalar.indexCast v189
  let c0_107 : Index := 0#32
  ![v190.toNat, 0]
def k0_off235 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v198 : Index := Scalar.indexCast arg10
  let c112_110 : Index := 112#32
  ![v198.toNat, 112]
def k0_off236 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v210 : Index := Scalar.indexCast arg10
  let c16 : Index := 16#32
  ![v210.toNat, 16]
def k0_off237 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_114 : BitVec 32 := 112#32
  let v213 : BitVec 32 := Scalar.addi arg10 c112_i32_114
  let v214 : Index := Scalar.indexCast v213
  let c128 : Index := 128#32
  ![v214.toNat, 128]
def k0_off238 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_116 : BitVec 32 := 112#32
  let v221 : BitVec 32 := Scalar.addi arg10 c112_i32_116
  let v222 : Index := Scalar.indexCast v221
  let c16_117 : Index := 16#32
  ![v222.toNat, 16]
def k0_off239 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v230 : Index := Scalar.indexCast arg10
  let c128_120 : Index := 128#32
  ![v230.toNat, 128]
def k0_off240 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v242 : Index := Scalar.indexCast arg10
  let c32 : Index := 32#32
  ![v242.toNat, 32]
def k0_off241 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_124 : BitVec 32 := 112#32
  let v245 : BitVec 32 := Scalar.addi arg10 c112_i32_124
  let v246 : Index := Scalar.indexCast v245
  let c144 : Index := 144#32
  ![v246.toNat, 144]
def k0_off242 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_126 : BitVec 32 := 112#32
  let v253 : BitVec 32 := Scalar.addi arg10 c112_i32_126
  let v254 : Index := Scalar.indexCast v253
  let c32_127 : Index := 32#32
  ![v254.toNat, 32]
def k0_off243 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v262 : Index := Scalar.indexCast arg10
  let c144_130 : Index := 144#32
  ![v262.toNat, 144]
def k0_off244 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v274 : Index := Scalar.indexCast arg10
  let c48 : Index := 48#32
  ![v274.toNat, 48]
def k0_off245 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_134 : BitVec 32 := 112#32
  let v277 : BitVec 32 := Scalar.addi arg10 c112_i32_134
  let v278 : Index := Scalar.indexCast v277
  let c160 : Index := 160#32
  ![v278.toNat, 160]
def k0_off246 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_136 : BitVec 32 := 112#32
  let v285 : BitVec 32 := Scalar.addi arg10 c112_i32_136
  let v286 : Index := Scalar.indexCast v285
  let c48_137 : Index := 48#32
  ![v286.toNat, 48]
def k0_off247 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v294 : Index := Scalar.indexCast arg10
  let c160_140 : Index := 160#32
  ![v294.toNat, 160]
def k0_off248 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v306 : Index := Scalar.indexCast arg10
  let c64 : Index := 64#32
  ![v306.toNat, 64]
def k0_off249 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_144 : BitVec 32 := 112#32
  let v309 : BitVec 32 := Scalar.addi arg10 c112_i32_144
  let v310 : Index := Scalar.indexCast v309
  let c176 : Index := 176#32
  ![v310.toNat, 176]
def k0_off250 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_146 : BitVec 32 := 112#32
  let v317 : BitVec 32 := Scalar.addi arg10 c112_i32_146
  let v318 : Index := Scalar.indexCast v317
  let c64_147 : Index := 64#32
  ![v318.toNat, 64]
def k0_off251 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v326 : Index := Scalar.indexCast arg10
  let c176_150 : Index := 176#32
  ![v326.toNat, 176]
def k0_off252 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v338 : Index := Scalar.indexCast arg10
  let c80 : Index := 80#32
  ![v338.toNat, 80]
def k0_off253 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_154 : BitVec 32 := 112#32
  let v341 : BitVec 32 := Scalar.addi arg10 c112_i32_154
  let v342 : Index := Scalar.indexCast v341
  let c192 : Index := 192#32
  ![v342.toNat, 192]
def k0_off254 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_156 : BitVec 32 := 112#32
  let v349 : BitVec 32 := Scalar.addi arg10 c112_i32_156
  let v350 : Index := Scalar.indexCast v349
  let c80_157 : Index := 80#32
  ![v350.toNat, 80]
def k0_off255 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v358 : Index := Scalar.indexCast arg10
  let c192_160 : Index := 192#32
  ![v358.toNat, 192]
def k0_off256 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v370 : Index := Scalar.indexCast arg10
  let c96 : Index := 96#32
  ![v370.toNat, 96]
def k0_off257 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_164 : BitVec 32 := 112#32
  let v373 : BitVec 32 := Scalar.addi arg10 c112_i32_164
  let v374 : Index := Scalar.indexCast v373
  let c208 : Index := 208#32
  ![v374.toNat, 208]
def k0_off258 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let c112_i32_166 : BitVec 32 := 112#32
  let v381 : BitVec 32 := Scalar.addi arg10 c112_i32_166
  let v382 : Index := Scalar.indexCast v381
  let c96_167 : Index := 96#32
  ![v382.toNat, 96]
def k0_off259 (k0_t10 : Fin k0_t10_loop.trips) : Fin 2 → Nat :=
  let c0_i32_101 : BitVec 32 := 0#32
  let c1_i32_102 : BitVec 32 := 1#32
  let arg10 : BitVec 32 := Scf.iv c0_i32_101 c1_i32_102 k0_t10
  let v390 : Index := Scalar.indexCast arg10
  let c208_170 : Index := 208#32
  ![v390.toNat, 208]
abbrev grid1 : Pipeline.Grid := ⟨2, ![2, 15], ![false, false]⟩

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x224x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x224x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x1x224x224_S224x224 : S1x1x224x224.Squeezes S224x224
  h_S1x16 : 0 < S1x16.numel
  shapeCasts_S1x16_S16 : S1x16.ShapeCasts S16
  shapeCasts_S16_S1x16 : S16.ShapeCasts S1x16
  inb_S1x16x224x224_S1x16x224x224_0_0_0_0 : ∀ a, (![0, 0, 0, 0] : Fin 4 → Nat) a + S1x16x224x224.size a ≤ S1x16x224x224.size a
  h_S1x16x224x224 : 0 < S1x16x224x224.numel
  hcc0_scratch2 : 0 + S_.numel ≤ 8
  hcc0_scratch3 : 1 + S_.numel ≤ 8
  hcc0_scratch4 : 2 + S_.numel ≤ 8
  hcc0_scratch5 : 3 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1x224x224.size a ≤ S2x384x224x224.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S1x1x224x224.size a ≤ S2x384x224x224.size a
  k0_off3_inb : ∀ (i : grid0.Coords) (k0_t1 : Fin k0_t1_loop.trips), ∀ a, (k0_off3 i k0_t1) a + S1x1x224x224.size a ≤ S2x384x224x224.size a
  k0_off4_inb : ∀ (i : grid0.Coords) (k0_t1 : Fin k0_t1_loop.trips), ∀ a, (k0_off4 i k0_t1) a + S1x1x224x224.size a ≤ S2x384x224x224.size a
  k0_t2_ok : ∀ (i : grid0.Coords) (k0_t1 : Fin k0_t1_loop.trips), ∀ (k0_h2 : k0_cond2 i k0_t1 = 1#1), k0_t2_loop.OK
  k0_off5_inb : ∀ (i : grid0.Coords) (k0_t1 : Fin k0_t1_loop.trips) (k0_t2 : Fin k0_t2_loop.trips), ∀ (k0_h2 : k0_cond2 i k0_t1 = 1#1), ∀ a, (k0_off5 k0_t2) a + S1x16.size a ≤ S224x224.size a
  k0_off6_inb : ∀ (i : grid0.Coords) (k0_t1 : Fin k0_t1_loop.trips) (k0_t2 : Fin k0_t2_loop.trips), ∀ (k0_h2 : k0_cond2 i k0_t1 = 1#1), ∀ a, (k0_off6 k0_t2) a + S1x16.size a ≤ S224x224.size a
  k0_off7_inb : ∀ (i : grid0.Coords) (k0_t1 : Fin k0_t1_loop.trips) (k0_t2 : Fin k0_t2_loop.trips), ∀ (k0_h2 : k0_cond2 i k0_t1 = 1#1), ∀ a, (k0_off7 k0_t2) a + S1x16.size a ≤ S224x224.size a
  k0_off8_inb : ∀ (i : grid0.Coords) (k0_t1 : Fin k0_t1_loop.trips) (k0_t2 : Fin k0_t2_loop.trips), ∀ (k0_h2 : k0_cond2 i k0_t1 = 1#1), ∀ a, (k0_off8 k0_t2) a + S1x16.size a ≤ S224x224.size a
  k0_off9_inb : ∀ (i : grid0.Coords) (k0_t1 : Fin k0_t1_loop.trips) (k0_t2 : Fin k0_t2_loop.trips), ∀ (k0_h2 : k0_cond2 i k0_t1 = 1#1), ∀ a, (k0_off9 k0_t2) a + S1x16.size a ≤ S224x224.size a
  k0_off10_inb : ∀ (i : grid0.Coords) (k0_t1 : Fin k0_t1_loop.trips) (k0_t2 : Fin k0_t2_loop.trips), ∀ (k0_h2 : k0_cond2 i k0_t1 = 1#1), ∀ a, (k0_off10 k0_t2) a + S1x16.size a ≤ S224x224.size a
  k0_off11_inb : ∀ (i : grid0.Coords) (k0_t1 : Fin k0_t1_loop.trips) (k0_t2 : Fin k0_t2_loop.trips), ∀ (k0_h2 : k0_cond2 i k0_t1 = 1#1), ∀ a, (k0_off11 k0_t2) a + S1x16.size a ≤ S224x224.size a
  k0_off12_inb : ∀ (i : grid0.Coords) (k0_t1 : Fin k0_t1_loop.trips) (k0_t2 : Fin k0_t2_loop.trips), ∀ (k0_h2 : k0_cond2 i k0_t1 = 1#1), ∀ a, (k0_off12 k0_t2) a + S1x16.size a ≤ S224x224.size a
  k0_off13_inb : ∀ (i : grid0.Coords) (k0_t1 : Fin k0_t1_loop.trips) (k0_t2 : Fin k0_t2_loop.trips), ∀ (k0_h2 : k0_cond2 i k0_t1 = 1#1), ∀ a, (k0_off13 k0_t2) a + S1x16.size a ≤ S224x224.size a
  k0_off14_inb : ∀ (i : grid0.Coords) (k0_t1 : Fin k0_t1_loop.trips) (k0_t2 : Fin k0_t2_loop.trips), ∀ (k0_h2 : k0_cond2 i k0_t1 = 1#1), ∀ a, (k0_off14 k0_t2) a + S1x16.size a ≤ S224x224.size a
  k0_off15_inb : ∀ (i : grid0.Coords) (k0_t1 : Fin k0_t1_loop.trips) (k0_t2 : Fin k0_t2_loop.trips), ∀ (k0_h2 : k0_cond2 i k0_t1 = 1#1), ∀ a, (k0_off15 k0_t2) a + S1x16.size a ≤ S224x224.size a
  k0_off16_inb : ∀ (i : grid0.Coords) (k0_t1 : Fin k0_t1_loop.trips) (k0_t2 : Fin k0_t2_loop.trips), ∀ (k0_h2 : k0_cond2 i k0_t1 = 1#1), ∀ a, (k0_off16 k0_t2) a + S1x16.size a ≤ S224x224.size a
  k0_off17_inb : ∀ (i : grid0.Coords) (k0_t1 : Fin k0_t1_loop.trips) (k0_t2 : Fin k0_t2_loop.trips), ∀ (k0_h2 : k0_cond2 i k0_t1 = 1#1), ∀ a, (k0_off17 k0_t2) a + S1x16.size a ≤ S224x224.size a
  k0_off18_inb : ∀ (i : grid0.Coords) (k0_t1 : Fin k0_t1_loop.trips) (k0_t2 : Fin k0_t2_loop.trips), ∀ (k0_h2 : k0_cond2 i k0_t1 = 1#1), ∀ a, (k0_off18 k0_t2) a + S1x16.size a ≤ S224x224.size a
  k0_off19_inb : ∀ (i : grid0.Coords) (k0_t1 : Fin k0_t1_loop.trips) (k0_t2 : Fin k0_t2_loop.trips), ∀ (k0_h2 : k0_cond2 i k0_t1 = 1#1), ∀ a, (k0_off19 k0_t2) a + S1x16.size a ≤ S224x224.size a
  k0_off20_inb : ∀ (i : grid0.Coords) (k0_t1 : Fin k0_t1_loop.trips) (k0_t2 : Fin k0_t2_loop.trips), ∀ (k0_h2 : k0_cond2 i k0_t1 = 1#1), ∀ a, (k0_off20 k0_t2) a + S1x16.size a ≤ S224x224.size a
  k0_off21_inb : ∀ (i : grid0.Coords) (k0_t1 : Fin k0_t1_loop.trips) (k0_t2 : Fin k0_t2_loop.trips), ∀ (k0_h2 : k0_cond2 i k0_t1 = 1#1), ∀ a, (k0_off21 k0_t2) a + S1x16.size a ≤ S224x224.size a
  k0_off22_inb : ∀ (i : grid0.Coords) (k0_t1 : Fin k0_t1_loop.trips) (k0_t2 : Fin k0_t2_loop.trips), ∀ (k0_h2 : k0_cond2 i k0_t1 = 1#1), ∀ a, (k0_off22 k0_t2) a + S1x16.size a ≤ S224x224.size a
  k0_off23_inb : ∀ (i : grid0.Coords) (k0_t1 : Fin k0_t1_loop.trips) (k0_t2 : Fin k0_t2_loop.trips), ∀ (k0_h2 : k0_cond2 i k0_t1 = 1#1), ∀ a, (k0_off23 k0_t2) a + S1x16.size a ≤ S224x224.size a
  k0_off24_inb : ∀ (i : grid0.Coords) (k0_t1 : Fin k0_t1_loop.trips) (k0_t2 : Fin k0_t2_loop.trips), ∀ (k0_h2 : k0_cond2 i k0_t1 = 1#1), ∀ a, (k0_off24 k0_t2) a + S1x16.size a ≤ S224x224.size a
  k0_off25_inb : ∀ (i : grid0.Coords) (k0_t1 : Fin k0_t1_loop.trips) (k0_t2 : Fin k0_t2_loop.trips), ∀ (k0_h2 : k0_cond2 i k0_t1 = 1#1), ∀ a, (k0_off25 k0_t2) a + S1x16.size a ≤ S224x224.size a
  k0_off26_inb : ∀ (i : grid0.Coords) (k0_t1 : Fin k0_t1_loop.trips) (k0_t2 : Fin k0_t2_loop.trips), ∀ (k0_h2 : k0_cond2 i k0_t1 = 1#1), ∀ a, (k0_off26 k0_t2) a + S1x16.size a ≤ S224x224.size a
  k0_off27_inb : ∀ (i : grid0.Coords) (k0_t1 : Fin k0_t1_loop.trips) (k0_t2 : Fin k0_t2_loop.trips), ∀ (k0_h2 : k0_cond2 i k0_t1 = 1#1), ∀ a, (k0_off27 k0_t2) a + S1x16.size a ≤ S224x224.size a
  k0_off28_inb : ∀ (i : grid0.Coords) (k0_t1 : Fin k0_t1_loop.trips) (k0_t2 : Fin k0_t2_loop.trips), ∀ (k0_h2 : k0_cond2 i k0_t1 = 1#1), ∀ a, (k0_off28 k0_t2) a + S1x16.size a ≤ S224x224.size a
  k0_off29_inb : ∀ (i : grid0.Coords) (k0_t1 : Fin k0_t1_loop.trips) (k0_t2 : Fin k0_t2_loop.trips), ∀ (k0_h2 : k0_cond2 i k0_t1 = 1#1), ∀ a, (k0_off29 k0_t2) a + S1x16.size a ≤ S224x224.size a
  k0_off30_inb : ∀ (i : grid0.Coords) (k0_t1 : Fin k0_t1_loop.trips) (k0_t2 : Fin k0_t2_loop.trips), ∀ (k0_h2 : k0_cond2 i k0_t1 = 1#1), ∀ a, (k0_off30 k0_t2) a + S1x16.size a ≤ S224x224.size a
  k0_off31_inb : ∀ (i : grid0.Coords) (k0_t1 : Fin k0_t1_loop.trips) (k0_t2 : Fin k0_t2_loop.trips), ∀ (k0_h2 : k0_cond2 i k0_t1 = 1#1), ∀ a, (k0_off31 k0_t2) a + S1x16.size a ≤ S224x224.size a
  k0_off32_inb : ∀ (i : grid0.Coords) (k0_t1 : Fin k0_t1_loop.trips) (k0_t2 : Fin k0_t2_loop.trips), ∀ (k0_h2 : k0_cond2 i k0_t1 = 1#1), ∀ a, (k0_off32 k0_t2) a + S1x16.size a ≤ S224x224.size a
  k0_t3_ok : ∀ (i : grid0.Coords) (k0_t1 : Fin k0_t1_loop.trips), ∀ (k0_h3 : k0_cond3 i k0_t1 = 1#1), k0_t3_loop.OK
  k0_off33_inb : ∀ (i : grid0.Coords) (k0_t1 : Fin k0_t1_loop.trips) (k0_t3 : Fin k0_t3_loop.trips), ∀ (k0_h3 : k0_cond3 i k0_t1 = 1#1), ∀ a, (k0_off33 k0_t3) a + S1x16.size a ≤ S224x224.size a
  k0_off34_inb : ∀ (i : grid0.Coords) (k0_t1 : Fin k0_t1_loop.trips) (k0_t3 : Fin k0_t3_loop.trips), ∀ (k0_h3 : k0_cond3 i k0_t1 = 1#1), ∀ a, (k0_off34 k0_t3) a + S1x16.size a ≤ S224x224.size a
  k0_off35_inb : ∀ (i : grid0.Coords) (k0_t1 : Fin k0_t1_loop.trips) (k0_t3 : Fin k0_t3_loop.trips), ∀ (k0_h3 : k0_cond3 i k0_t1 = 1#1), ∀ a, (k0_off35 k0_t3) a + S1x16.size a ≤ S224x224.size a
  k0_off36_inb : ∀ (i : grid0.Coords) (k0_t1 : Fin k0_t1_loop.trips) (k0_t3 : Fin k0_t3_loop.trips), ∀ (k0_h3 : k0_cond3 i k0_t1 = 1#1), ∀ a, (k0_off36 k0_t3) a + S1x16.size a ≤ S224x224.size a
  k0_off37_inb : ∀ (i : grid0.Coords) (k0_t1 : Fin k0_t1_loop.trips) (k0_t3 : Fin k0_t3_loop.trips), ∀ (k0_h3 : k0_cond3 i k0_t1 = 1#1), ∀ a, (k0_off37 k0_t3) a + S1x16.size a ≤ S224x224.size a
  k0_off38_inb : ∀ (i : grid0.Coords) (k0_t1 : Fin k0_t1_loop.trips) (k0_t3 : Fin k0_t3_loop.trips), ∀ (k0_h3 : k0_cond3 i k0_t1 = 1#1), ∀ a, (k0_off38 k0_t3) a + S1x16.size a ≤ S224x224.size a
  k0_off39_inb : ∀ (i : grid0.Coords) (k0_t1 : Fin k0_t1_loop.trips) (k0_t3 : Fin k0_t3_loop.trips), ∀ (k0_h3 : k0_cond3 i k0_t1 = 1#1), ∀ a, (k0_off39 k0_t3) a + S1x16.size a ≤ S224x224.size a
  k0_off40_inb : ∀ (i : grid0.Coords) (k0_t1 : Fin k0_t1_loop.trips) (k0_t3 : Fin k0_t3_loop.trips), ∀ (k0_h3 : k0_cond3 i k0_t1 = 1#1), ∀ a, (k0_off40 k0_t3) a + S1x16.size a ≤ S224x224.size a
  k0_off41_inb : ∀ (i : grid0.Coords) (k0_t1 : Fin k0_t1_loop.trips) (k0_t3 : Fin k0_t3_loop.trips), ∀ (k0_h3 : k0_cond3 i k0_t1 = 1#1), ∀ a, (k0_off41 k0_t3) a + S1x16.size a ≤ S224x224.size a
  k0_off42_inb : ∀ (i : grid0.Coords) (k0_t1 : Fin k0_t1_loop.trips) (k0_t3 : Fin k0_t3_loop.trips), ∀ (k0_h3 : k0_cond3 i k0_t1 = 1#1), ∀ a, (k0_off42 k0_t3) a + S1x16.size a ≤ S224x224.size a
  k0_off43_inb : ∀ (i : grid0.Coords) (k0_t1 : Fin k0_t1_loop.trips) (k0_t3 : Fin k0_t3_loop.trips), ∀ (k0_h3 : k0_cond3 i k0_t1 = 1#1), ∀ a, (k0_off43 k0_t3) a + S1x16.size a ≤ S224x224.size a
  k0_off44_inb : ∀ (i : grid0.Coords) (k0_t1 : Fin k0_t1_loop.trips) (k0_t3 : Fin k0_t3_loop.trips), ∀ (k0_h3 : k0_cond3 i k0_t1 = 1#1), ∀ a, (k0_off44 k0_t3) a + S1x16.size a ≤ S224x224.size a
  k0_off45_inb : ∀ (i : grid0.Coords) (k0_t1 : Fin k0_t1_loop.trips) (k0_t3 : Fin k0_t3_loop.trips), ∀ (k0_h3 : k0_cond3 i k0_t1 = 1#1), ∀ a, (k0_off45 k0_t3) a + S1x16.size a ≤ S224x224.size a
  k0_off46_inb : ∀ (i : grid0.Coords) (k0_t1 : Fin k0_t1_loop.trips) (k0_t3 : Fin k0_t3_loop.trips), ∀ (k0_h3 : k0_cond3 i k0_t1 = 1#1), ∀ a, (k0_off46 k0_t3) a + S1x16.size a ≤ S224x224.size a
  k0_off47_inb : ∀ (i : grid0.Coords) (k0_t1 : Fin k0_t1_loop.trips) (k0_t3 : Fin k0_t3_loop.trips), ∀ (k0_h3 : k0_cond3 i k0_t1 = 1#1), ∀ a, (k0_off47 k0_t3) a + S1x16.size a ≤ S224x224.size a
  k0_off48_inb : ∀ (i : grid0.Coords) (k0_t1 : Fin k0_t1_loop.trips) (k0_t3 : Fin k0_t3_loop.trips), ∀ (k0_h3 : k0_cond3 i k0_t1 = 1#1), ∀ a, (k0_off48 k0_t3) a + S1x16.size a ≤ S224x224.size a
  k0_off49_inb : ∀ (i : grid0.Coords) (k0_t1 : Fin k0_t1_loop.trips) (k0_t3 : Fin k0_t3_loop.trips), ∀ (k0_h3 : k0_cond3 i k0_t1 = 1#1), ∀ a, (k0_off49 k0_t3) a + S1x16.size a ≤ S224x224.size a
  k0_off50_inb : ∀ (i : grid0.Coords) (k0_t1 : Fin k0_t1_loop.trips) (k0_t3 : Fin k0_t3_loop.trips), ∀ (k0_h3 : k0_cond3 i k0_t1 = 1#1), ∀ a, (k0_off50 k0_t3) a + S1x16.size a ≤ S224x224.size a
  k0_off51_inb : ∀ (i : grid0.Coords) (k0_t1 : Fin k0_t1_loop.trips) (k0_t3 : Fin k0_t3_loop.trips), ∀ (k0_h3 : k0_cond3 i k0_t1 = 1#1), ∀ a, (k0_off51 k0_t3) a + S1x16.size a ≤ S224x224.size a
  k0_off52_inb : ∀ (i : grid0.Coords) (k0_t1 : Fin k0_t1_loop.trips) (k0_t3 : Fin k0_t3_loop.trips), ∀ (k0_h3 : k0_cond3 i k0_t1 = 1#1), ∀ a, (k0_off52 k0_t3) a + S1x16.size a ≤ S224x224.size a
  k0_off53_inb : ∀ (i : grid0.Coords) (k0_t1 : Fin k0_t1_loop.trips) (k0_t3 : Fin k0_t3_loop.trips), ∀ (k0_h3 : k0_cond3 i k0_t1 = 1#1), ∀ a, (k0_off53 k0_t3) a + S1x16.size a ≤ S224x224.size a
  k0_off54_inb : ∀ (i : grid0.Coords) (k0_t1 : Fin k0_t1_loop.trips) (k0_t3 : Fin k0_t3_loop.trips), ∀ (k0_h3 : k0_cond3 i k0_t1 = 1#1), ∀ a, (k0_off54 k0_t3) a + S1x16.size a ≤ S224x224.size a
  k0_off55_inb : ∀ (i : grid0.Coords) (k0_t1 : Fin k0_t1_loop.trips) (k0_t3 : Fin k0_t3_loop.trips), ∀ (k0_h3 : k0_cond3 i k0_t1 = 1#1), ∀ a, (k0_off55 k0_t3) a + S1x16.size a ≤ S224x224.size a
  k0_off56_inb : ∀ (i : grid0.Coords) (k0_t1 : Fin k0_t1_loop.trips) (k0_t3 : Fin k0_t3_loop.trips), ∀ (k0_h3 : k0_cond3 i k0_t1 = 1#1), ∀ a, (k0_off56 k0_t3) a + S1x16.size a ≤ S224x224.size a
  k0_off57_inb : ∀ (i : grid0.Coords) (k0_t1 : Fin k0_t1_loop.trips) (k0_t3 : Fin k0_t3_loop.trips), ∀ (k0_h3 : k0_cond3 i k0_t1 = 1#1), ∀ a, (k0_off57 k0_t3) a + S1x16.size a ≤ S224x224.size a
  k0_off58_inb : ∀ (i : grid0.Coords) (k0_t1 : Fin k0_t1_loop.trips) (k0_t3 : Fin k0_t3_loop.trips), ∀ (k0_h3 : k0_cond3 i k0_t1 = 1#1), ∀ a, (k0_off58 k0_t3) a + S1x16.size a ≤ S224x224.size a
  k0_off59_inb : ∀ (i : grid0.Coords) (k0_t1 : Fin k0_t1_loop.trips) (k0_t3 : Fin k0_t3_loop.trips), ∀ (k0_h3 : k0_cond3 i k0_t1 = 1#1), ∀ a, (k0_off59 k0_t3) a + S1x16.size a ≤ S224x224.size a
  k0_off60_inb : ∀ (i : grid0.Coords) (k0_t1 : Fin k0_t1_loop.trips) (k0_t3 : Fin k0_t3_loop.trips), ∀ (k0_h3 : k0_cond3 i k0_t1 = 1#1), ∀ a, (k0_off60 k0_t3) a + S1x16.size a ≤ S224x224.size a
  k0_t4_ok : ∀ (i : grid0.Coords) (k0_t1 : Fin k0_t1_loop.trips), ∀ (k0_h4 : k0_cond4 i k0_t1 = 1#1), k0_t4_loop.OK
  k0_off61_inb : ∀ (i : grid0.Coords) (k0_t1 : Fin k0_t1_loop.trips) (k0_t4 : Fin k0_t4_loop.trips), ∀ (k0_h4 : k0_cond4 i k0_t1 = 1#1), ∀ a, (k0_off61 k0_t4) a + S1x16.size a ≤ S224x224.size a
  k0_off62_inb : ∀ (i : grid0.Coords) (k0_t1 : Fin k0_t1_loop.trips) (k0_t4 : Fin k0_t4_loop.trips), ∀ (k0_h4 : k0_cond4 i k0_t1 = 1#1), ∀ a, (k0_off62 k0_t4) a + S1x16.size a ≤ S224x224.size a
  k0_off63_inb : ∀ (i : grid0.Coords) (k0_t1 : Fin k0_t1_loop.trips) (k0_t4 : Fin k0_t4_loop.trips), ∀ (k0_h4 : k0_cond4 i k0_t1 = 1#1), ∀ a, (k0_off63 k0_t4) a + S1x16.size a ≤ S224x224.size a
  k0_off64_inb : ∀ (i : grid0.Coords) (k0_t1 : Fin k0_t1_loop.trips) (k0_t4 : Fin k0_t4_loop.trips), ∀ (k0_h4 : k0_cond4 i k0_t1 = 1#1), ∀ a, (k0_off64 k0_t4) a + S1x16.size a ≤ S224x224.size a
  k0_off65_inb : ∀ (i : grid0.Coords) (k0_t1 : Fin k0_t1_loop.trips) (k0_t4 : Fin k0_t4_loop.trips), ∀ (k0_h4 : k0_cond4 i k0_t1 = 1#1), ∀ a, (k0_off65 k0_t4) a + S1x16.size a ≤ S224x224.size a
  k0_off66_inb : ∀ (i : grid0.Coords) (k0_t1 : Fin k0_t1_loop.trips) (k0_t4 : Fin k0_t4_loop.trips), ∀ (k0_h4 : k0_cond4 i k0_t1 = 1#1), ∀ a, (k0_off66 k0_t4) a + S1x16.size a ≤ S224x224.size a
  k0_off67_inb : ∀ (i : grid0.Coords) (k0_t1 : Fin k0_t1_loop.trips) (k0_t4 : Fin k0_t4_loop.trips), ∀ (k0_h4 : k0_cond4 i k0_t1 = 1#1), ∀ a, (k0_off67 k0_t4) a + S1x16.size a ≤ S224x224.size a
  k0_off68_inb : ∀ (i : grid0.Coords) (k0_t1 : Fin k0_t1_loop.trips) (k0_t4 : Fin k0_t4_loop.trips), ∀ (k0_h4 : k0_cond4 i k0_t1 = 1#1), ∀ a, (k0_off68 k0_t4) a + S1x16.size a ≤ S224x224.size a
  k0_off69_inb : ∀ (i : grid0.Coords) (k0_t1 : Fin k0_t1_loop.trips) (k0_t4 : Fin k0_t4_loop.trips), ∀ (k0_h4 : k0_cond4 i k0_t1 = 1#1), ∀ a, (k0_off69 k0_t4) a + S1x16.size a ≤ S224x224.size a
  k0_off70_inb : ∀ (i : grid0.Coords) (k0_t1 : Fin k0_t1_loop.trips) (k0_t4 : Fin k0_t4_loop.trips), ∀ (k0_h4 : k0_cond4 i k0_t1 = 1#1), ∀ a, (k0_off70 k0_t4) a + S1x16.size a ≤ S224x224.size a
  k0_off71_inb : ∀ (i : grid0.Coords) (k0_t1 : Fin k0_t1_loop.trips) (k0_t4 : Fin k0_t4_loop.trips), ∀ (k0_h4 : k0_cond4 i k0_t1 = 1#1), ∀ a, (k0_off71 k0_t4) a + S1x16.size a ≤ S224x224.size a
  k0_off72_inb : ∀ (i : grid0.Coords) (k0_t1 : Fin k0_t1_loop.trips) (k0_t4 : Fin k0_t4_loop.trips), ∀ (k0_h4 : k0_cond4 i k0_t1 = 1#1), ∀ a, (k0_off72 k0_t4) a + S1x16.size a ≤ S224x224.size a
  k0_off73_inb : ∀ (i : grid0.Coords) (k0_t1 : Fin k0_t1_loop.trips) (k0_t4 : Fin k0_t4_loop.trips), ∀ (k0_h4 : k0_cond4 i k0_t1 = 1#1), ∀ a, (k0_off73 k0_t4) a + S1x16.size a ≤ S224x224.size a
  k0_off74_inb : ∀ (i : grid0.Coords) (k0_t1 : Fin k0_t1_loop.trips) (k0_t4 : Fin k0_t4_loop.trips), ∀ (k0_h4 : k0_cond4 i k0_t1 = 1#1), ∀ a, (k0_off74 k0_t4) a + S1x16.size a ≤ S224x224.size a
  k0_off75_inb : ∀ (i : grid0.Coords) (k0_t1 : Fin k0_t1_loop.trips) (k0_t4 : Fin k0_t4_loop.trips), ∀ (k0_h4 : k0_cond4 i k0_t1 = 1#1), ∀ a, (k0_off75 k0_t4) a + S1x16.size a ≤ S224x224.size a
  k0_off76_inb : ∀ (i : grid0.Coords) (k0_t1 : Fin k0_t1_loop.trips) (k0_t4 : Fin k0_t4_loop.trips), ∀ (k0_h4 : k0_cond4 i k0_t1 = 1#1), ∀ a, (k0_off76 k0_t4) a + S1x16.size a ≤ S224x224.size a
  k0_off77_inb : ∀ (i : grid0.Coords) (k0_t1 : Fin k0_t1_loop.trips) (k0_t4 : Fin k0_t4_loop.trips), ∀ (k0_h4 : k0_cond4 i k0_t1 = 1#1), ∀ a, (k0_off77 k0_t4) a + S1x16.size a ≤ S224x224.size a
  k0_off78_inb : ∀ (i : grid0.Coords) (k0_t1 : Fin k0_t1_loop.trips) (k0_t4 : Fin k0_t4_loop.trips), ∀ (k0_h4 : k0_cond4 i k0_t1 = 1#1), ∀ a, (k0_off78 k0_t4) a + S1x16.size a ≤ S224x224.size a
  k0_off79_inb : ∀ (i : grid0.Coords) (k0_t1 : Fin k0_t1_loop.trips) (k0_t4 : Fin k0_t4_loop.trips), ∀ (k0_h4 : k0_cond4 i k0_t1 = 1#1), ∀ a, (k0_off79 k0_t4) a + S1x16.size a ≤ S224x224.size a
  k0_off80_inb : ∀ (i : grid0.Coords) (k0_t1 : Fin k0_t1_loop.trips) (k0_t4 : Fin k0_t4_loop.trips), ∀ (k0_h4 : k0_cond4 i k0_t1 = 1#1), ∀ a, (k0_off80 k0_t4) a + S1x16.size a ≤ S224x224.size a
  k0_off81_inb : ∀ (i : grid0.Coords) (k0_t1 : Fin k0_t1_loop.trips) (k0_t4 : Fin k0_t4_loop.trips), ∀ (k0_h4 : k0_cond4 i k0_t1 = 1#1), ∀ a, (k0_off81 k0_t4) a + S1x16.size a ≤ S224x224.size a
  k0_off82_inb : ∀ (i : grid0.Coords) (k0_t1 : Fin k0_t1_loop.trips) (k0_t4 : Fin k0_t4_loop.trips), ∀ (k0_h4 : k0_cond4 i k0_t1 = 1#1), ∀ a, (k0_off82 k0_t4) a + S1x16.size a ≤ S224x224.size a
  k0_off83_inb : ∀ (i : grid0.Coords) (k0_t1 : Fin k0_t1_loop.trips) (k0_t4 : Fin k0_t4_loop.trips), ∀ (k0_h4 : k0_cond4 i k0_t1 = 1#1), ∀ a, (k0_off83 k0_t4) a + S1x16.size a ≤ S224x224.size a
  k0_off84_inb : ∀ (i : grid0.Coords) (k0_t1 : Fin k0_t1_loop.trips) (k0_t4 : Fin k0_t4_loop.trips), ∀ (k0_h4 : k0_cond4 i k0_t1 = 1#1), ∀ a, (k0_off84 k0_t4) a + S1x16.size a ≤ S224x224.size a
  k0_off85_inb : ∀ (i : grid0.Coords) (k0_t1 : Fin k0_t1_loop.trips) (k0_t4 : Fin k0_t4_loop.trips), ∀ (k0_h4 : k0_cond4 i k0_t1 = 1#1), ∀ a, (k0_off85 k0_t4) a + S1x16.size a ≤ S224x224.size a
  k0_off86_inb : ∀ (i : grid0.Coords) (k0_t1 : Fin k0_t1_loop.trips) (k0_t4 : Fin k0_t4_loop.trips), ∀ (k0_h4 : k0_cond4 i k0_t1 = 1#1), ∀ a, (k0_off86 k0_t4) a + S1x16.size a ≤ S224x224.size a
  k0_off87_inb : ∀ (i : grid0.Coords) (k0_t1 : Fin k0_t1_loop.trips) (k0_t4 : Fin k0_t4_loop.trips), ∀ (k0_h4 : k0_cond4 i k0_t1 = 1#1), ∀ a, (k0_off87 k0_t4) a + S1x16.size a ≤ S224x224.size a
  k0_off88_inb : ∀ (i : grid0.Coords) (k0_t1 : Fin k0_t1_loop.trips) (k0_t4 : Fin k0_t4_loop.trips), ∀ (k0_h4 : k0_cond4 i k0_t1 = 1#1), ∀ a, (k0_off88 k0_t4) a + S1x16.size a ≤ S224x224.size a
  k0_t5_ok : ∀ (i : grid0.Coords) (k0_t1 : Fin k0_t1_loop.trips), ∀ (k0_h5 : k0_cond5 i k0_t1 = 1#1), k0_t5_loop.OK
  k0_off89_inb : ∀ (i : grid0.Coords) (k0_t1 : Fin k0_t1_loop.trips) (k0_t5 : Fin k0_t5_loop.trips), ∀ (k0_h5 : k0_cond5 i k0_t1 = 1#1), ∀ a, (k0_off89 k0_t5) a + S1x16.size a ≤ S224x224.size a
  k0_off90_inb : ∀ (i : grid0.Coords) (k0_t1 : Fin k0_t1_loop.trips) (k0_t5 : Fin k0_t5_loop.trips), ∀ (k0_h5 : k0_cond5 i k0_t1 = 1#1), ∀ a, (k0_off90 k0_t5) a + S1x16.size a ≤ S224x224.size a
  k0_off91_inb : ∀ (i : grid0.Coords) (k0_t1 : Fin k0_t1_loop.trips) (k0_t5 : Fin k0_t5_loop.trips), ∀ (k0_h5 : k0_cond5 i k0_t1 = 1#1), ∀ a, (k0_off91 k0_t5) a + S1x16.size a ≤ S224x224.size a
  k0_off92_inb : ∀ (i : grid0.Coords) (k0_t1 : Fin k0_t1_loop.trips) (k0_t5 : Fin k0_t5_loop.trips), ∀ (k0_h5 : k0_cond5 i k0_t1 = 1#1), ∀ a, (k0_off92 k0_t5) a + S1x16.size a ≤ S224x224.size a
  k0_off93_inb : ∀ (i : grid0.Coords) (k0_t1 : Fin k0_t1_loop.trips) (k0_t5 : Fin k0_t5_loop.trips), ∀ (k0_h5 : k0_cond5 i k0_t1 = 1#1), ∀ a, (k0_off93 k0_t5) a + S1x16.size a ≤ S224x224.size a
  k0_off94_inb : ∀ (i : grid0.Coords) (k0_t1 : Fin k0_t1_loop.trips) (k0_t5 : Fin k0_t5_loop.trips), ∀ (k0_h5 : k0_cond5 i k0_t1 = 1#1), ∀ a, (k0_off94 k0_t5) a + S1x16.size a ≤ S224x224.size a
  k0_off95_inb : ∀ (i : grid0.Coords) (k0_t1 : Fin k0_t1_loop.trips) (k0_t5 : Fin k0_t5_loop.trips), ∀ (k0_h5 : k0_cond5 i k0_t1 = 1#1), ∀ a, (k0_off95 k0_t5) a + S1x16.size a ≤ S224x224.size a
  k0_off96_inb : ∀ (i : grid0.Coords) (k0_t1 : Fin k0_t1_loop.trips) (k0_t5 : Fin k0_t5_loop.trips), ∀ (k0_h5 : k0_cond5 i k0_t1 = 1#1), ∀ a, (k0_off96 k0_t5) a + S1x16.size a ≤ S224x224.size a
  k0_off97_inb : ∀ (i : grid0.Coords) (k0_t1 : Fin k0_t1_loop.trips) (k0_t5 : Fin k0_t5_loop.trips), ∀ (k0_h5 : k0_cond5 i k0_t1 = 1#1), ∀ a, (k0_off97 k0_t5) a + S1x16.size a ≤ S224x224.size a
  k0_off98_inb : ∀ (i : grid0.Coords) (k0_t1 : Fin k0_t1_loop.trips) (k0_t5 : Fin k0_t5_loop.trips), ∀ (k0_h5 : k0_cond5 i k0_t1 = 1#1), ∀ a, (k0_off98 k0_t5) a + S1x16.size a ≤ S224x224.size a
  k0_off99_inb : ∀ (i : grid0.Coords) (k0_t1 : Fin k0_t1_loop.trips) (k0_t5 : Fin k0_t5_loop.trips), ∀ (k0_h5 : k0_cond5 i k0_t1 = 1#1), ∀ a, (k0_off99 k0_t5) a + S1x16.size a ≤ S224x224.size a
  k0_off100_inb : ∀ (i : grid0.Coords) (k0_t1 : Fin k0_t1_loop.trips) (k0_t5 : Fin k0_t5_loop.trips), ∀ (k0_h5 : k0_cond5 i k0_t1 = 1#1), ∀ a, (k0_off100 k0_t5) a + S1x16.size a ≤ S224x224.size a
  k0_off101_inb : ∀ (i : grid0.Coords) (k0_t1 : Fin k0_t1_loop.trips) (k0_t5 : Fin k0_t5_loop.trips), ∀ (k0_h5 : k0_cond5 i k0_t1 = 1#1), ∀ a, (k0_off101 k0_t5) a + S1x16.size a ≤ S224x224.size a
  k0_off102_inb : ∀ (i : grid0.Coords) (k0_t1 : Fin k0_t1_loop.trips) (k0_t5 : Fin k0_t5_loop.trips), ∀ (k0_h5 : k0_cond5 i k0_t1 = 1#1), ∀ a, (k0_off102 k0_t5) a + S1x16.size a ≤ S224x224.size a
  k0_off103_inb : ∀ (i : grid0.Coords) (k0_t1 : Fin k0_t1_loop.trips) (k0_t5 : Fin k0_t5_loop.trips), ∀ (k0_h5 : k0_cond5 i k0_t1 = 1#1), ∀ a, (k0_off103 k0_t5) a + S1x16.size a ≤ S224x224.size a
  k0_off104_inb : ∀ (i : grid0.Coords) (k0_t1 : Fin k0_t1_loop.trips) (k0_t5 : Fin k0_t5_loop.trips), ∀ (k0_h5 : k0_cond5 i k0_t1 = 1#1), ∀ a, (k0_off104 k0_t5) a + S1x16.size a ≤ S224x224.size a
  k0_off105_inb : ∀ (i : grid0.Coords) (k0_t1 : Fin k0_t1_loop.trips) (k0_t5 : Fin k0_t5_loop.trips), ∀ (k0_h5 : k0_cond5 i k0_t1 = 1#1), ∀ a, (k0_off105 k0_t5) a + S1x16.size a ≤ S224x224.size a
  k0_off106_inb : ∀ (i : grid0.Coords) (k0_t1 : Fin k0_t1_loop.trips) (k0_t5 : Fin k0_t5_loop.trips), ∀ (k0_h5 : k0_cond5 i k0_t1 = 1#1), ∀ a, (k0_off106 k0_t5) a + S1x16.size a ≤ S224x224.size a
  k0_off107_inb : ∀ (i : grid0.Coords) (k0_t1 : Fin k0_t1_loop.trips) (k0_t5 : Fin k0_t5_loop.trips), ∀ (k0_h5 : k0_cond5 i k0_t1 = 1#1), ∀ a, (k0_off107 k0_t5) a + S1x16.size a ≤ S224x224.size a
  k0_off108_inb : ∀ (i : grid0.Coords) (k0_t1 : Fin k0_t1_loop.trips) (k0_t5 : Fin k0_t5_loop.trips), ∀ (k0_h5 : k0_cond5 i k0_t1 = 1#1), ∀ a, (k0_off108 k0_t5) a + S1x16.size a ≤ S224x224.size a
  k0_off109_inb : ∀ (i : grid0.Coords) (k0_t1 : Fin k0_t1_loop.trips) (k0_t5 : Fin k0_t5_loop.trips), ∀ (k0_h5 : k0_cond5 i k0_t1 = 1#1), ∀ a, (k0_off109 k0_t5) a + S1x16.size a ≤ S224x224.size a
  k0_off110_inb : ∀ (i : grid0.Coords) (k0_t1 : Fin k0_t1_loop.trips) (k0_t5 : Fin k0_t5_loop.trips), ∀ (k0_h5 : k0_cond5 i k0_t1 = 1#1), ∀ a, (k0_off110 k0_t5) a + S1x16.size a ≤ S224x224.size a
  k0_off111_inb : ∀ (i : grid0.Coords) (k0_t1 : Fin k0_t1_loop.trips) (k0_t5 : Fin k0_t5_loop.trips), ∀ (k0_h5 : k0_cond5 i k0_t1 = 1#1), ∀ a, (k0_off111 k0_t5) a + S1x16.size a ≤ S224x224.size a
  k0_off112_inb : ∀ (i : grid0.Coords) (k0_t1 : Fin k0_t1_loop.trips) (k0_t5 : Fin k0_t5_loop.trips), ∀ (k0_h5 : k0_cond5 i k0_t1 = 1#1), ∀ a, (k0_off112 k0_t5) a + S1x16.size a ≤ S224x224.size a
  k0_off113_inb : ∀ (i : grid0.Coords) (k0_t1 : Fin k0_t1_loop.trips) (k0_t5 : Fin k0_t5_loop.trips), ∀ (k0_h5 : k0_cond5 i k0_t1 = 1#1), ∀ a, (k0_off113 k0_t5) a + S1x16.size a ≤ S224x224.size a
  k0_off114_inb : ∀ (i : grid0.Coords) (k0_t1 : Fin k0_t1_loop.trips) (k0_t5 : Fin k0_t5_loop.trips), ∀ (k0_h5 : k0_cond5 i k0_t1 = 1#1), ∀ a, (k0_off114 k0_t5) a + S1x16.size a ≤ S224x224.size a
  k0_off115_inb : ∀ (i : grid0.Coords) (k0_t1 : Fin k0_t1_loop.trips) (k0_t5 : Fin k0_t5_loop.trips), ∀ (k0_h5 : k0_cond5 i k0_t1 = 1#1), ∀ a, (k0_off115 k0_t5) a + S1x16.size a ≤ S224x224.size a
  k0_off116_inb : ∀ (i : grid0.Coords) (k0_t1 : Fin k0_t1_loop.trips) (k0_t5 : Fin k0_t5_loop.trips), ∀ (k0_h5 : k0_cond5 i k0_t1 = 1#1), ∀ a, (k0_off116 k0_t5) a + S1x16.size a ≤ S224x224.size a
  k0_t6_ok : ∀ (i : grid0.Coords) (k0_t1 : Fin k0_t1_loop.trips), ∀ (k0_h6 : k0_cond6 i k0_t1 = 1#1), k0_t6_loop.OK
  k0_off117_inb : ∀ (i : grid0.Coords) (k0_t1 : Fin k0_t1_loop.trips) (k0_t6 : Fin k0_t6_loop.trips), ∀ (k0_h6 : k0_cond6 i k0_t1 = 1#1), ∀ a, (k0_off117 k0_t6) a + S1x16.size a ≤ S224x224.size a
  k0_off118_inb : ∀ (i : grid0.Coords) (k0_t1 : Fin k0_t1_loop.trips) (k0_t6 : Fin k0_t6_loop.trips), ∀ (k0_h6 : k0_cond6 i k0_t1 = 1#1), ∀ a, (k0_off118 k0_t6) a + S1x16.size a ≤ S224x224.size a
  k0_off119_inb : ∀ (i : grid0.Coords) (k0_t1 : Fin k0_t1_loop.trips) (k0_t6 : Fin k0_t6_loop.trips), ∀ (k0_h6 : k0_cond6 i k0_t1 = 1#1), ∀ a, (k0_off119 k0_t6) a + S1x16.size a ≤ S224x224.size a
  k0_off120_inb : ∀ (i : grid0.Coords) (k0_t1 : Fin k0_t1_loop.trips) (k0_t6 : Fin k0_t6_loop.trips), ∀ (k0_h6 : k0_cond6 i k0_t1 = 1#1), ∀ a, (k0_off120 k0_t6) a + S1x16.size a ≤ S224x224.size a
  k0_off121_inb : ∀ (i : grid0.Coords) (k0_t1 : Fin k0_t1_loop.trips) (k0_t6 : Fin k0_t6_loop.trips), ∀ (k0_h6 : k0_cond6 i k0_t1 = 1#1), ∀ a, (k0_off121 k0_t6) a + S1x16.size a ≤ S224x224.size a
  k0_off122_inb : ∀ (i : grid0.Coords) (k0_t1 : Fin k0_t1_loop.trips) (k0_t6 : Fin k0_t6_loop.trips), ∀ (k0_h6 : k0_cond6 i k0_t1 = 1#1), ∀ a, (k0_off122 k0_t6) a + S1x16.size a ≤ S224x224.size a
  k0_off123_inb : ∀ (i : grid0.Coords) (k0_t1 : Fin k0_t1_loop.trips) (k0_t6 : Fin k0_t6_loop.trips), ∀ (k0_h6 : k0_cond6 i k0_t1 = 1#1), ∀ a, (k0_off123 k0_t6) a + S1x16.size a ≤ S224x224.size a
  k0_off124_inb : ∀ (i : grid0.Coords) (k0_t1 : Fin k0_t1_loop.trips) (k0_t6 : Fin k0_t6_loop.trips), ∀ (k0_h6 : k0_cond6 i k0_t1 = 1#1), ∀ a, (k0_off124 k0_t6) a + S1x16.size a ≤ S224x224.size a
  k0_off125_inb : ∀ (i : grid0.Coords) (k0_t1 : Fin k0_t1_loop.trips) (k0_t6 : Fin k0_t6_loop.trips), ∀ (k0_h6 : k0_cond6 i k0_t1 = 1#1), ∀ a, (k0_off125 k0_t6) a + S1x16.size a ≤ S224x224.size a
  k0_off126_inb : ∀ (i : grid0.Coords) (k0_t1 : Fin k0_t1_loop.trips) (k0_t6 : Fin k0_t6_loop.trips), ∀ (k0_h6 : k0_cond6 i k0_t1 = 1#1), ∀ a, (k0_off126 k0_t6) a + S1x16.size a ≤ S224x224.size a
  k0_off127_inb : ∀ (i : grid0.Coords) (k0_t1 : Fin k0_t1_loop.trips) (k0_t6 : Fin k0_t6_loop.trips), ∀ (k0_h6 : k0_cond6 i k0_t1 = 1#1), ∀ a, (k0_off127 k0_t6) a + S1x16.size a ≤ S224x224.size a
  k0_off128_inb : ∀ (i : grid0.Coords) (k0_t1 : Fin k0_t1_loop.trips) (k0_t6 : Fin k0_t6_loop.trips), ∀ (k0_h6 : k0_cond6 i k0_t1 = 1#1), ∀ a, (k0_off128 k0_t6) a + S1x16.size a ≤ S224x224.size a
  k0_off129_inb : ∀ (i : grid0.Coords) (k0_t1 : Fin k0_t1_loop.trips) (k0_t6 : Fin k0_t6_loop.trips), ∀ (k0_h6 : k0_cond6 i k0_t1 = 1#1), ∀ a, (k0_off129 k0_t6) a + S1x16.size a ≤ S224x224.size a
  k0_off130_inb : ∀ (i : grid0.Coords) (k0_t1 : Fin k0_t1_loop.trips) (k0_t6 : Fin k0_t6_loop.trips), ∀ (k0_h6 : k0_cond6 i k0_t1 = 1#1), ∀ a, (k0_off130 k0_t6) a + S1x16.size a ≤ S224x224.size a
  k0_off131_inb : ∀ (i : grid0.Coords) (k0_t1 : Fin k0_t1_loop.trips) (k0_t6 : Fin k0_t6_loop.trips), ∀ (k0_h6 : k0_cond6 i k0_t1 = 1#1), ∀ a, (k0_off131 k0_t6) a + S1x16.size a ≤ S224x224.size a
  k0_off132_inb : ∀ (i : grid0.Coords) (k0_t1 : Fin k0_t1_loop.trips) (k0_t6 : Fin k0_t6_loop.trips), ∀ (k0_h6 : k0_cond6 i k0_t1 = 1#1), ∀ a, (k0_off132 k0_t6) a + S1x16.size a ≤ S224x224.size a
  k0_off133_inb : ∀ (i : grid0.Coords) (k0_t1 : Fin k0_t1_loop.trips) (k0_t6 : Fin k0_t6_loop.trips), ∀ (k0_h6 : k0_cond6 i k0_t1 = 1#1), ∀ a, (k0_off133 k0_t6) a + S1x16.size a ≤ S224x224.size a
  k0_off134_inb : ∀ (i : grid0.Coords) (k0_t1 : Fin k0_t1_loop.trips) (k0_t6 : Fin k0_t6_loop.trips), ∀ (k0_h6 : k0_cond6 i k0_t1 = 1#1), ∀ a, (k0_off134 k0_t6) a + S1x16.size a ≤ S224x224.size a
  k0_off135_inb : ∀ (i : grid0.Coords) (k0_t1 : Fin k0_t1_loop.trips) (k0_t6 : Fin k0_t6_loop.trips), ∀ (k0_h6 : k0_cond6 i k0_t1 = 1#1), ∀ a, (k0_off135 k0_t6) a + S1x16.size a ≤ S224x224.size a
  k0_off136_inb : ∀ (i : grid0.Coords) (k0_t1 : Fin k0_t1_loop.trips) (k0_t6 : Fin k0_t6_loop.trips), ∀ (k0_h6 : k0_cond6 i k0_t1 = 1#1), ∀ a, (k0_off136 k0_t6) a + S1x16.size a ≤ S224x224.size a
  k0_off137_inb : ∀ (i : grid0.Coords) (k0_t1 : Fin k0_t1_loop.trips) (k0_t6 : Fin k0_t6_loop.trips), ∀ (k0_h6 : k0_cond6 i k0_t1 = 1#1), ∀ a, (k0_off137 k0_t6) a + S1x16.size a ≤ S224x224.size a
  k0_off138_inb : ∀ (i : grid0.Coords) (k0_t1 : Fin k0_t1_loop.trips) (k0_t6 : Fin k0_t6_loop.trips), ∀ (k0_h6 : k0_cond6 i k0_t1 = 1#1), ∀ a, (k0_off138 k0_t6) a + S1x16.size a ≤ S224x224.size a
  k0_off139_inb : ∀ (i : grid0.Coords) (k0_t1 : Fin k0_t1_loop.trips) (k0_t6 : Fin k0_t6_loop.trips), ∀ (k0_h6 : k0_cond6 i k0_t1 = 1#1), ∀ a, (k0_off139 k0_t6) a + S1x16.size a ≤ S224x224.size a
  k0_off140_inb : ∀ (i : grid0.Coords) (k0_t1 : Fin k0_t1_loop.trips) (k0_t6 : Fin k0_t6_loop.trips), ∀ (k0_h6 : k0_cond6 i k0_t1 = 1#1), ∀ a, (k0_off140 k0_t6) a + S1x16.size a ≤ S224x224.size a
  k0_off141_inb : ∀ (i : grid0.Coords) (k0_t1 : Fin k0_t1_loop.trips) (k0_t6 : Fin k0_t6_loop.trips), ∀ (k0_h6 : k0_cond6 i k0_t1 = 1#1), ∀ a, (k0_off141 k0_t6) a + S1x16.size a ≤ S224x224.size a
  k0_off142_inb : ∀ (i : grid0.Coords) (k0_t1 : Fin k0_t1_loop.trips) (k0_t6 : Fin k0_t6_loop.trips), ∀ (k0_h6 : k0_cond6 i k0_t1 = 1#1), ∀ a, (k0_off142 k0_t6) a + S1x16.size a ≤ S224x224.size a
  k0_off143_inb : ∀ (i : grid0.Coords) (k0_t1 : Fin k0_t1_loop.trips) (k0_t6 : Fin k0_t6_loop.trips), ∀ (k0_h6 : k0_cond6 i k0_t1 = 1#1), ∀ a, (k0_off143 k0_t6) a + S1x16.size a ≤ S224x224.size a
  k0_off144_inb : ∀ (i : grid0.Coords) (k0_t1 : Fin k0_t1_loop.trips) (k0_t6 : Fin k0_t6_loop.trips), ∀ (k0_h6 : k0_cond6 i k0_t1 = 1#1), ∀ a, (k0_off144 k0_t6) a + S1x16.size a ≤ S224x224.size a
  k0_t7_ok : ∀ (i : grid0.Coords) (k0_t1 : Fin k0_t1_loop.trips), ∀ (k0_h7 : k0_cond7 i k0_t1 = 1#1), k0_t7_loop.OK
  k0_off145_inb : ∀ (i : grid0.Coords) (k0_t1 : Fin k0_t1_loop.trips) (k0_t7 : Fin k0_t7_loop.trips), ∀ (k0_h7 : k0_cond7 i k0_t1 = 1#1), ∀ a, (k0_off145 k0_t7) a + S1x16.size a ≤ S224x224.size a
  k0_off146_inb : ∀ (i : grid0.Coords) (k0_t1 : Fin k0_t1_loop.trips) (k0_t7 : Fin k0_t7_loop.trips), ∀ (k0_h7 : k0_cond7 i k0_t1 = 1#1), ∀ a, (k0_off146 k0_t7) a + S1x16.size a ≤ S224x224.size a
  k0_off147_inb : ∀ (i : grid0.Coords) (k0_t1 : Fin k0_t1_loop.trips) (k0_t7 : Fin k0_t7_loop.trips), ∀ (k0_h7 : k0_cond7 i k0_t1 = 1#1), ∀ a, (k0_off147 k0_t7) a + S1x16.size a ≤ S224x224.size a
  k0_off148_inb : ∀ (i : grid0.Coords) (k0_t1 : Fin k0_t1_loop.trips) (k0_t7 : Fin k0_t7_loop.trips), ∀ (k0_h7 : k0_cond7 i k0_t1 = 1#1), ∀ a, (k0_off148 k0_t7) a + S1x16.size a ≤ S224x224.size a
  k0_off149_inb : ∀ (i : grid0.Coords) (k0_t1 : Fin k0_t1_loop.trips) (k0_t7 : Fin k0_t7_loop.trips), ∀ (k0_h7 : k0_cond7 i k0_t1 = 1#1), ∀ a, (k0_off149 k0_t7) a + S1x16.size a ≤ S224x224.size a
  k0_off150_inb : ∀ (i : grid0.Coords) (k0_t1 : Fin k0_t1_loop.trips) (k0_t7 : Fin k0_t7_loop.trips), ∀ (k0_h7 : k0_cond7 i k0_t1 = 1#1), ∀ a, (k0_off150 k0_t7) a + S1x16.size a ≤ S224x224.size a
  k0_off151_inb : ∀ (i : grid0.Coords) (k0_t1 : Fin k0_t1_loop.trips) (k0_t7 : Fin k0_t7_loop.trips), ∀ (k0_h7 : k0_cond7 i k0_t1 = 1#1), ∀ a, (k0_off151 k0_t7) a + S1x16.size a ≤ S224x224.size a
  k0_off152_inb : ∀ (i : grid0.Coords) (k0_t1 : Fin k0_t1_loop.trips) (k0_t7 : Fin k0_t7_loop.trips), ∀ (k0_h7 : k0_cond7 i k0_t1 = 1#1), ∀ a, (k0_off152 k0_t7) a + S1x16.size a ≤ S224x224.size a
  k0_off153_inb : ∀ (i : grid0.Coords) (k0_t1 : Fin k0_t1_loop.trips) (k0_t7 : Fin k0_t7_loop.trips), ∀ (k0_h7 : k0_cond7 i k0_t1 = 1#1), ∀ a, (k0_off153 k0_t7) a + S1x16.size a ≤ S224x224.size a
  k0_off154_inb : ∀ (i : grid0.Coords) (k0_t1 : Fin k0_t1_loop.trips) (k0_t7 : Fin k0_t7_loop.trips), ∀ (k0_h7 : k0_cond7 i k0_t1 = 1#1), ∀ a, (k0_off154 k0_t7) a + S1x16.size a ≤ S224x224.size a
  k0_off155_inb : ∀ (i : grid0.Coords) (k0_t1 : Fin k0_t1_loop.trips) (k0_t7 : Fin k0_t7_loop.trips), ∀ (k0_h7 : k0_cond7 i k0_t1 = 1#1), ∀ a, (k0_off155 k0_t7) a + S1x16.size a ≤ S224x224.size a
  k0_off156_inb : ∀ (i : grid0.Coords) (k0_t1 : Fin k0_t1_loop.trips) (k0_t7 : Fin k0_t7_loop.trips), ∀ (k0_h7 : k0_cond7 i k0_t1 = 1#1), ∀ a, (k0_off156 k0_t7) a + S1x16.size a ≤ S224x224.size a
  k0_off157_inb : ∀ (i : grid0.Coords) (k0_t1 : Fin k0_t1_loop.trips) (k0_t7 : Fin k0_t7_loop.trips), ∀ (k0_h7 : k0_cond7 i k0_t1 = 1#1), ∀ a, (k0_off157 k0_t7) a + S1x16.size a ≤ S224x224.size a
  k0_off158_inb : ∀ (i : grid0.Coords) (k0_t1 : Fin k0_t1_loop.trips) (k0_t7 : Fin k0_t7_loop.trips), ∀ (k0_h7 : k0_cond7 i k0_t1 = 1#1), ∀ a, (k0_off158 k0_t7) a + S1x16.size a ≤ S224x224.size a
  k0_off159_inb : ∀ (i : grid0.Coords) (k0_t1 : Fin k0_t1_loop.trips) (k0_t7 : Fin k0_t7_loop.trips), ∀ (k0_h7 : k0_cond7 i k0_t1 = 1#1), ∀ a, (k0_off159 k0_t7) a + S1x16.size a ≤ S224x224.size a
  k0_off160_inb : ∀ (i : grid0.Coords) (k0_t1 : Fin k0_t1_loop.trips) (k0_t7 : Fin k0_t7_loop.trips), ∀ (k0_h7 : k0_cond7 i k0_t1 = 1#1), ∀ a, (k0_off160 k0_t7) a + S1x16.size a ≤ S224x224.size a
  k0_off161_inb : ∀ (i : grid0.Coords) (k0_t1 : Fin k0_t1_loop.trips) (k0_t7 : Fin k0_t7_loop.trips), ∀ (k0_h7 : k0_cond7 i k0_t1 = 1#1), ∀ a, (k0_off161 k0_t7) a + S1x16.size a ≤ S224x224.size a
  k0_off162_inb : ∀ (i : grid0.Coords) (k0_t1 : Fin k0_t1_loop.trips) (k0_t7 : Fin k0_t7_loop.trips), ∀ (k0_h7 : k0_cond7 i k0_t1 = 1#1), ∀ a, (k0_off162 k0_t7) a + S1x16.size a ≤ S224x224.size a
  k0_off163_inb : ∀ (i : grid0.Coords) (k0_t1 : Fin k0_t1_loop.trips) (k0_t7 : Fin k0_t7_loop.trips), ∀ (k0_h7 : k0_cond7 i k0_t1 = 1#1), ∀ a, (k0_off163 k0_t7) a + S1x16.size a ≤ S224x224.size a
  k0_off164_inb : ∀ (i : grid0.Coords) (k0_t1 : Fin k0_t1_loop.trips) (k0_t7 : Fin k0_t7_loop.trips), ∀ (k0_h7 : k0_cond7 i k0_t1 = 1#1), ∀ a, (k0_off164 k0_t7) a + S1x16.size a ≤ S224x224.size a
  k0_off165_inb : ∀ (i : grid0.Coords) (k0_t1 : Fin k0_t1_loop.trips) (k0_t7 : Fin k0_t7_loop.trips), ∀ (k0_h7 : k0_cond7 i k0_t1 = 1#1), ∀ a, (k0_off165 k0_t7) a + S1x16.size a ≤ S224x224.size a
  k0_off166_inb : ∀ (i : grid0.Coords) (k0_t1 : Fin k0_t1_loop.trips) (k0_t7 : Fin k0_t7_loop.trips), ∀ (k0_h7 : k0_cond7 i k0_t1 = 1#1), ∀ a, (k0_off166 k0_t7) a + S1x16.size a ≤ S224x224.size a
  k0_off167_inb : ∀ (i : grid0.Coords) (k0_t1 : Fin k0_t1_loop.trips) (k0_t7 : Fin k0_t7_loop.trips), ∀ (k0_h7 : k0_cond7 i k0_t1 = 1#1), ∀ a, (k0_off167 k0_t7) a + S1x16.size a ≤ S224x224.size a
  k0_off168_inb : ∀ (i : grid0.Coords) (k0_t1 : Fin k0_t1_loop.trips) (k0_t7 : Fin k0_t7_loop.trips), ∀ (k0_h7 : k0_cond7 i k0_t1 = 1#1), ∀ a, (k0_off168 k0_t7) a + S1x16.size a ≤ S224x224.size a
  k0_off169_inb : ∀ (i : grid0.Coords) (k0_t1 : Fin k0_t1_loop.trips) (k0_t7 : Fin k0_t7_loop.trips), ∀ (k0_h7 : k0_cond7 i k0_t1 = 1#1), ∀ a, (k0_off169 k0_t7) a + S1x16.size a ≤ S224x224.size a
  k0_off170_inb : ∀ (i : grid0.Coords) (k0_t1 : Fin k0_t1_loop.trips) (k0_t7 : Fin k0_t7_loop.trips), ∀ (k0_h7 : k0_cond7 i k0_t1 = 1#1), ∀ a, (k0_off170 k0_t7) a + S1x16.size a ≤ S224x224.size a
  k0_off171_inb : ∀ (i : grid0.Coords) (k0_t1 : Fin k0_t1_loop.trips) (k0_t7 : Fin k0_t7_loop.trips), ∀ (k0_h7 : k0_cond7 i k0_t1 = 1#1), ∀ a, (k0_off171 k0_t7) a + S1x16.size a ≤ S224x224.size a
  k0_off172_inb : ∀ (i : grid0.Coords) (k0_t1 : Fin k0_t1_loop.trips) (k0_t7 : Fin k0_t7_loop.trips), ∀ (k0_h7 : k0_cond7 i k0_t1 = 1#1), ∀ a, (k0_off172 k0_t7) a + S1x16.size a ≤ S224x224.size a
  k0_off173_inb : ∀ (i : grid0.Coords) (k0_t1 : Fin k0_t1_loop.trips), ∀ (k0_h8 : k0_cond8 k0_t1 = 1#1), ∀ a, (k0_off173 i k0_t1) a + S1x1x224x224.size a ≤ S2x384x224x224.size a
  k0_off174_inb : ∀ (i : grid0.Coords) (k0_t1 : Fin k0_t1_loop.trips), ∀ (k0_h8 : k0_cond8 k0_t1 = 1#1), ∀ a, (k0_off174 i k0_t1) a + S1x1x224x224.size a ≤ S2x384x224x224.size a
  k0_off175_inb : ∀ i : grid0.Coords, ∀ (r : Fin 3), ∀ a, (k0_off175 i (k0_off175_at r).1 (k0_off175_at r).2) a + S1x1x224x224.size a ≤ S2x384x224x224.size a
  k0_t8_ok : ∀ i : grid0.Coords, ∀ (k0_h9 : k0_cond9 i = 1#1), k0_t8_loop.OK
  k0_off176_inb : ∀ (i : grid0.Coords) (k0_t8 : Fin k0_t8_loop.trips), ∀ (k0_h9 : k0_cond9 i = 1#1), ∀ a, (k0_off176 k0_t8) a + S1x16.size a ≤ S224x224.size a
  k0_off177_inb : ∀ (i : grid0.Coords) (k0_t8 : Fin k0_t8_loop.trips), ∀ (k0_h9 : k0_cond9 i = 1#1), ∀ a, (k0_off177 k0_t8) a + S1x16.size a ≤ S224x224.size a
  k0_off178_inb : ∀ (i : grid0.Coords) (k0_t8 : Fin k0_t8_loop.trips), ∀ (k0_h9 : k0_cond9 i = 1#1), ∀ a, (k0_off178 k0_t8) a + S1x16.size a ≤ S224x224.size a
  k0_off179_inb : ∀ (i : grid0.Coords) (k0_t8 : Fin k0_t8_loop.trips), ∀ (k0_h9 : k0_cond9 i = 1#1), ∀ a, (k0_off179 k0_t8) a + S1x16.size a ≤ S224x224.size a
  k0_off180_inb : ∀ (i : grid0.Coords) (k0_t8 : Fin k0_t8_loop.trips), ∀ (k0_h9 : k0_cond9 i = 1#1), ∀ a, (k0_off180 k0_t8) a + S1x16.size a ≤ S224x224.size a
  k0_off181_inb : ∀ (i : grid0.Coords) (k0_t8 : Fin k0_t8_loop.trips), ∀ (k0_h9 : k0_cond9 i = 1#1), ∀ a, (k0_off181 k0_t8) a + S1x16.size a ≤ S224x224.size a
  k0_off182_inb : ∀ (i : grid0.Coords) (k0_t8 : Fin k0_t8_loop.trips), ∀ (k0_h9 : k0_cond9 i = 1#1), ∀ a, (k0_off182 k0_t8) a + S1x16.size a ≤ S224x224.size a
  k0_off183_inb : ∀ (i : grid0.Coords) (k0_t8 : Fin k0_t8_loop.trips), ∀ (k0_h9 : k0_cond9 i = 1#1), ∀ a, (k0_off183 k0_t8) a + S1x16.size a ≤ S224x224.size a
  k0_off184_inb : ∀ (i : grid0.Coords) (k0_t8 : Fin k0_t8_loop.trips), ∀ (k0_h9 : k0_cond9 i = 1#1), ∀ a, (k0_off184 k0_t8) a + S1x16.size a ≤ S224x224.size a
  k0_off185_inb : ∀ (i : grid0.Coords) (k0_t8 : Fin k0_t8_loop.trips), ∀ (k0_h9 : k0_cond9 i = 1#1), ∀ a, (k0_off185 k0_t8) a + S1x16.size a ≤ S224x224.size a
  k0_off186_inb : ∀ (i : grid0.Coords) (k0_t8 : Fin k0_t8_loop.trips), ∀ (k0_h9 : k0_cond9 i = 1#1), ∀ a, (k0_off186 k0_t8) a + S1x16.size a ≤ S224x224.size a
  k0_off187_inb : ∀ (i : grid0.Coords) (k0_t8 : Fin k0_t8_loop.trips), ∀ (k0_h9 : k0_cond9 i = 1#1), ∀ a, (k0_off187 k0_t8) a + S1x16.size a ≤ S224x224.size a
  k0_off188_inb : ∀ (i : grid0.Coords) (k0_t8 : Fin k0_t8_loop.trips), ∀ (k0_h9 : k0_cond9 i = 1#1), ∀ a, (k0_off188 k0_t8) a + S1x16.size a ≤ S224x224.size a
  k0_off189_inb : ∀ (i : grid0.Coords) (k0_t8 : Fin k0_t8_loop.trips), ∀ (k0_h9 : k0_cond9 i = 1#1), ∀ a, (k0_off189 k0_t8) a + S1x16.size a ≤ S224x224.size a
  k0_off190_inb : ∀ (i : grid0.Coords) (k0_t8 : Fin k0_t8_loop.trips), ∀ (k0_h9 : k0_cond9 i = 1#1), ∀ a, (k0_off190 k0_t8) a + S1x16.size a ≤ S224x224.size a
  k0_off191_inb : ∀ (i : grid0.Coords) (k0_t8 : Fin k0_t8_loop.trips), ∀ (k0_h9 : k0_cond9 i = 1#1), ∀ a, (k0_off191 k0_t8) a + S1x16.size a ≤ S224x224.size a
  k0_off192_inb : ∀ (i : grid0.Coords) (k0_t8 : Fin k0_t8_loop.trips), ∀ (k0_h9 : k0_cond9 i = 1#1), ∀ a, (k0_off192 k0_t8) a + S1x16.size a ≤ S224x224.size a
  k0_off193_inb : ∀ (i : grid0.Coords) (k0_t8 : Fin k0_t8_loop.trips), ∀ (k0_h9 : k0_cond9 i = 1#1), ∀ a, (k0_off193 k0_t8) a + S1x16.size a ≤ S224x224.size a
  k0_off194_inb : ∀ (i : grid0.Coords) (k0_t8 : Fin k0_t8_loop.trips), ∀ (k0_h9 : k0_cond9 i = 1#1), ∀ a, (k0_off194 k0_t8) a + S1x16.size a ≤ S224x224.size a
  k0_off195_inb : ∀ (i : grid0.Coords) (k0_t8 : Fin k0_t8_loop.trips), ∀ (k0_h9 : k0_cond9 i = 1#1), ∀ a, (k0_off195 k0_t8) a + S1x16.size a ≤ S224x224.size a
  k0_off196_inb : ∀ (i : grid0.Coords) (k0_t8 : Fin k0_t8_loop.trips), ∀ (k0_h9 : k0_cond9 i = 1#1), ∀ a, (k0_off196 k0_t8) a + S1x16.size a ≤ S224x224.size a
  k0_off197_inb : ∀ (i : grid0.Coords) (k0_t8 : Fin k0_t8_loop.trips), ∀ (k0_h9 : k0_cond9 i = 1#1), ∀ a, (k0_off197 k0_t8) a + S1x16.size a ≤ S224x224.size a
  k0_off198_inb : ∀ (i : grid0.Coords) (k0_t8 : Fin k0_t8_loop.trips), ∀ (k0_h9 : k0_cond9 i = 1#1), ∀ a, (k0_off198 k0_t8) a + S1x16.size a ≤ S224x224.size a
  k0_off199_inb : ∀ (i : grid0.Coords) (k0_t8 : Fin k0_t8_loop.trips), ∀ (k0_h9 : k0_cond9 i = 1#1), ∀ a, (k0_off199 k0_t8) a + S1x16.size a ≤ S224x224.size a
  k0_off200_inb : ∀ (i : grid0.Coords) (k0_t8 : Fin k0_t8_loop.trips), ∀ (k0_h9 : k0_cond9 i = 1#1), ∀ a, (k0_off200 k0_t8) a + S1x16.size a ≤ S224x224.size a
  k0_off201_inb : ∀ (i : grid0.Coords) (k0_t8 : Fin k0_t8_loop.trips), ∀ (k0_h9 : k0_cond9 i = 1#1), ∀ a, (k0_off201 k0_t8) a + S1x16.size a ≤ S224x224.size a
  k0_off202_inb : ∀ (i : grid0.Coords) (k0_t8 : Fin k0_t8_loop.trips), ∀ (k0_h9 : k0_cond9 i = 1#1), ∀ a, (k0_off202 k0_t8) a + S1x16.size a ≤ S224x224.size a
  k0_off203_inb : ∀ (i : grid0.Coords) (k0_t8 : Fin k0_t8_loop.trips), ∀ (k0_h9 : k0_cond9 i = 1#1), ∀ a, (k0_off203 k0_t8) a + S1x16.size a ≤ S224x224.size a
  k0_t9_ok : ∀ i : grid0.Coords, ∀ (k0_h10 : k0_cond10 i = 1#1), k0_t9_loop.OK
  k0_off204_inb : ∀ (i : grid0.Coords) (k0_t9 : Fin k0_t9_loop.trips), ∀ (k0_h10 : k0_cond10 i = 1#1), ∀ a, (k0_off204 k0_t9) a + S1x16.size a ≤ S224x224.size a
  k0_off205_inb : ∀ (i : grid0.Coords) (k0_t9 : Fin k0_t9_loop.trips), ∀ (k0_h10 : k0_cond10 i = 1#1), ∀ a, (k0_off205 k0_t9) a + S1x16.size a ≤ S224x224.size a
  k0_off206_inb : ∀ (i : grid0.Coords) (k0_t9 : Fin k0_t9_loop.trips), ∀ (k0_h10 : k0_cond10 i = 1#1), ∀ a, (k0_off206 k0_t9) a + S1x16.size a ≤ S224x224.size a
  k0_off207_inb : ∀ (i : grid0.Coords) (k0_t9 : Fin k0_t9_loop.trips), ∀ (k0_h10 : k0_cond10 i = 1#1), ∀ a, (k0_off207 k0_t9) a + S1x16.size a ≤ S224x224.size a
  k0_off208_inb : ∀ (i : grid0.Coords) (k0_t9 : Fin k0_t9_loop.trips), ∀ (k0_h10 : k0_cond10 i = 1#1), ∀ a, (k0_off208 k0_t9) a + S1x16.size a ≤ S224x224.size a
  k0_off209_inb : ∀ (i : grid0.Coords) (k0_t9 : Fin k0_t9_loop.trips), ∀ (k0_h10 : k0_cond10 i = 1#1), ∀ a, (k0_off209 k0_t9) a + S1x16.size a ≤ S224x224.size a
  k0_off210_inb : ∀ (i : grid0.Coords) (k0_t9 : Fin k0_t9_loop.trips), ∀ (k0_h10 : k0_cond10 i = 1#1), ∀ a, (k0_off210 k0_t9) a + S1x16.size a ≤ S224x224.size a
  k0_off211_inb : ∀ (i : grid0.Coords) (k0_t9 : Fin k0_t9_loop.trips), ∀ (k0_h10 : k0_cond10 i = 1#1), ∀ a, (k0_off211 k0_t9) a + S1x16.size a ≤ S224x224.size a
  k0_off212_inb : ∀ (i : grid0.Coords) (k0_t9 : Fin k0_t9_loop.trips), ∀ (k0_h10 : k0_cond10 i = 1#1), ∀ a, (k0_off212 k0_t9) a + S1x16.size a ≤ S224x224.size a
  k0_off213_inb : ∀ (i : grid0.Coords) (k0_t9 : Fin k0_t9_loop.trips), ∀ (k0_h10 : k0_cond10 i = 1#1), ∀ a, (k0_off213 k0_t9) a + S1x16.size a ≤ S224x224.size a
  k0_off214_inb : ∀ (i : grid0.Coords) (k0_t9 : Fin k0_t9_loop.trips), ∀ (k0_h10 : k0_cond10 i = 1#1), ∀ a, (k0_off214 k0_t9) a + S1x16.size a ≤ S224x224.size a
  k0_off215_inb : ∀ (i : grid0.Coords) (k0_t9 : Fin k0_t9_loop.trips), ∀ (k0_h10 : k0_cond10 i = 1#1), ∀ a, (k0_off215 k0_t9) a + S1x16.size a ≤ S224x224.size a
  k0_off216_inb : ∀ (i : grid0.Coords) (k0_t9 : Fin k0_t9_loop.trips), ∀ (k0_h10 : k0_cond10 i = 1#1), ∀ a, (k0_off216 k0_t9) a + S1x16.size a ≤ S224x224.size a
  k0_off217_inb : ∀ (i : grid0.Coords) (k0_t9 : Fin k0_t9_loop.trips), ∀ (k0_h10 : k0_cond10 i = 1#1), ∀ a, (k0_off217 k0_t9) a + S1x16.size a ≤ S224x224.size a
  k0_off218_inb : ∀ (i : grid0.Coords) (k0_t9 : Fin k0_t9_loop.trips), ∀ (k0_h10 : k0_cond10 i = 1#1), ∀ a, (k0_off218 k0_t9) a + S1x16.size a ≤ S224x224.size a
  k0_off219_inb : ∀ (i : grid0.Coords) (k0_t9 : Fin k0_t9_loop.trips), ∀ (k0_h10 : k0_cond10 i = 1#1), ∀ a, (k0_off219 k0_t9) a + S1x16.size a ≤ S224x224.size a
  k0_off220_inb : ∀ (i : grid0.Coords) (k0_t9 : Fin k0_t9_loop.trips), ∀ (k0_h10 : k0_cond10 i = 1#1), ∀ a, (k0_off220 k0_t9) a + S1x16.size a ≤ S224x224.size a
  k0_off221_inb : ∀ (i : grid0.Coords) (k0_t9 : Fin k0_t9_loop.trips), ∀ (k0_h10 : k0_cond10 i = 1#1), ∀ a, (k0_off221 k0_t9) a + S1x16.size a ≤ S224x224.size a
  k0_off222_inb : ∀ (i : grid0.Coords) (k0_t9 : Fin k0_t9_loop.trips), ∀ (k0_h10 : k0_cond10 i = 1#1), ∀ a, (k0_off222 k0_t9) a + S1x16.size a ≤ S224x224.size a
  k0_off223_inb : ∀ (i : grid0.Coords) (k0_t9 : Fin k0_t9_loop.trips), ∀ (k0_h10 : k0_cond10 i = 1#1), ∀ a, (k0_off223 k0_t9) a + S1x16.size a ≤ S224x224.size a
  k0_off224_inb : ∀ (i : grid0.Coords) (k0_t9 : Fin k0_t9_loop.trips), ∀ (k0_h10 : k0_cond10 i = 1#1), ∀ a, (k0_off224 k0_t9) a + S1x16.size a ≤ S224x224.size a
  k0_off225_inb : ∀ (i : grid0.Coords) (k0_t9 : Fin k0_t9_loop.trips), ∀ (k0_h10 : k0_cond10 i = 1#1), ∀ a, (k0_off225 k0_t9) a + S1x16.size a ≤ S224x224.size a
  k0_off226_inb : ∀ (i : grid0.Coords) (k0_t9 : Fin k0_t9_loop.trips), ∀ (k0_h10 : k0_cond10 i = 1#1), ∀ a, (k0_off226 k0_t9) a + S1x16.size a ≤ S224x224.size a
  k0_off227_inb : ∀ (i : grid0.Coords) (k0_t9 : Fin k0_t9_loop.trips), ∀ (k0_h10 : k0_cond10 i = 1#1), ∀ a, (k0_off227 k0_t9) a + S1x16.size a ≤ S224x224.size a
  k0_off228_inb : ∀ (i : grid0.Coords) (k0_t9 : Fin k0_t9_loop.trips), ∀ (k0_h10 : k0_cond10 i = 1#1), ∀ a, (k0_off228 k0_t9) a + S1x16.size a ≤ S224x224.size a
  k0_off229_inb : ∀ (i : grid0.Coords) (k0_t9 : Fin k0_t9_loop.trips), ∀ (k0_h10 : k0_cond10 i = 1#1), ∀ a, (k0_off229 k0_t9) a + S1x16.size a ≤ S224x224.size a
  k0_off230_inb : ∀ (i : grid0.Coords) (k0_t9 : Fin k0_t9_loop.trips), ∀ (k0_h10 : k0_cond10 i = 1#1), ∀ a, (k0_off230 k0_t9) a + S1x16.size a ≤ S224x224.size a
  k0_off231_inb : ∀ (i : grid0.Coords) (k0_t9 : Fin k0_t9_loop.trips), ∀ (k0_h10 : k0_cond10 i = 1#1), ∀ a, (k0_off231 k0_t9) a + S1x16.size a ≤ S224x224.size a
  k0_t10_ok : ∀ i : grid0.Coords, ∀ (k0_h11 : k0_cond11 i = 1#1), k0_t10_loop.OK
  k0_off232_inb : ∀ (i : grid0.Coords) (k0_t10 : Fin k0_t10_loop.trips), ∀ (k0_h11 : k0_cond11 i = 1#1), ∀ a, (k0_off232 k0_t10) a + S1x16.size a ≤ S224x224.size a
  k0_off233_inb : ∀ (i : grid0.Coords) (k0_t10 : Fin k0_t10_loop.trips), ∀ (k0_h11 : k0_cond11 i = 1#1), ∀ a, (k0_off233 k0_t10) a + S1x16.size a ≤ S224x224.size a
  k0_off234_inb : ∀ (i : grid0.Coords) (k0_t10 : Fin k0_t10_loop.trips), ∀ (k0_h11 : k0_cond11 i = 1#1), ∀ a, (k0_off234 k0_t10) a + S1x16.size a ≤ S224x224.size a
  k0_off235_inb : ∀ (i : grid0.Coords) (k0_t10 : Fin k0_t10_loop.trips), ∀ (k0_h11 : k0_cond11 i = 1#1), ∀ a, (k0_off235 k0_t10) a + S1x16.size a ≤ S224x224.size a
  k0_off236_inb : ∀ (i : grid0.Coords) (k0_t10 : Fin k0_t10_loop.trips), ∀ (k0_h11 : k0_cond11 i = 1#1), ∀ a, (k0_off236 k0_t10) a + S1x16.size a ≤ S224x224.size a
  k0_off237_inb : ∀ (i : grid0.Coords) (k0_t10 : Fin k0_t10_loop.trips), ∀ (k0_h11 : k0_cond11 i = 1#1), ∀ a, (k0_off237 k0_t10) a + S1x16.size a ≤ S224x224.size a
  k0_off238_inb : ∀ (i : grid0.Coords) (k0_t10 : Fin k0_t10_loop.trips), ∀ (k0_h11 : k0_cond11 i = 1#1), ∀ a, (k0_off238 k0_t10) a + S1x16.size a ≤ S224x224.size a
  k0_off239_inb : ∀ (i : grid0.Coords) (k0_t10 : Fin k0_t10_loop.trips), ∀ (k0_h11 : k0_cond11 i = 1#1), ∀ a, (k0_off239 k0_t10) a + S1x16.size a ≤ S224x224.size a
  k0_off240_inb : ∀ (i : grid0.Coords) (k0_t10 : Fin k0_t10_loop.trips), ∀ (k0_h11 : k0_cond11 i = 1#1), ∀ a, (k0_off240 k0_t10) a + S1x16.size a ≤ S224x224.size a
  k0_off241_inb : ∀ (i : grid0.Coords) (k0_t10 : Fin k0_t10_loop.trips), ∀ (k0_h11 : k0_cond11 i = 1#1), ∀ a, (k0_off241 k0_t10) a + S1x16.size a ≤ S224x224.size a
  k0_off242_inb : ∀ (i : grid0.Coords) (k0_t10 : Fin k0_t10_loop.trips), ∀ (k0_h11 : k0_cond11 i = 1#1), ∀ a, (k0_off242 k0_t10) a + S1x16.size a ≤ S224x224.size a
  k0_off243_inb : ∀ (i : grid0.Coords) (k0_t10 : Fin k0_t10_loop.trips), ∀ (k0_h11 : k0_cond11 i = 1#1), ∀ a, (k0_off243 k0_t10) a + S1x16.size a ≤ S224x224.size a
  k0_off244_inb : ∀ (i : grid0.Coords) (k0_t10 : Fin k0_t10_loop.trips), ∀ (k0_h11 : k0_cond11 i = 1#1), ∀ a, (k0_off244 k0_t10) a + S1x16.size a ≤ S224x224.size a
  k0_off245_inb : ∀ (i : grid0.Coords) (k0_t10 : Fin k0_t10_loop.trips), ∀ (k0_h11 : k0_cond11 i = 1#1), ∀ a, (k0_off245 k0_t10) a + S1x16.size a ≤ S224x224.size a
  k0_off246_inb : ∀ (i : grid0.Coords) (k0_t10 : Fin k0_t10_loop.trips), ∀ (k0_h11 : k0_cond11 i = 1#1), ∀ a, (k0_off246 k0_t10) a + S1x16.size a ≤ S224x224.size a
  k0_off247_inb : ∀ (i : grid0.Coords) (k0_t10 : Fin k0_t10_loop.trips), ∀ (k0_h11 : k0_cond11 i = 1#1), ∀ a, (k0_off247 k0_t10) a + S1x16.size a ≤ S224x224.size a
  k0_off248_inb : ∀ (i : grid0.Coords) (k0_t10 : Fin k0_t10_loop.trips), ∀ (k0_h11 : k0_cond11 i = 1#1), ∀ a, (k0_off248 k0_t10) a + S1x16.size a ≤ S224x224.size a
  k0_off249_inb : ∀ (i : grid0.Coords) (k0_t10 : Fin k0_t10_loop.trips), ∀ (k0_h11 : k0_cond11 i = 1#1), ∀ a, (k0_off249 k0_t10) a + S1x16.size a ≤ S224x224.size a
  k0_off250_inb : ∀ (i : grid0.Coords) (k0_t10 : Fin k0_t10_loop.trips), ∀ (k0_h11 : k0_cond11 i = 1#1), ∀ a, (k0_off250 k0_t10) a + S1x16.size a ≤ S224x224.size a
  k0_off251_inb : ∀ (i : grid0.Coords) (k0_t10 : Fin k0_t10_loop.trips), ∀ (k0_h11 : k0_cond11 i = 1#1), ∀ a, (k0_off251 k0_t10) a + S1x16.size a ≤ S224x224.size a
  k0_off252_inb : ∀ (i : grid0.Coords) (k0_t10 : Fin k0_t10_loop.trips), ∀ (k0_h11 : k0_cond11 i = 1#1), ∀ a, (k0_off252 k0_t10) a + S1x16.size a ≤ S224x224.size a
  k0_off253_inb : ∀ (i : grid0.Coords) (k0_t10 : Fin k0_t10_loop.trips), ∀ (k0_h11 : k0_cond11 i = 1#1), ∀ a, (k0_off253 k0_t10) a + S1x16.size a ≤ S224x224.size a
  k0_off254_inb : ∀ (i : grid0.Coords) (k0_t10 : Fin k0_t10_loop.trips), ∀ (k0_h11 : k0_cond11 i = 1#1), ∀ a, (k0_off254 k0_t10) a + S1x16.size a ≤ S224x224.size a
  k0_off255_inb : ∀ (i : grid0.Coords) (k0_t10 : Fin k0_t10_loop.trips), ∀ (k0_h11 : k0_cond11 i = 1#1), ∀ a, (k0_off255 k0_t10) a + S1x16.size a ≤ S224x224.size a
  k0_off256_inb : ∀ (i : grid0.Coords) (k0_t10 : Fin k0_t10_loop.trips), ∀ (k0_h11 : k0_cond11 i = 1#1), ∀ a, (k0_off256 k0_t10) a + S1x16.size a ≤ S224x224.size a
  k0_off257_inb : ∀ (i : grid0.Coords) (k0_t10 : Fin k0_t10_loop.trips), ∀ (k0_h11 : k0_cond11 i = 1#1), ∀ a, (k0_off257 k0_t10) a + S1x16.size a ≤ S224x224.size a
  k0_off258_inb : ∀ (i : grid0.Coords) (k0_t10 : Fin k0_t10_loop.trips), ∀ (k0_h11 : k0_cond11 i = 1#1), ∀ a, (k0_off258 k0_t10) a + S1x16.size a ≤ S224x224.size a
  k0_off259_inb : ∀ (i : grid0.Coords) (k0_t10 : Fin k0_t10_loop.trips), ∀ (k0_h11 : k0_cond11 i = 1#1), ∀ a, (k0_off259 k0_t10) a + S1x16.size a ≤ S224x224.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1x16x224x224.size a ≤ S2x384x224x224.size a
  hwx1_0 : ∀ i : grid1.Coords, EltTy.bits .f32 = 32 ∨ (Rect.block (s := S2x384x224x224) S1x16x224x224.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1x16x224x224.size a ≤ S2x384x224x224.size a
  hwx1_1 : ∀ i : grid1.Coords, EltTy.bits .f32 = 32 ∨ (Rect.block (s := S2x384x224x224) S1x16x224x224.size (cc1_transform_2 i) (hinb1_1 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5

abbrev win1_0 : Pipeline.Window sig grid1 :=
  Pipeline.Window.ofSpec (Memref.whole main_arg0) S1x16x224x224.size cc1_transform_1 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x16x224x224.size cc1_transform_2 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S2x384x224x224 : Shape := ⟨4, ![2, 384, 224, 224]⟩
abbrev S2x192x224x224 : Shape := ⟨4, ![2, 192, 224, 224]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S_ : Shape := ⟨0, ![]⟩
abbrev S2x4x48x2x112x2x112 : Shape := ⟨7, ![2, 4, 48, 2, 112, 2, 112]⟩
abbrev S2x4x48x112x112x2x2 : Shape := ⟨7, ![2, 4, 48, 112, 112, 2, 2]⟩
abbrev S2x4x48x112x112x4 : Shape := ⟨6, ![2, 4, 48, 112, 112, 4]⟩
abbrev S1x4x1x1x1x4 : Shape := ⟨6, ![1, 4, 1, 1, 1, 4]⟩
abbrev S2x4x48x112x112x4x1 : Shape := ⟨7, ![2, 4, 48, 112, 112, 4, 1]⟩
abbrev S1 : Shape := ⟨1, ![1]⟩
abbrev S1x1x1x1x1x1x1 : Shape := ⟨7, ![1, 1, 1, 1, 1, 1, 1]⟩
abbrev S2x192x112x112x2x2 : Shape := ⟨6, ![2, 192, 112, 112, 2, 2]⟩
abbrev S2x192x2x112x2x112 : Shape := ⟨6, ![2, 192, 2, 112, 2, 112]⟩

abbrev nBuf : Space → Nat
  | .hbm => 63
  | .vmem => 0
  | .smem => 0
  | _ => 0

abbrev bufTy : (tb : Table) → Fin (tcTables nBuf tb) → BufTy
  | .hbm, ⟨0, _⟩ => ⟨S2x384x224x224, .f32⟩
  | .hbm, ⟨1, _⟩ => ⟨S2x192x224x224, .f32⟩
  | .hbm, ⟨2, _⟩ => ⟨S2x192x224x224, .f32⟩
  | .hbm, ⟨3, _⟩ => ⟨S4, .i32⟩
  | .hbm, ⟨4, _⟩ => ⟨S1x4, .i32⟩
  | .hbm, ⟨5, _⟩ => ⟨S4, .i32⟩
  | .hbm, ⟨6, _⟩ => ⟨S4x1, .i32⟩
  | .hbm, ⟨7, _⟩ => ⟨S4x4, .i32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i1⟩
  | .hbm, ⟨21, _⟩ => ⟨S_, .i32⟩
  | .hbm, ⟨22, _⟩ => ⟨S4x4, .i32⟩
  | .hbm, ⟨23, _⟩ => ⟨S4x4, .i1⟩
  | .hbm, ⟨24, _⟩ => ⟨S_, .i32⟩
  | .hbm, ⟨25, _⟩ => ⟨S_, .i1⟩
  | .hbm, ⟨26, _⟩ => ⟨S4x4, .i1⟩
  | .hbm, ⟨27, _⟩ => ⟨S4x4, .i1⟩
  | .hbm, ⟨28, _⟩ => ⟨S4x4, .i1⟩
  | .hbm, ⟨29, _⟩ => ⟨S4x4, .i32⟩
  | .hbm, ⟨30, _⟩ => ⟨S4x4, .i32⟩
  | .hbm, ⟨31, _⟩ => ⟨S4x4, .i32⟩
  | .hbm, ⟨32, _⟩ => ⟨S2x4x48x2x112x2x112, .f32⟩
  | .hbm, ⟨33, _⟩ => ⟨S2x4x48x112x112x2x2, .f32⟩
  | .hbm, ⟨34, _⟩ => ⟨S2x4x48x112x112x4, .f32⟩
  | .hbm, ⟨35, _⟩ => ⟨S1x4x1x1x1x4, .i32⟩
  | .hbm, ⟨36, _⟩ => ⟨S2x4x48x112x112x4, .i32⟩
  | .hbm, ⟨37, _⟩ => ⟨S_, .i32⟩
  | .hbm, ⟨38, _⟩ => ⟨S2x4x48x112x112x4, .i32⟩
  | .hbm, ⟨39, _⟩ => ⟨S2x4x48x112x112x4, .i1⟩
  | .hbm, ⟨40, _⟩ => ⟨S_, .i32⟩
  | .hbm, ⟨41, _⟩ => ⟨S2x4x48x112x112x4, .i32⟩
  | .hbm, ⟨42, _⟩ => ⟨S2x4x48x112x112x4, .i32⟩
  | .hbm, ⟨43, _⟩ => ⟨S2x4x48x112x112x4, .i32⟩
  | .hbm, ⟨44, _⟩ => ⟨S2x4x48x112x112x4x1, .i32⟩
  | .hbm, ⟨45, _⟩ => ⟨S1, .i32⟩
  | .hbm, ⟨46, _⟩ => ⟨S_, .i32⟩
  | .hbm, ⟨47, _⟩ => ⟨S2x4x48x112x112x4x1, .i32⟩
  | .hbm, ⟨48, _⟩ => ⟨S2x4x48x112x112x4x1, .i1⟩
  | .hbm, ⟨49, _⟩ => ⟨S1x1x1x1x1x1x1, .i32⟩
  | .hbm, ⟨50, _⟩ => ⟨S2x4x48x112x112x4x1, .i32⟩
  | .hbm, ⟨51, _⟩ => ⟨S2x4x48x112x112x4x1, .i1⟩
  | .hbm, ⟨52, _⟩ => ⟨S2x4x48x112x112x4x1, .i1⟩
  | .hbm, ⟨53, _⟩ => ⟨S_, .i1⟩
  | .hbm, ⟨54, _⟩ => ⟨S2x4x48x112x112x4, .i1⟩
  | .hbm, ⟨55, _⟩ => ⟨S2x4x48x112x112x4, .f32⟩
  | .hbm, ⟨56, _⟩ => ⟨S_, .f32⟩
  | .hbm, ⟨57, _⟩ => ⟨S2x4x48x112x112x4, .f32⟩
  | .hbm, ⟨58, _⟩ => ⟨S2x4x48x112x112x4, .f32⟩
  | .hbm, ⟨59, _⟩ => ⟨S2x192x112x112x2x2, .f32⟩
  | .hbm, ⟨60, _⟩ => ⟨S2x192x2x112x2x112, .f32⟩
  | .hbm, ⟨61, _⟩ => ⟨S2x192x224x224, .f32⟩
  | .hbm, ⟨62, _⟩ => ⟨S2x384x224x224, .f32⟩
  | _, _ => ⟨S2x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩

abbrev nD : Nat := 1
abbrev τ : Topo := Topo.v7x

variable {F : FTy → Type} [FloatOps F]

class Facts₀ : Prop where
  slices_S2x384x224x224_S2x192x224x224_0_0_0_0 : S2x384x224x224.Slices ![0, 0, 0, 0] S2x192x224x224
  slices_S2x384x224x224_S2x192x224x224_0_192_0_0 : S2x384x224x224.Slices ![0, 192, 0, 0] S2x192x224x224
  bcast_S4_S1x4_1 : S4.BroadcastsInDim S1x4 (![1] : Fin 1 → Fin S1x4.rank)
  bcast_S4_S4x1_0 : S4.BroadcastsInDim S4x1 (![0] : Fin 1 → Fin S4x1.rank)
  bcast_S1x4_S4x4_0_1 : S1x4.BroadcastsInDim S4x4 (![0, 1] : Fin 2 → Fin S4x4.rank)
  bcast_S4x1_S4x4_0_1 : S4x1.BroadcastsInDim S4x4 (![0, 1] : Fin 2 → Fin S4x4.rank)
  bcast_S_S4x4 : S_.BroadcastsInDim S4x4 (![] : Fin 0 → Fin S4x4.rank)
  shapeCasts_S2x192x224x224_S2x4x48x2x112x2x112 : S2x192x224x224.ShapeCasts S2x4x48x2x112x2x112
  transposes_S2x4x48x2x112x2x112_S2x4x48x112x112x2x2_0_1_2_4_6_3_5 : S2x4x48x2x112x2x112.Transposes [0, 1, 2, 4, 6, 3, 5] S2x4x48x112x112x2x2
  shapeCasts_S2x4x48x112x112x2x2_S2x4x48x112x112x4 : S2x4x48x112x112x2x2.ShapeCasts S2x4x48x112x112x4
  shapeCasts_S4x4_S1x4x1x1x1x4 : S4x4.ShapeCasts S1x4x1x1x1x4
  bcast_S1x4x1x1x1x4_S2x4x48x112x112x4_0_1_2_3_4_5 : S1x4x1x1x1x4.BroadcastsInDim S2x4x48x112x112x4 (![0, 1, 2, 3, 4, 5] : Fin 6 → Fin S2x4x48x112x112x4.rank)
  bcast_S_S2x4x48x112x112x4 : S_.BroadcastsInDim S2x4x48x112x112x4 (![] : Fin 0 → Fin S2x4x48x112x112x4.rank)
  shapeCasts_S2x4x48x112x112x4_S2x4x48x112x112x4x1 : S2x4x48x112x112x4.ShapeCasts S2x4x48x112x112x4x1
  bcast_S_S2x4x48x112x112x4x1 : S_.BroadcastsInDim S2x4x48x112x112x4x1 (![] : Fin 0 → Fin S2x4x48x112x112x4x1.rank)
  bcast_S1_S1x1x1x1x1x1x1_6 : S1.BroadcastsInDim S1x1x1x1x1x1x1 (![6] : Fin 1 → Fin S1x1x1x1x1x1x1.rank)
  bcast_S1x1x1x1x1x1x1_S2x4x48x112x112x4x1_0_1_2_3_4_5_6 : S1x1x1x1x1x1x1.BroadcastsInDim S2x4x48x112x112x4x1 (![0, 1, 2, 3, 4, 5, 6] : Fin 7 → Fin S2x4x48x112x112x4x1.rank)
  reducesTo_S2x4x48x112x112x4x1_S2x4x48x112x112x4_d6 : S2x4x48x112x112x4x1.ReducesTo [6] S2x4x48x112x112x4
  h_S_ : 0 < S_.numel
  shapeCasts_S2x4x48x112x112x4_S2x192x112x112x2x2 : S2x4x48x112x112x4.ShapeCasts S2x192x112x112x2x2
  transposes_S2x192x112x112x2x2_S2x192x2x112x2x112_0_1_4_2_5_3 : S2x192x112x112x2x2.Transposes [0, 1, 4, 2, 5, 3] S2x192x2x112x2x112
  shapeCasts_S2x192x2x112x2x112_S2x192x224x224 : S2x192x2x112x2x112.ShapeCasts S2x192x224x224
  concatenates_S2x192x224x224_S2x192x224x224_S2x384x224x224_d1 : Shape.Concatenates [S2x192x224x224, S2x192x224x224] S2x384x224x224 1
  gather_S2x4x48x112x112x4_S2x4x48x112x112x4x1_S2x4x48x112x112x4_n_5_01234_01234_5_6_111111_wf : GatherDims.WF S2x4x48x112x112x4 S2x4x48x112x112x4x1 S2x4x48x112x112x4 [] [5] [0, 1, 2, 3, 4] [5] [0, 1, 2, 3, 4] 6 ![1, 1, 1, 1, 1, 1]

variable [Facts₀]

def gather_S2x4x48x112x112x4_S2x4x48x112x112x4x1_S2x4x48x112x112x4_n_5_01234_01234_5_6_111111 : GatherDims S2x4x48x112x112x4 S2x4x48x112x112x4x1 S2x4x48x112x112x4 where
  offsetDims := []
  collapsedSliceDims := [5]
  operandBatchingDims := [0, 1, 2, 3, 4]
  startIndicesBatchingDims := [0, 1, 2, 3, 4]
  startIndexMap := [5]
  indexVectorDim := 6
  sliceSizes := ![1, 1, 1, 1, 1, 1]
  wf := gather_S2x4x48x112x112x4_S2x4x48x112x112x4x1_S2x4x48x112x112x4_n_5_01234_01234_5_6_111111_wf

class Facts : Prop extends Facts₀ where

variable [Facts]
-- ==== Proof.Spec.lean ====
/-
  The common specification of both programs: the result array as ONE function of the argument array, index by index.

  The array is `x : [2, 384, 224, 224]` (batch, channel, row, column). Channels below 192 are kept. The upper 192
  channels fall into four groups of 48, `g = (ch - 192) / 48`. Each 224 x 224 image is cut into four 112 x 112
  quadrants, numbered `q = 2 * (row / 112) + column / 112` (0 top-left, 1 top-right, 2 bottom-left, 3 bottom-right).
  In group `g` the result's quadrant `k` is the argument's quadrant `(g + k) % 4`, positions inside a quadrant
  unchanged: the image's quadrants are rotated by `g` places. Group 0 (channels 192 to 239) is therefore kept as well.

  Pure data movement: the result at an index is the argument at a source index (`src`), for any element type.
-/
import Idealize.ShloMosaic.Lib.ValueIdx

namespace Cert.Spec

open Idealize.ShloMosaic Idealize.ShloMosaic.ValueIdx

/-- The array's shape. -/
abbrev SX : Shape := ⟨4, ![2, 384, 224, 224]⟩

/-- The group of a channel: how many places its image's quadrants are rotated. Zero below channel 192. -/
def grp (ch : Nat) : Nat := if ch < 192 then 0 else (ch - 192) / 48

/-- The argument's quadrant that lands in the result's quadrant at (row `h`, column `w`) of a channel-`ch` image. -/
def quad (ch h w : Nat) : Nat := (grp ch + 2 * (h / 112) + w / 112) % 4

/-- The source row: the source quadrant's row half, the position inside the quadrant kept. -/
def srcH (ch h w : Nat) : Nat := (quad ch h w / 2) * 112 + h % 112
/-- The source column: the source quadrant's column half, the position inside the quadrant kept. -/
def srcW (ch h w : Nat) : Nat := (quad ch h w % 2) * 112 + w % 112

theorem quad_lt (ch h w : Nat) : quad ch h w < 4 := Nat.mod_lt _ (by decide)

theorem srcH_lt (ch h w : Nat) : srcH ch h w < 224 := by
  have := quad_lt ch h w
  have := Nat.mod_lt h (show 0 < 112 by decide)
  unfold srcH; omega

theorem srcW_lt (ch h w : Nat) : srcW ch h w < 224 := by
  have := Nat.mod_lt w (show 0 < 112 by decide)
  unfold srcW; omega

/-- Below channel 192 (and in group 0) nothing moves. -/
theorem grp_of_lt {ch : Nat} (h : ch < 240) : grp ch = 0 := by
  unfold grp; split
  · rfl
  · omega

theorem srcH_of_grp_zero {ch h w : Nat} (hg : grp ch = 0) (hh : h < 224) (hw : w < 224) : srcH ch h w = h := by
  unfold srcH quad; rw [hg]; omega

theorem srcW_of_grp_zero {ch h w : Nat} (hg : grp ch = 0) (hh : h < 224) (hw : w < 224) : srcW ch h w = w := by
  unfold srcW quad; rw [hg]; omega

/-- The source index of a result index: batch and channel kept, row and column through the quadrant rotation. -/
def src (j : SX.Idx) : SX.Idx :=
  ix4 (j 0) (j 1) ⟨srcH (j 1).val (j 2).val (j 3).val, srcH_lt _ _ _⟩ ⟨srcW (j 1).val (j 2).val (j 3).val, srcW_lt _ _ _⟩

/-- The result array as a function of the argument array. -/
def G {α : Type} (x : SX.Idx → α) : SX.Idx → α := fun j => x (src j)

theorem G_apply {α : Type} (x : SX.Idx → α) (j : SX.Idx) : G x j = x (src j) := rfl

/-- On channels below 240 the result is the argument. -/
theorem src_of_lt (j : SX.Idx) (h : (j 1).val < 240) : src j = j := by
  have h2 : (j 2).val < 224 := (j 2).isLt
  have h3 : (j 3).val < 224 := (j 3).isLt
  unfold src
  refine (funext fun a => ?_).trans (eq_ix4 j).symm
  match a with
  | ⟨0, _⟩ => rfl
  | ⟨1, _⟩ => rfl
  | ⟨2, _⟩ => exact Fin.ext (srcH_of_grp_zero (grp_of_lt h) h2 h3)
  | ⟨3, _⟩ => exact Fin.ext (srcW_of_grp_zero (grp_of_lt h) h2 h3)

end Cert.Spec
-- ==== Proof.RefOps.lean ====
/-
  The reference program's @main as ONE straight line of host operations: the two outlined integer functions (the
  remainder with the sign correction, and inside it the scalar select) and the outlined take-along-axis are listed
  inline where @main calls them, over the buffers of that call. 62 operations: the two channel slices; the 4 x 4
  integer table (two iotas, four broadcasts, the sum, the constant 4, the remainder's 21 operations); the upper
  half's reshape / transpose / reshape into [2, 4, 48, 112, 112, 4] (last axis: the quadrant); the table's reshape and
  broadcast to the same shape; take-along-axis's 22 operations (index normalisation, the in-bounds mask, the gather,
  the select against the fill value); the reshape / transpose / reshape back and the concatenation.

  Every weakly fair execution of @main terminates with each buffer at the fold of these operations' results.
-/
import proofs.«208198_g16930761081413_cont_7to1_1121_27_alg».proof.Defs
import proofs.«208198_g16930761081413_cont_7to1_1121_27_alg».proof.Proof.Gen.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- @main's 62 operations, in order, the callees' at their call sites. -/
abbrev ops : List (HloOp τ sig (Elt F)) :=
  [ unary main_arg0 main_v0 (extractStridedSlice S2x192x224x224 ![0, 0, 0, 0] · slices_S2x384x224x224_S2x192x224x224_0_0_0_0),
    unary main_arg0 main_v1 (extractStridedSlice S2x192x224x224 ![0, 192, 0, 0] · slices_S2x384x224x224_S2x192x224x224_0_192_0_0),
    nullary main_v2 (iotaInDim S4 32 0),
    unary main_v2 main_v3 (broadcastInDim S1x4 ![1] bcast_S4_S1x4_1),
    nullary main_v4 (iotaInDim S4 32 0),
    unary main_v4 main_v5 (broadcastInDim S4x1 ![0] bcast_S4_S4x1_0),
    unary main_v3 main_v6 (broadcastInDim S4x4 ![0, 1] bcast_S1x4_S4x4_0_1),
    unary main_v5 main_v7 (broadcastInDim S4x4 ![0, 1] bcast_S4x1_S4x4_0_1),
    binary main_v6 main_v7 main_v8 addi,
    nullary main_c (constantI S_ 32 4#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4x4 ![] bcast_S_S4x4),
    TRef.binary (.of main_v8) main_call0.v3 main_call0.v4 Host.remsi,
    TRef.nullary main_call0.c_1 (constantI S_ 32 0#32),
    TRef.unary main_call0.c_1 main_call0.v5 (broadcastInDim S4x4 ![] bcast_S_S4x4),
    TRef.binary main_call0.v4 main_call0.v5 main_call0.v6 (cmpi .ne),
    TRef.nullary main_call0.c_2 (constantI S_ 32 0#32),
    TRef.unary main_call0.c_2 main_call0.v7 (broadcastInDim S4x4 ![] bcast_S_S4x4),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4x4 ![] bcast_S_S4x4),
    TRef.binary main_call0.v8 main_call0.v10 main_call0.v11 (cmpi .ne),
    TRef.binary main_call0.v11 main_call0.v6 main_call0.v12 andi,
    TRef.unary main_call0.call0.v0 main_call0.v13 (broadcastInDim S4x4 ![] bcast_S_S4x4),
    TRef.binary main_call0.v4 main_call0.v13 main_call0.v14 addi,
    TRef.ternary main_call0.v12 main_call0.v14 main_call0.v4 main_call0.v15 select,
    reshape main_v1 main_v10 rfl shapeCasts_S2x192x224x224_S2x4x48x2x112x2x112,
    unary main_v10 main_v11 (transpose S2x4x48x112x112x2x2 [0, 1, 2, 4, 6, 3, 5] · transposes_S2x4x48x2x112x2x112_S2x4x48x112x112x2x2_0_1_2_4_6_3_5),
    reshape main_v11 main_v12 rfl shapeCasts_S2x4x48x112x112x2x2_S2x4x48x112x112x4,
    reshape main_v9 main_v13 rfl shapeCasts_S4x4_S1x4x1x1x1x4,
    unary main_v13 main_v14 (broadcastInDim S2x4x48x112x112x4 ![0, 1, 2, 3, 4, 5] bcast_S1x4x1x1x1x4_S2x4x48x112x112x4_0_1_2_3_4_5),
    TRef.nullary main_call1.c (constantI S_ 32 0#32),
    TRef.unary main_call1.c main_call1.v0 (broadcastInDim S2x4x48x112x112x4 ![] bcast_S_S2x4x48x112x112x4),
    TRef.binary (.of main_v14) main_call1.v0 main_call1.v1 (cmpi .slt),
    TRef.nullary main_call1.c_0 (constantI S_ 32 4#32),
    TRef.unary main_call1.c_0 main_call1.v2 (broadcastInDim S2x4x48x112x112x4 ![] bcast_S_S2x4x48x112x112x4),
    TRef.binary (.of main_v14) main_call1.v2 main_call1.v3 addi,
    TRef.ternary main_call1.v1 main_call1.v3 (.of main_v14) main_call1.v4 select,
    TRef.reshape main_call1.v4 main_call1.v5 rfl shapeCasts_S2x4x48x112x112x4_S2x4x48x112x112x4x1,
    TRef.nullary main_call1.c_1 (constantI S1 32 3#32),
    TRef.nullary main_call1.c_2 (constantI S_ 32 0#32),
    TRef.unary main_call1.c_2 main_call1.v6 (broadcastInDim S2x4x48x112x112x4x1 ![] bcast_S_S2x4x48x112x112x4x1),
    TRef.binary main_call1.v5 main_call1.v6 main_call1.v7 (cmpi .sge),
    TRef.unary main_call1.c_1 main_call1.v8 (broadcastInDim S1x1x1x1x1x1x1 ![6] bcast_S1_S1x1x1x1x1x1x1_6),
    TRef.unary main_call1.v8 main_call1.v9 (broadcastInDim S2x4x48x112x112x4x1 ![0, 1, 2, 3, 4, 5, 6] bcast_S1x1x1x1x1x1x1_S2x4x48x112x112x4x1_0_1_2_3_4_5_6),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2x4x48x112x112x4x1_S2x4x48x112x112x4_d6 h_S_),
    TRef.binary (.of main_v12) main_call1.v5 main_call1.v13 (fun x i => Host.gather gather_S2x4x48x112x112x4_S2x4x48x112x112x4x1_S2x4x48x112x112x4_n_5_01234_01234_5_6_111111 x i),
    TRef.nullary main_call1.cst (constant S_ .f32 0x7FC00000#32),
    TRef.unary main_call1.cst main_call1.v14 (broadcastInDim S2x4x48x112x112x4 ![] bcast_S_S2x4x48x112x112x4),
    TRef.ternary main_call1.v12 main_call1.v13 main_call1.v14 main_call1.v15 select,
    reshape main_v15 main_v16 rfl shapeCasts_S2x4x48x112x112x4_S2x192x112x112x2x2,
    unary main_v16 main_v17 (transpose S2x192x2x112x2x112 [0, 1, 4, 2, 5, 3] · transposes_S2x192x112x112x2x2_S2x192x2x112x2x112_0_1_4_2_5_3),
    reshape main_v17 main_v18 rfl shapeCasts_S2x192x2x112x2x112_S2x192x224x224,
    binary main_v0 main_v18 main_v19 (fun a b => concatenate S2x384x224x224 1 [⟨S2x192x224x224, a⟩, ⟨S2x192x224x224, b⟩] concatenates_S2x192x224x224_S2x192x224x224_S2x384x224x224_d1) ]

set_option maxRecDepth 2048 in
/-- @main is that straight line: the functions' definitions unfolded at their calls, sequencing re-associated. -/
theorem main_eq (c : Dev nD) : main (F := F) c = seq ops := by
  simp only [main, fn_remainder.body, fn_where.body, fn_take_along_axis.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., nullary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., reshape_bufs_sub .., unary_bufs_sub .., reshape_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., reshape_bufs_sub .., binary_bufs_sub ..⟩

/-- Every weakly fair execution of @main on the TensorCore terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  The reference program's result as ONE pure term of its argument: what its 62 host operations compose to.

  * `tbl`: the 4 x 4 integer table. Entry (i, j) is the floored remainder of `i + j` by 4, computed as the
    truncated remainder `r`, and `r + 4` where `r` is nonzero and of the other sign than the divisor.
  * `regroup`: the upper 192 channels [2, 192, 224, 224] as [2, 4, 48, 112, 112, 4]: group, channel in group, row and
    column inside a quadrant, and LAST the quadrant `2 * (row / 112) + col / 112`.
  * `idxA`: the table broadcast to that shape: at (n, g, c, h, w, k) it is `tbl (g, k)`.
  * `take`: take-along-axis on the last axis: the index normalised (a negative one plus 4), the gather, and the
    fill value wherever the normalised index is outside [0, 3].
  * `ungroup`: the inverse regrouping, back to [2, 192, 224, 224].
  * `outα`: channels below 192 of the argument, then `ungroup (take (regroup upper) idxA)`.
-/
import proofs.«208198_g16930761081413_cont_7to1_1121_27_alg».proof.ReferenceIdeal
import Idealize.ShloMosaic.Lib.ValueIdxRank6

noncomputable section

namespace Cert.RefSide

open Cert.ReferenceIdeal Cert.ReferenceIdeal.Facts₀ Idealize.ShloMosaic Idealize.ShloMosaic.ValueIdx

variable [Cert.ReferenceIdeal.Facts] {α : Type}

/-! ## The integer table -/

/-- The divisor as the remainder function uses it: 4, and 1 in its place were it 0. -/
def dvs : IVec S_ 32 :=
  select (cmpi .eq (id (constantI S_ 32 4#32)) (constantI S_ 32 0#32)) (constantI S_ 32 1#32) (id (constantI S_ 32 4#32))

/-- `i + j` over the 4 x 4 grid: the column iota along axis 1 plus the row iota along axis 0. -/
def sumT : IVec S4x4 32 :=
  addi (broadcastInDim S4x4 ![0, 1] bcast_S1x4_S4x4_0_1 (broadcastInDim S1x4 ![1] bcast_S4_S1x4_1 (iotaInDim S4 32 0)))
    (broadcastInDim S4x4 ![0, 1] bcast_S4x1_S4x4_0_1 (broadcastInDim S4x1 ![0] bcast_S4_S4x1_0 (iotaInDim S4 32 0)))

/-- The truncated remainder of `i + j` by the divisor. -/
def remT : IVec S4x4 32 := Host.remsi sumT (broadcastInDim S4x4 ![] bcast_S_S4x4 dvs)

/-- The table: the floored remainder. -/
def tbl : IVec S4x4 32 :=
  select
    (andi
      (cmpi .ne (cmpi .slt remT (broadcastInDim S4x4 ![] bcast_S_S4x4 (constantI S_ 32 0#32)))
        (broadcastInDim S4x4 ![] bcast_S_S4x4 (cmpi .slt dvs (constantI S_ 32 0#32))))
      (cmpi .ne remT (broadcastInDim S4x4 ![] bcast_S_S4x4 (constantI S_ 32 0#32))))
    (addi remT (broadcastInDim S4x4 ![] bcast_S_S4x4 dvs)) remT

/-- The table at every index of the regrouped array: (n, g, c, h, w, k) reads entry (g, k). -/
def idxA : IVec S2x4x48x112x112x4 32 :=
  broadcastInDim S2x4x48x112x112x4 ![0, 1, 2, 3, 4, 5] bcast_S1x4x1x1x1x4_S2x4x48x112x112x4_0_1_2_3_4_5
    (shapeCast S1x4x1x1x1x4 tbl shapeCasts_S4x4_S1x4x1x1x1x4)

/-! ## The layout changes -/

/-- [2, 192, 224, 224] to [2, 4, 48, 112, 112, 4]: split channel, row and column; move the two halves' axes last; merge them. -/
def regroup (u : S2x192x224x224.Idx → α) : S2x4x48x112x112x4.Idx → α :=
  shapeCast S2x4x48x112x112x4
    (transpose S2x4x48x112x112x2x2 [0, 1, 2, 4, 6, 3, 5]
      (shapeCast S2x4x48x2x112x2x112 u shapeCasts_S2x192x224x224_S2x4x48x2x112x2x112)
      transposes_S2x4x48x2x112x2x112_S2x4x48x112x112x2x2_0_1_2_4_6_3_5)
    shapeCasts_S2x4x48x112x112x2x2_S2x4x48x112x112x4

/-- [2, 4, 48, 112, 112, 4] back to [2, 192, 224, 224]. -/
def ungroup (v : S2x4x48x112x112x4.Idx → α) : S2x192x224x224.Idx → α :=
  shapeCast S2x192x224x224
    (transpose S2x192x2x112x2x112 [0, 1, 4, 2, 5, 3]
      (shapeCast S2x192x112x112x2x2 v shapeCasts_S2x4x48x112x112x4_S2x192x112x112x2x2)
      transposes_S2x192x112x112x2x2_S2x192x2x112x2x112_0_1_4_2_5_3)
    shapeCasts_S2x192x2x112x2x112_S2x192x224x224

/-! ## Take along the last axis -/

/-- The index normalised: a negative one plus 4. -/
def nrm (i : IVec S2x4x48x112x112x4 32) : IVec S2x4x48x112x112x4 32 :=
  select (cmpi .slt i (broadcastInDim S2x4x48x112x112x4 ![] bcast_S_S2x4x48x112x112x4 (constantI S_ 32 0#32)))
    (addi i (broadcastInDim S2x4x48x112x112x4 ![] bcast_S_S2x4x48x112x112x4 (constantI S_ 32 4#32))) i

/-- The same with a trailing unit axis: the gather's start indices. -/
def nrm1 (i : IVec S2x4x48x112x112x4 32) : IVec S2x4x48x112x112x4x1 32 :=
  shapeCast S2x4x48x112x112x4x1 (nrm i) shapeCasts_S2x4x48x112x112x4_S2x4x48x112x112x4x1

/-- Where the normalised index is inside [0, 3], per start index. -/
def inb1 (i : IVec S2x4x48x112x112x4 32) : IVec S2x4x48x112x112x4x1 1 :=
  andi
    (cmpi .sge (nrm1 i) (broadcastInDim S2x4x48x112x112x4x1 ![] bcast_S_S2x4x48x112x112x4x1 (constantI S_ 32 0#32)))
    (cmpi .sle (nrm1 i)
      (broadcastInDim S2x4x48x112x112x4x1 ![0, 1, 2, 3, 4, 5, 6] bcast_S1x1x1x1x1x1x1_S2x4x48x112x112x4x1_0_1_2_3_4_5_6
        (broadcastInDim S1x1x1x1x1x1x1 ![6] bcast_S1_S1x1x1x1x1x1x1_6 (constantI S1 32 3#32))))

/-- The same reduced by `and` over the trailing unit axis. -/
def inb (i : IVec S2x4x48x112x112x4 32) : IVec S2x4x48x112x112x4 1 :=
  Host.reduce IntOp.andi (inb1 i) (constantI S_ 1 1#1) reducesTo_S2x4x48x112x112x4x1_S2x4x48x112x112x4_d6 h_S_

/-- Take along the last axis: the gathered element, the fill value where the index is out of range. -/
def take (fill : S2x4x48x112x112x4.Idx → α) (a : S2x4x48x112x112x4.Idx → α) (i : IVec S2x4x48x112x112x4 32) :
    S2x4x48x112x112x4.Idx → α :=
  select (inb i)
    (Host.gather gather_S2x4x48x112x112x4_S2x4x48x112x112x4x1_S2x4x48x112x112x4_n_5_01234_01234_5_6_111111 a (nrm1 i)) fill

/-! ## The result -/

/-- The reference's result as a term of its argument `x` (and of the fill value's array). -/
def outα (fill : S2x4x48x112x112x4.Idx → α) (x : S2x384x224x224.Idx → α) : S2x384x224x224.Idx → α :=
  concatenate S2x384x224x224 1
    [⟨S2x192x224x224, extractStridedSlice S2x192x224x224 ![0, 0, 0, 0] x slices_S2x384x224x224_S2x192x224x224_0_0_0_0⟩,
     ⟨S2x192x224x224, ungroup (take fill
        (regroup (extractStridedSlice S2x192x224x224 ![0, 192, 0, 0] x slices_S2x384x224x224_S2x192x224x224_0_192_0_0)) idxA)⟩]
    concatenates_S2x192x224x224_S2x192x224x224_S2x384x224x224_d1

end Cert.RefSide

end
-- ==== Proof.RefRun.lean ====
/-
  The reference's run read back: every weakly fair execution of @main ends with the result buffer at the pure term
  `outα` of the argument's launch contents (the fill value's array the broadcast NaN constant), the argument unchanged.

  The fold over the 62 operations is taken in five stretches — the two slices; the integer table; the regrouping of
  the upper half and the table's broadcast; take-along-axis; the inverse regrouping and the concatenation — each read
  back at the buffers the later stretches read, over an arbitrary valuation before it.
-/
import proofs.«208198_g16930761081413_cont_7to1_1121_27_alg».proof.Proof.RefOps
import proofs.«208198_g16930761081413_cont_7to1_1121_27_alg».proof.Proof.RefTerm

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The fill value of take-along-axis: the NaN constant at every index. -/
def fillF : S2x4x48x112x112x4.Idx → F .f32 :=
  broadcastInDim S2x4x48x112x112x4 ![] bcast_S_S2x4x48x112x112x4 (constant S_ .f32 0x7FC00000#32)

/-- The fold over two stretches is the fold over the second after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Contents moved to a typed reference's buffer type and back are the contents. -/
theorem ofBuf_toBuf {T : BufTy} (x : TRef sig T) (v : T.Contents (Elt F)) : x.ofBuf (x.toBuf v) = v := by
  obtain ⟨r, h, _, _⟩ := x; subst h; rfl

/-! ## The five stretches -/

abbrev opsA : List (HloOp τ sig (Elt F)) :=
  [ unary main_arg0 main_v0 (extractStridedSlice S2x192x224x224 ![0, 0, 0, 0] · slices_S2x384x224x224_S2x192x224x224_0_0_0_0),
    unary main_arg0 main_v1 (extractStridedSlice S2x192x224x224 ![0, 192, 0, 0] · slices_S2x384x224x224_S2x192x224x224_0_192_0_0) ]
abbrev opsB : List (HloOp τ sig (Elt F)) :=
  [ nullary main_v2 (iotaInDim S4 32 0),
    unary main_v2 main_v3 (broadcastInDim S1x4 ![1] bcast_S4_S1x4_1),
    nullary main_v4 (iotaInDim S4 32 0),
    unary main_v4 main_v5 (broadcastInDim S4x1 ![0] bcast_S4_S4x1_0),
    unary main_v3 main_v6 (broadcastInDim S4x4 ![0, 1] bcast_S1x4_S4x4_0_1),
    unary main_v5 main_v7 (broadcastInDim S4x4 ![0, 1] bcast_S4x1_S4x4_0_1),
    binary main_v6 main_v7 main_v8 addi,
    nullary main_c (constantI S_ 32 4#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4x4 ![] bcast_S_S4x4),
    TRef.binary (.of main_v8) main_call0.v3 main_call0.v4 Host.remsi,
    TRef.nullary main_call0.c_1 (constantI S_ 32 0#32),
    TRef.unary main_call0.c_1 main_call0.v5 (broadcastInDim S4x4 ![] bcast_S_S4x4),
    TRef.binary main_call0.v4 main_call0.v5 main_call0.v6 (cmpi .ne),
    TRef.nullary main_call0.c_2 (constantI S_ 32 0#32),
    TRef.unary main_call0.c_2 main_call0.v7 (broadcastInDim S4x4 ![] bcast_S_S4x4),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4x4 ![] bcast_S_S4x4),
    TRef.binary main_call0.v8 main_call0.v10 main_call0.v11 (cmpi .ne),
    TRef.binary main_call0.v11 main_call0.v6 main_call0.v12 andi,
    TRef.unary main_call0.call0.v0 main_call0.v13 (broadcastInDim S4x4 ![] bcast_S_S4x4),
    TRef.binary main_call0.v4 main_call0.v13 main_call0.v14 addi,
    TRef.ternary main_call0.v12 main_call0.v14 main_call0.v4 main_call0.v15 select ]
abbrev opsC : List (HloOp τ sig (Elt F)) :=
  [ reshape main_v1 main_v10 rfl shapeCasts_S2x192x224x224_S2x4x48x2x112x2x112,
    unary main_v10 main_v11 (transpose S2x4x48x112x112x2x2 [0, 1, 2, 4, 6, 3, 5] · transposes_S2x4x48x2x112x2x112_S2x4x48x112x112x2x2_0_1_2_4_6_3_5),
    reshape main_v11 main_v12 rfl shapeCasts_S2x4x48x112x112x2x2_S2x4x48x112x112x4,
    reshape main_v9 main_v13 rfl shapeCasts_S4x4_S1x4x1x1x1x4,
    unary main_v13 main_v14 (broadcastInDim S2x4x48x112x112x4 ![0, 1, 2, 3, 4, 5] bcast_S1x4x1x1x1x4_S2x4x48x112x112x4_0_1_2_3_4_5) ]
abbrev opsD : List (HloOp τ sig (Elt F)) :=
  [ TRef.nullary main_call1.c (constantI S_ 32 0#32),
    TRef.unary main_call1.c main_call1.v0 (broadcastInDim S2x4x48x112x112x4 ![] bcast_S_S2x4x48x112x112x4),
    TRef.binary (.of main_v14) main_call1.v0 main_call1.v1 (cmpi .slt),
    TRef.nullary main_call1.c_0 (constantI S_ 32 4#32),
    TRef.unary main_call1.c_0 main_call1.v2 (broadcastInDim S2x4x48x112x112x4 ![] bcast_S_S2x4x48x112x112x4),
    TRef.binary (.of main_v14) main_call1.v2 main_call1.v3 addi,
    TRef.ternary main_call1.v1 main_call1.v3 (.of main_v14) main_call1.v4 select,
    TRef.reshape main_call1.v4 main_call1.v5 rfl shapeCasts_S2x4x48x112x112x4_S2x4x48x112x112x4x1,
    TRef.nullary main_call1.c_1 (constantI S1 32 3#32),
    TRef.nullary main_call1.c_2 (constantI S_ 32 0#32),
    TRef.unary main_call1.c_2 main_call1.v6 (broadcastInDim S2x4x48x112x112x4x1 ![] bcast_S_S2x4x48x112x112x4x1),
    TRef.binary main_call1.v5 main_call1.v6 main_call1.v7 (cmpi .sge),
    TRef.unary main_call1.c_1 main_call1.v8 (broadcastInDim S1x1x1x1x1x1x1 ![6] bcast_S1_S1x1x1x1x1x1x1_6),
    TRef.unary main_call1.v8 main_call1.v9 (broadcastInDim S2x4x48x112x112x4x1 ![0, 1, 2, 3, 4, 5, 6] bcast_S1x1x1x1x1x1x1_S2x4x48x112x112x4x1_0_1_2_3_4_5_6),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2x4x48x112x112x4x1_S2x4x48x112x112x4_d6 h_S_),
    TRef.binary (.of main_v12) main_call1.v5 main_call1.v13 (fun x i => Host.gather gather_S2x4x48x112x112x4_S2x4x48x112x112x4x1_S2x4x48x112x112x4_n_5_01234_01234_5_6_111111 x i),
    TRef.nullary main_call1.cst (constant S_ .f32 0x7FC00000#32),
    TRef.unary main_call1.cst main_call1.v14 (broadcastInDim S2x4x48x112x112x4 ![] bcast_S_S2x4x48x112x112x4),
    TRef.ternary main_call1.v12 main_call1.v13 main_call1.v14 main_call1.v15 select ]
abbrev opsE : List (HloOp τ sig (Elt F)) :=
  [ reshape main_v15 main_v16 rfl shapeCasts_S2x4x48x112x112x4_S2x192x112x112x2x2,
    unary main_v16 main_v17 (transpose S2x192x2x112x2x112 [0, 1, 4, 2, 5, 3] · transposes_S2x192x112x112x2x2_S2x192x2x112x2x112_0_1_4_2_5_3),
    reshape main_v17 main_v18 rfl shapeCasts_S2x192x2x112x2x112_S2x192x224x224,
    binary main_v0 main_v18 main_v19 (fun a b => concatenate S2x384x224x224 1 [⟨S2x192x224x224, a⟩, ⟨S2x192x224x224, b⟩] concatenates_S2x192x224x224_S2x192x224x224_S2x384x224x224_d1) ]

theorem ops_eq : (ops : List (HloOp τ sig (Elt F))) = opsA ++ (opsB ++ (opsC ++ (opsD ++ opsE))) := rfl

variable (W : Valuation τ sig (Elt F))

/-! ### The slices -/

theorem A_v0 : after opsA W (main_v0 : DevRef τ sig)
    = extractStridedSlice S2x192x224x224 ![0, 0, 0, 0] (W (main_arg0 : DevRef τ sig)) slices_S2x384x224x224_S2x192x224x224_0_0_0_0 := by
  after_results_simp
theorem A_v1 : after opsA W (main_v1 : DevRef τ sig)
    = extractStridedSlice S2x192x224x224 ![0, 192, 0, 0] (W (main_arg0 : DevRef τ sig)) slices_S2x384x224x224_S2x192x224x224_0_192_0_0 := by
  after_results_simp
theorem A_arg0 : after opsA W (main_arg0 : DevRef τ sig) = W (main_arg0 : DevRef τ sig) := by
  after_results_simp

/-! ### The table -/

set_option maxRecDepth 4096 in
theorem B_v9 : after opsB W (main_v9 : DevRef τ sig) = (tbl : IVec S4x4 32) := by
  after_results_simp
  simp only [ofBuf_toBuf]
  rfl
theorem B_v0 : after opsB W (main_v0 : DevRef τ sig) = W (main_v0 : DevRef τ sig) := by
  after_results_simp
theorem B_v1 : after opsB W (main_v1 : DevRef τ sig) = W (main_v1 : DevRef τ sig) := by
  after_results_simp
theorem B_arg0 : after opsB W (main_arg0 : DevRef τ sig) = W (main_arg0 : DevRef τ sig) := by
  after_results_simp

/-! ### The regrouping and the table's broadcast -/

theorem C_v12 : after opsC W (main_v12 : DevRef τ sig) = regroup (W (main_v1 : DevRef τ sig)) := by
  after_results_simp
  rfl
theorem C_v14 : after opsC W (main_v14 : DevRef τ sig)
    = broadcastInDim S2x4x48x112x112x4 ![0, 1, 2, 3, 4, 5] bcast_S1x4x1x1x1x4_S2x4x48x112x112x4_0_1_2_3_4_5
        (shapeCast S1x4x1x1x1x4 (W (main_v9 : DevRef τ sig)) shapeCasts_S4x4_S1x4x1x1x1x4) := by
  after_results_simp
  rfl
theorem C_v0 : after opsC W (main_v0 : DevRef τ sig) = W (main_v0 : DevRef τ sig) := by
  after_results_simp
theorem C_arg0 : after opsC W (main_arg0 : DevRef τ sig) = W (main_arg0 : DevRef τ sig) := by
  after_results_simp

/-! ### Take-along-axis -/

attribute [local irreducible] Host.reduce Host.gather in
set_option maxRecDepth 4096 in
theorem D_v15 : after opsD W (main_v15 : DevRef τ sig)
    = take (fillF (F := F)) (W (main_v12 : DevRef τ sig)) (W (main_v14 : DevRef τ sig)) := by
  after_results_simp
  simp only [ofBuf_toBuf]
  rfl
theorem D_v0 : after opsD W (main_v0 : DevRef τ sig) = W (main_v0 : DevRef τ sig) := by
  after_results_simp
theorem D_arg0 : after opsD W (main_arg0 : DevRef τ sig) = W (main_arg0 : DevRef τ sig) := by
  after_results_simp

/-! ### The inverse regrouping and the concatenation -/

theorem E_v19 : after opsE W (main_v19 : DevRef τ sig)
    = concatenate S2x384x224x224 1
        [⟨S2x192x224x224, W (main_v0 : DevRef τ sig)⟩, ⟨S2x192x224x224, ungroup (W (main_v15 : DevRef τ sig))⟩]
        concatenates_S2x192x224x224_S2x192x224x224_S2x384x224x224_d1 := by
  after_results_simp
  rfl
theorem E_arg0 : after opsE W (main_arg0 : DevRef τ sig) = W (main_arg0 : DevRef τ sig) := by
  after_results_simp

/-! ## The whole fold -/

/-- The fold at the result buffer is `outα` of the argument. -/
theorem out_eq (V : Valuation τ sig (Elt F)) :
    after ops V (main_v19 : DevRef τ sig) = outα (fillF (F := F)) (V (main_arg0 : DevRef τ sig)) := by
  rw [ops_eq, after_append, after_append, after_append, after_append, E_v19, D_v0, C_v0, B_v0, A_v0, D_v15, C_v12, C_v14,
    B_v9, B_v1, A_v1]
  rfl

theorem arg0_eq (V : Valuation τ sig (Elt F)) :
    after ops V (main_arg0 : DevRef τ sig) = V (main_arg0 : DevRef τ sig) := by
  rw [ops_eq, after_append, after_append, after_append, after_append, E_arg0, D_arg0, C_arg0, B_arg0, A_arg0]

/-- Every weakly fair execution of @main terminates with the result at `outα` of the argument and the argument unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = outα (fillF (F := F)) (m ((c.tc : Thread nD τ).loc main_arg0))
      ∧ r.2.mem ((c.tc : Thread nD τ).loc main_arg0) = m ((c.tc : Thread nD τ).loc main_arg0) :=
  (θ_run defs _ _).mono (fun _ h c => ⟨(h c main_v19).trans (out_eq _), (h c main_arg0).trans (arg0_eq _)⟩) (run_main m ρ)

end Cert.RefSide

end
-- ==== Proof.RefLayout.lean ====
/-
  The layout changes of the reference read at an index given by coordinates.

  A reshape keeps the row-major position; a transpose reads, on source axis `perm[b]`, the result's coordinate `b`.
  Composed: `ungroup v` at (n, c', h, w) is `v` at (n, c' / 48, c' % 48, h % 112, w % 112, 2 * (h / 112) + w / 112), and
  `regroup u` at (n, g, c, h', w', q) is `u` at (n, 48 g + c, 112 (q / 2) + h', 112 (q % 2) + w'): the last axis of the
  regrouped array is the quadrant. The table's broadcast reads entry (g, q).
-/
import proofs.«208198_g16930761081413_cont_7to1_1121_27_alg».proof.Proof.RefTerm
import Idealize.ShloMosaic.Lib.Pipeline.Value

noncomputable section

namespace Cert.RefSide

open Cert.ReferenceIdeal Cert.ReferenceIdeal.Facts₀ Idealize.ShloMosaic Idealize.ShloMosaic.ValueIdx

variable [Cert.ReferenceIdeal.Facts] {α : Type}

/-! ## Rank-7 indices by coordinates -/

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun i => match i with | ⟨0, _⟩ => a | ⟨1, _⟩ => b | ⟨2, _⟩ => c | ⟨3, _⟩ => d | ⟨4, _⟩ => e | ⟨5, _⟩ => f | ⟨6, _⟩ => g

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-! ## The two regroupings -/

/-- `ungroup v` at (n, c', h, w): group and channel from `c'`, the positions inside the quadrant, the quadrant last. -/
theorem ungroup_apply (v : S2x4x48x112x112x4.Idx → α) (n : Fin 2) (c' : Fin 192) (h w : Fin 224) :
    ungroup v (ix4 n c' h w)
      = v (ix6 n (⟨c'.val / 48, by omega⟩ : Fin 4) (⟨c'.val % 48, by omega⟩ : Fin 48) (⟨h.val % 112, by omega⟩ : Fin 112)
          (⟨w.val % 112, by omega⟩ : Fin 112) (⟨2 * (h.val / 112) + w.val / 112, by omega⟩ : Fin 4)) := by
  unfold ungroup
  refine (shapeCast_apply _ shapeCasts_S2x192x2x112x2x112_S2x192x224x224 (ix4 n c' h w)
    (ix6 n c' (⟨h.val / 112, by omega⟩ : Fin 2) (⟨h.val % 112, by omega⟩ : Fin 112) (⟨w.val / 112, by omega⟩ : Fin 2)
      (⟨w.val % 112, by omega⟩ : Fin 112)) ?_).trans ?_
  · rw [Shape.rowMajor_val_six, Shape.rowMajor_val_four]
    show ((((n.val * 192 + c'.val) * 2 + h.val / 112) * 112 + h.val % 112) * 2 + w.val / 112) * 112 + w.val % 112
      = ((n.val * 192 + c'.val) * 224 + h.val) * 224 + w.val
    omega
  refine (transpose_apply _ _ transposes_S2x192x112x112x2x2_S2x192x2x112x2x112_0_1_4_2_5_3 _
    (ix6 n c' (⟨h.val % 112, by omega⟩ : Fin 112) (⟨w.val % 112, by omega⟩ : Fin 112) (⟨h.val / 112, by omega⟩ : Fin 2)
      (⟨w.val / 112, by omega⟩ : Fin 2)) (fun b => match b with
      | ⟨0, _⟩ => rfl | ⟨1, _⟩ => rfl | ⟨2, _⟩ => rfl | ⟨3, _⟩ => rfl | ⟨4, _⟩ => rfl | ⟨5, _⟩ => rfl)).trans ?_
  refine shapeCast_apply _ shapeCasts_S2x4x48x112x112x4_S2x192x112x112x2x2 _ _ ?_
  rw [Shape.rowMajor_val_six, Shape.rowMajor_val_six]
  show ((((n.val * 4 + c'.val / 48) * 48 + c'.val % 48) * 112 + h.val % 112) * 112 + w.val % 112) * 4
        + (2 * (h.val / 112) + w.val / 112)
      = ((((n.val * 192 + c'.val) * 112 + h.val % 112) * 112 + w.val % 112) * 2 + h.val / 112) * 2 + w.val / 112
  omega

/-- `regroup u` at (n, g, c, h', w', q): channel `48 g + c`, quadrant `q`'s row half and column half in front of the
    positions inside the quadrant. -/
theorem regroup_apply (u : S2x192x224x224.Idx → α) (n : Fin 2) (g : Fin 4) (c : Fin 48) (h' w' : Fin 112) (q : Fin 4) :
    regroup u (ix6 n g c h' w' q)
      = u (ix4 n (⟨g.val * 48 + c.val, by omega⟩ : Fin 192) (⟨(q.val / 2) * 112 + h'.val, by omega⟩ : Fin 224)
          (⟨(q.val % 2) * 112 + w'.val, by omega⟩ : Fin 224)) := by
  unfold regroup
  refine (shapeCast_apply _ shapeCasts_S2x4x48x112x112x2x2_S2x4x48x112x112x4 (ix6 n g c h' w' q)
    (ix7 n g c h' w' (⟨q.val / 2, by omega⟩ : Fin 2) (⟨q.val % 2, by omega⟩ : Fin 2)) ?_).trans ?_
  · rw [rowMajor_val_seven, Shape.rowMajor_val_six]
    show (((((n.val * 4 + g.val) * 48 + c.val) * 112 + h'.val) * 112 + w'.val) * 2 + q.val / 2) * 2 + q.val % 2
      = ((((n.val * 4 + g.val) * 48 + c.val) * 112 + h'.val) * 112 + w'.val) * 4 + q.val
    omega
  refine (transpose_apply _ _ transposes_S2x4x48x2x112x2x112_S2x4x48x112x112x2x2_0_1_2_4_6_3_5 _
    (ix7 n g c (⟨q.val / 2, by omega⟩ : Fin 2) h' (⟨q.val % 2, by omega⟩ : Fin 2) w') (fun b => match b with
      | ⟨0, _⟩ => rfl | ⟨1, _⟩ => rfl | ⟨2, _⟩ => rfl | ⟨3, _⟩ => rfl | ⟨4, _⟩ => rfl | ⟨5, _⟩ => rfl | ⟨6, _⟩ => rfl)).trans ?_
  refine shapeCast_apply _ shapeCasts_S2x192x224x224_S2x4x48x2x112x2x112 _ _ ?_
  rw [Shape.rowMajor_val_four, rowMajor_val_seven]
  show ((n.val * 192 + (g.val * 48 + c.val)) * 224 + ((q.val / 2) * 112 + h'.val)) * 224 + ((q.val % 2) * 112 + w'.val)
      = (((((n.val * 4 + g.val) * 48 + c.val) * 2 + q.val / 2) * 112 + h'.val) * 2 + q.val % 2) * 112 + w'.val
  omega

/-- The broadcast table at (n, g, c, h', w', k) is entry (g, k). -/
theorem idxA_apply (n : Fin 2) (g : Fin 4) (c : Fin 48) (h' w' : Fin 112) (k : Fin 4) :
    idxA (ix6 n g c h' w' k) = tbl (ix2 g k) := by
  unfold idxA
  refine (broadcastInDim_apply _ bcast_S1x4x1x1x1x4_S2x4x48x112x112x4_0_1_2_3_4_5 _ (ix6 n g c h' w' k)
    (ix6 (0 : Fin 1) g (0 : Fin 1) (0 : Fin 1) (0 : Fin 1) k) (fun a => match a with
      | ⟨0, _⟩ => rfl | ⟨1, _⟩ => rfl | ⟨2, _⟩ => rfl | ⟨3, _⟩ => rfl | ⟨4, _⟩ => rfl | ⟨5, _⟩ => rfl)).trans ?_
  refine shapeCast_apply _ shapeCasts_S4x4_S1x4x1x1x1x4 _ _ ?_
  rw [Shape.rowMajor_val_two, Shape.rowMajor_val_six]
  show g.val * 4 + k.val = ((((0 * 4 + g.val) * 1 + 0) * 1 + 0) * 1 + 0) * 4 + k.val
  omega

end Cert.RefSide

end
-- ==== Proof.RefTake.lean ====
/-
  Take-along-axis read at an index.

  * The gather: the five leading axes are batching axes (the result's coordinate is the operand's), the last is the
    collapsed axis the start index names: the operand is read at (n, g, c, h', w', s) with `s` the start index at
    (n, g, c, h', w', k, 0), read signed and clamped into [0, 3].
  * The in-bounds mask: an `and` over the trailing unit axis of a mask that is 1 everywhere is 1 (a left fold of `and`
    from 1 over ones).
  * With every index a table entry in [0, 3]: the normalisation keeps it, the mask is 1, the fill value is never read:
    `take fill a idxA` at (n, g, c, h', w', k) is `a` at (n, g, c, h', w', (g + k) % 4).

  Stated at the proved instance of the program's facts (they are propositions: any two instances are equal).
-/
import proofs.«208198_g16930761081413_cont_7to1_1121_27_alg».proof.Proof.RefLayout
import proofs.«208198_g16930761081413_cont_7to1_1121_27_alg».proof.Proof.Gen.ReferenceIdeal

noncomputable section

namespace Cert.RefSide

open Cert.ReferenceIdeal Cert.ReferenceIdeal.Facts₀ Idealize.ShloMosaic Idealize.ShloMosaic.ValueIdx

variable {α : Type}

/-! ## The gather -/

/-- The gather's dimension numbers. -/
abbrev GD : GatherDims S2x4x48x112x112x4 S2x4x48x112x112x4x1 S2x4x48x112x112x4 :=
  gather_S2x4x48x112x112x4_S2x4x48x112x112x4x1_S2x4x48x112x112x4_n_5_01234_01234_5_6_111111

theorem gather_apply (a : S2x4x48x112x112x4.Idx → α) (idx : IVec S2x4x48x112x112x4x1 32)
    (n : Fin 2) (g : Fin 4) (c : Fin 48) (h' w' : Fin 112) (k : Fin 4) :
    Host.gather GD a idx (ix6 n g c h' w' k)
      = a (ix6 n g c h' w' (⟨min (idx (ix7 n g c h' w' k (0 : Fin 1))).toInt.toNat 3, by omega⟩ : Fin 4)) := by
  unfold Host.gather
  congr 1
  funext b
  refine Fin.ext ?_
  show GD.start (ix6 n g c h' w' k) idx b + GD.batchCoord (ix6 n g c h' w' k) b + GD.offCoord (ix6 n g c h' w' k) b = _
  have hsi : GD.siIdx (ix6 n g c h' w' k) ⟨List.idxOf (5 : Fin 6) GD.startIndexMap,
      List.idxOf_lt_length_iff.2 (List.mem_singleton.mpr rfl)⟩ = ix7 n g c h' w' k (0 : Fin 1) := by
    funext e; refine Fin.ext ?_
    match e with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  match b with
  | ⟨0, _⟩ =>
    show GD.start (ix6 n g c h' w' k) idx (0 : Fin 6) + GD.batchCoord (ix6 n g c h' w' k) (0 : Fin 6)
      + GD.offCoord (ix6 n g c h' w' k) (0 : Fin 6) = n.val
    rw [GatherDims.start_batching _ _ _ _ (by decide), GatherDims.offCoord_eq_zero _ _ _ (by decide), Nat.zero_add, Nat.add_zero]
    rfl
  | ⟨1, _⟩ =>
    show GD.start (ix6 n g c h' w' k) idx (1 : Fin 6) + GD.batchCoord (ix6 n g c h' w' k) (1 : Fin 6)
      + GD.offCoord (ix6 n g c h' w' k) (1 : Fin 6) = g.val
    rw [GatherDims.start_batching _ _ _ _ (by decide), GatherDims.offCoord_eq_zero _ _ _ (by decide), Nat.zero_add, Nat.add_zero]
    rfl
  | ⟨2, _⟩ =>
    show GD.start (ix6 n g c h' w' k) idx (2 : Fin 6) + GD.batchCoord (ix6 n g c h' w' k) (2 : Fin 6)
      + GD.offCoord (ix6 n g c h' w' k) (2 : Fin 6) = c.val
    rw [GatherDims.start_batching _ _ _ _ (by decide), GatherDims.offCoord_eq_zero _ _ _ (by decide), Nat.zero_add, Nat.add_zero]
    rfl
  | ⟨3, _⟩ =>
    show GD.start (ix6 n g c h' w' k) idx (3 : Fin 6) + GD.batchCoord (ix6 n g c h' w' k) (3 : Fin 6)
      + GD.offCoord (ix6 n g c h' w' k) (3 : Fin 6) = h'.val
    rw [GatherDims.start_batching _ _ _ _ (by decide), GatherDims.offCoord_eq_zero _ _ _ (by decide), Nat.zero_add, Nat.add_zero]
    rfl
  | ⟨4, _⟩ =>
    show GD.start (ix6 n g c h' w' k) idx (4 : Fin 6) + GD.batchCoord (ix6 n g c h' w' k) (4 : Fin 6)
      + GD.offCoord (ix6 n g c h' w' k) (4 : Fin 6) = w'.val
    rw [GatherDims.start_batching _ _ _ _ (by decide), GatherDims.offCoord_eq_zero _ _ _ (by decide), Nat.zero_add, Nat.add_zero]
    rfl
  | ⟨5, _⟩ =>
    show GD.start (ix6 n g c h' w' k) idx (5 : Fin 6) + GD.batchCoord (ix6 n g c h' w' k) (5 : Fin 6)
      + GD.offCoord (ix6 n g c h' w' k) (5 : Fin 6) = min (idx (ix7 n g c h' w' k (0 : Fin 1))).toInt.toNat 3
    rw [GatherDims.batchCoord_eq_zero _ _ _ (by decide), GatherDims.offCoord_eq_zero _ _ _ (by decide)]
    simp only [Nat.add_zero]
    unfold GatherDims.start
    rw [dif_pos (show (5 : Fin 6) ∈ GD.startIndexMap from List.mem_singleton.mpr rfl), hsi]
    rfl

/-! ## The in-bounds mask -/

/-- A left fold of `and` from 1 over a list of ones is 1. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons n l ih =>
    rw [List.foldl_cons, hf n List.mem_cons_self]
    exact ih fun m hm => hf m (List.mem_cons_of_mem _ hm)

/-- The reduction by `and` of a mask that is 1 everywhere is 1 everywhere. -/
theorem reduce_andi_one (x : IVec S2x4x48x112x112x4x1 1) (hx : ∀ p, x p = 1#1) (j : S2x4x48x112x112x4.Idx) :
    Host.reduce IntOp.andi x (constantI S_ 1 1#1) reducesTo_S2x4x48x112x112x4x1_S2x4x48x112x112x4_d6 h_S_ j = 1#1 := by
  unfold Host.reduce
  exact foldl_andi_one (fun n => x (S2x4x48x112x112x4x1.rowMajor.symm n)) _ fun n _ => hx _

/-! ## The table's entries, and take-along-axis at the table -/

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-- The index normalisation on one word: a negative one plus 4. -/
def nrmS (e : BitVec 32) : BitVec 32 := Scalar.select (IntOp.cmpi .slt e 0#32) (IntOp.addi e 4#32) e

/-- Whether a word is inside [0, 3], as the mask computes it. -/
def inS (e : BitVec 32) : BitVec 1 := IntOp.andi (IntOp.cmpi .sge e 0#32) (IntOp.cmpi .sle e 3#32)

theorem nrm_apply (i : IVec S2x4x48x112x112x4 32) (p : S2x4x48x112x112x4.Idx) : nrm i p = nrmS (i p) := rfl

theorem nrm1_apply (i : IVec S2x4x48x112x112x4 32) (n : Fin 2) (g : Fin 4) (c : Fin 48) (h' w' : Fin 112) (k : Fin 4) (z : Fin 1) :
    nrm1 i (ix7 n g c h' w' k z) = nrmS (i (ix6 n g c h' w' k)) := by
  unfold nrm1
  refine (shapeCast_apply _ shapeCasts_S2x4x48x112x112x4_S2x4x48x112x112x4x1 (ix7 n g c h' w' k z) (ix6 n g c h' w' k) ?_).trans
    (nrm_apply _ _)
  rw [Shape.rowMajor_val_six, rowMajor_val_seven]
  show ((((n.val * 4 + g.val) * 48 + c.val) * 112 + h'.val) * 112 + w'.val) * 4 + k.val
    = (((((n.val * 4 + g.val) * 48 + c.val) * 112 + h'.val) * 112 + w'.val) * 4 + k.val) * 1 + z.val
  omega

theorem inb1_apply (i : IVec S2x4x48x112x112x4 32) (p : S2x4x48x112x112x4x1.Idx) : inb1 i p = inS (nrm1 i p) := rfl

/-- The 16 entries: entry (g, k) is `(g + k) % 4`; the normalisation keeps it, it is inside [0, 3], and read signed
    and clamped into [0, 3] it is that number. By evaluating the 32-bit arithmetic. -/
theorem tbl_entries : ∀ g k : Fin 4,
    tbl (ix2 g k) = BitVec.ofNat 32 ((g.val + k.val) % 4)
    ∧ inS (nrmS (tbl (ix2 g k))) = 1#1
    ∧ min (nrmS (tbl (ix2 g k))).toInt.toNat 3 = (g.val + k.val) % 4 := by
  decide

/-- The in-bounds mask at the table is 1 everywhere. -/
theorem inb_idxA (j : S2x4x48x112x112x4.Idx) : inb idxA j = 1#1 := by
  unfold inb
  refine reduce_andi_one _ (fun p => ?_) j
  obtain ⟨n, g, c, h', w', k, z, rfl⟩ : ∃ (n : Fin 2) (g : Fin 4) (c : Fin 48) (h' w' : Fin 112) (k : Fin 4) (z : Fin 1),
      p = ix7 n g c h' w' k z :=
    ⟨p 0, p 1, p 2, p 3, p 4, p 5, p 6, eq_ix7 (n0 := 2) (n1 := 4) (n2 := 48) (n3 := 112) (n4 := 112) (n5 := 4) (n6 := 1) p⟩
  rw [inb1_apply, nrm1_apply, idxA_apply]
  exact (tbl_entries _ _).2.1

/-- Take-along-axis at the table: position `k` of the last axis reads position `(g + k) % 4`. -/
theorem take_apply (fill a : S2x4x48x112x112x4.Idx → α) (n : Fin 2) (g : Fin 4) (c : Fin 48) (h' w' : Fin 112) (k : Fin 4) :
    take fill a idxA (ix6 n g c h' w' k)
      = a (ix6 n g c h' w' (⟨(g.val + k.val) % 4, Nat.mod_lt _ (by decide)⟩ : Fin 4)) := by
  unfold take
  rw [select_apply, inb_idxA, select_one, gather_apply]
  congr 2
  refine Fin.ext ?_
  show min (nrm1 idxA (ix7 n g c h' w' k (0 : Fin 1))).toInt.toNat 3 = (g.val + k.val) % 4
  rw [nrm1_apply, idxA_apply]
  exact (tbl_entries g k).2.2

end Cert.RefSide

end
-- ==== Proof.RefValue.lean ====
/-
  THE VALUE: the reference's result term at an index is the argument at the specification's source index.

  Channels below 192 come through the first slice unchanged, and the specification's source index there is the index.
  A channel `ch ≥ 192` comes through the chain: with `c' = ch - 192`, group `g = c' / 48`, and `q = 2 (h / 112) + w / 112`
  the result's quadrant, the inverse regrouping reads the taken array at (n, g, c' % 48, h % 112, w % 112, q); the take
  reads position `(g + q) % 4` of the last axis; the regrouping reads the upper slice at channel `48 g + c' % 48 = c'`,
  row `112 ((g + q) % 4 / 2) + h % 112`, column `112 ((g + q) % 4 % 2) + w % 112`; the slice adds 192 to the channel.
  Those are the specification's `srcH` and `srcW`.

  Stated at the proved instance of the program's facts first, then for any instance (they are propositions).
-/
import proofs.«208198_g16930761081413_cont_7to1_1121_27_alg».proof.Proof.RefTake
import proofs.«208198_g16930761081413_cont_7to1_1121_27_alg».proof.Proof.Spec

noncomputable section

namespace Cert.RefSide

open Cert.ReferenceIdeal Cert.ReferenceIdeal.Facts₀ Idealize.ShloMosaic Idealize.ShloMosaic.ValueIdx

variable {α : Type}

theorem srcH_upper {ch h w : Nat} (hc : 192 ≤ ch) :
    (((ch - 192) / 48 + (2 * (h / 112) + w / 112)) % 4 / 2) * 112 + h % 112 = Cert.Spec.srcH ch h w := by
  unfold Cert.Spec.srcH Cert.Spec.quad Cert.Spec.grp
  rw [if_neg (by omega)]
  omega

theorem srcW_upper {ch h w : Nat} (hc : 192 ≤ ch) :
    (((ch - 192) / 48 + (2 * (h / 112) + w / 112)) % 4 % 2) * 112 + w % 112 = Cert.Spec.srcW ch h w := by
  unfold Cert.Spec.srcW Cert.Spec.quad Cert.Spec.grp
  rw [if_neg (by omega)]
  omega

/-- The result term at (n, ch, h, w), at the proved instance. -/
theorem out_apply_gen (fill : S2x4x48x112x112x4.Idx → α) (x : S2x384x224x224.Idx → α)
    (n : Fin 2) (ch : Fin 384) (h w : Fin 224) :
    outα fill x (ix4 n ch h w) = x (Cert.Spec.src (ix4 n ch h w)) := by
  unfold outα
  by_cases hc : ch.val < 192
  · refine (concatenate_pair_apply_left (t := S2x384x224x224) (s₁ := S2x192x224x224) (s₂ := S2x192x224x224) (1 : Fin 4) _ _ concatenates_S2x192x224x224_S2x192x224x224_S2x384x224x224_d1
      (ix4 n ch h w) rfl (ix4 n (⟨ch.val, hc⟩ : Fin 192) h w)
      (fun b => match b with | ⟨0, _⟩ => rfl | ⟨1, _⟩ => rfl | ⟨2, _⟩ => rfl | ⟨3, _⟩ => rfl)).trans ?_
    refine (extractStridedSlice_apply _ _ slices_S2x384x224x224_S2x192x224x224_0_0_0_0 _ (ix4 n ch h w)
      (fun a => match a with
        | ⟨0, _⟩ => by show n.val = 0 + n.val; omega
        | ⟨1, _⟩ => by show ch.val = 0 + ch.val; omega
        | ⟨2, _⟩ => by show h.val = 0 + h.val; omega
        | ⟨3, _⟩ => by show w.val = 0 + w.val; omega)).trans ?_
    rw [Cert.Spec.src_of_lt _ (show ch.val < 240 by omega)]
  · have hc' : 192 ≤ ch.val := Nat.le_of_not_lt hc
    refine (concatenate_pair_apply_right (t := S2x384x224x224) (s₁ := S2x192x224x224) (s₂ := S2x192x224x224) (1 : Fin 4) _ _ concatenates_S2x192x224x224_S2x192x224x224_S2x384x224x224_d1
      (ix4 n ch h w) rfl rfl (ix4 n (⟨ch.val - 192, by omega⟩ : Fin 192) h w)
      (fun b hb => match b, hb with
        | ⟨0, _⟩, _ => rfl
        | ⟨1, _⟩, hb => (hb rfl).elim
        | ⟨2, _⟩, _ => rfl
        | ⟨3, _⟩, _ => rfl)
      (by show ch.val - 192 + 192 = ch.val; omega)).trans ?_
    rw [ungroup_apply, take_apply, regroup_apply]
    refine (extractStridedSlice_apply _ _ slices_S2x384x224x224_S2x192x224x224_0_192_0_0 _
      (ix4 n (⟨192 + ((ch.val - 192) / 48 * 48 + (ch.val - 192) % 48), by omega⟩ : Fin 384)
        (⟨(((ch.val - 192) / 48 + (2 * (h.val / 112) + w.val / 112)) % 4 / 2) * 112 + h.val % 112, by omega⟩ : Fin 224)
        (⟨(((ch.val - 192) / 48 + (2 * (h.val / 112) + w.val / 112)) % 4 % 2) * 112 + w.val % 112, by omega⟩ : Fin 224))
      (fun a => match a with
        | ⟨0, _⟩ => by show n.val = 0 + n.val; omega
        | ⟨1, _⟩ => rfl
        | ⟨2, _⟩ => by
          show (((ch.val - 192) / 48 + (2 * (h.val / 112) + w.val / 112)) % 4 / 2) * 112 + h.val % 112
            = 0 + ((((ch.val - 192) / 48 + (2 * (h.val / 112) + w.val / 112)) % 4 / 2) * 112 + h.val % 112)
          omega
        | ⟨3, _⟩ => by
          show (((ch.val - 192) / 48 + (2 * (h.val / 112) + w.val / 112)) % 4 % 2) * 112 + w.val % 112
            = 0 + ((((ch.val - 192) / 48 + (2 * (h.val / 112) + w.val / 112)) % 4 % 2) * 112 + w.val % 112)
          omega)).trans ?_
    refine congrArg x (funext fun a => Fin.ext ?_)
    match a with
    | ⟨0, _⟩ => rfl
    | ⟨1, _⟩ =>
      show 192 + ((ch.val - 192) / 48 * 48 + (ch.val - 192) % 48) = ch.val
      omega
    | ⟨2, _⟩ => exact srcH_upper hc'
    | ⟨3, _⟩ => exact srcW_upper hc'

/-- The result term is the specification's function of the argument, at the proved instance. -/
theorem out_eq_G_gen (fill : S2x4x48x112x112x4.Idx → α) (x : S2x384x224x224.Idx → α) :
    outα fill x = Cert.Spec.G x := by
  funext j
  rw [Cert.Spec.G_apply, eq_ix4 j]
  exact out_apply_gen fill x _ _ _ _

/-- The result term is the specification's function of the argument. -/
theorem out_eq_G [Cert.ReferenceIdeal.Facts] (fill : S2x4x48x112x112x4.Idx → α) (x : S2x384x224x224.Idx → α) :
    outα fill x = Cert.Spec.G x :=
  out_eq_G_gen fill x

end Cert.RefSide

end
-- ==== Proof.RefSide.lean ====
/-
  The reference program's run, at the ideal instance: every weakly fair execution of its `main` ends, nothing faulting,
  with its result array the specification's function `Cert.Spec.G` of its argument array, and the argument unchanged.

  The run ends with the result buffer at the composed pure term of the program's 62 host operations (RefOps, RefRun);
  that term, index by index, is the argument at the specification's source index (RefLayout, RefTake, RefValue).
-/
import proofs.«208198_g16930761081413_cont_7to1_1121_27_alg».proof.Defs
import proofs.«208198_g16930761081413_cont_7to1_1121_27_alg».proof.Proof.Spec
import proofs.«208198_g16930761081413_cont_7to1_1121_27_alg».proof.Proof.Gen.ReferenceIdeal
import proofs.«208198_g16930761081413_cont_7to1_1121_27_alg».proof.Proof.RefRun
import proofs.«208198_g16930761081413_cont_7to1_1121_27_alg».proof.Proof.RefValue
import Idealize.ShloMosaic.Lib.StableHlo.Run

noncomputable section

namespace Cert.RefSide

open Idealize.ShloMosaic Idealize.SL.Sem Cert.ReferenceIdeal

theorem run [Cert.ReferenceIdeal.Facts] (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v19) = Cert.Spec.G (m ((c.tc : Thread nD τ).loc main_arg0))
        ∧ r.2.mem ((c.tc : Thread nD τ).loc main_arg0) = m ((c.tc : Thread nD τ).loc main_arg0)) :=
  (θ_run (Cert.ReferenceIdeal.defs (F := Ideal)) _ _).mono
    (fun _ h c => ⟨(h c).1.trans (out_eq_G _ _), (h c).2⟩) (run_out (F := Ideal) m ρ)

end Cert.RefSide

end
-- ==== Proof.SpecBuf.lean ====
/-
  The quadrant rotation on ONE 224 x 224 image, the form in which a staging buffer holds it: the image after a rotation
  by `g` places reads, at (row `h`, column `w`), the image before at the same position inside quadrant
  `(g + 2 * (h / 112) + w / 112) % 4`. The whole-array specification (`Cert.Spec.src`) is this map on each image, at
  the image's channel group.
-/
import proofs.«208198_g16930761081413_cont_7to1_1121_27_alg».proof.Proof.Spec

namespace Cert.Spec

open Idealize.ShloMosaic Idealize.ShloMosaic.ValueIdx

/-- One image's shape. -/
abbrev SB : Shape := ⟨2, ![224, 224]⟩

/-- The source quadrant of position (`h`, `w`) under a rotation by `g` places. -/
def quadB (g h w : Nat) : Nat := (g + 2 * (h / 112) + w / 112) % 4
/-- The source row. -/
def bufH (g h w : Nat) : Nat := (quadB g h w / 2) * 112 + h % 112
/-- The source column. -/
def bufW (g h w : Nat) : Nat := (quadB g h w % 2) * 112 + w % 112

theorem quadB_lt (g h w : Nat) : quadB g h w < 4 := Nat.mod_lt _ (by decide)

theorem bufH_lt (g h w : Nat) : bufH g h w < 224 := by
  have := quadB_lt g h w
  have := Nat.mod_lt h (show 0 < 112 by decide)
  unfold bufH; omega

theorem bufW_lt (g h w : Nat) : bufW g h w < 224 := by
  have := Nat.mod_lt w (show 0 < 112 by decide)
  unfold bufW; omega

/-- The source position of a position of the rotated image. -/
def bufSrc (g : Nat) (y : SB.Idx) : SB.Idx :=
  ix2 ⟨bufH g (y 0).val (y 1).val, bufH_lt _ _ _⟩ ⟨bufW g (y 0).val (y 1).val, bufW_lt _ _ _⟩

/-- An image rotated by `g` places. -/
def rotBuf {α : Type} (g : Nat) (f : SB.Idx → α) : SB.Idx → α := fun y => f (bufSrc g y)

theorem rotBuf_apply {α : Type} (g : Nat) (f : SB.Idx → α) (y : SB.Idx) : rotBuf g f y = f (bufSrc g y) := rfl

/-- The whole-array source row and column are the image's, at the channel's group. -/
theorem srcH_eq_bufH (ch h w : Nat) : srcH ch h w = bufH (grp ch) h w := rfl
theorem srcW_eq_bufW (ch h w : Nat) : srcW ch h w = bufW (grp ch) h w := rfl

end Cert.Spec
-- ==== Proof.Setup.lean ====
/-
  What the tile bodies' proof and the launch share: the program as the launch theorem reads it, the ghost state, the
  geometry of the work's division, and what the one SparseCore call hands each vector subcore and takes back.

  The array is [2, 384, 224, 224]. The call works on the 288 images (batch `b`, channel `ch`) with `ch ≥ 240`, numbered
  `n = 144 * b + (ch - 240)`. Vector subcore `s` of SparseCore `c` is worker `2 * s + c` and owns the nine images
  `9 * (2 * s + c) + j`, `j < 9`. It is handed those nine images of the argument `x` and of the call's result `o`, and
  hands them back with `o`'s at the specification's values: each image its quadrants rotated by its channel's group.
-/
import proofs.«208198_g16930761081413_cont_7to1_1121_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«208198_g16930761081413_cont_7to1_1121_27_alg».proof.Proof.Gen.KernelIdeal
import proofs.«208198_g16930761081413_cont_7to1_1121_27_alg».proof.Proof.SpecBuf

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds, the copy region's staging cells, the tiles' transfer counters -/

abbrev UH : Type := URounds (GSem nD τ sig) ℕ
abbrev UU : Type := UH × (UR sig nD τ × Counters)

abbrev EH : Emb UH (MT nD τ sig (HIx 1) (Elt F) ℕ UU ℕ) := embL

/-! ## The arrays -/

abbrev xLoc (d : Dev nD) : Loc nD τ sig := (SparseCore.T d).loc main_arg0
abbrev oLoc (d : Dev nD) : Loc nD τ sig := (SparseCore.T d).loc main_v0

/-! ## The division of the work -/

/-- The number of image `j` of the worker on SparseCore `c`, vector subcore `s`. -/
def imgN (c s j : Nat) : Nat := (s * 2 + c) * 9 + j
/-- Its batch index and its channel. -/
def imgB (c s j : Nat) : Nat := imgN c s j / 144
def imgC (c s j : Nat) : Nat := 240 + imgN c s j % 144

theorem imgB_lt {c s j : Nat} (hc : c < 2) (hs : s < 16) (hj : j < 9) : imgB c s j < 2 := by
  unfold imgB imgN; omega
theorem imgC_lt (c s j : Nat) : imgC c s j < 384 := by
  unfold imgC; omega
theorem imgC_ge (c s j : Nat) : 240 ≤ imgC c s j := by
  unfold imgC; omega

theorem img_inb {b ch : Nat} (hb : b < 2) (hch : ch < 384) :
    ∀ a, (![b, ch, 0, 0] : Fin 4 → Nat) a + S1x1x224x224.size a ≤ S2x384x224x224.size a := by
  intro a; fin_cases a <;> simp <;> omega

/-- Image (`b`, `ch`) of the array, as a rectangle. -/
abbrev imgRect (b ch : Nat) (hb : b < 2) (hch : ch < 384) : Rect S2x384x224x224 :=
  Rect.unit (s := S2x384x224x224) ![b, ch, 0, 0] S1x1x224x224.size (img_inb hb hch)

/-- The index set of image `j` of worker (`c`, `s`). -/
def tileImg (c : Fin 2) (s : Fin 16) (j : Fin 9) : Finset S2x384x224x224.Idx :=
  (imgRect (imgB c.val s.val j.val) (imgC c.val s.val j.val) (imgB_lt c.isLt s.isLt j.isLt) (imgC_lt _ _ _)).set

/-! ## What the handshakes carry -/

section Pay

local notation "𝕄" => MT nD τ sig (HIx 1) (Elt F) ℕ UU ℕ

variable (m : (ℓ : Loc nD τ sig) → Buf (Elt F) ℓ)

/-- The specification's result, as contents of the call's result array. -/
abbrev want (d : Dev nD) : Buf (Elt F) (oLoc d) := Cert.Spec.G (m (xLoc d))

/-- A worker's nine images of `x`, and of `o` at contents `fo`. -/
def tileRes (d : Dev nD) (c : Fin 2) (s : Fin 16) (fo : Buf (Elt F) (oLoc d)) : sProp 𝕄 :=
  bigSep (Finset.univ : Finset (Fin 9)) fun j =>
    iprop((xLoc d ↦[tileImg c s j]{fullShare} m (xLoc d)) ∗ (oLoc d ↦[tileImg c s j]{fullShare} fo))

/-- What a SparseCore's sixteen workers hold together. -/
def coreRes (d : Dev nD) (c : Fin 2) (fo : Buf (Elt F) (oLoc d)) : sProp 𝕄 :=
  bigSep (Finset.univ : Finset (Fin 16)) fun s => tileRes m d c s fo

/-- The one call hands each worker its nine images of `x` and of `o` (at the launch contents) and takes them back with
    `o`'s at the specification's values; a SparseCore is handed, and hands back, its sixteen workers' together. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (want m d)
  go := fun q d c i => match q with | 0 => tileRes m d (Fin.cast nCore_zero c) (Fin.cast nSub_zero i) (m (oLoc d))
  td := fun q d c i => match q with | 0 => tileRes m d (Fin.cast nCore_zero c) (Fin.cast nSub_zero i) (want m d)
  x := fun _ _ => iprop(emp)

instance tileRes_storable (d : Dev nD) (c : Fin 2) (s : Fin 16) (fo : Buf (Elt F) (oLoc d)) :
    BI.Storable (upEmb : UEmb _ 𝕄) (tileRes m d c s fo) := by
  unfold tileRes; infer_instance

instance coreRes_storable (d : Dev nD) (c : Fin 2) (fo : Buf (Elt F) (oLoc d)) :
    BI.Storable (upEmb : UEmb _ 𝕄) (coreRes m d c fo) := by
  unfold coreRes; infer_instance

instance P_storable : (P (F := F) m).IsStorable where
  st q d c := match q with | 0 => (inferInstance : BI.Storable (upEmb : UEmb _ 𝕄) (coreRes m d (Fin.cast nCore_zero c) (m (oLoc d))))
  dn q d c := match q with | 0 => (inferInstance : BI.Storable (upEmb : UEmb _ 𝕄) (coreRes m d (Fin.cast nCore_zero c) (want m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (want m d)))

end Pay

end Cert.KernelIdeal.Setup

end
-- ==== Proof.LaunchSplit.lean ====
/-
  The launch's set-up, before @main: the facts of the launch semaphores; the geometry of the 288 images the one
  SparseCore call works on (pairwise disjoint, and together the channels from 240 on); an array held whole as those
  images and the rest, and back; a SparseCore's operands as its sixteen workers'; and the launch element of the ghost
  state dealt: the handshakes' rounds, the copy region's staging cells, nothing for the workers.
-/
import proofs.«208198_g16930761081413_cont_7to1_1121_27_alg».proof.Proof.Setup
import proofs.«208198_g16930761081413_cont_7to1_1121_27_alg».proof.Proof.Gen.KernelIdeal.Launch

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch semaphores -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The images -/

/-- A worker's image, by SparseCore, vector subcore and number. -/
abbrev Img : Type := Fin 2 × Fin 16 × Fin 9

/-- Its index set. -/
def imgK (k : Img) : Finset S2x384x224x224.Idx := tileImg k.1 k.2.1 k.2.2

/-- All 288 images' indices. -/
def imgs : Finset S2x384x224x224.Idx := (Finset.univ : Finset Img).biUnion imgK

/-- An index lies in an image iff its batch and channel are the image's. -/
theorem mem_tileImg (c : Fin 2) (s : Fin 16) (j : Fin 9) (i : S2x384x224x224.Idx) :
    i ∈ tileImg c s j ↔ (i 0).val = imgB c.val s.val j.val ∧ (i 1).val = imgC c.val s.val j.val := by
  unfold tileImg
  rw [Rect.mem_set_unit]
  constructor
  · intro h
    have h0 := h 0
    have h1 := h 1
    change imgB c.val s.val j.val ≤ (i 0).val ∧ (i 0).val < imgB c.val s.val j.val + 1 at h0
    change imgC c.val s.val j.val ≤ (i 1).val ∧ (i 1).val < imgC c.val s.val j.val + 1 at h1
    omega
  · rintro ⟨h0, h1⟩ a
    have h2 : (i 2).val < 224 := (i 2).isLt
    have h3 : (i 3).val < 224 := (i 3).isLt
    match a with
    | ⟨0, _⟩ => change imgB c.val s.val j.val ≤ (i 0).val ∧ (i 0).val < imgB c.val s.val j.val + 1; omega
    | ⟨1, _⟩ => change imgC c.val s.val j.val ≤ (i 1).val ∧ (i 1).val < imgC c.val s.val j.val + 1; omega
    | ⟨2, _⟩ => change 0 ≤ (i 2).val ∧ (i 2).val < 0 + 224; omega
    | ⟨3, _⟩ => change 0 ≤ (i 3).val ∧ (i 3).val < 0 + 224; omega

/-- Distinct images are disjoint: an image's batch and channel name its number, and the number names the worker and
    the image among its nine. -/
theorem imgK_disjoint : ∀ k ∈ (Finset.univ : Finset Img), ∀ k' ∈ (Finset.univ : Finset Img), k ≠ k' → Disjoint (imgK k) (imgK k') := by
  rintro ⟨c, s, j⟩ - ⟨c', s', j'⟩ - hne
  refine Finset.disjoint_left.mpr fun i hi hi' => hne ?_
  obtain ⟨h0, h1⟩ := (mem_tileImg c s j i).mp hi
  obtain ⟨h0', h1'⟩ := (mem_tileImg c' s' j' i).mp hi'
  have hc := c.isLt; have hc' := c'.isLt; have hj := j.isLt; have hj' := j'.isLt
  have hs := s.isLt; have hs' := s'.isLt
  unfold imgB imgC imgN at *
  have e : c.val = c'.val ∧ s.val = s'.val ∧ j.val = j'.val := by omega
  exact Prod.ext (Fin.ext e.1) (Prod.ext (Fin.ext e.2.1) (Fin.ext e.2.2))

/-- Every index whose channel is 240 or more lies in an image. -/
theorem mem_imgs_of_ge (i : S2x384x224x224.Idx) (h : 240 ≤ (i 1).val) : i ∈ imgs := by
  have hb : (i 0).val < 2 := (i 0).isLt
  have hch : (i 1).val < 384 := (i 1).isLt
  have hn : 144 * (i 0).val + ((i 1).val - 240) < 288 := by omega
  refine Finset.mem_biUnion.mpr ⟨(⟨(144 * (i 0).val + ((i 1).val - 240)) / 9 % 2, by omega⟩,
    ⟨(144 * (i 0).val + ((i 1).val - 240)) / 9 / 2, by omega⟩, ⟨(144 * (i 0).val + ((i 1).val - 240)) % 9, by omega⟩), Finset.mem_univ _, ?_⟩
  refine (mem_tileImg _ _ _ i).mpr ?_
  unfold imgB imgC imgN
  dsimp only
  omega

/-- An index in an image has channel 240 or more. -/
theorem ge_of_mem_imgs (i : S2x384x224x224.Idx) (h : i ∈ imgs) : 240 ≤ (i 1).val := by
  obtain ⟨⟨c, s, j⟩, -, hk⟩ := Finset.mem_biUnion.mp h
  have := ((mem_tileImg c s j i).mp hk).2
  unfold imgC at this; omega

/-! ## An array held whole, as the images and the rest -/

section Split

variable (m : (ℓ : Loc nD τ sig) → Buf (Elt F) ℓ)

/-- The argument array held whole is held as the 288 images and the channels below 240. -/
theorem xPts_imgs (d : Dev nD) (f : Buf (Elt F) (xLoc d)) :
    (xLoc d ↦{fullShare} f : sProp 𝕄)
      = iprop((bigSep (Finset.univ : Finset Img) fun k => xLoc d ↦[imgK k]{fullShare} f) ∗ xLoc d ↦[Finset.univ \ imgs]{fullShare} f) := by
  have h := pointsTo_split_subset (Ix := HIx 1) (Name := ℕ) (U := UU) (Lvl := ℕ) (ℓ := xLoc d) (q := fullShare) (f := f) (Finset.subset_univ imgs)
  refine (BI.equiv_iff.mp ⟨h.1, h.2⟩).trans ?_
  unfold imgs
  rw [pointsTo_biUnion Finset.univ (ℓ := xLoc d) imgK imgK_disjoint]

/-- The same for the call's result array. -/
theorem oPts_imgs (d : Dev nD) (f : Buf (Elt F) (oLoc d)) :
    (oLoc d ↦{fullShare} f : sProp 𝕄)
      = iprop((bigSep (Finset.univ : Finset Img) fun k => oLoc d ↦[imgK k]{fullShare} f) ∗ oLoc d ↦[Finset.univ \ imgs]{fullShare} f) := by
  have h := pointsTo_split_subset (Ix := HIx 1) (Name := ℕ) (U := UU) (Lvl := ℕ) (ℓ := oLoc d) (q := fullShare) (f := f) (Finset.subset_univ imgs)
  refine (BI.equiv_iff.mp ⟨h.1, h.2⟩).trans ?_
  unfold imgs
  rw [pointsTo_biUnion Finset.univ (ℓ := oLoc d) imgK imgK_disjoint]

/-- The call's result array after the call: the specification's values on the images, the launch contents elsewhere. -/
def fo1 (d : Dev nD) : Buf (Elt F) (oLoc d) := fun i => if i ∈ imgs then want m d i else m (oLoc d) i

theorem fo1_of_mem (d : Dev nD) {i : S2x384x224x224.Idx} (h : i ∈ imgs) : fo1 m d i = want m d i := by unfold fo1; exact if_pos h
theorem fo1_of_not_mem (d : Dev nD) {i : S2x384x224x224.Idx} (h : i ∉ imgs) : fo1 m d i = m (oLoc d) i := by unfold fo1; exact if_neg h

-- the membership test is not to be evaluated: the two lemmas above are all that is used of it
attribute [irreducible] fo1

/-- The result array's images at the specification's values and its rest as launched make it whole at `fo1`. -/
theorem oPts_join (d : Dev nD) :
    iprop((bigSep (Finset.univ : Finset Img) fun k => oLoc d ↦[imgK k]{fullShare} want m d) ∗ oLoc d ↦[Finset.univ \ imgs]{fullShare} m (oLoc d))
      ⊢ (oLoc d ↦{fullShare} fo1 m d : sProp 𝕄) := by
  rw [oPts_imgs d (fo1 m d),
    bigSep_congr (Φ := fun k : Img => (oLoc d ↦[imgK k]{fullShare} want m d : sProp 𝕄)) (Ψ := fun k : Img => oLoc d ↦[imgK k]{fullShare} fo1 m d)
      fun k _ => pointsTo_congr fun i hi => (fo1_of_mem m d (Finset.mem_biUnion.mpr ⟨k, Finset.mem_univ k, hi⟩)).symm,
    pointsTo_congr (ℓ := oLoc d) (I := Finset.univ \ imgs) (f := m (oLoc d)) (g := fo1 m d)
      fun i hi => (fo1_of_not_mem m d (Finset.mem_sdiff.mp hi).2).symm]

/-- The two SparseCores' operands (at contents `fo` of the result array) are the images of both arrays. -/
theorem cores_eq (d : Dev nD) (fo : Buf (Elt F) (oLoc d)) :
    (bigSep (Finset.univ : Finset (Fin 2)) fun c => coreRes m d c fo)
      = iprop((bigSep (Finset.univ : Finset Img) fun k => xLoc d ↦[imgK k]{fullShare} m (xLoc d))
          ∗ bigSep (Finset.univ : Finset Img) fun k => oLoc d ↦[imgK k]{fullShare} fo) := by
  rw [← bigSep_sep' (Finset.univ : Finset Img), bigSep_univ_prod]
  refine bigSep_congr fun c _ => ?_
  rw [bigSep_univ_prod]
  rfl

theorem st0_eq (d : Dev nD) :
    (bigSep Finset.univ fun c : Fin ((K (F := F)).nCore 0) => (P m).st 0 d c) = bigSep (Finset.univ : Finset (Fin 2)) fun c => coreRes m d c (m (oLoc d)) :=
  bigSep_congr fun _ _ => congrArg (fun c' : Fin 2 => coreRes m d c' (m (oLoc d))) (Fin.ext rfl)

theorem dn0_eq (d : Dev nD) :
    (bigSep Finset.univ fun c : Fin ((K (F := F)).nCore 0) => (P m).dn 0 d c) = bigSep (Finset.univ : Finset (Fin 2)) fun c => coreRes m d c (want m d) :=
  bigSep_congr fun _ _ => congrArg (fun c' : Fin 2 => coreRes m d c' (want m d)) (Fin.ext rfl)

/-! ## A SparseCore's operands, as its sixteen workers' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (want m d))
          -∗ coreRes m d (Fin.cast nCore_zero c) (want m d)))
  rw [bigSep_tasks (F := F) (fun i => tileRes m d (Fin.cast nCore_zero c) i (m (oLoc d))),
    bigSep_tasks (F := F) (fun i => tileRes m d (Fin.cast nCore_zero c) i (want m d))]
  unfold coreRes
  iintro H; imodintro
  isplitl [H]; · iexact H
  iintro H; iexact H

end Split

/-! ## The launch element of the ghost state -/

/-- The copy region's admissible tables: it has none. -/
abbrev adm : (p : Fin 1) → (pcfgs (F := F) p).Adm := fun p => (cfgs p).toPCfg_adm

/-- The pipeline library's rounds, inside the second component of the ghost state. -/
abbrev ER : Emb (UR sig nD τ) (MT nD τ sig (HIx 1) (Elt F) ℕ UU ℕ) :=
  (Emb.inl : Emb (UR sig nD τ) (UR sig nD τ × Counters)).trans embR

instance ER_landsIn : (ER : Emb (UR sig nD τ) 𝕄).LandsIn (upEmb : UEmb _ 𝕄) := by unfold ER embR; infer_instance

/-- The launch element: the handshakes' rounds, the copy region's staging cells and transfers, no counter yet. -/
def u₀ : UU :=
  (initOf (K (F := F)).hsCells (K (F := F)).hsToks, (initOf (Pipeline.cells cfgs cellOf_inj) (Pipeline.launchToks cfgs cellOf_inj), 1))

/-- What @main's proof starts from on each device: the copy region's staging cells' ghost state and its transfers' tokens. -/
abbrev G₀ (d : Dev nD) : sProp 𝕄 :=
  iprop(Pipeline.cellsGhost (Pipeline.pin (pcfgs (F := F)) adm) ER 0 d ∗ Pipeline.toksInit (Pipeline.pin (pcfgs (F := F)) adm) ER 0 d)

theorem bigSep_emp' {I : Type} (s : Finset I) : (bigSep s fun _ => iprop(emp)) = (iprop(emp) : sProp 𝕄) := bigSep_emp_const s

theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P m).x q thr) := by
  have hg : (bigSep Finset.univ fun c : Dev nD => bigSep Finset.univ fun p : Fin 1 => (Pipeline.cellsGhost cfgs (ER (F := F)) p c : sProp 𝕄))
      ⊢ bigSep Finset.univ fun c : Dev nD => Pipeline.cellsGhost (Pipeline.pin (pcfgs (F := F)) adm) ER 0 c :=
    Entails.of_eq (bigSep_congr fun c _ => bigSep_univ_of_subsingleton (0 : Fin 1))
  have ht : (bigSep Finset.univ fun c : Dev nD => bigSep Finset.univ fun p : Fin 1 => (Pipeline.toksInit cfgs (ER (F := F)) p c : sProp 𝕄))
      ⊢ bigSep Finset.univ fun c : Dev nD => Pipeline.toksInit (Pipeline.pin (pcfgs (F := F)) adm) ER 0 c :=
    Entails.of_eq (bigSep_congr fun c _ => bigSep_univ_of_subsingleton (0 : Fin 1))
  unfold u₀
  iintro Hu
  ihave H := (ownU_pair _ _) $$ Hu
  icases H with ⟨HH, HR⟩
  ihave H := (own_pair_emb (embR : Emb (UR sig nD τ × Counters) 𝕄) _ _) $$ HR
  icases H with ⟨HP, -⟩
  imod (Pipeline.fund_ghost cfgs (ER (F := F)) cellOf_inj) $$ HP with ⟨Hg, Ht⟩
  imodintro
  isplitl [HH]; · iexact HH
  isplitl [Hg Ht]
  · rw [bigSep_sep']
    isplitl [Hg]
    · iapply hg; iexact Hg
    · iapply ht; iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Launch

end
-- ==== Proof.LaunchRegion.lean ====
/-
  The one TensorCore copy region of @main, run by the pipeline library: its proof data (every staging buffer holds,
  after the body at a point, that point's block of the argument array), the body's run (one whole-block load, one
  whole-block store), the body obligation, the region's record around thread states that carry the TensorCore's
  handshake state past it, and the result array's contents after the region: the argument array on the channels
  below 240 (the thirty blocks), the region-entry contents elsewhere.
-/
import proofs.«208198_g16930761081413_cont_7to1_1121_27_alg».proof.Proof.LaunchSplit
import proofs.«208198_g16930761081413_cont_7to1_1121_27_alg».proof.Proof.Gen.KernelIdeal.Points
import Idealize.ShloMosaic.Lib.Tactic
import Idealize.ShloMosaic.Lib.Pipeline.Regions
import Idealize.ShloMosaic.Lib.Pipeline.Value

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe Idealize.ShloMosaic.Tactic
open Idealize.ShloMosaic.Pipeline (Dat BodyObligation)

variable {F : FTy → Type} [FloatOps F]

local notation "𝕄" => MT nD τ sig (HIx 1) (Elt F) ℕ UU ℕ

/-! ## The body's run -/

theorem hz : (![0, 0, 0, 0] : Fin 4 → Nat) = fun _ => 0 := funext fun a => by fin_cases a <;> rfl

/-- The body at any point, on any two whole staging buffers: the second ends reading what the first reads. -/
theorem bodyRun [∀ e, Nonempty (Elt F e)] (c : Dev nD) (i : grid1.Coords) (M3 M4 : Memref sig .tc .vmem S1x16x224x224 .f32) (h3 : M3.IsWhole) (h4 : M4.IsWhole)
    (f3 : Buf (Elt F) (M3.view.loc (c : Thread nD τ))) (f4 : Buf (Elt F) (M4.view.loc (c : Thread nD τ))) (Q : PUnit → sProp 𝕄) :
    iprop((M3.view.loc (c : Thread nD τ) ↦{fullShare} f3) ∗ (M4.view.loc (c : Thread nD τ) ↦{fullShare} f4)
      ∗ (iprop((M3.view.loc (c : Thread nD τ) ↦{fullShare} f3)
          ∗ ∃ f4', ⌜M4.view.read (Elt F) f4' = M3.view.read (Elt F) f3⌝ ∗ (M4.view.loc (c : Thread nD τ) ↦{fullShare} f4')) -∗ Q ⟨⟩))
      ⊢ wp frame (wpE (defs₀ (F := F)) Variants.none (c : Thread nD τ) none) Set.univ
        (cc1_copy_body i (Memref.whole main_v0) (Memref.isWhole_whole _) M3 h3 M4 h4) Q := by
  iintro ⟨H3, H4, Hk⟩
  sl_exec
  sl_step
  iapply Hk
  isplitl [H3]; · iexact H3
  iexists _; isplitr; swap; (· iexact H4)
  ipureintro
  rw [View.read_writes_eq_canon _ _ _ (fun y => ⟨_, List.mem_singleton_self _, View.mem_set_unit_zero hz inb_S1x16x224x224_S1x16x224x224_0_0_0_0 y⟩), View.canon_unit_zero hz,
    View.readAt_eq_ld, View.ld_unit_zero hz]

/-! ## The proof data -/

section Data

variable (m : (ℓ : Loc nD τ sig) → Buf (Elt F) ℓ)

abbrev v1Loc (d : Dev nD) : Loc nD τ sig := (SparseCore.T d).loc main_v1

/-- Block `t` of the argument array: what the fetch at point `t` stages, and what the body copies. -/
abbrev xblk (c : Dev nD) (t : Fin cfg1.N) : S1x16x224x224.Idx → Elt F .f32 :=
  ((cfg1.win 0).blk t).view.read (Elt F) (m (xLoc c))

/-- The pairs the TensorCore's waits may have recorded: those at level at most 8, the handshakes' of call 0. -/
def rec8 (c : Dev nD) : Set (SemLoc sig × HIx 1) := {p | (K (F := F)).lev (T c, p.1) p.2 ≤ 8}

/-- The region's proof data on device `c`: the argument array, and the result array as the aliasing copy left it;
    after the body at point `t` both staging buffers hold block `t` of the argument; nothing of the kernel's own;
    nothing owed. -/
def dats (_ : Fin 1) (c : Dev nD) : Dat τ (Elt F) (HIx 1) ℕ UU ℕ cfg1 c where
  A w := match w with
    | ⟨0, _⟩ => m (xLoc c)
    | ⟨1, _⟩ => fo1 m c
  after w t := match w with
    | ⟨0, _⟩ => xblk m c t
    | ⟨1, _⟩ => xblk m c t
  Φ _ := iprop(emp)
  q _ := fullShare
  owed _ := 0
  recorded _ := rec8 (F := F) c

abbrev 𝒱r : Variants := Variants.none

/-- The fetched window's buffer holds the argument's block when the body runs. -/
theorem before_0 (c : Dev nD) (t : Fin cfg1.N) (d : (cfg1.win 0).block.Idx → Elt F (cfg1.win 0).elt) :
    (dats m 0 c).before 0 t d = xblk m c t := by
  rw [(dats m 0 c).before_fetched 0 t (fetch1_0 t)]
  unfold Dat.fetched Dat.blockOf
  funext j
  unfold Pipeline.Window.fill
  rw [dif_pos (((cfg1.win 0).moved_iff _ j).mpr fun a => (j a).isLt)]
  rfl

theorem body_obligation [∀ e, Nonempty (Elt F e)] (c : Dev nD) : BodyObligation (dats m 0 c) (defs₀ (F := F)) 𝒱r none Set.univ := fun t => by
  rw [bigSep_W1, bigSep_W1]
  show iprop(iprop(emp) ∗ (dats m 0 c).owesAt none t.castSucc
      ∗ (∃ d, owns (c : Thread nD τ) ((cfg1.win 0).stage (cfg1.slots t 0)) fullShare ((dats m 0 c).before 0 t d))
      ∗ (∃ d, owns (c : Thread nD τ) ((cfg1.win 1).stage (cfg1.slots t 1)) fullShare ((dats m 0 c).before 1 t d)))
    ⊢ wp frame (wpE (defs₀ (F := F)) 𝒱r (c : Thread nD τ) none) Set.univ (bodyAt1 t) fun _ =>
      iprop(iprop(emp) ∗ (dats m 0 c).owesAt none t.castSucc
        ∗ owns (c : Thread nD τ) ((cfg1.win 0).stage (cfg1.slots t 0)) fullShare (xblk m c t)
        ∗ owns (c : Thread nD τ) ((cfg1.win 1).stage (cfg1.slots t 1)) fullShare (xblk m c t))
  have hw0 : ((cfg1.win 0).stage (cfg1.slots t 0)).IsWhole := hstage1_0 ((cfg1.slots t 0).cast nbuf1_0)
  have hw1 : ((cfg1.win 1).stage (cfg1.slots t 1)).IsWhole := hstage1_1 ((cfg1.slots t 1).cast nbuf1_1)
  unfold owns
  rw [hw0.set_eq_univ, hw1.set_eq_univ]
  iintro ⟨-, HO, ⟨%d0, %f0, %hf0, H0⟩, ⟨%d1, %f1, %hf1, H1⟩⟩
  rw [before_0] at hf0
  iapply (bodyRun c (grid1.coords t) ((cfg1.win 0).stage (cfg1.slots t 0)) ((cfg1.win 1).stage (cfg1.slots t 1)) hw0 hw1 f0 f1)
  isplitl [H0]; · iexact H0
  isplitl [H1]; · iexact H1
  iintro ⟨H0, %f1', %hf1', H1⟩
  isplitr; · iempintro
  isplitl [HO]; · iexact HO
  isplitl [H0]
  · iexists f0; isplitr; · ipureintro; exact hf0
    iexact H0
  · iexists f1'; isplitr; · ipureintro; exact hf1'.trans hf0
    iexact H1

end Data

/-! ## The result array after the region -/

section Value

variable (m : (ℓ : Loc nD τ sig) → Buf (Elt F) ℓ)

/-- The result window's block index at point `t`: batch `t / 15`, channel block `t % 15`. -/
theorem idx1 : ∀ t : Fin grid1.N, win1_1.index t 0 = t.val / 15 ∧ win1_1.index t 1 = t.val % 15 ∧ win1_1.index t 2 = 0 ∧ win1_1.index t 3 = 0 := by
  decide +kernel

/-- An index of the result array lies in point `t`'s block iff its batch is `t / 15` and its channel is among the sixteen
    from `16 * (t % 15)`. -/
theorem mem_blk (t : Fin cfg1.N) (i : S2x384x224x224.Idx) :
    i ∈ ((cfg1.win 1).blk t).view.set ↔ (i 0).val = t.val / 15 ∧ 16 * (t.val % 15) ≤ (i 1).val ∧ (i 1).val < 16 * (t.val % 15) + 16 := by
  show i ∈ ((View.whole main_v1).slice (win1_1.rect t)).set ↔ _
  rw [View.set_slice_whole, Rect.mem_set_unit]
  obtain ⟨e0, e1, e2, e3⟩ := idx1 t
  have h2 : (i 2).val < 224 := (i 2).isLt
  have h3 : (i 3).val < 224 := (i 3).isLt
  constructor
  · intro h
    have a0 := h 0
    have a1 := h 1
    change win1_1.index t 0 * 1 ≤ (i 0).val ∧ (i 0).val < win1_1.index t 0 * 1 + 1 at a0
    change win1_1.index t 1 * 16 ≤ (i 1).val ∧ (i 1).val < win1_1.index t 1 * 16 + 16 at a1
    rw [e0] at a0; rw [e1] at a1
    omega
  · rintro ⟨h0, h1, h1'⟩ a
    match a with
    | ⟨0, _⟩ => change win1_1.index t 0 * 1 ≤ (i 0).val ∧ (i 0).val < win1_1.index t 0 * 1 + 1; rw [e0]; omega
    | ⟨1, _⟩ => change win1_1.index t 1 * 16 ≤ (i 1).val ∧ (i 1).val < win1_1.index t 1 * 16 + 16; rw [e1]; omega
    | ⟨2, _⟩ => change win1_1.index t 2 * 224 ≤ (i 2).val ∧ (i 2).val < win1_1.index t 2 * 224 + 224; rw [e2]; omega
    | ⟨3, _⟩ => change win1_1.index t 3 * 224 ≤ (i 3).val ∧ (i 3).val < win1_1.index t 3 * 224 + 224; rw [e3]; omega

end Value

end Cert.KernelIdeal.Launch

end
-- ==== Proof.LaunchSeg.lean ====
/-
  The copy region as the pipeline library's record, entered from inside the SparseCore program's @main: the thread
  states around it carry the TensorCore's debt (none, after the one call) with its recorded pairs' bound, and whatever
  else @main holds past the region; and the region's step on a device, through the SparseCore launch's lifting of the
  pipeline's labels.
-/
import proofs.«208198_g16930761081413_cont_7to1_1121_27_alg».proof.Proof.LaunchRegion

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe
open Idealize.ShloMosaic.Pipeline (Dat)

variable {F : FTy → Type} [FloatOps F]

local notation "𝕄" => MT nD τ sig (HIx 1) (Elt F) ℕ UU ℕ

section Region

variable (m : (ℓ : Loc nD τ sig) → Buf (Elt F) ℓ) (Rf : Dev nD → sProp (MT nD τ sig (HIx 1) (Elt F) ℕ UU ℕ))

/-- The TensorCore owing nothing, its recorded pairs at the levels of call 0's handshakes or below. -/
def OW (c : Dev nD) : sProp 𝕄 :=
  iprop(∃ W, ⌜(K (F := F)).WBelow (T c) W (8 * 1)⌝ ∗ owes (T c) (0 : CellTallies nD τ sig (HIx 1)) W)

/-- The region's two arrays, listed. -/
theorem arrays_eq1 (c : Dev nD) (A : (w : Fin cfg1.W) → Buf (Elt F) ((cfg1.win w).arr.view.loc (c : Thread nD τ))) :
    ((dats m 0 c).arrays A : sProp 𝕄) = iprop((xLoc c ↦{fullShare} A 0) ∗ (v1Loc c ↦{fullShare} A 1)) := by
  rw [Pipeline.arrays_eq cfgs (dats m) 0 c launch1.arr_whole ((dats m 0 c).share_full fun _ => rfl) A, bigSep_W1]

theorem A_zero (c : Dev nD) : (dats m 0 c).A 0 = m (xLoc c) := by dsimp only [dats]
theorem A_one' (c : Dev nD) : (dats m 0 c).A 1 = fo1 m c := by dsimp only [dats]

set_option backward.isDefEq.respectTransparency.types false in
/-- THE REGION: the generated layout, no semaphore of the kernel's own, the body obligation; entered holding the argument
    array, the result array as the aliasing copy left it, the TensorCore's debt and `Rf`, which bypasses it; left with the
    result array at what the thirty write-backs made of it. -/
def reg [∀ e, Nonempty (Elt F e)] :
    Pipeline.RegionSeg (pcfgs (F := F)) adm (dats m) none defs₀ 𝒱₀ (K (F := F)).L (K (F := F)).lev 0 := by
  refine
    { win := launch1.win.to₀
      block_pos := launch1.block_pos
      stage_whole := launch1.stage_whole
      K := PEmpty
      osem := fun k => k.elim
      ho := Pipeline.OwnSemFacts.none _
      hbody := fun c => (body_obligation m c).loose
      hwaits := Pipeline.hwaits_of_owed_zero _ _ _ _ _ _ 0 fun _ _ => rfl
      pre := fun c => iprop((xLoc c ↦{fullShare} m (xLoc c)) ∗ (v1Loc c ↦{fullShare} fo1 m c) ∗ OW (F := F) c ∗ Rf c)
      post := fun c => iprop((xLoc c ↦{fullShare} m (xLoc c)) ∗ (v1Loc c ↦{fullShare} (dats m 0 c).arrAt 1 cfg1.N) ∗ OW (F := F) c ∗ Rf c)
      X := fun _ => iprop(emp)
      Y := fun _ => iprop(emp)
      Z := fun c => Rf c
      hentry := ?he
      hin := ?hi
      hout := ?ho
      hexit := ?hx }
  case he =>
    intro c
    rw [arrays_eq1, show (dats m 0 c).arrAt 0 0 = (dats m 0 c).A 0 from rfl, show (dats m 0 c).arrAt 1 0 = (dats m 0 c).A 1 from rfl, A_zero, A_one']
    iintro ⟨⟨Hx, Hv, HO, HR⟩, -, -⟩
    imodintro
    isplitl [Hx Hv]
    · isplitl [Hx]; · iexact Hx
      iexact Hv
    isplitr; · unfold Pipeline.prefHeld; rw [show (Finset.univ : Finset (Fin 0)) = ∅ from rfl, BI.bigSep_empty]; iempintro
    isplitl [HO]
    · unfold OW Pipeline.Dat.owesAt Pipeline.owesWithin
      icases HO with ⟨%W, %hW, HO⟩; iexists W; isplitr
      · ipureintro; exact fun p hp => Or.inl (hW p hp)
      iexact HO
    isplitr; · iempintro
    iexact HR
  case hi =>
    intro c
    rw [show (dats m 0 c).Φ 0 = iprop(emp) from rfl]
    iintro -; iempintro
  case ho =>
    intro c
    rw [Pipeline.ownSems0_none, scopedRest1_eq]
    iintro -
    isplitr; · iempintro
    isplitr <;> iempintro
  case hx =>
    intro c
    rw [arrays_eq1, (dats m 0 c).arrAt_in 0 rfl, A_zero]
    iintro ⟨⟨Hx, Hv⟩, HO, -, HR⟩
    imodintro
    isplitl [Hx]; · iexact Hx
    isplitl [Hv]; · iexact Hv
    isplitl [HO]
    · unfold OW Pipeline.Dat.owesAt Pipeline.owesWithin
      icases HO with ⟨%W, %hW, HO⟩; iexists W; isplitr
      · ipureintro
        intro p hp
        rcases hW hp with h | ⟨w, s, rfl⟩
        · exact h
        · exact Nat.zero_le _
      iexact HO
    iexact HR

end Region

end Cert.KernelIdeal.Launch

end
-- ==== Proof.LaunchStep.lean ====
/-
  The copy region's step on a device, inside the SparseCore program's @main: the pipeline library's region rule at the
  region's record, lifted through the SparseCore launch's labels.
-/
import proofs.«208198_g16930761081413_cont_7to1_1121_27_alg».proof.Proof.LaunchSeg

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe
open Idealize.ShloMosaic.Pipeline (Dat)

variable {F : FTy → Type} [FloatOps F]

local notation "𝕄" => MT nD τ sig (HIx 1) (Elt F) ℕ UU ℕ

section Step

variable (m : (ℓ : Loc nD τ sig) → Buf (Elt F) ℓ) (Rf : Dev nD → sProp (MT nD τ sig (HIx 1) (Elt F) ℕ UU ℕ))

/-- The region's call in @main is the pipeline's entry call, lifted to the SparseCore launch's labels. -/
theorem region_prog :
    (Prog.lift (.customCall (SparseCore.inner (Pipeline.entry 0)) ()) :
        Prog (TpuEff nD τ sig (Elt F) (SparseCore.Sig (ΛP (F := F)) 1) .tc) PUnit)
      = SparseCore.liftProg (.op (.customCall (Pipeline.entry 0) ()) fun _ => .ret ⟨⟩) := rfl

set_option backward.isDefEq.respectTransparency.types false in
/-- The region's step on device `d` in the pipeline's own labels. -/
theorem wp_region₀ [∀ e, Nonempty (Elt F e)] (d : Dev nD) (Q : PUnit → sProp 𝕄) :
    iprop((iprop(boundary (T d) ∗ (reg m Rf).post d) -∗ Q ⟨⟩)
        ∗ boundary (T d) ∗ (reg m Rf).pre d ∗ levAts (K (F := F)).L (K (F := F)).lev ∗ G₀ (F := F) d)
      ⊢ wp frame (wpE (D (F := F)) 𝒱 (T d) none) Set.univ (.op (.customCall (Pipeline.entry 0) ()) fun _ => .ret ⟨⟩) Q := by
  have hv : ∀ u ∈ (none : Option (Variants.lift 𝒱₀).V), (Variants.lift 𝒱₀).lt (.inr ((Pipeline.pin (pcfgs (F := F)) adm 0).tripCount + 1)) u :=
    fun _ h => nomatch h
  have key := Pipeline.RegionSeg.wp (nD := nD) (τ := τ) (Val := Elt F) (Ix := HIx 1) (Name := ℕ) (U := UU) (Lvl := ℕ)
    (pcfgs (F := F)) adm (dats m) none cellOf_inj ER defs₀ 𝒱₀ (K (F := F)).L (K (F := F)).lev
    (reg m Rf) d none hv (fun _ => .ret ⟨⟩) Q
  refine BI.Entails.trans ?_ key
  change (_ : sProp 𝕄) ⊢ _
  iintro ⟨Hk, Hb, Hpre, Hlev, Hg, Ht⟩
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

/-- The region's step on device `d`, inside the SparseCore program's @main: from the region boundary, the region's entry
    state, the level facts and the staging cells' ghost state, the call runs to the boundary and the exit state. -/
theorem wp_region [∀ e, Nonempty (Elt F e)] (d : Dev nD) (Q : PUnit → sProp 𝕄) :
    iprop((iprop(boundary (T d) ∗ (reg m Rf).post d) -∗ Q ⟨⟩)
        ∗ boundary (T d) ∗ (reg m Rf).pre d ∗ levAts (K (F := F)).L (K (F := F)).lev ∗ G₀ (F := F) d)
      ⊢ wp frame (wpE ((K (F := F)).defs (D (F := F))) 𝒱 (T d) none) Set.univ
          (Prog.lift (.customCall (SparseCore.inner (Pipeline.entry 0)) ())) Q := by
  rw [region_prog]
  exact (wp_region₀ m Rf d Q).trans ((K (F := F)).wp_liftProg (D (F := F)) 𝒱 (T d) Set.univ none _ Q)

/-- The same, the region's entry and exit states written out. -/
theorem wp_region' [∀ e, Nonempty (Elt F e)] (d : Dev nD) (Q : PUnit → sProp 𝕄) :
    iprop((iprop(boundary (T d) ∗ (xLoc d ↦{fullShare} m (xLoc d)) ∗ (v1Loc d ↦{fullShare} (dats m 0 d).arrAt 1 cfg1.N) ∗ OW (F := F) d ∗ Rf d) -∗ Q ⟨⟩)
        ∗ boundary (T d) ∗ ((xLoc d ↦{fullShare} m (xLoc d)) ∗ (v1Loc d ↦{fullShare} fo1 m d) ∗ OW (F := F) d ∗ Rf d)
        ∗ levAts (K (F := F)).L (K (F := F)).lev ∗ G₀ (F := F) d)
      ⊢ wp frame (wpE ((K (F := F)).defs (D (F := F))) 𝒱 (T d) none) Set.univ
          (Prog.lift (.customCall (SparseCore.inner (Pipeline.entry 0)) ())) Q :=
  wp_region m Rf d Q

end Step

end Cert.KernelIdeal.Launch

end
-- ==== Proof.LaunchValue.lean ====
/-
  The result array after the copy region: what every point writes back is its block of the argument array, the thirty
  blocks are the channels below 240, and the region-entry contents elsewhere are the SparseCore call's, so the array
  ends at the specification's function of the argument.
-/
import proofs.«208198_g16930761081413_cont_7to1_1121_27_alg».proof.Proof.LaunchRegion

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe
open Idealize.ShloMosaic.Pipeline (Dat)

variable {F : FTy → Type} [FloatOps F]

local notation "𝕄" => MT nD τ sig (HIx 1) (Elt F) ℕ UU ℕ

section Value

variable (m : (ℓ : Loc nD τ sig) → Buf (Elt F) ℓ)

/-- The two windows have one index map: their blocks at a point are one rectangle of the two arrays. -/
theorem rect_eq (t : Fin grid1.N) : win1_0.rect t = win1_1.rect t := rfl

/-- Block `t` of the argument, read as the fetch reads it or as the write-back's rectangle names it. -/
theorem xblk_eq (c : Dev nD) (t : Fin cfg1.N) :
    xblk m c t = ((cfg1.win 1).blk t).view.read (Elt F) (m (xLoc c)) := by
  funext j
  show ((View.whole main_arg0).slice (win1_0.rect t)).read (Elt F) (m (xLoc c)) j = ((View.whole main_v1).slice (win1_1.rect t)).read (Elt F) (m (xLoc c)) j
  rw [View.read_apply, View.read_apply, View.emb_slice, View.emb_slice]
  rfl

theorem after_one (c : Dev nD) (t : Fin cfg1.N) : (dats m 0 c).after 1 t = xblk m c t := by dsimp only [dats]

theorem A_one (c : Dev nD) : (dats m 0 c).A 1 = fo1 m c := by dsimp only [dats]

/-- What point `t` writes back is block `t` of the argument array. -/
theorem flushed_eq (c : Dev nD) (t : Fin cfg1.N) :
    (dats m 0 c).flushed 1 t = ((cfg1.win 1).blk t).view.read (Elt F) (m (xLoc c)) := by
  rw [← xblk_eq]
  unfold Dat.flushed
  rw [after_one]
  rfl

/-- The result array after the region is the specification's function of the argument: on the channels below 240 the
    argument, written back block by block; on the others the region-entry contents, which the SparseCore call left at the
    specification's values. -/
theorem final_v1 (c : Dev nD) : (dats m 0 c).arrAt 1 cfg1.N = Cert.Spec.G (m (xLoc c)) := by
  funext i
  rw [(dats m 0 c).arrAt_eq_piecewise 1 (m (xLoc c)) (fun t _ => flushed_eq m c t) i]
  have hb : (i 0).val < 2 := (i 0).isLt
  by_cases h : (i 1).val < 240
  · have ht : (i 0).val * 15 + (i 1).val / 16 < cfg1.N := by rw [show cfg1.N = 30 from N_1]; omega
    rw [if_pos ⟨⟨(i 0).val * 15 + (i 1).val / 16, ht⟩, flush1_1 _, (mem_blk _ i).mpr (by dsimp only; omega)⟩, Cert.Spec.G_apply, Cert.Spec.src_of_lt i h]
  · rw [if_neg (fun ⟨t, _, ht⟩ => h (by have := (mem_blk t i).mp ht; omega))]
    rw [A_one, fo1_of_mem m c (mem_imgs_of_ge i (by omega))]

end Value

end Cert.KernelIdeal.Launch

end
-- ==== Proof.Launch.lean ====
/-
  The whole program's run from the tile obligation: every weakly fair execution of the device's threads ends, nothing
  faulting, with the result array at the specification's function of the argument array and the argument unchanged.
  @main on a TensorCore: the argument and the call's result array split into the 288 images and the rest, the images
  handed to the two SparseCores and taken back at the specification's values, the call's result array rejoined, the
  aliasing copy, the copy region over the channels below 240, and the two arrays read off the final memory.
-/
import proofs.«208198_g16930761081413_cont_7to1_1121_27_alg».proof.Proof.Setup
import proofs.«208198_g16930761081413_cont_7to1_1121_27_alg».proof.Proof.Gen.KernelIdeal.Launch
import proofs.«208198_g16930761081413_cont_7to1_1121_27_alg».proof.Proof.Gen.KernelIdeal.Points
import proofs.«208198_g16930761081413_cont_7to1_1121_27_alg».proof.Proof.LaunchStep
import proofs.«208198_g16930761081413_cont_7to1_1121_27_alg».proof.Proof.LaunchValue

noncomputable section

namespace Cert.KernelIdeal.Launch

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays -/

abbrev x' : DevRef τ sig := Proc.devRef .tc (main_arg0 : Ref sig .tc)
abbrev t' : DevRef τ sig := Proc.devRef .tc (main_v0 : Ref sig .tc)
abbrev r' : DevRef τ sig := Proc.devRef .tc (main_v1 : Ref sig .tc)

/-- The aliasing copy: the region's result array starts as the call's. -/
abbrev opCopy : HloOp τ sig (Elt F) := StableHlo.unary main_v0 main_v1 id

/-- The TensorCore's arrays, all unscoped. -/
abbrev S3 : Finset (DevRef τ sig) := {x', t', r'}

omit [FloatOps F] in
theorem held_S3 (d : Dev nD) (W : Valuation τ sig (Elt F)) :
    (held (T d) S3 W : sProp 𝕄) = iprop((xLoc d ↦{fullShare} W x') ∗ (oLoc d ↦{fullShare} W t') ∗ v1Loc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ v1Loc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The arrays' contents when the copy runs: the argument and the region's result array as launched, the call's result
    array as the call left it. -/
def V1 (d : Dev nD) : Valuation τ sig (Elt F) := Function.update (fun b => m (d, b)) t' (fo1 m d)

theorem V1_x (d : Dev nD) : V1 m d x' = m (xLoc d) := Function.update_of_ne (show x' ≠ t' by decide) _ _
theorem V1_t (d : Dev nD) : V1 m d t' = fo1 m d := Function.update_self _ _ _
theorem V1_r (d : Dev nD) : V1 m d r' = m (v1Loc d) := Function.update_of_ne (show r' ≠ t' by decide) _ _

theorem hCopy : (opCopy (F := F)).bufs ⊆ S3 := show ({t', r'} : Finset (DevRef τ sig)) ⊆ S3 by decide

theorem res_x (d : Dev nD) : (opCopy (F := F)).result (V1 m d) x' = m (xLoc d) :=
  (StableHlo.unary_result_ne (τ := τ) (x := main_v0) (y := main_v1) id _ _ (V1 m d) (r := main_arg0) (by decide)).trans (V1_x m d)
theorem res_t (d : Dev nD) : (opCopy (F := F)).result (V1 m d) t' = fo1 m d :=
  (StableHlo.unary_result_ne (τ := τ) (x := main_v0) (y := main_v1) id _ _ (V1 m d) (r := main_v0) (by decide)).trans (V1_t m d)
theorem res_r (d : Dev nD) : (opCopy (F := F)).result (V1 m d) r' = fo1 m d :=
  (StableHlo.unary_result' (τ := τ) (Val := Elt F) (x := main_v0) (y := main_v1) id ⟨by decide, rfl⟩ ⟨by decide, rfl⟩ (V1 m d)).trans (V1_t m d)

/-! ## The TensorCore's handshake state after the one call -/

/-- All of it but the debt. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the one call the TensorCore owes nothing more. -/
theorem tcSt_one (d : Dev nD) : ((K (F := F)).tcSt EH d 1 : sProp 𝕄) = iprop(OW (F := F) d ∗ tcRest (F := F) d) := by
  unfold SparseCore.Cfg.tcSt OW tcRest
  rw [(K (F := F)).Otc_end d le_rfl]

/-! ## @main on the TensorCore -/

/-- What bypasses the copy region: the handshake state but the debt, and the call's result array. -/
abbrev Rf (d : Dev nD) : sProp 𝕄 := iprop(tcRest (F := F) d ∗ oLoc d ↦{fullShare} fo1 m d)

/-- What @main leaves the claim: the argument as launched, the result array as the region left it. -/
abbrev FIN (d : Dev nD) : sProp 𝕄 :=
  iprop((xLoc d ↦{fullShare} m (xLoc d)) ∗ (v1Loc d ↦{fullShare} (dats m 0 d).arrAt 1 cfg1.N))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G₀ (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho, Hr⟩, -, -⟩, HG⟩
  -- the two arrays as the images and the rest
  ihave Hx' := (Entails.of_eq (xPts_imgs (F := F) d (m (xLoc d)))) $$ Hx
  icases Hx' with ⟨Hxi, Hxr⟩
  ihave Ho' := (Entails.of_eq (oPts_imgs (F := F) d (m (oLoc d)))) $$ Ho
  icases Ho' with ⟨Hoi, Hor⟩
  -- the call: the images to the two SparseCores and back
  iapply ((K (F := F)).wp_run (D (F := F)) 𝒱 (EH := EH) (P := P m) κ d 0) $$ [Hst Hxi Hoi Hxr Hor Hb Hr HG]
  isplitr; · iexact Hctx
  isplitl [Hst]; · iexact Hst
  isplitl [Hxi Hoi]
  · rw [st0_eq, cores_eq]
    isplitl [Hxi]; · iexact Hxi
    iexact Hoi
  iintro ⟨Hst, Hdn⟩
  ihave Hdn' := (Entails.of_eq ((dn0_eq m d).trans (cores_eq m d (want m d)))) $$ Hdn
  icases Hdn' with ⟨Hxi, Hoi⟩
  ihave Hx := (Entails.of_eq (xPts_imgs (F := F) d (m (xLoc d))).symm) $$ [Hxi Hxr]
  · isplitl [Hxi]; · iexact Hxi
    iexact Hxr
  ihave Ho := (oPts_join m d) $$ [Hoi Hor]
  · isplitl [Hoi]; · iexact Hoi
    iexact Hor
  -- the aliasing copy
  iapply (wp_hlo_within 𝒱 (SparseCore.T d) none Set.univ (op := opCopy) (S := S3) hCopy (V := V1 m d)) $$ [Hb Hx Ho Hr]
  · isplitl [Hb]; · iexact Hb
    rw [held_S3, V1_x, V1_t, V1_r]
    isplitl [Hx]; · iexact Hx
    isplitl [Ho]; · iexact Ho
    iexact Hr
  iintro ⟨Hb, Hheld⟩
  ihave Hh := (Entails.of_eq ((held_S3 (F := F) d _).trans (by rw [res_x, res_t, res_r]))) $$ Hheld
  icases Hh with ⟨Hx, Ho, Hr⟩
  rw [wp_ret]; imodintro
  -- the copy region
  ihave Hst' := (show ((K (F := F)).tcSt EH d ((0 : Fin 1).val + 1) : sProp 𝕄) ⊢ iprop(OW (F := F) d ∗ tcRest (F := F) d) from
    Entails.of_eq (tcSt_one (F := F) d)) $$ Hst
  icases Hst' with ⟨HOW, Hrest⟩
  ihave Hlev := ((K (F := F)).ctx_levAts κ) $$ Hctx
  iapply (wp_region' m (Rf m) d) $$ [Hb Hx Ho Hr HOW Hrest Hlev HG]
  isplitr
  · iintro ⟨-, Hx, Hr, HOW, Hrest, -⟩
    imodintro
    isplitl [HOW Hrest]
    · iapply (Entails.of_eq (tcSt_one (F := F) d).symm)
      isplitl [HOW]; · iexact HOW
      iexact Hrest
    isplitl [Hx]; · iexact Hx
    iexact Hr
  isplitl [Hb]; · iexact Hb
  isplitl [Hx Hr HOW Hrest Ho]
  · isplitl [Hx]; · iexact Hx
    isplitl [Hr]; · iexact Hr
    isplitl [HOW]; · iexact HOW
    isplitl [Hrest]; · iexact Hrest
    iexact Ho
  isplitl [Hlev]; · iexact Hlev
  iexact HG

/-! ## The final memory, read -/

def fq (d : Dev nD) (s' : Phys nD τ sig (Elt F)) : Prop :=
  s'.mem.mem (v1Loc d) = Cert.Spec.G (m (xLoc d)) ∧ s'.mem.mem (xLoc d) = m (xLoc d)

theorem hfin (d : Dev nD) (s' : Phys nD τ sig (Elt F)) : iprop(FIN m d ∗ SI s') ⊢ (⌜fq m d s'⌝ : sProp 𝕄) := by
  unfold FIN
  rw [final_v1]
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := v1Loc d) (I := Finset.univ) (q := fullShare) (f := Cert.Spec.G (m (xLoc d)))) $$ [HSI Hr]
  · isplitl [HSI] <;> iassumption
  icases H with %h2
  ipureintro; exact ⟨funext fun i => h2 i (Finset.mem_univ i), funext fun i => h1 i (Finset.mem_univ i)⟩

/-! ## The program's run -/

theorem run_main [∀ e, Nonempty (Elt F e)] (m : (ℓ : Loc nD τ sig) → Buf (Elt F) ℓ) (ρ : Dev nD → PrngReg)
    (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD,
        r.2.mem ((c.tc : Thread nD τ).loc main_v1) = Cert.Spec.G (m ((c.tc : Thread nD τ).loc main_arg0))
        ∧ r.2.mem ((c.tc : Thread nD τ).loc main_arg0) = m ((c.tc : Thread nD τ).loc main_arg0)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G₀ (F := F)) (FIN m) (u₀ (F := F)) (sep_elim_left.trans (hu₀ m)) (hmain m ρ) (fq m) (hfin m) _ (fun _ h => h)

end Cert.KernelIdeal.Launch

end
-- ==== Proof.TileGeom.lean ====
/-
  The tile body's index arithmetic in closed form. Worker (`c`, `s`) owns images `9 * (2 * s + c) + j`, `j < 9`; image `n`
  is batch `n / 144`, channel `240 + n % 144`. Pair `t` of the worker's loop handles its images `2 t` (first buffer) and
  `2 t + 1` (second buffer) and prefetches image `2 t + 2`; the tail handles image 8. Each printed slice offset is the
  image it names, and each printed condition says which pair it is or by how many places the image's quadrants rotate.
-/
import proofs.«208198_g16930761081413_cont_7to1_1121_27_alg».proof.Proof.Setup

namespace Cert.KernelIdeal.Geom

open Cert.KernelIdeal Cert.KernelIdeal.Gen Cert.KernelIdeal.Setup
open Idealize.ShloMosaic

/-- The grid point of worker (`c`, `s`). -/
def coordsV (c : Fin (grid0.bound 0)) (s : Fin (grid0.bound 1)) : grid0.Coords :=
  fun | 0 => c | 1 => s | ⟨_ + 2, h⟩ => absurd h (Nat.not_lt.2 (Nat.le_add_left _ _))

/-- Image `j` of worker (`c`, `s`) as a slice offset. -/
abbrev imgOff (c s j : Nat) : Fin 4 → Nat := ![imgB c s j, imgC c s j, 0, 0]

section
variable (c : Fin (grid0.bound 0)) (s : Fin (grid0.bound 1)) (t : Fin k0_t1_loop.trips)

/-! ### The slices -/

theorem off1_eq : ∀ (c : Fin (grid0.bound 0)) (s : Fin (grid0.bound 1)), k0_off1 (coordsV c s) = imgOff c.val s.val 0 := by decide +kernel
theorem off2_eq : ∀ (c : Fin (grid0.bound 0)) (s : Fin (grid0.bound 1)) (t : Fin k0_t1_loop.trips),
    k0_off2 (coordsV c s) t = imgOff c.val s.val (2 * t.val + 1) := by decide +kernel
theorem off3_eq : ∀ (c : Fin (grid0.bound 0)) (s : Fin (grid0.bound 1)) (t : Fin k0_t1_loop.trips),
    k0_off3 (coordsV c s) t = imgOff c.val s.val (2 * t.val + 1) := by decide +kernel
theorem off4_eq : ∀ (c : Fin (grid0.bound 0)) (s : Fin (grid0.bound 1)) (t : Fin k0_t1_loop.trips),
    k0_off4 (coordsV c s) t = imgOff c.val s.val (2 * t.val) := by decide +kernel
theorem off173_eq : ∀ (c : Fin (grid0.bound 0)) (s : Fin (grid0.bound 1)) (t : Fin k0_t1_loop.trips),
    k0_off173 (coordsV c s) t = imgOff c.val s.val (2 * t.val) := by decide +kernel
theorem off174_eq : ∀ (c : Fin (grid0.bound 0)) (s : Fin (grid0.bound 1)) (t : Fin k0_t1_loop.trips),
    k0_off174 (coordsV c s) t = imgOff c.val s.val (2 * t.val + 2) := by decide +kernel
theorem off175_6_eq : ∀ (c : Fin (grid0.bound 0)) (s : Fin (grid0.bound 1)), k0_off175 (coordsV c s) 8#32 2#32 = imgOff c.val s.val 6 := by decide +kernel
theorem off175_7_eq : ∀ (c : Fin (grid0.bound 0)) (s : Fin (grid0.bound 1)), k0_off175 (coordsV c s) 8#32 1#32 = imgOff c.val s.val 7 := by decide +kernel
theorem off175_8_eq : ∀ (c : Fin (grid0.bound 0)) (s : Fin (grid0.bound 1)), k0_off175 (coordsV c s) 9#32 1#32 = imgOff c.val s.val 8 := by decide +kernel

/-! ### The conditions -/

theorem cond1_iff : ∀ t : Fin k0_t1_loop.trips, (k0_cond1 t = 1#1) ↔ 0 < t.val := by decide +kernel
theorem cond8_iff : ∀ t : Fin k0_t1_loop.trips, (k0_cond8 t = 1#1) ↔ t.val < 3 := by decide +kernel

theorem cond2_iff : ∀ (c : Fin (grid0.bound 0)) (s : Fin (grid0.bound 1)) (t : Fin k0_t1_loop.trips),
    (k0_cond2 (coordsV c s) t = 1#1) ↔ Cert.Spec.grp (imgC c.val s.val (2 * t.val)) = 1 := by decide +kernel
theorem cond3_iff : ∀ (c : Fin (grid0.bound 0)) (s : Fin (grid0.bound 1)) (t : Fin k0_t1_loop.trips),
    (k0_cond3 (coordsV c s) t = 1#1) ↔ Cert.Spec.grp (imgC c.val s.val (2 * t.val)) = 2 := by decide +kernel
theorem cond4_iff : ∀ (c : Fin (grid0.bound 0)) (s : Fin (grid0.bound 1)) (t : Fin k0_t1_loop.trips),
    (k0_cond4 (coordsV c s) t = 1#1) ↔ Cert.Spec.grp (imgC c.val s.val (2 * t.val)) = 3 := by decide +kernel
theorem cond5_iff : ∀ (c : Fin (grid0.bound 0)) (s : Fin (grid0.bound 1)) (t : Fin k0_t1_loop.trips),
    (k0_cond5 (coordsV c s) t = 1#1) ↔ Cert.Spec.grp (imgC c.val s.val (2 * t.val + 1)) = 1 := by decide +kernel
theorem cond6_iff : ∀ (c : Fin (grid0.bound 0)) (s : Fin (grid0.bound 1)) (t : Fin k0_t1_loop.trips),
    (k0_cond6 (coordsV c s) t = 1#1) ↔ Cert.Spec.grp (imgC c.val s.val (2 * t.val + 1)) = 2 := by decide +kernel
theorem cond7_iff : ∀ (c : Fin (grid0.bound 0)) (s : Fin (grid0.bound 1)) (t : Fin k0_t1_loop.trips),
    (k0_cond7 (coordsV c s) t = 1#1) ↔ Cert.Spec.grp (imgC c.val s.val (2 * t.val + 1)) = 3 := by decide +kernel
theorem cond9_iff : ∀ (c : Fin (grid0.bound 0)) (s : Fin (grid0.bound 1)),
    (k0_cond9 (coordsV c s) = 1#1) ↔ Cert.Spec.grp (imgC c.val s.val 8) = 1 := by decide +kernel
theorem cond10_iff : ∀ (c : Fin (grid0.bound 0)) (s : Fin (grid0.bound 1)),
    (k0_cond10 (coordsV c s) = 1#1) ↔ Cert.Spec.grp (imgC c.val s.val 8) = 2 := by decide +kernel
theorem cond11_iff : ∀ (c : Fin (grid0.bound 0)) (s : Fin (grid0.bound 1)),
    (k0_cond11 (coordsV c s) = 1#1) ↔ Cert.Spec.grp (imgC c.val s.val 8) = 3 := by decide +kernel

end

/-- Every image of the call rotates by one, two or three places. -/
theorem grp_img (c s j : Nat) : Cert.Spec.grp (imgC c s j) = 1 ∨ Cert.Spec.grp (imgC c s j) = 2 ∨ Cert.Spec.grp (imgC c s j) = 3 := by
  have h1 := imgC_ge c s j
  have h2 := imgC_lt c s j
  unfold Cert.Spec.grp
  split
  · omega
  · omega

end Cert.KernelIdeal.Geom
-- ==== Proof.TileBase.lean ====
/-
  One worker's task. The worker on SparseCore `c`, vector subcore `s` moves its nine images through two staging buffers:
  image `n` is copied in, its quadrants are rotated in place by its channel's group, and it is copied out to the same
  place of the result. Copies overlap with the rotation of the other buffer; each of the four copy semaphores has at
  most one copy outstanding at a time, and no buffer is touched while a copy into or out of it is pending.
-/
import proofs.«208198_g16930761081413_cont_7to1_1121_27_alg».proof.Proof.Setup
import proofs.«208198_g16930761081413_cont_7to1_1121_27_alg».proof.Proof.TileGeom
import proofs.«208198_g16930761081413_cont_7to1_1121_27_alg».proof.Proof.Gen.KernelIdeal.Skeleton

noncomputable section

namespace Cert.KernelIdeal.Tile

open Cert.KernelIdeal Cert.KernelIdeal.Gen Cert.KernelIdeal.Setup Cert.KernelIdeal.Geom

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

abbrev cV (L : grid0.Coords) : Fin τ.nSC := (L 0).castLE hcore0
abbrev jV (L : grid0.Coords) : Fin τ.nSub := (L 1).castLE hsub0

/-- An image of a whole array as the body slices it: the slice at the image's offset, squeezed to 224 x 224. -/
abbrev imgM (b : Memref sig .scVector .hbm S2x384x224x224 .f32) (off : Fin 4 → Nat)
    (h : ∀ a, off a + S1x1x224x224.size a ≤ S2x384x224x224.size a) : Memref sig .scVector .hbm S224x224 .f32 :=
  (b.slice (Rect.unit (s := S2x384x224x224) off S1x1x224x224.size h) (fun _ => rfl)).squeeze S224x224 squeezes_S1x1x224x224_S224x224

/-- The image's index set is its rectangle's. -/
theorem set_imgM_x (off : Fin 4 → Nat) (h : ∀ a, off a + S1x1x224x224.size a ≤ S2x384x224x224.size a) :
    (imgM xW off h).view.set = (Rect.unit (s := S2x384x224x224) off S1x1x224x224.size h).set := by
  show (((View.whole (main_arg0_scv : Ref sig .scVector)).slice _).reshape S224x224 _).set = _
  rw [View.set_reshape]; exact View.set_slice_whole _ _
theorem set_imgM_o (off : Fin 4 → Nat) (h : ∀ a, off a + S1x1x224x224.size a ≤ S2x384x224x224.size a) :
    (imgM oW off h).view.set = (Rect.unit (s := S2x384x224x224) off S1x1x224x224.size h).set := by
  show (((View.whole (main_v0_scv : Ref sig .scVector)).slice _).reshape S224x224 _).set = _
  rw [View.set_reshape]; exact View.set_slice_whole _ _

/-- Equal offsets, equal rectangles. -/
theorem unit_congr {off off' : Fin 4 → Nat} (e : off = off')
    (h : ∀ a, off a + S1x1x224x224.size a ≤ S2x384x224x224.size a) (h' : ∀ a, off' a + S1x1x224x224.size a ≤ S2x384x224x224.size a) :
    Rect.unit (s := S2x384x224x224) off S1x1x224x224.size h = Rect.unit (s := S2x384x224x224) off' S1x1x224x224.size h' := by
  subst e; rfl

section Worker

variable (c : Fin (grid0.bound 0)) (s : Fin (grid0.bound 1))

/-- The worker's indices as the launch's payloads spell them. -/
abbrev c2 : Fin 2 := ⟨c.val, c.isLt⟩
abbrev s16 : Fin 16 := ⟨s.val, s.isLt⟩

/-- A slice of the worker whose offset is its image `j`'s has image `j`'s index set. -/
theorem set_x_img (j : Fin 9) (off : Fin 4 → Nat) (h : ∀ a, off a + S1x1x224x224.size a ≤ S2x384x224x224.size a)
    (e : off = imgOff c.val s.val j.val) : (imgM xW off h).view.set = tileImg (c2 c) (s16 s) j := by
  rw [set_imgM_x]; unfold tileImg imgRect
  exact congrArg (fun r : Rect S2x384x224x224 => r.set) (unit_congr e h _)
theorem set_o_img (j : Fin 9) (off : Fin 4 → Nat) (h : ∀ a, off a + S1x1x224x224.size a ≤ S2x384x224x224.size a)
    (e : off = imgOff c.val s.val j.val) : (imgM oW off h).view.set = tileImg (c2 c) (s16 s) j := by
  rw [set_imgM_o]; unfold tileImg imgRect
  exact congrArg (fun r : Rect S2x384x224x224 => r.set) (unit_congr e h _)

variable (d : Dev nD)

abbrev thr : Thread nD τ := V d (cV (coordsV c s)) (jV (coordsV c s))

/-- An image piece of `x` (of `o`), as the launch hands it over, is the piece the body's slice addresses. -/
theorem pts_x_img (j : Fin 9) (off : Fin 4 → Nat) (h : ∀ a, off a + S1x1x224x224.size a ≤ S2x384x224x224.size a)
    (e : off = imgOff c.val s.val j.val) (f : Buf (Elt F) (xLoc d)) :
    ((imgM xW off h).view.loc (thr c s d) ↦[(imgM xW off h).view.set]{fullShare} f : sProp 𝕄)
      = (xLoc d ↦[tileImg (c2 c) (s16 s) j]{fullShare} f) := by
  rw [set_x_img c s j off h e]
theorem pts_o_img (j : Fin 9) (off : Fin 4 → Nat) (h : ∀ a, off a + S1x1x224x224.size a ≤ S2x384x224x224.size a)
    (e : off = imgOff c.val s.val j.val) (f : Buf (Elt F) (oLoc d)) :
    ((imgM oW off h).view.loc (thr c s d) ↦[(imgM oW off h).view.set]{fullShare} f : sProp 𝕄)
      = (oLoc d ↦[tileImg (c2 c) (s16 s) j]{fullShare} f) := by
  rw [set_o_img c s j off h e]

section States

variable [FloatOps F]
variable (fx : Buf (Elt F) (xLoc d)) (fo : Buf (Elt F) (oLoc d))

omit [FloatOps F] in
theorem pts_b0 (g : Buf (Elt F) ((thr c s d).loc cc0_scratch0)) :
    ((b0).view.loc (thr c s d) ↦{fullShare} g : sProp 𝕄) = ((thr c s d).loc cc0_scratch0 ↦{fullShare} g) := rfl
omit [FloatOps F] in
theorem pts_b1 (g : Buf (Elt F) ((thr c s d).loc cc0_scratch1)) :
    ((b1).view.loc (thr c s d) ↦{fullShare} g : sProp 𝕄) = ((thr c s d).loc cc0_scratch1 ↦{fullShare} g) := rfl

/-- The specification's result as contents of the call's result array. -/
abbrev want : Buf (Elt F) (oLoc d) := Cert.Spec.G fx

/-- What a copy of an image of `x` into a scratch delivers: the image. -/
abbrev loaded (off : Fin 4 → Nat) (h : ∀ a, off a + S1x1x224x224.size a ≤ S2x384x224x224.size a) : S224x224.Idx → Elt F EltTy.f32 :=
  ReadAs.same.apply (View.read (Elt F) (imgM xW off h).view fx)

/-- A copy of image `j` of `x` into the first scratch is pending on the first copy-in semaphore: its landing hands back
    the scratch at the image (over whatever it held) and the image's piece of `x`. -/
def FL0 (j : Nat) : sProp 𝕄 :=
  iprop(∃ (off : Fin 4 → Nat) (h : ∀ a, off a + S1x1x224x224.size a ≤ S2x384x224x224.size a)
      (gp : Buf (Elt F) ((thr c s d).loc cc0_scratch0)), ⌜off = imgOff c.val s.val j⌝ ∗
    Transfers.Flight countersEmb (thr c s d) (SemLoc.dma cc0_scratch2.sem) default 1605632
      iprop(((b0).view.loc (thr c s d) ↦{fullShare} View.write (Elt F) (b0).view gp (loaded d fx off h) Finset.univ)
        ∗ ((imgM xW off h).view.loc (thr c s d) ↦[(imgM xW off h).view.set]{fullShare} fx)))

/-- A copy payload is right for the image of the result at offset `off`: at every position it is the specification there. -/
def GoodPay (off : Fin 4 → Nat) (h : ∀ a, off a + S1x1x224x224.size a ≤ S2x384x224x224.size a)
    (w : S224x224.Idx → Elt F EltTy.f32) : Prop :=
  ∀ y, w y = View.read (Elt F) (imgM oW off h).view (want d fx) y

/-- A copy of a scratch `bk` out to image `j` of `o` is pending on semaphore `sm`: its landing hands back image `j`'s
    piece of `o` written with a payload that is right for it, and the scratch at some contents. -/
def FS (bk : Memref sig .scVector .vmem S224x224 .f32) (sm : DmaSem sig) (j : Nat) : sProp 𝕄 :=
  iprop(∃ (off : Fin 4 → Nat) (h : ∀ a, off a + S1x1x224x224.size a ≤ S2x384x224x224.size a)
      (w : S224x224.Idx → Elt F EltTy.f32) (cont : Buf (Elt F) (bk.view.loc (thr c s d))),
    ⌜off = imgOff c.val s.val j ∧ GoodPay d fx off h w⌝ ∗
    Transfers.Flight countersEmb (thr c s d) (SemLoc.dma sm) default 1605632
      iprop(((imgM oW off h).view.loc (thr c s d) ↦[(imgM oW off h).view.set]{fullShare}
            (imgM oW off h).view.writes (Elt F) fo [⟨Rect.whole S224x224, w⟩])
        ∗ (bk.view.loc (thr c s d) ↦[bk.view.set]{fullShare} cont)))

variable (O : CellTallies nD τ sig (HIx 1)) (W : Waits sig (HIx 1))

/-- Before pair 0. -/
def St0 : sProp 𝕄 :=
  iprop(Transfers.MayWaits (thr c s d) (none : HIx 1) O
      ∗ (∃ W', ⌜∀ p ∈ W', p ∈ W ∨ p.2 = none⌝ ∗ owes (thr c s d) O W')
      ∗ FL0 c s d fx 0
      ∗ (∃ g1, (thr c s d).loc cc0_scratch1 ↦{fullShare} g1)
      ∗ semVal (thr c s d, SemLoc.dma cc0_scratch5.sem) 0
      ∗ semVal (thr c s d, SemLoc.dma cc0_scratch3.sem) 0
      ∗ semVal (thr c s d, SemLoc.dma cc0_scratch4.sem) 0
      ∗ (xLoc d ↦[tileImg (c2 c) (s16 s) 1]{fullShare} fx)
      ∗ (xLoc d ↦[tileImg (c2 c) (s16 s) 2]{fullShare} fx)
      ∗ (xLoc d ↦[tileImg (c2 c) (s16 s) 3]{fullShare} fx)
      ∗ (xLoc d ↦[tileImg (c2 c) (s16 s) 4]{fullShare} fx)
      ∗ (xLoc d ↦[tileImg (c2 c) (s16 s) 5]{fullShare} fx)
      ∗ (xLoc d ↦[tileImg (c2 c) (s16 s) 6]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} fo)
      ∗ (oLoc d ↦[tileImg (c2 c) (s16 s) 1]{fullShare} fo)
      ∗ (oLoc d ↦[tileImg (c2 c) (s16 s) 2]{fullShare} fo)
      ∗ (oLoc d ↦[tileImg (c2 c) (s16 s) 3]{fullShare} fo)
      ∗ (oLoc d ↦[tileImg (c2 c) (s16 s) 4]{fullShare} fo)
      ∗ (oLoc d ↦[tileImg (c2 c) (s16 s) 5]{fullShare} fo)
      ∗ (oLoc d ↦[tileImg (c2 c) (s16 s) 6]{fullShare} fo)
      ∗ (oLoc d ↦[tileImg (c2 c) (s16 s) 7]{fullShare} fo)
      ∗ (oLoc d ↦[tileImg (c2 c) (s16 s) 8]{fullShare} fo))

/-- Before pair 1. -/
def St1 : sProp 𝕄 :=
  iprop(Transfers.MayWaits (thr c s d) (none : HIx 1) O
      ∗ (∃ W', ⌜∀ p ∈ W', p ∈ W ∨ p.2 = none⌝ ∗ owes (thr c s d) O W')
      ∗ FL0 c s d fx 2
      ∗ FS c s d fx fo b1 cc0_scratch5.sem 1
      ∗ semVal (thr c s d, SemLoc.dma cc0_scratch3.sem) 0
      ∗ semVal (thr c s d, SemLoc.dma cc0_scratch4.sem) 0
      ∗ (xLoc d ↦[tileImg (c2 c) (s16 s) 0]{fullShare} fx)
      ∗ (xLoc d ↦[tileImg (c2 c) (s16 s) 1]{fullShare} fx)
      ∗ (xLoc d ↦[tileImg (c2 c) (s16 s) 3]{fullShare} fx)
      ∗ (xLoc d ↦[tileImg (c2 c) (s16 s) 4]{fullShare} fx)
      ∗ (xLoc d ↦[tileImg (c2 c) (s16 s) 5]{fullShare} fx)
      ∗ (xLoc d ↦[tileImg (c2 c) (s16 s) 6]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} want d fx)
      ∗ (oLoc d ↦[tileImg (c2 c) (s16 s) 2]{fullShare} fo)
      ∗ (oLoc d ↦[tileImg (c2 c) (s16 s) 3]{fullShare} fo)
      ∗ (oLoc d ↦[tileImg (c2 c) (s16 s) 4]{fullShare} fo)
      ∗ (oLoc d ↦[tileImg (c2 c) (s16 s) 5]{fullShare} fo)
      ∗ (oLoc d ↦[tileImg (c2 c) (s16 s) 6]{fullShare} fo)
      ∗ (oLoc d ↦[tileImg (c2 c) (s16 s) 7]{fullShare} fo)
      ∗ (oLoc d ↦[tileImg (c2 c) (s16 s) 8]{fullShare} fo))

/-- Before pair 2. -/
def St2 : sProp 𝕄 :=
  iprop(Transfers.MayWaits (thr c s d) (none : HIx 1) O
      ∗ (∃ W', ⌜∀ p ∈ W', p ∈ W ∨ p.2 = none⌝ ∗ owes (thr c s d) O W')
      ∗ FL0 c s d fx 4
      ∗ FS c s d fx fo b1 cc0_scratch5.sem 3
      ∗ semVal (thr c s d, SemLoc.dma cc0_scratch3.sem) 0
      ∗ semVal (thr c s d, SemLoc.dma cc0_scratch4.sem) 0
      ∗ (xLoc d ↦[tileImg (c2 c) (s16 s) 0]{fullShare} fx)
      ∗ (xLoc d ↦[tileImg (c2 c) (s16 s) 1]{fullShare} fx)
      ∗ (xLoc d ↦[tileImg (c2 c) (s16 s) 2]{fullShare} fx)
      ∗ (xLoc d ↦[tileImg (c2 c) (s16 s) 3]{fullShare} fx)
      ∗ (xLoc d ↦[tileImg (c2 c) (s16 s) 5]{fullShare} fx)
      ∗ (xLoc d ↦[tileImg (c2 c) (s16 s) 6]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} want d fx)
      ∗ (oLoc d ↦[tileImg (c2 c) (s16 s) 1]{fullShare} want d fx)
      ∗ (oLoc d ↦[tileImg (c2 c) (s16 s) 2]{fullShare} want d fx)
      ∗ (oLoc d ↦[tileImg (c2 c) (s16 s) 4]{fullShare} fo)
      ∗ (oLoc d ↦[tileImg (c2 c) (s16 s) 5]{fullShare} fo)
      ∗ (oLoc d ↦[tileImg (c2 c) (s16 s) 6]{fullShare} fo)
      ∗ (oLoc d ↦[tileImg (c2 c) (s16 s) 7]{fullShare} fo)
      ∗ (oLoc d ↦[tileImg (c2 c) (s16 s) 8]{fullShare} fo))

/-- Before pair 3. -/
def St3 : sProp 𝕄 :=
  iprop(Transfers.MayWaits (thr c s d) (none : HIx 1) O
      ∗ (∃ W', ⌜∀ p ∈ W', p ∈ W ∨ p.2 = none⌝ ∗ owes (thr c s d) O W')
      ∗ FL0 c s d fx 6
      ∗ FS c s d fx fo b1 cc0_scratch5.sem 5
      ∗ semVal (thr c s d, SemLoc.dma cc0_scratch3.sem) 0
      ∗ semVal (thr c s d, SemLoc.dma cc0_scratch4.sem) 0
      ∗ (xLoc d ↦[tileImg (c2 c) (s16 s) 0]{fullShare} fx)
      ∗ (xLoc d ↦[tileImg (c2 c) (s16 s) 1]{fullShare} fx)
      ∗ (xLoc d ↦[tileImg (c2 c) (s16 s) 2]{fullShare} fx)
      ∗ (xLoc d ↦[tileImg (c2 c) (s16 s) 3]{fullShare} fx)
      ∗ (xLoc d ↦[tileImg (c2 c) (s16 s) 4]{fullShare} fx)
      ∗ (xLoc d ↦[tileImg (c2 c) (s16 s) 5]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} want d fx)
      ∗ (oLoc d ↦[tileImg (c2 c) (s16 s) 1]{fullShare} want d fx)
      ∗ (oLoc d ↦[tileImg (c2 c) (s16 s) 2]{fullShare} want d fx)
      ∗ (oLoc d ↦[tileImg (c2 c) (s16 s) 3]{fullShare} want d fx)
      ∗ (oLoc d ↦[tileImg (c2 c) (s16 s) 4]{fullShare} want d fx)
      ∗ (oLoc d ↦[tileImg (c2 c) (s16 s) 6]{fullShare} fo)
      ∗ (oLoc d ↦[tileImg (c2 c) (s16 s) 7]{fullShare} fo)
      ∗ (oLoc d ↦[tileImg (c2 c) (s16 s) 8]{fullShare} fo))

/-- After the last pair. -/
def St4 : sProp 𝕄 :=
  iprop(Transfers.MayWaits (thr c s d) (none : HIx 1) O
      ∗ (∃ W', ⌜∀ p ∈ W', p ∈ W ∨ p.2 = none⌝ ∗ owes (thr c s d) O W')
      ∗ FS c s d fx fo b0 cc0_scratch4.sem 6
      ∗ FS c s d fx fo b1 cc0_scratch5.sem 7
      ∗ semVal (thr c s d, SemLoc.dma cc0_scratch2.sem) 0
      ∗ semVal (thr c s d, SemLoc.dma cc0_scratch3.sem) 0
      ∗ (xLoc d ↦[tileImg (c2 c) (s16 s) 0]{fullShare} fx)
      ∗ (xLoc d ↦[tileImg (c2 c) (s16 s) 1]{fullShare} fx)
      ∗ (xLoc d ↦[tileImg (c2 c) (s16 s) 2]{fullShare} fx)
      ∗ (xLoc d ↦[tileImg (c2 c) (s16 s) 3]{fullShare} fx)
      ∗ (xLoc d ↦[tileImg (c2 c) (s16 s) 4]{fullShare} fx)
      ∗ (xLoc d ↦[tileImg (c2 c) (s16 s) 5]{fullShare} fx)
      ∗ (xLoc d ↦[tileImg (c2 c) (s16 s) 6]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} want d fx)
      ∗ (oLoc d ↦[tileImg (c2 c) (s16 s) 1]{fullShare} want d fx)
      ∗ (oLoc d ↦[tileImg (c2 c) (s16 s) 2]{fullShare} want d fx)
      ∗ (oLoc d ↦[tileImg (c2 c) (s16 s) 3]{fullShare} want d fx)
      ∗ (oLoc d ↦[tileImg (c2 c) (s16 s) 4]{fullShare} want d fx)
      ∗ (oLoc d ↦[tileImg (c2 c) (s16 s) 5]{fullShare} want d fx)
      ∗ (oLoc d ↦[tileImg (c2 c) (s16 s) 8]{fullShare} fo))

/-- The nine rotate loops, each taking its scratch from contents `f` to `f` with its quadrants rotated. -/
structure RotFacts : Prop where
  t2 : ∀ (k0_t1 : Fin k0_t1_loop.trips) (h : k0_cond2 (coordsV c s) k0_t1 = 1#1) (v218 v247 c48 v248 : BitVec 32) (v249 : BitVec 1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t2_loop (k0_t2_ok (coordsV c s) k0_t1 h) ⟨⟩
              (k0_t2_body (coordsV c s) xW (Memref.isWhole_whole _) oW (Memref.isWhole_whole _) b0 (Memref.isWhole_whole _) b1 (Memref.isWhole_whole _)
                cc0_scratch2 cc0_scratch3 cc0_scratch4 cc0_scratch5 k0_t1 v218 v247 c48 v248 v249 h))
            fun _ => ((b0).view.loc (thr c s d) ↦{fullShare} (Cert.Spec.rotBuf 1 f : Buf (Elt F) ((thr c s d).loc cc0_scratch0)) : sProp 𝕄)
  t3 : ∀ (k0_t1 : Fin k0_t1_loop.trips) (h : k0_cond3 (coordsV c s) k0_t1 = 1#1) (v218 v247 c48 v248 : BitVec 32) (v249 : BitVec 1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t3_loop (k0_t3_ok (coordsV c s) k0_t1 h) ⟨⟩
              (k0_t3_body (coordsV c s) xW (Memref.isWhole_whole _) oW (Memref.isWhole_whole _) b0 (Memref.isWhole_whole _) b1 (Memref.isWhole_whole _)
                cc0_scratch2 cc0_scratch3 cc0_scratch4 cc0_scratch5 k0_t1 v218 v247 c48 v248 v249 h))
            fun _ => ((b0).view.loc (thr c s d) ↦{fullShare} (Cert.Spec.rotBuf 2 f : Buf (Elt F) ((thr c s d).loc cc0_scratch0)) : sProp 𝕄)
  t4 : ∀ (k0_t1 : Fin k0_t1_loop.trips) (h : k0_cond4 (coordsV c s) k0_t1 = 1#1) (v218 v247 c48 v248 : BitVec 32) (v249 : BitVec 1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t4_loop (k0_t4_ok (coordsV c s) k0_t1 h) ⟨⟩
              (k0_t4_body (coordsV c s) xW (Memref.isWhole_whole _) oW (Memref.isWhole_whole _) b0 (Memref.isWhole_whole _) b1 (Memref.isWhole_whole _)
                cc0_scratch2 cc0_scratch3 cc0_scratch4 cc0_scratch5 k0_t1 v218 v247 c48 v248 v249 h))
            fun _ => ((b0).view.loc (thr c s d) ↦{fullShare} (Cert.Spec.rotBuf 3 f : Buf (Elt F) ((thr c s d).loc cc0_scratch0)) : sProp 𝕄)
  t5 : ∀ (v2 c0 : BitVec 32) (k0_t1 : Fin k0_t1_loop.trips) (h : k0_cond5 (coordsV c s) k0_t1 = 1#1) (f : Buf (Elt F) ((thr c s d).loc cc0_scratch1)),
      ((b1).view.loc (thr c s d) ↦{fullShare} f : sProp 𝕄)
        ⊢ wp frame (wpE (defs₀ (F := F)) 𝒱₀ (thr c s d) none) Set.univ
            (Scf.Loop.for k0_t5_loop (k0_t5_ok (coordsV c s) k0_t1 h) ⟨⟩
              (k0_t5_body (coordsV c s) xW (Memref.isWhole_whole _) oW (Memref.isWhole_whole _) b0 (Memref.isWhole_whole _) b1 (Memref.isWhole_whole _)
                cc0_scratch2 cc0_scratch3 cc0_scratch4 cc0_scratch5 v2 c0 k0_t1 h))
            fun _ => ((b1).view.loc (thr c s d) ↦{fullShare} (Cert.Spec.rotBuf 1 f : Buf (Elt F) ((thr c s d).loc cc0_scratch1)) : sProp 𝕄)
  t6 : ∀ (v2 c0 : BitVec 32) (k0_t1 : Fin k0_t1_loop.trips) (h : k0_cond6 (coordsV c s) k0_t1 = 1#1) (f : Buf (Elt F) ((thr c s d).loc cc0_scratch1)),
      ((b1).view.loc (thr c s d) ↦{fullShare} f : sProp 𝕄)
        ⊢ wp frame (wpE (defs₀ (F := F)) 𝒱₀ (thr c s d) none) Set.univ
            (Scf.Loop.for k0_t6_loop (k0_t6_ok (coordsV c s) k0_t1 h) ⟨⟩
              (k0_t6_body (coordsV c s) xW (Memref.isWhole_whole _) oW (Memref.isWhole_whole _) b0 (Memref.isWhole_whole _) b1 (Memref.isWhole_whole _)
                cc0_scratch2 cc0_scratch3 cc0_scratch4 cc0_scratch5 v2 c0 k0_t1 h))
            fun _ => ((b1).view.loc (thr c s d) ↦{fullShare} (Cert.Spec.rotBuf 2 f : Buf (Elt F) ((thr c s d).loc cc0_scratch1)) : sProp 𝕄)
  t7 : ∀ (v2 c0 : BitVec 32) (k0_t1 : Fin k0_t1_loop.trips) (h : k0_cond7 (coordsV c s) k0_t1 = 1#1) (f : Buf (Elt F) ((thr c s d).loc cc0_scratch1)),
      ((b1).view.loc (thr c s d) ↦{fullShare} f : sProp 𝕄)
        ⊢ wp frame (wpE (defs₀ (F := F)) 𝒱₀ (thr c s d) none) Set.univ
            (Scf.Loop.for k0_t7_loop (k0_t7_ok (coordsV c s) k0_t1 h) ⟨⟩
              (k0_t7_body (coordsV c s) xW (Memref.isWhole_whole _) oW (Memref.isWhole_whole _) b0 (Memref.isWhole_whole _) b1 (Memref.isWhole_whole _)
                cc0_scratch2 cc0_scratch3 cc0_scratch4 cc0_scratch5 v2 c0 k0_t1 h))
            fun _ => ((b1).view.loc (thr c s d) ↦{fullShare} (Cert.Spec.rotBuf 3 f : Buf (Elt F) ((thr c s d).loc cc0_scratch1)) : sProp 𝕄)
  t8 : ∀ (v2 v82 : BitVec 32) (h : k0_cond9 (coordsV c s) = 1#1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t8_loop (k0_t8_ok (coordsV c s) h) ⟨⟩
              (k0_t8_body (coordsV c s) xW (Memref.isWhole_whole _) oW (Memref.isWhole_whole _) b0 (Memref.isWhole_whole _) b1 (Memref.isWhole_whole _)
                cc0_scratch2 cc0_scratch3 cc0_scratch4 cc0_scratch5 v2 v82 h))
            fun _ => ((b0).view.loc (thr c s d) ↦{fullShare} (Cert.Spec.rotBuf 1 f : Buf (Elt F) ((thr c s d).loc cc0_scratch0)) : sProp 𝕄)
  t9 : ∀ (v2 v82 : BitVec 32) (h : k0_cond10 (coordsV c s) = 1#1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t9_loop (k0_t9_ok (coordsV c s) h) ⟨⟩
              (k0_t9_body (coordsV c s) xW (Memref.isWhole_whole _) oW (Memref.isWhole_whole _) b0 (Memref.isWhole_whole _) b1 (Memref.isWhole_whole _)
                cc0_scratch2 cc0_scratch3 cc0_scratch4 cc0_scratch5 v2 v82 h))
            fun _ => ((b0).view.loc (thr c s d) ↦{fullShare} (Cert.Spec.rotBuf 2 f : Buf (Elt F) ((thr c s d).loc cc0_scratch0)) : sProp 𝕄)
  t10 : ∀ (v2 v82 : BitVec 32) (h : k0_cond11 (coordsV c s) = 1#1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t10_loop (k0_t10_ok (coordsV c s) h) ⟨⟩
              (k0_t10_body (coordsV c s) xW (Memref.isWhole_whole _) oW (Memref.isWhole_whole _) b0 (Memref.isWhole_whole _) b1 (Memref.isWhole_whole _)
                cc0_scratch2 cc0_scratch3 cc0_scratch4 cc0_scratch5 v2 v82 h))
            fun _ => ((b0).view.loc (thr c s d) ↦{fullShare} (Cert.Spec.rotBuf 3 f : Buf (Elt F) ((thr c s d).loc cc0_scratch0)) : sProp 𝕄)

end States

end Worker

end Cert.KernelIdeal.Tile

end
-- ==== Proof.TileValue.lean ====
/-
  Pure facts about a worker's images: what a staging buffer holds after an image is copied in, that an image copied in,
  rotated by its channel's group and copied out is the specification's image, and small respellings of held pieces.
-/
import proofs.«208198_g16930761081413_cont_7to1_1121_27_alg».proof.Proof.TileBase

noncomputable section

namespace Cert.KernelIdeal.Tile

open Cert.KernelIdeal Cert.KernelIdeal.Gen Cert.KernelIdeal.Setup Cert.KernelIdeal.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable (c : Fin (grid0.bound 0)) (s : Fin (grid0.bound 1)) (d : Dev nD)
variable [FloatOps F]
variable (fx : Buf (Elt F) (xLoc d)) (fo : Buf (Elt F) (oLoc d))
variable (O : CellTallies nD τ sig (HIx 1)) (W : Waits sig (HIx 1))

/-! ### Small respellings -/

omit [FloatOps F] in
/-- A whole scratch held on its view's set is held whole. -/
theorem pts_set_b0 (g : Buf (Elt F) ((thr c s d).loc cc0_scratch0)) :
    ((b0).view.loc (thr c s d) ↦[(b0).view.set]{fullShare} g : sProp 𝕄) = ((b0).view.loc (thr c s d) ↦{fullShare} g) := by
  simp only [Memref.view_whole, View.set_whole]
omit [FloatOps F] in
theorem pts_set_b1 (g : Buf (Elt F) ((thr c s d).loc cc0_scratch1)) :
    ((b1).view.loc (thr c s d) ↦[(b1).view.set]{fullShare} g : sProp 𝕄) = ((b1).view.loc (thr c s d) ↦{fullShare} g) := by
  simp only [Memref.view_whole, View.set_whole]

omit [FloatOps F] in
/-- A whole scratch written whole, as a one-piece list over any contents, holds the payload. -/
theorem writes_whole_eq0 (f : Buf (Elt F) ((thr c s d).loc cc0_scratch0)) (w : S224x224.Idx → Elt F EltTy.f32) :
    ((b0).view.writes (Elt F) f [⟨Rect.whole S224x224, w⟩] : Buf (Elt F) ((thr c s d).loc cc0_scratch0)) = w := by
  funext i
  have h := View.write_emb_of_mem (Val := Elt F)
    (v := (View.whole (cc0_scratch0 : Ref sig .scVector)).slice (Rect.whole S224x224)) f w (M := Finset.univ) (x := i) (Finset.mem_univ i)
  have he : ((View.whole (cc0_scratch0 : Ref sig .scVector)).slice (Rect.whole S224x224)).emb i = i := by
    show (Rect.whole S224x224).emb i = i
    exact Rect.emb_whole_apply _ _
  rw [he] at h
  exact h
omit [FloatOps F] in
theorem writes_whole_eq1 (f : Buf (Elt F) ((thr c s d).loc cc0_scratch1)) (w : S224x224.Idx → Elt F EltTy.f32) :
    ((b1).view.writes (Elt F) f [⟨Rect.whole S224x224, w⟩] : Buf (Elt F) ((thr c s d).loc cc0_scratch1)) = w := by
  funext i
  have h := View.write_emb_of_mem (Val := Elt F)
    (v := (View.whole (cc0_scratch1 : Ref sig .scVector)).slice (Rect.whole S224x224)) f w (M := Finset.univ) (x := i) (Finset.mem_univ i)
  have he : ((View.whole (cc0_scratch1 : Ref sig .scVector)).slice (Rect.whole S224x224)).emb i = i := by
    show (Rect.whole S224x224).emb i = i
    exact Rect.emb_whole_apply _ _
  rw [he] at h
  exact h

omit [FloatOps F] in
/-- A wait recorded at the kernel's own index keeps the recorded waits admissible. -/
theorem ins_ok {A : Waits sig (HIx 1)} (h : ∀ p ∈ A, p ∈ W ∨ p.2 = none) (sm : SemLoc sig) :
    ∀ p ∈ insert (sm, (default : HIx 1)) A, p ∈ W ∨ p.2 = none := by
  intro p hp
  rcases Finset.mem_insert.mp hp with rfl | hp
  · exact .inr rfl
  · exact h p hp

omit [FloatOps F] in
/-- A whole scratch written whole over any contents holds the payload: here, the loaded image. -/
theorem ld_write0 (gp : Buf (Elt F) ((thr c s d).loc cc0_scratch0)) (off : Fin 4 → Nat)
    (h : ∀ a, off a + S1x1x224x224.size a ≤ S2x384x224x224.size a) :
    (View.write (Elt F) (b0).view gp (loaded d fx off h) Finset.univ : Buf (Elt F) ((thr c s d).loc cc0_scratch0))
      = (loaded d fx off h : Buf (Elt F) ((thr c s d).loc cc0_scratch0)) :=
  View.write_whole_univ (Val := Elt F) (cc0_scratch0 : Ref sig .scVector) gp _
omit [FloatOps F] in
theorem ld_write1 (gp : Buf (Elt F) ((thr c s d).loc cc0_scratch1)) (off : Fin 4 → Nat)
    (h : ∀ a, off a + S1x1x224x224.size a ≤ S2x384x224x224.size a) :
    (View.write (Elt F) (b1).view gp (loaded d fx off h) Finset.univ : Buf (Elt F) ((thr c s d).loc cc0_scratch1))
      = (loaded d fx off h : Buf (Elt F) ((thr c s d).loc cc0_scratch1)) :=
  View.write_whole_univ (Val := Elt F) (cc0_scratch1 : Ref sig .scVector) gp _
omit [FloatOps F] in
theorem ld_writes0 (f : Buf (Elt F) ((thr c s d).loc cc0_scratch0)) (off : Fin 4 → Nat)
    (h : ∀ a, off a + S1x1x224x224.size a ≤ S2x384x224x224.size a) :
    ((b0).view.writes (Elt F) f [⟨Rect.whole S224x224, loaded d fx off h⟩] : Buf (Elt F) ((thr c s d).loc cc0_scratch0))
      = (loaded d fx off h : Buf (Elt F) ((thr c s d).loc cc0_scratch0)) :=
  writes_whole_eq0 c s d f _
omit [FloatOps F] in
theorem ld_writes1 (f : Buf (Elt F) ((thr c s d).loc cc0_scratch1)) (off : Fin 4 → Nat)
    (h : ∀ a, off a + S1x1x224x224.size a ≤ S2x384x224x224.size a) :
    ((b1).view.writes (Elt F) f [⟨Rect.whole S224x224, loaded d fx off h⟩] : Buf (Elt F) ((thr c s d).loc cc0_scratch1))
      = (loaded d fx off h : Buf (Elt F) ((thr c s d).loc cc0_scratch1)) :=
  writes_whole_eq1 c s d f _

section Key
open Idealize.ShloMosaic.ValueIdx

/-! ### Where an image sits in the whole array -/

/-- The whole array's index of position `y` of the image at offset `off`. -/
def imgIdx (off : Fin 4 → Nat) (h : ∀ a, off a + S1x1x224x224.size a ≤ S2x384x224x224.size a) (y : S224x224.Idx) :
    S2x384x224x224.Idx :=
  Idealize.ShloMosaic.ValueIdx.ix4
    (⟨off 0, by have h0 : off 0 + 1 ≤ 2 := h 0; omega⟩ : Fin 2)
    (⟨off 1, by have h1 : off 1 + 1 ≤ 384 := h 1; omega⟩ : Fin 384)
    (⟨off 2 + (y 0).val, by have h2 : off 2 + 224 ≤ 224 := h 2; have hy : (y 0).val < 224 := (y 0).isLt; omega⟩ : Fin 224)
    (⟨off 3 + (y 1).val, by have h3 : off 3 + 224 ≤ 224 := h 3; have hy : (y 1).val < 224 := (y 1).isLt; omega⟩ : Fin 224)

omit [FloatOps F] in
/-- Where an image's positions sit in the whole array: batch and channel the offset's, row and column the offset's plus
    the position's. -/
theorem emb_imgM_x (off : Fin 4 → Nat) (h : ∀ a, off a + S1x1x224x224.size a ≤ S2x384x224x224.size a) (y : S224x224.Idx) :
    ((imgM xW off h).view.emb y : S2x384x224x224.Idx) = imgIdx off h y := by
  have hk : ∀ hn : S224x224.numel = (Rect.unit (s := S2x384x224x224) off S1x1x224x224.size h).shape.numel,
      Shape.reshapeEquiv hn y
        = (ix4 (0 : Fin 1) (0 : Fin 1) (⟨(y 0).val, (y 0).isLt⟩ : Fin 224) (⟨(y 1).val, (y 1).isLt⟩ : Fin 224) :
            (Rect.unit (s := S2x384x224x224) off S1x1x224x224.size h).shape.Idx) := fun hn =>
    Shape.reshapeEquiv_eq_of_rowMajor hn (by
      show ((⟨4, ![1, 1, 224, 224]⟩ : Shape).rowMajor
          (ix4 (0 : Fin 1) (0 : Fin 1) (⟨(y 0).val, (y 0).isLt⟩ : Fin 224) (⟨(y 1).val, (y 1).isLt⟩ : Fin 224)) : Nat)
        = ((⟨2, ![224, 224]⟩ : Shape).rowMajor y : Nat)
      rw [Shape.rowMajor_val_four, Shape.rowMajor_val_two]
      show ((0 * 1 + 0) * 224 + (y 0).val) * 224 + (y 1).val = (y 0).val * 224 + (y 1).val
      omega)
  show (Rect.unit (s := S2x384x224x224) off S1x1x224x224.size h).emb (Shape.reshapeEquiv _ y) = _
  rw [hk]
  funext a
  refine Fin.ext ?_
  rw [Rect.emb_apply]
  match a with
  | ⟨0, _⟩ => show off 0 + 1 * 0 = off 0; omega
  | ⟨1, _⟩ => show off 1 + 1 * 0 = off 1; omega
  | ⟨2, _⟩ => show off 2 + 1 * (y 0).val = off 2 + (y 0).val; omega
  | ⟨3, _⟩ => show off 3 + 1 * (y 1).val = off 3 + (y 1).val; omega

omit [FloatOps F] in
/-- Where an image's positions sit in the whole array: batch and channel the offset's, row and column the offset's plus
    the position's. -/
theorem emb_imgM_o (off : Fin 4 → Nat) (h : ∀ a, off a + S1x1x224x224.size a ≤ S2x384x224x224.size a) (y : S224x224.Idx) :
    ((imgM oW off h).view.emb y : S2x384x224x224.Idx) = imgIdx off h y := by
  have hk : ∀ hn : S224x224.numel = (Rect.unit (s := S2x384x224x224) off S1x1x224x224.size h).shape.numel,
      Shape.reshapeEquiv hn y
        = (ix4 (0 : Fin 1) (0 : Fin 1) (⟨(y 0).val, (y 0).isLt⟩ : Fin 224) (⟨(y 1).val, (y 1).isLt⟩ : Fin 224) :
            (Rect.unit (s := S2x384x224x224) off S1x1x224x224.size h).shape.Idx) := fun hn =>
    Shape.reshapeEquiv_eq_of_rowMajor hn (by
      show ((⟨4, ![1, 1, 224, 224]⟩ : Shape).rowMajor
          (ix4 (0 : Fin 1) (0 : Fin 1) (⟨(y 0).val, (y 0).isLt⟩ : Fin 224) (⟨(y 1).val, (y 1).isLt⟩ : Fin 224)) : Nat)
        = ((⟨2, ![224, 224]⟩ : Shape).rowMajor y : Nat)
      rw [Shape.rowMajor_val_four, Shape.rowMajor_val_two]
      show ((0 * 1 + 0) * 224 + (y 0).val) * 224 + (y 1).val = (y 0).val * 224 + (y 1).val
      omega)
  show (Rect.unit (s := S2x384x224x224) off S1x1x224x224.size h).emb (Shape.reshapeEquiv _ y) = _
  rw [hk]
  funext a
  refine Fin.ext ?_
  rw [Rect.emb_apply]
  match a with
  | ⟨0, _⟩ => show off 0 + 1 * 0 = off 0; omega
  | ⟨1, _⟩ => show off 1 + 1 * 0 = off 1; omega
  | ⟨2, _⟩ => show off 2 + 1 * (y 0).val = off 2 + (y 0).val; omega
  | ⟨3, _⟩ => show off 3 + 1 * (y 1).val = off 3 + (y 1).val; omega

end Key

/-! ### The value of a copied-out image -/

/-- An image copied into scratch 0, rotated there by its channel's group and read back is a right payload for the same image
    of the result. -/
theorem goodPay_rot0 (j : Fin 9) (g : Nat) (hg : g = Cert.Spec.grp (imgC c.val s.val j.val))
    (offx : Fin 4 → Nat) (hx : ∀ a, offx a + S1x1x224x224.size a ≤ S2x384x224x224.size a) (ex : offx = imgOff c.val s.val j.val)
    (offo : Fin 4 → Nat) (ho : ∀ a, offo a + S1x1x224x224.size a ≤ S2x384x224x224.size a) (eo : offo = imgOff c.val s.val j.val)
    (fb : Buf (Elt F) ((thr c s d).loc cc0_scratch0)) (hfb : fb = (loaded d fx offx hx : Buf (Elt F) ((thr c s d).loc cc0_scratch0))) :
    GoodPay d fx offo ho
      (ReadAs.same.apply (View.read (Elt F) (b0).view (Cert.Spec.rotBuf g fb : Buf (Elt F) ((thr c s d).loc cc0_scratch0)))) := by
  subst hfb ex eo hg
  unfold GoodPay
  intro y
  show fx ((imgM xW _ hx).view.emb (Cert.Spec.bufSrc _ y)) = fx (Cert.Spec.src ((imgM oW _ ho).view.emb y))
  rw [emb_imgM_x, emb_imgM_o]
  refine congrArg fx (funext fun a => Fin.ext ?_)
  match a with
  | ⟨0, _⟩ => rfl
  | ⟨1, _⟩ => rfl
  | ⟨2, _⟩ =>
    show 0 + Cert.Spec.bufH (Cert.Spec.grp (imgC c.val s.val j.val)) (y 0).val (y 1).val
      = Cert.Spec.bufH (Cert.Spec.grp (imgC c.val s.val j.val)) (0 + (y 0).val) (0 + (y 1).val)
    simp only [Nat.zero_add]
  | ⟨3, _⟩ =>
    show 0 + Cert.Spec.bufW (Cert.Spec.grp (imgC c.val s.val j.val)) (y 0).val (y 1).val
      = Cert.Spec.bufW (Cert.Spec.grp (imgC c.val s.val j.val)) (0 + (y 0).val) (0 + (y 1).val)
    simp only [Nat.zero_add]

/-- An image copied into scratch 1, rotated there by its channel's group and read back is a right payload for the same image
    of the result. -/
theorem goodPay_rot1 (j : Fin 9) (g : Nat) (hg : g = Cert.Spec.grp (imgC c.val s.val j.val))
    (offx : Fin 4 → Nat) (hx : ∀ a, offx a + S1x1x224x224.size a ≤ S2x384x224x224.size a) (ex : offx = imgOff c.val s.val j.val)
    (offo : Fin 4 → Nat) (ho : ∀ a, offo a + S1x1x224x224.size a ≤ S2x384x224x224.size a) (eo : offo = imgOff c.val s.val j.val)
    (fb : Buf (Elt F) ((thr c s d).loc cc0_scratch1)) (hfb : fb = (loaded d fx offx hx : Buf (Elt F) ((thr c s d).loc cc0_scratch1))) :
    GoodPay d fx offo ho
      (ReadAs.same.apply (View.read (Elt F) (b1).view (Cert.Spec.rotBuf g fb : Buf (Elt F) ((thr c s d).loc cc0_scratch1)))) := by
  subst hfb ex eo hg
  unfold GoodPay
  intro y
  show fx ((imgM xW _ hx).view.emb (Cert.Spec.bufSrc _ y)) = fx (Cert.Spec.src ((imgM oW _ ho).view.emb y))
  rw [emb_imgM_x, emb_imgM_o]
  refine congrArg fx (funext fun a => Fin.ext ?_)
  match a with
  | ⟨0, _⟩ => rfl
  | ⟨1, _⟩ => rfl
  | ⟨2, _⟩ =>
    show 0 + Cert.Spec.bufH (Cert.Spec.grp (imgC c.val s.val j.val)) (y 0).val (y 1).val
      = Cert.Spec.bufH (Cert.Spec.grp (imgC c.val s.val j.val)) (0 + (y 0).val) (0 + (y 1).val)
    simp only [Nat.zero_add]
  | ⟨3, _⟩ =>
    show 0 + Cert.Spec.bufW (Cert.Spec.grp (imgC c.val s.val j.val)) (y 0).val (y 1).val
      = Cert.Spec.bufW (Cert.Spec.grp (imgC c.val s.val j.val)) (0 + (y 0).val) (0 + (y 1).val)
    simp only [Nat.zero_add]

/-- Image `j`'s piece of `o`, written whole with a right payload, is at the specification's values. -/
theorem o_final (j : Fin 9) (off : Fin 4 → Nat) (h : ∀ a, off a + S1x1x224x224.size a ≤ S2x384x224x224.size a)
    (e : off = imgOff c.val s.val j.val) (f' : Buf (Elt F) (oLoc d)) (w : S224x224.Idx → Elt F EltTy.f32) (hw : GoodPay d fx off h w) :
    ((imgM oW off h).view.loc (thr c s d) ↦[(imgM oW off h).view.set]{fullShare}
        (imgM oW off h).view.writes (Elt F) f' [⟨Rect.whole S224x224, w⟩] : sProp 𝕄)
      ⊢ (oLoc d ↦[tileImg (c2 c) (s16 s) j]{fullShare} want d fx) := by
  rw [pts_o_img c s d j off h e]
  refine Entails.of_eq (pointsTo_congr fun i hi => ?_)
  rw [← set_o_img c s j off h e] at hi
  obtain ⟨y, -, rfl⟩ := Finset.mem_map.mp hi
  have h1 := View.read_writes_cons_emb (v := (imgM oW off h).view) (f := f') (Rect.whole S224x224) w [] y
  rw [Rect.emb_whole_apply] at h1
  have h3 := h1.trans (hw y)
  rw [View.read_apply, View.read_apply] at h3
  exact (cast_inj _).mp h3

end Cert.KernelIdeal.Tile

end
-- ==== Proof.Trip0.lean ====
/-
  Pair 0 of a worker's loop: from the state before it to the state after it.
-/
import proofs.«208198_g16930761081413_cont_7to1_1121_27_alg».proof.Proof.TileValue

noncomputable section

namespace Cert.KernelIdeal.Tile

open Cert.KernelIdeal Cert.KernelIdeal.Gen Cert.KernelIdeal.Setup Cert.KernelIdeal.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable (c : Fin (grid0.bound 0)) (s : Fin (grid0.bound 1)) (d : Dev nD)
variable (fx : Buf (Elt F) (xLoc d)) (fo : Buf (Elt F) (oLoc d))
variable (O : CellTallies nD τ sig (HIx 1)) (W : Waits sig (HIx 1))

abbrev t0 : Fin k0_t1_loop.trips := ⟨0, by decide⟩

/-- The three conditions on an image's rotation, from its group. -/
theorem conds_b0_0 {g : Nat} (hg : Cert.Spec.grp (imgC c.val s.val (2 * (t0).val)) = g) :
    (k0_cond2 (coordsV c s) t0 = 1#1 ↔ g = 1) ∧ (k0_cond3 (coordsV c s) t0 = 1#1 ↔ g = 2) ∧ (k0_cond4 (coordsV c s) t0 = 1#1 ↔ g = 3) := by
  subst hg; exact ⟨cond2_iff c s t0, cond3_iff c s t0, cond4_iff c s t0⟩
theorem conds_b1_0 {g : Nat} (hg : Cert.Spec.grp (imgC c.val s.val (2 * (t0).val + 1)) = g) :
    (k0_cond5 (coordsV c s) t0 = 1#1 ↔ g = 1) ∧ (k0_cond6 (coordsV c s) t0 = 1#1 ↔ g = 2) ∧ (k0_cond7 (coordsV c s) t0 = 1#1 ↔ g = 3) := by
  subst hg; exact ⟨cond5_iff c s t0, cond6_iff c s t0, cond7_iff c s t0⟩

set_option maxHeartbeats 1600000 in
theorem trip0 (R : RotFacts (F := F) c s d) (v2 c0 : BitVec 32) :
    St0 c s d fx fo O W
      ⊢ wp frame (wpE (defs₀ (F := F)) 𝒱₀ (thr c s d) none) Set.univ
          (k0_t1_body (coordsV c s) xW (Memref.isWhole_whole _) oW (Memref.isWhole_whole _) b0 (Memref.isWhole_whole _) b1 (Memref.isWhole_whole _)
            cc0_scratch2 cc0_scratch3 cc0_scratch4 cc0_scratch5 v2 c0 t0 ())
          fun _ => St1 c s d fx fo O W := by
  have h1 : ¬ k0_cond1 t0 = 1#1 := by rw [cond1_iff]; decide
  have h8 : k0_cond8 t0 = 1#1 := by rw [cond8_iff]; decide
  obtain ⟨g0, hg0, hg0r⟩ : ∃ g, Cert.Spec.grp (imgC c.val s.val (2 * (t0).val)) = g ∧ (g = 1 ∨ g = 2 ∨ g = 3) := ⟨_, rfl, grp_img _ _ _⟩
  obtain ⟨g1', hg1, hg1r⟩ : ∃ g, Cert.Spec.grp (imgC c.val s.val (2 * (t0).val + 1)) = g ∧ (g = 1 ∨ g = 2 ∨ g = 3) := ⟨_, rfl, grp_img _ _ _⟩
  obtain ⟨e2, e3, e4⟩ := conds_b0_0 c s hg0
  obtain ⟨e5, e6, e7⟩ := conds_b1_0 c s hg1
  rcases hg0r with rfl | rfl | rfl <;> rcases hg1r with rfl | rfl | rfl
  case inl.inl =>
    have h2 : k0_cond2 (coordsV c s) t0 = 1#1 := e2.mpr rfl
    have h3 : ¬ k0_cond3 (coordsV c s) t0 = 1#1 := fun h => absurd (e3.mp h) (by decide)
    have h4 : ¬ k0_cond4 (coordsV c s) t0 = 1#1 := fun h => absurd (e4.mp h) (by decide)
    have h5 : k0_cond5 (coordsV c s) t0 = 1#1 := e5.mpr rfl
    have h6 : ¬ k0_cond6 (coordsV c s) t0 = 1#1 := fun h => absurd (e6.mp h) (by decide)
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inl.inr.inl =>
    have h2 : k0_cond2 (coordsV c s) t0 = 1#1 := e2.mpr rfl
    have h3 : ¬ k0_cond3 (coordsV c s) t0 = 1#1 := fun h => absurd (e3.mp h) (by decide)
    have h4 : ¬ k0_cond4 (coordsV c s) t0 = 1#1 := fun h => absurd (e4.mp h) (by decide)
    have h5 : ¬ k0_cond5 (coordsV c s) t0 = 1#1 := fun h => absurd (e5.mp h) (by decide)
    have h6 : k0_cond6 (coordsV c s) t0 = 1#1 := e6.mpr rfl
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inl.inr.inr =>
    have h2 : k0_cond2 (coordsV c s) t0 = 1#1 := e2.mpr rfl
    have h3 : ¬ k0_cond3 (coordsV c s) t0 = 1#1 := fun h => absurd (e3.mp h) (by decide)
    have h4 : ¬ k0_cond4 (coordsV c s) t0 = 1#1 := fun h => absurd (e4.mp h) (by decide)
    have h5 : ¬ k0_cond5 (coordsV c s) t0 = 1#1 := fun h => absurd (e5.mp h) (by decide)
    have h6 : ¬ k0_cond6 (coordsV c s) t0 = 1#1 := fun h => absurd (e6.mp h) (by decide)
    have h7 : k0_cond7 (coordsV c s) t0 = 1#1 := e7.mpr rfl
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inl.inl =>
    have h2 : ¬ k0_cond2 (coordsV c s) t0 = 1#1 := fun h => absurd (e2.mp h) (by decide)
    have h3 : k0_cond3 (coordsV c s) t0 = 1#1 := e3.mpr rfl
    have h4 : ¬ k0_cond4 (coordsV c s) t0 = 1#1 := fun h => absurd (e4.mp h) (by decide)
    have h5 : k0_cond5 (coordsV c s) t0 = 1#1 := e5.mpr rfl
    have h6 : ¬ k0_cond6 (coordsV c s) t0 = 1#1 := fun h => absurd (e6.mp h) (by decide)
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inl.inr.inl =>
    have h2 : ¬ k0_cond2 (coordsV c s) t0 = 1#1 := fun h => absurd (e2.mp h) (by decide)
    have h3 : k0_cond3 (coordsV c s) t0 = 1#1 := e3.mpr rfl
    have h4 : ¬ k0_cond4 (coordsV c s) t0 = 1#1 := fun h => absurd (e4.mp h) (by decide)
    have h5 : ¬ k0_cond5 (coordsV c s) t0 = 1#1 := fun h => absurd (e5.mp h) (by decide)
    have h6 : k0_cond6 (coordsV c s) t0 = 1#1 := e6.mpr rfl
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inl.inr.inr =>
    have h2 : ¬ k0_cond2 (coordsV c s) t0 = 1#1 := fun h => absurd (e2.mp h) (by decide)
    have h3 : k0_cond3 (coordsV c s) t0 = 1#1 := e3.mpr rfl
    have h4 : ¬ k0_cond4 (coordsV c s) t0 = 1#1 := fun h => absurd (e4.mp h) (by decide)
    have h5 : ¬ k0_cond5 (coordsV c s) t0 = 1#1 := fun h => absurd (e5.mp h) (by decide)
    have h6 : ¬ k0_cond6 (coordsV c s) t0 = 1#1 := fun h => absurd (e6.mp h) (by decide)
    have h7 : k0_cond7 (coordsV c s) t0 = 1#1 := e7.mpr rfl
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inr.inl =>
    have h2 : ¬ k0_cond2 (coordsV c s) t0 = 1#1 := fun h => absurd (e2.mp h) (by decide)
    have h3 : ¬ k0_cond3 (coordsV c s) t0 = 1#1 := fun h => absurd (e3.mp h) (by decide)
    have h4 : k0_cond4 (coordsV c s) t0 = 1#1 := e4.mpr rfl
    have h5 : k0_cond5 (coordsV c s) t0 = 1#1 := e5.mpr rfl
    have h6 : ¬ k0_cond6 (coordsV c s) t0 = 1#1 := fun h => absurd (e6.mp h) (by decide)
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inr.inr.inl =>
    have h2 : ¬ k0_cond2 (coordsV c s) t0 = 1#1 := fun h => absurd (e2.mp h) (by decide)
    have h3 : ¬ k0_cond3 (coordsV c s) t0 = 1#1 := fun h => absurd (e3.mp h) (by decide)
    have h4 : k0_cond4 (coordsV c s) t0 = 1#1 := e4.mpr rfl
    have h5 : ¬ k0_cond5 (coordsV c s) t0 = 1#1 := fun h => absurd (e5.mp h) (by decide)
    have h6 : k0_cond6 (coordsV c s) t0 = 1#1 := e6.mpr rfl
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inr.inr.inr =>
    have h2 : ¬ k0_cond2 (coordsV c s) t0 = 1#1 := fun h => absurd (e2.mp h) (by decide)
    have h3 : ¬ k0_cond3 (coordsV c s) t0 = 1#1 := fun h => absurd (e3.mp h) (by decide)
    have h4 : k0_cond4 (coordsV c s) t0 = 1#1 := e4.mpr rfl
    have h5 : ¬ k0_cond5 (coordsV c s) t0 = 1#1 := fun h => absurd (e5.mp h) (by decide)
    have h6 : ¬ k0_cond6 (coordsV c s) t0 = 1#1 := fun h => absurd (e6.mp h) (by decide)
    have h7 : k0_cond7 (coordsV c s) t0 = 1#1 := e7.mpr rfl
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi

end Cert.KernelIdeal.Tile

end
-- ==== Proof.Trip1.lean ====
/-
  Pair 1 of a worker's loop: from the state before it to the state after it.
-/
import proofs.«208198_g16930761081413_cont_7to1_1121_27_alg».proof.Proof.TileValue

noncomputable section

namespace Cert.KernelIdeal.Tile

open Cert.KernelIdeal Cert.KernelIdeal.Gen Cert.KernelIdeal.Setup Cert.KernelIdeal.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable (c : Fin (grid0.bound 0)) (s : Fin (grid0.bound 1)) (d : Dev nD)
variable (fx : Buf (Elt F) (xLoc d)) (fo : Buf (Elt F) (oLoc d))
variable (O : CellTallies nD τ sig (HIx 1)) (W : Waits sig (HIx 1))

abbrev t1 : Fin k0_t1_loop.trips := ⟨1, by decide⟩

/-- The three conditions on an image's rotation, from its group. -/
theorem conds_b0_1 {g : Nat} (hg : Cert.Spec.grp (imgC c.val s.val (2 * (t1).val)) = g) :
    (k0_cond2 (coordsV c s) t1 = 1#1 ↔ g = 1) ∧ (k0_cond3 (coordsV c s) t1 = 1#1 ↔ g = 2) ∧ (k0_cond4 (coordsV c s) t1 = 1#1 ↔ g = 3) := by
  subst hg; exact ⟨cond2_iff c s t1, cond3_iff c s t1, cond4_iff c s t1⟩
theorem conds_b1_1 {g : Nat} (hg : Cert.Spec.grp (imgC c.val s.val (2 * (t1).val + 1)) = g) :
    (k0_cond5 (coordsV c s) t1 = 1#1 ↔ g = 1) ∧ (k0_cond6 (coordsV c s) t1 = 1#1 ↔ g = 2) ∧ (k0_cond7 (coordsV c s) t1 = 1#1 ↔ g = 3) := by
  subst hg; exact ⟨cond5_iff c s t1, cond6_iff c s t1, cond7_iff c s t1⟩

set_option maxHeartbeats 1600000 in
theorem trip1 (R : RotFacts (F := F) c s d) (v2 c0 : BitVec 32) :
    St1 c s d fx fo O W
      ⊢ wp frame (wpE (defs₀ (F := F)) 𝒱₀ (thr c s d) none) Set.univ
          (k0_t1_body (coordsV c s) xW (Memref.isWhole_whole _) oW (Memref.isWhole_whole _) b0 (Memref.isWhole_whole _) b1 (Memref.isWhole_whole _)
            cc0_scratch2 cc0_scratch3 cc0_scratch4 cc0_scratch5 v2 c0 t1 ())
          fun _ => St2 c s d fx fo O W := by
  have h1 : k0_cond1 t1 = 1#1 := by rw [cond1_iff]; decide
  have h8 : k0_cond8 t1 = 1#1 := by rw [cond8_iff]; decide
  obtain ⟨g0, hg0, hg0r⟩ : ∃ g, Cert.Spec.grp (imgC c.val s.val (2 * (t1).val)) = g ∧ (g = 1 ∨ g = 2 ∨ g = 3) := ⟨_, rfl, grp_img _ _ _⟩
  obtain ⟨g1', hg1, hg1r⟩ : ∃ g, Cert.Spec.grp (imgC c.val s.val (2 * (t1).val + 1)) = g ∧ (g = 1 ∨ g = 2 ∨ g = 3) := ⟨_, rfl, grp_img _ _ _⟩
  obtain ⟨e2, e3, e4⟩ := conds_b0_1 c s hg0
  obtain ⟨e5, e6, e7⟩ := conds_b1_1 c s hg1
  rcases hg0r with rfl | rfl | rfl <;> rcases hg1r with rfl | rfl | rfl
  case inl.inl =>
    have h2 : k0_cond2 (coordsV c s) t1 = 1#1 := e2.mpr rfl
    have h3 : ¬ k0_cond3 (coordsV c s) t1 = 1#1 := fun h => absurd (e3.mp h) (by decide)
    have h4 : ¬ k0_cond4 (coordsV c s) t1 = 1#1 := fun h => absurd (e4.mp h) (by decide)
    have h5 : k0_cond5 (coordsV c s) t1 = 1#1 := e5.mpr rfl
    have h6 : ¬ k0_cond6 (coordsV c s) t1 = 1#1 := fun h => absurd (e6.mp h) (by decide)
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inl.inr.inl =>
    have h2 : k0_cond2 (coordsV c s) t1 = 1#1 := e2.mpr rfl
    have h3 : ¬ k0_cond3 (coordsV c s) t1 = 1#1 := fun h => absurd (e3.mp h) (by decide)
    have h4 : ¬ k0_cond4 (coordsV c s) t1 = 1#1 := fun h => absurd (e4.mp h) (by decide)
    have h5 : ¬ k0_cond5 (coordsV c s) t1 = 1#1 := fun h => absurd (e5.mp h) (by decide)
    have h6 : k0_cond6 (coordsV c s) t1 = 1#1 := e6.mpr rfl
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inl.inr.inr =>
    have h2 : k0_cond2 (coordsV c s) t1 = 1#1 := e2.mpr rfl
    have h3 : ¬ k0_cond3 (coordsV c s) t1 = 1#1 := fun h => absurd (e3.mp h) (by decide)
    have h4 : ¬ k0_cond4 (coordsV c s) t1 = 1#1 := fun h => absurd (e4.mp h) (by decide)
    have h5 : ¬ k0_cond5 (coordsV c s) t1 = 1#1 := fun h => absurd (e5.mp h) (by decide)
    have h6 : ¬ k0_cond6 (coordsV c s) t1 = 1#1 := fun h => absurd (e6.mp h) (by decide)
    have h7 : k0_cond7 (coordsV c s) t1 = 1#1 := e7.mpr rfl
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inl.inl =>
    have h2 : ¬ k0_cond2 (coordsV c s) t1 = 1#1 := fun h => absurd (e2.mp h) (by decide)
    have h3 : k0_cond3 (coordsV c s) t1 = 1#1 := e3.mpr rfl
    have h4 : ¬ k0_cond4 (coordsV c s) t1 = 1#1 := fun h => absurd (e4.mp h) (by decide)
    have h5 : k0_cond5 (coordsV c s) t1 = 1#1 := e5.mpr rfl
    have h6 : ¬ k0_cond6 (coordsV c s) t1 = 1#1 := fun h => absurd (e6.mp h) (by decide)
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inl.inr.inl =>
    have h2 : ¬ k0_cond2 (coordsV c s) t1 = 1#1 := fun h => absurd (e2.mp h) (by decide)
    have h3 : k0_cond3 (coordsV c s) t1 = 1#1 := e3.mpr rfl
    have h4 : ¬ k0_cond4 (coordsV c s) t1 = 1#1 := fun h => absurd (e4.mp h) (by decide)
    have h5 : ¬ k0_cond5 (coordsV c s) t1 = 1#1 := fun h => absurd (e5.mp h) (by decide)
    have h6 : k0_cond6 (coordsV c s) t1 = 1#1 := e6.mpr rfl
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inl.inr.inr =>
    have h2 : ¬ k0_cond2 (coordsV c s) t1 = 1#1 := fun h => absurd (e2.mp h) (by decide)
    have h3 : k0_cond3 (coordsV c s) t1 = 1#1 := e3.mpr rfl
    have h4 : ¬ k0_cond4 (coordsV c s) t1 = 1#1 := fun h => absurd (e4.mp h) (by decide)
    have h5 : ¬ k0_cond5 (coordsV c s) t1 = 1#1 := fun h => absurd (e5.mp h) (by decide)
    have h6 : ¬ k0_cond6 (coordsV c s) t1 = 1#1 := fun h => absurd (e6.mp h) (by decide)
    have h7 : k0_cond7 (coordsV c s) t1 = 1#1 := e7.mpr rfl
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inr.inl =>
    have h2 : ¬ k0_cond2 (coordsV c s) t1 = 1#1 := fun h => absurd (e2.mp h) (by decide)
    have h3 : ¬ k0_cond3 (coordsV c s) t1 = 1#1 := fun h => absurd (e3.mp h) (by decide)
    have h4 : k0_cond4 (coordsV c s) t1 = 1#1 := e4.mpr rfl
    have h5 : k0_cond5 (coordsV c s) t1 = 1#1 := e5.mpr rfl
    have h6 : ¬ k0_cond6 (coordsV c s) t1 = 1#1 := fun h => absurd (e6.mp h) (by decide)
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inr.inr.inl =>
    have h2 : ¬ k0_cond2 (coordsV c s) t1 = 1#1 := fun h => absurd (e2.mp h) (by decide)
    have h3 : ¬ k0_cond3 (coordsV c s) t1 = 1#1 := fun h => absurd (e3.mp h) (by decide)
    have h4 : k0_cond4 (coordsV c s) t1 = 1#1 := e4.mpr rfl
    have h5 : ¬ k0_cond5 (coordsV c s) t1 = 1#1 := fun h => absurd (e5.mp h) (by decide)
    have h6 : k0_cond6 (coordsV c s) t1 = 1#1 := e6.mpr rfl
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inr.inr.inr =>
    have h2 : ¬ k0_cond2 (coordsV c s) t1 = 1#1 := fun h => absurd (e2.mp h) (by decide)
    have h3 : ¬ k0_cond3 (coordsV c s) t1 = 1#1 := fun h => absurd (e3.mp h) (by decide)
    have h4 : k0_cond4 (coordsV c s) t1 = 1#1 := e4.mpr rfl
    have h5 : ¬ k0_cond5 (coordsV c s) t1 = 1#1 := fun h => absurd (e5.mp h) (by decide)
    have h6 : ¬ k0_cond6 (coordsV c s) t1 = 1#1 := fun h => absurd (e6.mp h) (by decide)
    have h7 : k0_cond7 (coordsV c s) t1 = 1#1 := e7.mpr rfl
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi

end Cert.KernelIdeal.Tile

end
-- ==== Proof.Trip2.lean ====
/-
  Pair 2 of a worker's loop: from the state before it to the state after it.
-/
import proofs.«208198_g16930761081413_cont_7to1_1121_27_alg».proof.Proof.TileValue

noncomputable section

namespace Cert.KernelIdeal.Tile

open Cert.KernelIdeal Cert.KernelIdeal.Gen Cert.KernelIdeal.Setup Cert.KernelIdeal.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable (c : Fin (grid0.bound 0)) (s : Fin (grid0.bound 1)) (d : Dev nD)
variable (fx : Buf (Elt F) (xLoc d)) (fo : Buf (Elt F) (oLoc d))
variable (O : CellTallies nD τ sig (HIx 1)) (W : Waits sig (HIx 1))

abbrev t2 : Fin k0_t1_loop.trips := ⟨2, by decide⟩

/-- The three conditions on an image's rotation, from its group. -/
theorem conds_b0_2 {g : Nat} (hg : Cert.Spec.grp (imgC c.val s.val (2 * (t2).val)) = g) :
    (k0_cond2 (coordsV c s) t2 = 1#1 ↔ g = 1) ∧ (k0_cond3 (coordsV c s) t2 = 1#1 ↔ g = 2) ∧ (k0_cond4 (coordsV c s) t2 = 1#1 ↔ g = 3) := by
  subst hg; exact ⟨cond2_iff c s t2, cond3_iff c s t2, cond4_iff c s t2⟩
theorem conds_b1_2 {g : Nat} (hg : Cert.Spec.grp (imgC c.val s.val (2 * (t2).val + 1)) = g) :
    (k0_cond5 (coordsV c s) t2 = 1#1 ↔ g = 1) ∧ (k0_cond6 (coordsV c s) t2 = 1#1 ↔ g = 2) ∧ (k0_cond7 (coordsV c s) t2 = 1#1 ↔ g = 3) := by
  subst hg; exact ⟨cond5_iff c s t2, cond6_iff c s t2, cond7_iff c s t2⟩

set_option maxHeartbeats 1600000 in
theorem trip2 (R : RotFacts (F := F) c s d) (v2 c0 : BitVec 32) :
    St2 c s d fx fo O W
      ⊢ wp frame (wpE (defs₀ (F := F)) 𝒱₀ (thr c s d) none) Set.univ
          (k0_t1_body (coordsV c s) xW (Memref.isWhole_whole _) oW (Memref.isWhole_whole _) b0 (Memref.isWhole_whole _) b1 (Memref.isWhole_whole _)
            cc0_scratch2 cc0_scratch3 cc0_scratch4 cc0_scratch5 v2 c0 t2 ())
          fun _ => St3 c s d fx fo O W := by
  have h1 : k0_cond1 t2 = 1#1 := by rw [cond1_iff]; decide
  have h8 : k0_cond8 t2 = 1#1 := by rw [cond8_iff]; decide
  obtain ⟨g0, hg0, hg0r⟩ : ∃ g, Cert.Spec.grp (imgC c.val s.val (2 * (t2).val)) = g ∧ (g = 1 ∨ g = 2 ∨ g = 3) := ⟨_, rfl, grp_img _ _ _⟩
  obtain ⟨g1', hg1, hg1r⟩ : ∃ g, Cert.Spec.grp (imgC c.val s.val (2 * (t2).val + 1)) = g ∧ (g = 1 ∨ g = 2 ∨ g = 3) := ⟨_, rfl, grp_img _ _ _⟩
  obtain ⟨e2, e3, e4⟩ := conds_b0_2 c s hg0
  obtain ⟨e5, e6, e7⟩ := conds_b1_2 c s hg1
  rcases hg0r with rfl | rfl | rfl <;> rcases hg1r with rfl | rfl | rfl
  case inl.inl =>
    have h2 : k0_cond2 (coordsV c s) t2 = 1#1 := e2.mpr rfl
    have h3 : ¬ k0_cond3 (coordsV c s) t2 = 1#1 := fun h => absurd (e3.mp h) (by decide)
    have h4 : ¬ k0_cond4 (coordsV c s) t2 = 1#1 := fun h => absurd (e4.mp h) (by decide)
    have h5 : k0_cond5 (coordsV c s) t2 = 1#1 := e5.mpr rfl
    have h6 : ¬ k0_cond6 (coordsV c s) t2 = 1#1 := fun h => absurd (e6.mp h) (by decide)
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inl.inr.inl =>
    have h2 : k0_cond2 (coordsV c s) t2 = 1#1 := e2.mpr rfl
    have h3 : ¬ k0_cond3 (coordsV c s) t2 = 1#1 := fun h => absurd (e3.mp h) (by decide)
    have h4 : ¬ k0_cond4 (coordsV c s) t2 = 1#1 := fun h => absurd (e4.mp h) (by decide)
    have h5 : ¬ k0_cond5 (coordsV c s) t2 = 1#1 := fun h => absurd (e5.mp h) (by decide)
    have h6 : k0_cond6 (coordsV c s) t2 = 1#1 := e6.mpr rfl
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inl.inr.inr =>
    have h2 : k0_cond2 (coordsV c s) t2 = 1#1 := e2.mpr rfl
    have h3 : ¬ k0_cond3 (coordsV c s) t2 = 1#1 := fun h => absurd (e3.mp h) (by decide)
    have h4 : ¬ k0_cond4 (coordsV c s) t2 = 1#1 := fun h => absurd (e4.mp h) (by decide)
    have h5 : ¬ k0_cond5 (coordsV c s) t2 = 1#1 := fun h => absurd (e5.mp h) (by decide)
    have h6 : ¬ k0_cond6 (coordsV c s) t2 = 1#1 := fun h => absurd (e6.mp h) (by decide)
    have h7 : k0_cond7 (coordsV c s) t2 = 1#1 := e7.mpr rfl
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inl.inl =>
    have h2 : ¬ k0_cond2 (coordsV c s) t2 = 1#1 := fun h => absurd (e2.mp h) (by decide)
    have h3 : k0_cond3 (coordsV c s) t2 = 1#1 := e3.mpr rfl
    have h4 : ¬ k0_cond4 (coordsV c s) t2 = 1#1 := fun h => absurd (e4.mp h) (by decide)
    have h5 : k0_cond5 (coordsV c s) t2 = 1#1 := e5.mpr rfl
    have h6 : ¬ k0_cond6 (coordsV c s) t2 = 1#1 := fun h => absurd (e6.mp h) (by decide)
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inl.inr.inl =>
    have h2 : ¬ k0_cond2 (coordsV c s) t2 = 1#1 := fun h => absurd (e2.mp h) (by decide)
    have h3 : k0_cond3 (coordsV c s) t2 = 1#1 := e3.mpr rfl
    have h4 : ¬ k0_cond4 (coordsV c s) t2 = 1#1 := fun h => absurd (e4.mp h) (by decide)
    have h5 : ¬ k0_cond5 (coordsV c s) t2 = 1#1 := fun h => absurd (e5.mp h) (by decide)
    have h6 : k0_cond6 (coordsV c s) t2 = 1#1 := e6.mpr rfl
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inl.inr.inr =>
    have h2 : ¬ k0_cond2 (coordsV c s) t2 = 1#1 := fun h => absurd (e2.mp h) (by decide)
    have h3 : k0_cond3 (coordsV c s) t2 = 1#1 := e3.mpr rfl
    have h4 : ¬ k0_cond4 (coordsV c s) t2 = 1#1 := fun h => absurd (e4.mp h) (by decide)
    have h5 : ¬ k0_cond5 (coordsV c s) t2 = 1#1 := fun h => absurd (e5.mp h) (by decide)
    have h6 : ¬ k0_cond6 (coordsV c s) t2 = 1#1 := fun h => absurd (e6.mp h) (by decide)
    have h7 : k0_cond7 (coordsV c s) t2 = 1#1 := e7.mpr rfl
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inr.inl =>
    have h2 : ¬ k0_cond2 (coordsV c s) t2 = 1#1 := fun h => absurd (e2.mp h) (by decide)
    have h3 : ¬ k0_cond3 (coordsV c s) t2 = 1#1 := fun h => absurd (e3.mp h) (by decide)
    have h4 : k0_cond4 (coordsV c s) t2 = 1#1 := e4.mpr rfl
    have h5 : k0_cond5 (coordsV c s) t2 = 1#1 := e5.mpr rfl
    have h6 : ¬ k0_cond6 (coordsV c s) t2 = 1#1 := fun h => absurd (e6.mp h) (by decide)
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inr.inr.inl =>
    have h2 : ¬ k0_cond2 (coordsV c s) t2 = 1#1 := fun h => absurd (e2.mp h) (by decide)
    have h3 : ¬ k0_cond3 (coordsV c s) t2 = 1#1 := fun h => absurd (e3.mp h) (by decide)
    have h4 : k0_cond4 (coordsV c s) t2 = 1#1 := e4.mpr rfl
    have h5 : ¬ k0_cond5 (coordsV c s) t2 = 1#1 := fun h => absurd (e5.mp h) (by decide)
    have h6 : k0_cond6 (coordsV c s) t2 = 1#1 := e6.mpr rfl
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inr.inr.inr =>
    have h2 : ¬ k0_cond2 (coordsV c s) t2 = 1#1 := fun h => absurd (e2.mp h) (by decide)
    have h3 : ¬ k0_cond3 (coordsV c s) t2 = 1#1 := fun h => absurd (e3.mp h) (by decide)
    have h4 : k0_cond4 (coordsV c s) t2 = 1#1 := e4.mpr rfl
    have h5 : ¬ k0_cond5 (coordsV c s) t2 = 1#1 := fun h => absurd (e5.mp h) (by decide)
    have h6 : ¬ k0_cond6 (coordsV c s) t2 = 1#1 := fun h => absurd (e6.mp h) (by decide)
    have h7 : k0_cond7 (coordsV c s) t2 = 1#1 := e7.mpr rfl
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi

end Cert.KernelIdeal.Tile

end
-- ==== Proof.Trip3.lean ====
/-
  Pair 3 of a worker's loop: from the state before it to the state after it.
-/
import proofs.«208198_g16930761081413_cont_7to1_1121_27_alg».proof.Proof.TileValue

noncomputable section

namespace Cert.KernelIdeal.Tile

open Cert.KernelIdeal Cert.KernelIdeal.Gen Cert.KernelIdeal.Setup Cert.KernelIdeal.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable (c : Fin (grid0.bound 0)) (s : Fin (grid0.bound 1)) (d : Dev nD)
variable (fx : Buf (Elt F) (xLoc d)) (fo : Buf (Elt F) (oLoc d))
variable (O : CellTallies nD τ sig (HIx 1)) (W : Waits sig (HIx 1))

abbrev t3 : Fin k0_t1_loop.trips := ⟨3, by decide⟩

/-- The three conditions on an image's rotation, from its group. -/
theorem conds_b0_3 {g : Nat} (hg : Cert.Spec.grp (imgC c.val s.val (2 * (t3).val)) = g) :
    (k0_cond2 (coordsV c s) t3 = 1#1 ↔ g = 1) ∧ (k0_cond3 (coordsV c s) t3 = 1#1 ↔ g = 2) ∧ (k0_cond4 (coordsV c s) t3 = 1#1 ↔ g = 3) := by
  subst hg; exact ⟨cond2_iff c s t3, cond3_iff c s t3, cond4_iff c s t3⟩
theorem conds_b1_3 {g : Nat} (hg : Cert.Spec.grp (imgC c.val s.val (2 * (t3).val + 1)) = g) :
    (k0_cond5 (coordsV c s) t3 = 1#1 ↔ g = 1) ∧ (k0_cond6 (coordsV c s) t3 = 1#1 ↔ g = 2) ∧ (k0_cond7 (coordsV c s) t3 = 1#1 ↔ g = 3) := by
  subst hg; exact ⟨cond5_iff c s t3, cond6_iff c s t3, cond7_iff c s t3⟩

set_option maxHeartbeats 1600000 in
theorem trip3 (R : RotFacts (F := F) c s d) (v2 c0 : BitVec 32) :
    St3 c s d fx fo O W
      ⊢ wp frame (wpE (defs₀ (F := F)) 𝒱₀ (thr c s d) none) Set.univ
          (k0_t1_body (coordsV c s) xW (Memref.isWhole_whole _) oW (Memref.isWhole_whole _) b0 (Memref.isWhole_whole _) b1 (Memref.isWhole_whole _)
            cc0_scratch2 cc0_scratch3 cc0_scratch4 cc0_scratch5 v2 c0 t3 ())
          fun _ => St4 c s d fx fo O W := by
  have h1 : k0_cond1 t3 = 1#1 := by rw [cond1_iff]; decide
  have h8 : ¬ k0_cond8 t3 = 1#1 := by rw [cond8_iff]; decide
  obtain ⟨g0, hg0, hg0r⟩ : ∃ g, Cert.Spec.grp (imgC c.val s.val (2 * (t3).val)) = g ∧ (g = 1 ∨ g = 2 ∨ g = 3) := ⟨_, rfl, grp_img _ _ _⟩
  obtain ⟨g1', hg1, hg1r⟩ : ∃ g, Cert.Spec.grp (imgC c.val s.val (2 * (t3).val + 1)) = g ∧ (g = 1 ∨ g = 2 ∨ g = 3) := ⟨_, rfl, grp_img _ _ _⟩
  obtain ⟨e2, e3, e4⟩ := conds_b0_3 c s hg0
  obtain ⟨e5, e6, e7⟩ := conds_b1_3 c s hg1
  rcases hg0r with rfl | rfl | rfl <;> rcases hg1r with rfl | rfl | rfl
  case inl.inl =>
    have h2 : k0_cond2 (coordsV c s) t3 = 1#1 := e2.mpr rfl
    have h3 : ¬ k0_cond3 (coordsV c s) t3 = 1#1 := fun h => absurd (e3.mp h) (by decide)
    have h4 : ¬ k0_cond4 (coordsV c s) t3 = 1#1 := fun h => absurd (e4.mp h) (by decide)
    have h5 : k0_cond5 (coordsV c s) t3 = 1#1 := e5.mpr rfl
    have h6 : ¬ k0_cond6 (coordsV c s) t3 = 1#1 := fun h => absurd (e6.mp h) (by decide)
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inl.inr.inl =>
    have h2 : k0_cond2 (coordsV c s) t3 = 1#1 := e2.mpr rfl
    have h3 : ¬ k0_cond3 (coordsV c s) t3 = 1#1 := fun h => absurd (e3.mp h) (by decide)
    have h4 : ¬ k0_cond4 (coordsV c s) t3 = 1#1 := fun h => absurd (e4.mp h) (by decide)
    have h5 : ¬ k0_cond5 (coordsV c s) t3 = 1#1 := fun h => absurd (e5.mp h) (by decide)
    have h6 : k0_cond6 (coordsV c s) t3 = 1#1 := e6.mpr rfl
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inl.inr.inr =>
    have h2 : k0_cond2 (coordsV c s) t3 = 1#1 := e2.mpr rfl
    have h3 : ¬ k0_cond3 (coordsV c s) t3 = 1#1 := fun h => absurd (e3.mp h) (by decide)
    have h4 : ¬ k0_cond4 (coordsV c s) t3 = 1#1 := fun h => absurd (e4.mp h) (by decide)
    have h5 : ¬ k0_cond5 (coordsV c s) t3 = 1#1 := fun h => absurd (e5.mp h) (by decide)
    have h6 : ¬ k0_cond6 (coordsV c s) t3 = 1#1 := fun h => absurd (e6.mp h) (by decide)
    have h7 : k0_cond7 (coordsV c s) t3 = 1#1 := e7.mpr rfl
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inl.inl =>
    have h2 : ¬ k0_cond2 (coordsV c s) t3 = 1#1 := fun h => absurd (e2.mp h) (by decide)
    have h3 : k0_cond3 (coordsV c s) t3 = 1#1 := e3.mpr rfl
    have h4 : ¬ k0_cond4 (coordsV c s) t3 = 1#1 := fun h => absurd (e4.mp h) (by decide)
    have h5 : k0_cond5 (coordsV c s) t3 = 1#1 := e5.mpr rfl
    have h6 : ¬ k0_cond6 (coordsV c s) t3 = 1#1 := fun h => absurd (e6.mp h) (by decide)
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inl.inr.inl =>
    have h2 : ¬ k0_cond2 (coordsV c s) t3 = 1#1 := fun h => absurd (e2.mp h) (by decide)
    have h3 : k0_cond3 (coordsV c s) t3 = 1#1 := e3.mpr rfl
    have h4 : ¬ k0_cond4 (coordsV c s) t3 = 1#1 := fun h => absurd (e4.mp h) (by decide)
    have h5 : ¬ k0_cond5 (coordsV c s) t3 = 1#1 := fun h => absurd (e5.mp h) (by decide)
    have h6 : k0_cond6 (coordsV c s) t3 = 1#1 := e6.mpr rfl
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inl.inr.inr =>
    have h2 : ¬ k0_cond2 (coordsV c s) t3 = 1#1 := fun h => absurd (e2.mp h) (by decide)
    have h3 : k0_cond3 (coordsV c s) t3 = 1#1 := e3.mpr rfl
    have h4 : ¬ k0_cond4 (coordsV c s) t3 = 1#1 := fun h => absurd (e4.mp h) (by decide)
    have h5 : ¬ k0_cond5 (coordsV c s) t3 = 1#1 := fun h => absurd (e5.mp h) (by decide)
    have h6 : ¬ k0_cond6 (coordsV c s) t3 = 1#1 := fun h => absurd (e6.mp h) (by decide)
    have h7 : k0_cond7 (coordsV c s) t3 = 1#1 := e7.mpr rfl
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inr.inl =>
    have h2 : ¬ k0_cond2 (coordsV c s) t3 = 1#1 := fun h => absurd (e2.mp h) (by decide)
    have h3 : ¬ k0_cond3 (coordsV c s) t3 = 1#1 := fun h => absurd (e3.mp h) (by decide)
    have h4 : k0_cond4 (coordsV c s) t3 = 1#1 := e4.mpr rfl
    have h5 : k0_cond5 (coordsV c s) t3 = 1#1 := e5.mpr rfl
    have h6 : ¬ k0_cond6 (coordsV c s) t3 = 1#1 := fun h => absurd (e6.mp h) (by decide)
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inr.inr.inl =>
    have h2 : ¬ k0_cond2 (coordsV c s) t3 = 1#1 := fun h => absurd (e2.mp h) (by decide)
    have h3 : ¬ k0_cond3 (coordsV c s) t3 = 1#1 := fun h => absurd (e3.mp h) (by decide)
    have h4 : k0_cond4 (coordsV c s) t3 = 1#1 := e4.mpr rfl
    have h5 : ¬ k0_cond5 (coordsV c s) t3 = 1#1 := fun h => absurd (e5.mp h) (by decide)
    have h6 : k0_cond6 (coordsV c s) t3 = 1#1 := e6.mpr rfl
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inr.inr.inr =>
    have h2 : ¬ k0_cond2 (coordsV c s) t3 = 1#1 := fun h => absurd (e2.mp h) (by decide)
    have h3 : ¬ k0_cond3 (coordsV c s) t3 = 1#1 := fun h => absurd (e3.mp h) (by decide)
    have h4 : k0_cond4 (coordsV c s) t3 = 1#1 := e4.mpr rfl
    have h5 : ¬ k0_cond5 (coordsV c s) t3 = 1#1 := fun h => absurd (e5.mp h) (by decide)
    have h6 : ¬ k0_cond6 (coordsV c s) t3 = 1#1 := fun h => absurd (e6.mp h) (by decide)
    have h7 : k0_cond7 (coordsV c s) t3 = 1#1 := e7.mpr rfl
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi

end Cert.KernelIdeal.Tile

end
-- ==== Proof.TileCore.lean ====
/-
  One worker's whole task: from its nine images of `x` and of `o`, its two staging buffers and its four copy semaphores
  at zero, the body ends with the nine images of `o` at the specification's values and everything else as it was.
-/
import proofs.«208198_g16930761081413_cont_7to1_1121_27_alg».proof.Proof.Trip0
import proofs.«208198_g16930761081413_cont_7to1_1121_27_alg».proof.Proof.Trip1
import proofs.«208198_g16930761081413_cont_7to1_1121_27_alg».proof.Proof.Trip2
import proofs.«208198_g16930761081413_cont_7to1_1121_27_alg».proof.Proof.Trip3

noncomputable section

namespace Cert.KernelIdeal.Tile

open Cert.KernelIdeal Cert.KernelIdeal.Gen Cert.KernelIdeal.Setup Cert.KernelIdeal.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable (c : Fin (grid0.bound 0)) (s : Fin (grid0.bound 1)) (d : Dev nD)
variable [FloatOps F]
variable (fx : Buf (Elt F) (xLoc d)) (fo : Buf (Elt F) (oLoc d))
variable (O : CellTallies nD τ sig (HIx 1)) (W : Waits sig (HIx 1))

open Idealize.ShloMosaic.Tactic

/-- Before pair `k` (after the last pair for `k ≥ 4`). -/
def inv (k : Nat) (_ : Unit) : sProp 𝕄 :=
  match k with
  | 0 => St0 c s d fx fo O W
  | 1 => St1 c s d fx fo O W
  | 2 => St2 c s d fx fo O W
  | 3 => St3 c s d fx fo O W
  | _ => St4 c s d fx fo O W

/-- The three conditions on the last image's rotation, from its group. -/
theorem conds_tail {g : Nat} (hg : Cert.Spec.grp (imgC c.val s.val 8) = g) :
    (k0_cond9 (coordsV c s) = 1#1 ↔ g = 1) ∧ (k0_cond10 (coordsV c s) = 1#1 ↔ g = 2) ∧ (k0_cond11 (coordsV c s) = 1#1 ↔ g = 3) := by
  subst hg; exact ⟨cond9_iff c s, cond10_iff c s, cond11_iff c s⟩

set_option maxHeartbeats 3200000 in
set_option pp.deepTerms false in
set_option pp.proofs false in
/-- The worker's task, over explicit resources. -/
theorem tile_core (R : RotFacts (F := F) c s d) :
        (iprop(Transfers.MayWaits (thr c s d) (none : HIx 1) O
        ∗ (xLoc d ↦[tileImg (c2 c) (s16 s) 0]{fullShare} fx)
        ∗ (xLoc d ↦[tileImg (c2 c) (s16 s) 1]{fullShare} fx)
        ∗ (xLoc d ↦[tileImg (c2 c) (s16 s) 2]{fullShare} fx)
        ∗ (xLoc d ↦[tileImg (c2 c) (s16 s) 3]{fullShare} fx)
        ∗ (xLoc d ↦[tileImg (c2 c) (s16 s) 4]{fullShare} fx)
        ∗ (xLoc d ↦[tileImg (c2 c) (s16 s) 5]{fullShare} fx)
        ∗ (xLoc d ↦[tileImg (c2 c) (s16 s) 6]{fullShare} fx)
        ∗ (xLoc d ↦[tileImg (c2 c) (s16 s) 7]{fullShare} fx)
        ∗ (xLoc d ↦[tileImg (c2 c) (s16 s) 8]{fullShare} fx)
        ∗ (oLoc d ↦[tileImg (c2 c) (s16 s) 0]{fullShare} fo)
        ∗ (oLoc d ↦[tileImg (c2 c) (s16 s) 1]{fullShare} fo)
        ∗ (oLoc d ↦[tileImg (c2 c) (s16 s) 2]{fullShare} fo)
        ∗ (oLoc d ↦[tileImg (c2 c) (s16 s) 3]{fullShare} fo)
        ∗ (oLoc d ↦[tileImg (c2 c) (s16 s) 4]{fullShare} fo)
        ∗ (oLoc d ↦[tileImg (c2 c) (s16 s) 5]{fullShare} fo)
        ∗ (oLoc d ↦[tileImg (c2 c) (s16 s) 6]{fullShare} fo)
        ∗ (oLoc d ↦[tileImg (c2 c) (s16 s) 7]{fullShare} fo)
        ∗ (oLoc d ↦[tileImg (c2 c) (s16 s) 8]{fullShare} fo)
        ∗ (∃ g, (thr c s d).loc cc0_scratch0 ↦{fullShare} g)
        ∗ (∃ g, (thr c s d).loc cc0_scratch1 ↦{fullShare} g)
        ∗ semVal (thr c s d, SemLoc.dma cc0_scratch2.sem) 0
        ∗ semVal (thr c s d, SemLoc.dma cc0_scratch3.sem) 0
        ∗ semVal (thr c s d, SemLoc.dma cc0_scratch4.sem) 0
        ∗ semVal (thr c s d, SemLoc.dma cc0_scratch5.sem) 0
        ∗ owes (thr c s d) O W) : sProp 𝕄)
      ⊢ wp frame (wpE (defs₀ (F := F)) 𝒱₀ (thr c s d) none) Set.univ
          (cc0_k (coordsV c s) xW (Memref.isWhole_whole _) oW (Memref.isWhole_whole _) b0 (Memref.isWhole_whole _) b1 (Memref.isWhole_whole _)
            cc0_scratch2 cc0_scratch3 cc0_scratch4 cc0_scratch5)
          fun _ => (iprop((xLoc d ↦[tileImg (c2 c) (s16 s) 0]{fullShare} fx)
            ∗ (xLoc d ↦[tileImg (c2 c) (s16 s) 1]{fullShare} fx)
            ∗ (xLoc d ↦[tileImg (c2 c) (s16 s) 2]{fullShare} fx)
            ∗ (xLoc d ↦[tileImg (c2 c) (s16 s) 3]{fullShare} fx)
            ∗ (xLoc d ↦[tileImg (c2 c) (s16 s) 4]{fullShare} fx)
            ∗ (xLoc d ↦[tileImg (c2 c) (s16 s) 5]{fullShare} fx)
            ∗ (xLoc d ↦[tileImg (c2 c) (s16 s) 6]{fullShare} fx)
            ∗ (xLoc d ↦[tileImg (c2 c) (s16 s) 7]{fullShare} fx)
            ∗ (xLoc d ↦[tileImg (c2 c) (s16 s) 8]{fullShare} fx)
            ∗ (oLoc d ↦[tileImg (c2 c) (s16 s) 0]{fullShare} want d fx)
            ∗ (oLoc d ↦[tileImg (c2 c) (s16 s) 1]{fullShare} want d fx)
            ∗ (oLoc d ↦[tileImg (c2 c) (s16 s) 2]{fullShare} want d fx)
            ∗ (oLoc d ↦[tileImg (c2 c) (s16 s) 3]{fullShare} want d fx)
            ∗ (oLoc d ↦[tileImg (c2 c) (s16 s) 4]{fullShare} want d fx)
            ∗ (oLoc d ↦[tileImg (c2 c) (s16 s) 5]{fullShare} want d fx)
            ∗ (oLoc d ↦[tileImg (c2 c) (s16 s) 6]{fullShare} want d fx)
            ∗ (oLoc d ↦[tileImg (c2 c) (s16 s) 7]{fullShare} want d fx)
            ∗ (oLoc d ↦[tileImg (c2 c) (s16 s) 8]{fullShare} want d fx)
            ∗ (∃ g, (thr c s d).loc cc0_scratch0 ↦{fullShare} g)
            ∗ (∃ g, (thr c s d).loc cc0_scratch1 ↦{fullShare} g)
            ∗ semVal (thr c s d, SemLoc.dma cc0_scratch2.sem) 0
            ∗ semVal (thr c s d, SemLoc.dma cc0_scratch3.sem) 0
            ∗ semVal (thr c s d, SemLoc.dma cc0_scratch4.sem) 0
            ∗ semVal (thr c s d, SemLoc.dma cc0_scratch5.sem) 0
            ∗ ∃ W', ⌜∀ p ∈ W', p ∈ W ∨ p.2 = none⌝ ∗ owes (thr c s d) O W') : sProp 𝕄) := by
  obtain ⟨g8, hg8, hg8r⟩ : ∃ g, Cert.Spec.grp (imgC c.val s.val 8) = g ∧ (g = 1 ∨ g = 2 ∨ g = 3) := ⟨_, rfl, grp_img _ _ _⟩
  obtain ⟨e9, e10, e11⟩ := conds_tail c s hg8
  rw [cc0_k_eq_skeleton]; unfold cc0_k_skel
  iintro ⟨Hmw, HXa, HXb, HXc, HXd, HXe, HXf, HXg, HXh, HXi, HOa, HOb, HOc, HOd, HOe, HOf, HOg, HOh, HOi, ⟨%g0, Hb0⟩, HB1, Hs2, Hs3, Hs4, Hs5, HO⟩
  ihave HXa' := (Entails.of_eq (pts_x_img (F := F) c s d 0 (k0_off1 (coordsV c s)) (k0_off1_inb _) (off1_eq c s) fx).symm) $$ HXa
  ihave Hb0' := (Entails.of_eq (pts_b0 (F := F) c s d g0).symm) $$ Hb0
  sl_exec
  sl_for (inv c s d fx fo O W) $$ [Hmw HXb HXc HXd HXe HXf HXg HXh HXi HOa HOb HOc HOd HOe HOf HOg HOh HOi HB1 Hs2 Hs3 Hs4 Hs5 HO]
  case region =>
    intro k _
    match k with
    | ⟨0, _⟩ => exact trip0 c s d fx fo O W R _ _
    | ⟨1, _⟩ => exact trip1 c s d fx fo O W R _ _
    | ⟨2, _⟩ => exact trip2 c s d fx fo O W R _ _
    | ⟨3, _⟩ => exact trip3 c s d fx fo O W R _ _
    | ⟨n + 4, h⟩ => exact absurd h (Nat.not_lt.2 (Nat.le_trans k0_t1_abs.2.1 (Nat.le_add_left 4 n)))
  · rw [show inv c s d fx fo O W 0 PUnit.unit = St0 c s d fx fo O W from rfl]
    unfold St0 FL0
    isplitl [Hmw]
    · iexact Hmw
    isplitl [HO]
    · iexists W; isplitr
      · ipureintro; exact fun p hp => .inl hp
      iexact HO
    isplitl [Hs2]
    · iexists (k0_off1 (coordsV c s)), (k0_off1_inb _), _; isplitr
      · ipureintro; exact off1_eq c s
      iexact Hs2
    isplitl [HB1]
    · iexact HB1
    isplitl [Hs5]
    · iexact Hs5
    isplitl [Hs3]
    · iexact Hs3
    isplitl [Hs4]
    · iexact Hs4
    isplitl [HXb]
    · iexact HXb
    isplitl [HXc]
    · iexact HXc
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  iintro %_ HI
  ihave HI4 := (Entails.of_eq (show inv c s d fx fo O W _ _ = St4 c s d fx fo O W from rfl)) $$ HI
  unfold St4 FS
  icases HI4 with ⟨Hmw, ⟨%W', %hW', HO⟩, ⟨%off4, %hoff4, %w4, %cont4, %hp4, HF4⟩, ⟨%off5, %hoff5, %w5, %cont5, %hp5, HF5⟩, Hs2, Hs3, HXa, HXb, HXc, HXd, HXe, HXf, HXg, HXh, HXi, HOa, HOb, HOc, HOd, HOe, HOf, HOi⟩
  ihave HXi' := (Entails.of_eq (pts_x_img (F := F) c s d 8 (k0_off175 (coordsV c s) 9#32 1#32) (k0_off175_inb _ 1) (off175_8_eq c s) fx).symm) $$ HXi
  ihave HOi' := (Entails.of_eq (pts_o_img (F := F) c s d 8 (k0_off175 (coordsV c s) 9#32 1#32) (k0_off175_inb _ 1) (off175_8_eq c s) fo).symm) $$ HOi
  rcases hg8r with rfl | rfl | rfl
  · have h9 : k0_cond9 (coordsV c s) = 1#1 := e9.mpr rfl
    have h10 : ¬ k0_cond10 (coordsV c s) = 1#1 := fun h => absurd (e10.mp h) (by decide)
    have h11 : ¬ k0_cond11 (coordsV c s) = 1#1 := fun h => absurd (e11.mp h) (by decide)
    have hgp8 := goodPay_rot0 c s d fx 8 _ hg8.symm (k0_off175 (coordsV c s) 9#32 1#32) (k0_off175_inb _ 1) (off175_8_eq c s) (k0_off175 (coordsV c s) 9#32 1#32) (k0_off175_inb _ 1) (off175_8_eq c s) ((b0).view.writes (Elt F) (b0).view.junk [⟨Rect.whole S224x224, loaded d fx (k0_off175 (coordsV c s) 9#32 1#32) (k0_off175_inb _ 1)⟩]) (ld_writes0 c s d fx (b0).view.junk (k0_off175 (coordsV c s) 9#32 1#32) (k0_off175_inb _ 1))
    sl_exec
    ihave Hb0v := (Entails.of_eq (pts_set_b0 (F := F) c s d _)) $$ HF4_src
    rw [wp_bind]
    iapply (wp_wand_r frame _ Set.univ)
    isplitl [Hb0v]
    · first
        | iapply (R.t8 0 0 h9 _) $$ Hb0v
        | iapply (R.t9 0 0 h10 _) $$ Hb0v
        | iapply (R.t10 0 0 h11 _) $$ Hb0v
    iintro %_ Hb0r
    sl_exec
    sl_step
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HXg]
    · iexact HXg
    isplitl [HXh]
    · iexact HXh
    isplitl [HXi']
    · iapply (Entails.of_eq (pts_x_img (F := F) c s d 8 (k0_off175 (coordsV c s) 9#32 1#32) (k0_off175_inb _ 1) (off175_8_eq c s) fx)); iexact HXi'
    isplitl [HOa]
    · iexact HOa
    isplitl [HOb]
    · iexact HOb
    isplitl [HOc]
    · iexact HOc
    isplitl [HOd]
    · iexact HOd
    isplitl [HOe]
    · iexact HOe
    isplitl [HOf]
    · iexact HOf
    isplitl [HF4_dst]
    · iapply (o_final (F := F) c s d fx 6 off4 hoff4 hp4.1 _ _ hp4.2); iexact HF4_dst
    isplitl [HF5_dst]
    · iapply (o_final (F := F) c s d fx 7 off5 hoff5 hp5.1 _ _ hp5.2); iexact HF5_dst
    isplitl [HOi']
    · iapply (o_final (F := F) c s d fx 8 (k0_off175 (coordsV c s) 9#32 1#32) (k0_off175_inb _ 1) (off175_8_eq c s) _ _ hgp8); iexact HOi'
    isplitl [Hb0r]
    · iexists _; iapply (Entails.of_eq (pts_b0 (F := F) c s d _)); iexact Hb0r
    isplitl [HF5_src]
    · iexists _; iapply (Entails.of_eq (pts_b1 (F := F) c s d _)); iapply (Entails.of_eq (pts_set_b1 (F := F) c s d _)); iexact HF5_src
    isplitl [Hs2]
    · iexact Hs2
    isplitl [Hs3]
    · iexact Hs3
    isplitl [HF4]
    · iexact HF4
    isplitl [HF5]
    · iexact HF5
    iexists _
    isplitr
    rotate_left
    · iexact HO
    ipureintro
    exact ins_ok W (ins_ok W (ins_ok W (ins_ok W hW' _) _) _) _
  · have h9 : ¬ k0_cond9 (coordsV c s) = 1#1 := fun h => absurd (e9.mp h) (by decide)
    have h10 : k0_cond10 (coordsV c s) = 1#1 := e10.mpr rfl
    have h11 : ¬ k0_cond11 (coordsV c s) = 1#1 := fun h => absurd (e11.mp h) (by decide)
    have hgp8 := goodPay_rot0 c s d fx 8 _ hg8.symm (k0_off175 (coordsV c s) 9#32 1#32) (k0_off175_inb _ 1) (off175_8_eq c s) (k0_off175 (coordsV c s) 9#32 1#32) (k0_off175_inb _ 1) (off175_8_eq c s) ((b0).view.writes (Elt F) (b0).view.junk [⟨Rect.whole S224x224, loaded d fx (k0_off175 (coordsV c s) 9#32 1#32) (k0_off175_inb _ 1)⟩]) (ld_writes0 c s d fx (b0).view.junk (k0_off175 (coordsV c s) 9#32 1#32) (k0_off175_inb _ 1))
    sl_exec
    ihave Hb0v := (Entails.of_eq (pts_set_b0 (F := F) c s d _)) $$ HF4_src
    rw [wp_bind]
    iapply (wp_wand_r frame _ Set.univ)
    isplitl [Hb0v]
    · first
        | iapply (R.t8 0 0 h9 _) $$ Hb0v
        | iapply (R.t9 0 0 h10 _) $$ Hb0v
        | iapply (R.t10 0 0 h11 _) $$ Hb0v
    iintro %_ Hb0r
    sl_exec
    sl_step
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HXg]
    · iexact HXg
    isplitl [HXh]
    · iexact HXh
    isplitl [HXi']
    · iapply (Entails.of_eq (pts_x_img (F := F) c s d 8 (k0_off175 (coordsV c s) 9#32 1#32) (k0_off175_inb _ 1) (off175_8_eq c s) fx)); iexact HXi'
    isplitl [HOa]
    · iexact HOa
    isplitl [HOb]
    · iexact HOb
    isplitl [HOc]
    · iexact HOc
    isplitl [HOd]
    · iexact HOd
    isplitl [HOe]
    · iexact HOe
    isplitl [HOf]
    · iexact HOf
    isplitl [HF4_dst]
    · iapply (o_final (F := F) c s d fx 6 off4 hoff4 hp4.1 _ _ hp4.2); iexact HF4_dst
    isplitl [HF5_dst]
    · iapply (o_final (F := F) c s d fx 7 off5 hoff5 hp5.1 _ _ hp5.2); iexact HF5_dst
    isplitl [HOi']
    · iapply (o_final (F := F) c s d fx 8 (k0_off175 (coordsV c s) 9#32 1#32) (k0_off175_inb _ 1) (off175_8_eq c s) _ _ hgp8); iexact HOi'
    isplitl [Hb0r]
    · iexists _; iapply (Entails.of_eq (pts_b0 (F := F) c s d _)); iexact Hb0r
    isplitl [HF5_src]
    · iexists _; iapply (Entails.of_eq (pts_b1 (F := F) c s d _)); iapply (Entails.of_eq (pts_set_b1 (F := F) c s d _)); iexact HF5_src
    isplitl [Hs2]
    · iexact Hs2
    isplitl [Hs3]
    · iexact Hs3
    isplitl [HF4]
    · iexact HF4
    isplitl [HF5]
    · iexact HF5
    iexists _
    isplitr
    rotate_left
    · iexact HO
    ipureintro
    exact ins_ok W (ins_ok W (ins_ok W (ins_ok W hW' _) _) _) _
  · have h9 : ¬ k0_cond9 (coordsV c s) = 1#1 := fun h => absurd (e9.mp h) (by decide)
    have h10 : ¬ k0_cond10 (coordsV c s) = 1#1 := fun h => absurd (e10.mp h) (by decide)
    have h11 : k0_cond11 (coordsV c s) = 1#1 := e11.mpr rfl
    have hgp8 := goodPay_rot0 c s d fx 8 _ hg8.symm (k0_off175 (coordsV c s) 9#32 1#32) (k0_off175_inb _ 1) (off175_8_eq c s) (k0_off175 (coordsV c s) 9#32 1#32) (k0_off175_inb _ 1) (off175_8_eq c s) ((b0).view.writes (Elt F) (b0).view.junk [⟨Rect.whole S224x224, loaded d fx (k0_off175 (coordsV c s) 9#32 1#32) (k0_off175_inb _ 1)⟩]) (ld_writes0 c s d fx (b0).view.junk (k0_off175 (coordsV c s) 9#32 1#32) (k0_off175_inb _ 1))
    sl_exec
    ihave Hb0v := (Entails.of_eq (pts_set_b0 (F := F) c s d _)) $$ HF4_src
    rw [wp_bind]
    iapply (wp_wand_r frame _ Set.univ)
    isplitl [Hb0v]
    · first
        | iapply (R.t8 0 0 h9 _) $$ Hb0v
        | iapply (R.t9 0 0 h10 _) $$ Hb0v
        | iapply (R.t10 0 0 h11 _) $$ Hb0v
    iintro %_ Hb0r
    sl_exec
    sl_step
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HXg]
    · iexact HXg
    isplitl [HXh]
    · iexact HXh
    isplitl [HXi']
    · iapply (Entails.of_eq (pts_x_img (F := F) c s d 8 (k0_off175 (coordsV c s) 9#32 1#32) (k0_off175_inb _ 1) (off175_8_eq c s) fx)); iexact HXi'
    isplitl [HOa]
    · iexact HOa
    isplitl [HOb]
    · iexact HOb
    isplitl [HOc]
    · iexact HOc
    isplitl [HOd]
    · iexact HOd
    isplitl [HOe]
    · iexact HOe
    isplitl [HOf]
    · iexact HOf
    isplitl [HF4_dst]
    · iapply (o_final (F := F) c s d fx 6 off4 hoff4 hp4.1 _ _ hp4.2); iexact HF4_dst
    isplitl [HF5_dst]
    · iapply (o_final (F := F) c s d fx 7 off5 hoff5 hp5.1 _ _ hp5.2); iexact HF5_dst
    isplitl [HOi']
    · iapply (o_final (F := F) c s d fx 8 (k0_off175 (coordsV c s) 9#32 1#32) (k0_off175_inb _ 1) (off175_8_eq c s) _ _ hgp8); iexact HOi'
    isplitl [Hb0r]
    · iexists _; iapply (Entails.of_eq (pts_b0 (F := F) c s d _)); iexact Hb0r
    isplitl [HF5_src]
    · iexists _; iapply (Entails.of_eq (pts_b1 (F := F) c s d _)); iapply (Entails.of_eq (pts_set_b1 (F := F) c s d _)); iexact HF5_src
    isplitl [Hs2]
    · iexact Hs2
    isplitl [Hs3]
    · iexact Hs3
    isplitl [HF4]
    · iexact HF4
    isplitl [HF5]
    · iexact HF5
    iexists _
    isplitr
    rotate_left
    · iexact HO
    ipureintro
    exact ins_ok W (ins_ok W (ins_ok W (ins_ok W hW' _) _) _) _

end Cert.KernelIdeal.Tile

end
-- ==== Proof.TileObl.lean ====
/-
  From the worker's task over explicit resources to the launch theorem's obligation for the one SparseCore call: a
  vector subcore is handed its nine images of `x` and of `o` as one iterated conjunction, and its scoped buffers and
  semaphores as the launch deals them; unpacked they are the task's explicit resources and a remainder that is framed;
  the task's result packs back the same way.
-/
import proofs.«208198_g16930761081413_cont_7to1_1121_27_alg».proof.Proof.TileCore

noncomputable section

namespace Cert.KernelIdeal.Tile

open Cert.KernelIdeal Cert.KernelIdeal.Gen Cert.KernelIdeal.Setup Cert.KernelIdeal.Geom

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

/-! ## The launch semaphores' facts -/

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The subcore's own semaphores and buffers -/

section Own

variable (c : Fin (grid0.bound 0)) (s : Fin (grid0.bound 1)) (d : Dev nD)

/-- The four copy semaphores are among the subcore's own cells: they are them, at zero, and the rest. -/
theorem ownSems0_thr :
    (ownSems0 (thr c s d) : sProp 𝕄)
      = iprop(semVal (thr c s d, SemLoc.dma cc0_scratch2.sem) 0 ∗ semVal (thr c s d, SemLoc.dma cc0_scratch3.sem) 0 ∗ semVal (thr c s d, SemLoc.dma cc0_scratch4.sem) 0 ∗ semVal (thr c s d, SemLoc.dma cc0_scratch5.sem) 0
          ∗ bigSep (((((ownCells (thr c s d)).erase ((thr c s d, SemLoc.dma cc0_scratch2.sem) : GSem nD τ sig)).erase ((thr c s d, SemLoc.dma cc0_scratch3.sem) : GSem nD τ sig)).erase ((thr c s d, SemLoc.dma cc0_scratch4.sem) : GSem nD τ sig)).erase ((thr c s d, SemLoc.dma cc0_scratch5.sem) : GSem nD τ sig))
              fun g => semVal g 0) := by
  unfold SparseCore.Cfg.ownSems0
  rw [SparseCore.bigSep_erase' ((mem_ownCells (g := ((thr c s d, SemLoc.dma cc0_scratch2.sem) : GSem nD τ sig))).mpr ⟨rfl, by show (SemLoc.dma cc0_scratch2.sem : SemLoc sig).isScoped .scVector = true; decide⟩),
    SparseCore.bigSep_erase' (Finset.mem_erase.mpr ⟨fun e => absurd (congrArg (fun g : GSem nD τ sig => g.2) e) (show (SemLoc.dma cc0_scratch3.sem : SemLoc sig) ≠ SemLoc.dma cc0_scratch2.sem by decide), (mem_ownCells (g := ((thr c s d, SemLoc.dma cc0_scratch3.sem) : GSem nD τ sig))).mpr ⟨rfl, by show (SemLoc.dma cc0_scratch3.sem : SemLoc sig).isScoped .scVector = true; decide⟩⟩),
    SparseCore.bigSep_erase' (Finset.mem_erase.mpr ⟨fun e => absurd (congrArg (fun g : GSem nD τ sig => g.2) e) (show (SemLoc.dma cc0_scratch4.sem : SemLoc sig) ≠ SemLoc.dma cc0_scratch3.sem by decide), Finset.mem_erase.mpr ⟨fun e => absurd (congrArg (fun g : GSem nD τ sig => g.2) e) (show (SemLoc.dma cc0_scratch4.sem : SemLoc sig) ≠ SemLoc.dma cc0_scratch2.sem by decide), (mem_ownCells (g := ((thr c s d, SemLoc.dma cc0_scratch4.sem) : GSem nD τ sig))).mpr ⟨rfl, by show (SemLoc.dma cc0_scratch4.sem : SemLoc sig).isScoped .scVector = true; decide⟩⟩⟩),
    SparseCore.bigSep_erase' (Finset.mem_erase.mpr ⟨fun e => absurd (congrArg (fun g : GSem nD τ sig => g.2) e) (show (SemLoc.dma cc0_scratch5.sem : SemLoc sig) ≠ SemLoc.dma cc0_scratch4.sem by decide), Finset.mem_erase.mpr ⟨fun e => absurd (congrArg (fun g : GSem nD τ sig => g.2) e) (show (SemLoc.dma cc0_scratch5.sem : SemLoc sig) ≠ SemLoc.dma cc0_scratch3.sem by decide), Finset.mem_erase.mpr ⟨fun e => absurd (congrArg (fun g : GSem nD τ sig => g.2) e) (show (SemLoc.dma cc0_scratch5.sem : SemLoc sig) ≠ SemLoc.dma cc0_scratch2.sem by decide), (mem_ownCells (g := ((thr c s d, SemLoc.dma cc0_scratch5.sem) : GSem nD τ sig))).mpr ⟨rfl, by show (SemLoc.dma cc0_scratch5.sem : SemLoc sig).isScoped .scVector = true; decide⟩⟩⟩⟩)]

/-- The two staging buffers are among the subcore's own: they are them, at some contents, and the rest. -/
theorem ownBufs_thr :
    (ownBufs (thr c s d) : sProp 𝕄)
      = iprop((∃ f, (thr c s d).loc cc0_scratch0 ↦{fullShare} f) ∗ (∃ f, (thr c s d).loc cc0_scratch1 ↦{fullShare} f)
          ∗ bigSep (((ownRefs (τ := τ) (Proc.scVector (cV (coordsV c s)) (jV (coordsV c s)))).erase ((Proc.scVector (cV (coordsV c s)) (jV (coordsV c s))).devRef cc0_scratch0)).erase ((Proc.scVector (cV (coordsV c s)) (jV (coordsV c s))).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV (coordsV c s)) (jV (coordsV c s))))
    (b := (Proc.scVector (cV (coordsV c s)) (jV (coordsV c s))).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (Proc.scVector (cV (coordsV c s)) (jV (coordsV c s)))) (b := (Proc.scVector (cV (coordsV c s)) (jV (coordsV c s))).devRef cc0_scratch1) rfl⟩)]

end Own

/-! ## A worker's nine images, one by one -/

theorem nine_eq : (Finset.univ : Finset (Fin 9)) = {0, 1, 2, 3, 4, 5, 6, 7, 8} := by decide

theorem tileRes_nine (m : (ℓ : Loc nD τ sig) → Buf (Elt F) ℓ) (d : Dev nD) (c : Fin 2) (s : Fin 16) (fo : Buf (Elt F) (oLoc d)) :
    (tileRes m d c s fo : sProp 𝕄)
      = iprop(((xLoc d ↦[tileImg c s 0]{fullShare} m (xLoc d)) ∗ (oLoc d ↦[tileImg c s 0]{fullShare} fo))
          ∗ ((xLoc d ↦[tileImg c s 1]{fullShare} m (xLoc d)) ∗ (oLoc d ↦[tileImg c s 1]{fullShare} fo))
          ∗ ((xLoc d ↦[tileImg c s 2]{fullShare} m (xLoc d)) ∗ (oLoc d ↦[tileImg c s 2]{fullShare} fo))
          ∗ ((xLoc d ↦[tileImg c s 3]{fullShare} m (xLoc d)) ∗ (oLoc d ↦[tileImg c s 3]{fullShare} fo))
          ∗ ((xLoc d ↦[tileImg c s 4]{fullShare} m (xLoc d)) ∗ (oLoc d ↦[tileImg c s 4]{fullShare} fo))
          ∗ ((xLoc d ↦[tileImg c s 5]{fullShare} m (xLoc d)) ∗ (oLoc d ↦[tileImg c s 5]{fullShare} fo))
          ∗ ((xLoc d ↦[tileImg c s 6]{fullShare} m (xLoc d)) ∗ (oLoc d ↦[tileImg c s 6]{fullShare} fo))
          ∗ ((xLoc d ↦[tileImg c s 7]{fullShare} m (xLoc d)) ∗ (oLoc d ↦[tileImg c s 7]{fullShare} fo))
          ∗ ((xLoc d ↦[tileImg c s 8]{fullShare} m (xLoc d)) ∗ (oLoc d ↦[tileImg c s 8]{fullShare} fo))) := by
  unfold tileRes
  rw [nine_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The task, from what the launch hands the subcore -/

section Task

variable [FloatOps F]
variable (m : (ℓ : Loc nD τ sig) → Buf (Elt F) ℓ)
variable (c : Fin (grid0.bound 0)) (s : Fin (grid0.bound 1)) (d : Dev nD)

theorem tile_task (R : RotFacts (F := F) c s d) (O : CellTallies nD τ sig (HIx 1)) (W : Waits sig (HIx 1)) (hO : ∀ g, O g none = 0) :
    (iprop(levAts (K (F := F)).L (K (F := F)).lev ∗ emp ∗ tileRes m d (c2 c) (s16 s) (m (oLoc d))
        ∗ scopedBufs (thr c s d) ∗ scopedSems0 (thr c s d) ∗ owes (thr c s d) O W) : sProp 𝕄)
      ⊢ wp frame (wpE (defs₀ (F := F)) 𝒱₀ (thr c s d) none) Set.univ
          (cc0_k (coordsV c s) xW (Memref.isWhole_whole _) oW (Memref.isWhole_whole _) b0 (Memref.isWhole_whole _) b1 (Memref.isWhole_whole _)
            cc0_scratch2 cc0_scratch3 cc0_scratch4 cc0_scratch5)
          fun _ => iprop(tileRes m d (c2 c) (s16 s) (Setup.want m d) ∗ scopedBufs (thr c s d) ∗ scopedSems0 (thr c s d)
            ∗ ∃ W', ⌜∀ p ∈ W', p ∈ W ∨ p.2 = none⌝ ∗ owes (thr c s d) O W') := by
  rw [(K (F := F)).scopedBufs_V kFacts d (cV (coordsV c s)) (jV (coordsV c s)),
    SparseCore.Cfg.scopedSems0_V (Val := Elt F) d (cV (coordsV c s)) (jV (coordsV c s)), ownSems0_thr, ownBufs_thr,
    tileRes_nine, tileRes_nine]
  iintro ⟨#Hlv, -, ⟨⟨Hx0, Ho0⟩, ⟨Hx1, Ho1⟩, ⟨Hx2, Ho2⟩, ⟨Hx3, Ho3⟩, ⟨Hx4, Ho4⟩, ⟨Hx5, Ho5⟩, ⟨Hx6, Ho6⟩, ⟨Hx7, Ho7⟩, ⟨Hx8, Ho8⟩⟩,
    ⟨Hb0, Hb1, Hbufs⟩, ⟨Hs2, Hs3, Hs4, Hs5, Hsems⟩, HO⟩
  ihave Hmw := ((K (F := F)).mayWaits_none (thr := (thr c s d)) hO) $$ Hlv
  iapply (wp_wand_r frame _ Set.univ)
  isplitl [Hx0 Hx1 Hx2 Hx3 Hx4 Hx5 Hx6 Hx7 Hx8 Ho0 Ho1 Ho2 Ho3 Ho4 Ho5 Ho6 Ho7 Ho8 Hb0 Hb1 Hs2 Hs3 Hs4 Hs5 HO]
  · iapply (tile_core c s d (m (xLoc d)) (m (oLoc d)) O W R)
    iframe
    iexact Hmw
  iintro %_ ⟨Hx0, Hx1, Hx2, Hx3, Hx4, Hx5, Hx6, Hx7, Hx8, Ho0, Ho1, Ho2, Ho3, Ho4, Ho5, Ho6, Ho7, Ho8, Hb0, Hb1, Hs2, Hs3, Hs4, Hs5, HO⟩
  iframe

end Task

/-! ## The launch theorem's obligation -/

theorem defs₀_vector [FloatOps F] (c : Fin τ.nSC) (s : Fin τ.nSub) :
    defs₀ (F := F) (.scVector c s) 0 ()
      = SparseCore.onTile hcore0 hsub0 (fun c s => (cc0_k (coordsV c s) xW (Memref.isWhole_whole _) oW (Memref.isWhole_whole _) b0 (Memref.isWhole_whole _) b1 (Memref.isWhole_whole _)
            cc0_scratch2 cc0_scratch3 cc0_scratch4 cc0_scratch5)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (m : (ℓ : Loc nD τ sig) → Buf (Elt F) ℓ)
    (R : ∀ (c : Fin (grid0.bound 0)) (s : Fin (grid0.bound 1)) (d : Dev nD), RotFacts (F := F) c s d) :
    (K (F := F)).TileObl (D (F := F)) 𝒱 (P m) v₀ 0 := by
  intro d c i O W hO _ _
  -- the call owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m ⟨_, hc.1⟩ ⟨_, hc.2⟩ d (R _ _ _) O W hO).trans (wp_mono frame _ _ fun _ => obl_post)

end Cert.KernelIdeal.Tile

end
-- ==== Proof.RotStep.lean ====
/-
  The in-place quadrant rotation of one 224 x 224 image, one row pair at a time.

  The rotation by `g` places moves, for every row `r < 112`, the four 112-wide half rows of rows `r` and `r + 112` among
  themselves, and touches nothing else. So the image after the row pairs below `k` are done (`rotUpTo g k`) is the rotated
  image on the rows `r`, `r + 112` with `r < k` and the image before elsewhere; nothing is done at `k = 0`, all at `k = 112`.
  One more row pair is a list of stores, each of which writes, through a rectangle, what the image held at the
  rectangle's source position BEFORE the row pair was begun: `writes_eq_of_agree` reads such a list against the image it
  leaves, `rotUpTo_move` is the one arithmetic fact per store.
-/
import Idealize.ShloMosaic.Lib.Writes
import Idealize.ShloMosaic.Lib.WritesUnit
import Idealize.ShloMosaic.Lib.Exec.Geometry
import Idealize.ShloMosaic.Lib.Pipeline.Value
import proofs.«208198_g16930761081413_cont_7to1_1121_27_alg».proof.Proof.SpecBuf

namespace Cert.Spec

open Idealize.ShloMosaic Idealize.ShloMosaic.ValueIdx

/-- The image with the row pairs below `k` rotated by `g` places, the others as they were. -/
def rotUpTo {α : Type} (g k : Nat) (f : SB.Idx → α) : SB.Idx → α :=
  fun y => if (y 0).val % 112 < k then f (bufSrc g y) else f y

theorem rotUpTo_zero {α : Type} (g : Nat) (f : SB.Idx → α) : rotUpTo g 0 f = f := by
  funext y; unfold rotUpTo; rw [if_neg (Nat.not_lt_zero _)]

theorem rotUpTo_full {α : Type} (g : Nat) (f : SB.Idx → α) : rotUpTo g 112 f = rotBuf g f := by
  funext y; unfold rotUpTo; rw [if_pos (Nat.mod_lt _ (by decide))]; rfl

/-- A position outside row pair `k` reads the same before and after that row pair is done. -/
theorem rotUpTo_succ_of_ne {α : Type} (g k : Nat) (f : SB.Idx → α) (y : SB.Idx) (h : (y 0).val % 112 ≠ k) :
    rotUpTo g k f y = rotUpTo g (k + 1) f y := by
  unfold rotUpTo
  by_cases hlt : (y 0).val % 112 < k
  · rw [if_pos hlt, if_pos (by omega)]
  · rw [if_neg hlt, if_neg (by omega)]

/-- A position `yA` of row pair `k` reads, after that row pair is done, what its source position `yB` held before. -/
theorem rotUpTo_move {α : Type} (g k : Nat) (f : SB.Idx → α) (yA yB : SB.Idx)
    (hA : (yA 0).val % 112 = k) (hB : (yB 0).val % 112 = k)
    (hH : (yB 0).val = bufH g (yA 0).val (yA 1).val) (hW : (yB 1).val = bufW g (yA 0).val (yA 1).val) :
    rotUpTo g k f yB = rotUpTo g (k + 1) f yA := by
  unfold rotUpTo
  rw [if_neg (by omega), if_pos (by omega)]
  congr 1
  funext a
  match a with
  | ⟨0, _⟩ => exact Fin.ext hH
  | ⟨1, _⟩ => exact Fin.ext hW

end Cert.Spec

namespace Cert.RotStep

open Idealize.ShloMosaic

variable {sig : RefSig} {κ : Kind} {sp : Space} {s : Shape} {e : EltTy} {Val : EltTy → Type}

/-- A list of stores over contents `g` leaves the contents `G`, if every store's payload is `G` on the store's own
    rectangle and `g` is `G` already wherever no store writes (the view reaching every element of the buffer). -/
theorem writes_eq_of_agree (v : View sig κ sp s e) (g G : v.ty.Contents Val) (L : List (View.Piece Val s e))
    (hsurj : ∀ i, ∃ y, v.emb y = i)
    (hp : ∀ p ∈ L, ∀ x : p.1.shape.Idx, p.2 x = v.read Val G (p.1.emb x))
    (hn : ∀ y, (∀ p ∈ L, y ∉ p.1.set) → v.read Val g y = v.read Val G y) :
    v.writes Val g L = G := by
  refine View.contents_ext v (fun y => ?_) (fun i hi => ?_)
  · by_cases hy : ∃ p ∈ L, y ∈ p.1.set
    · exact View.read_writes_apply_of_pieces v g (v.read Val G) L hp y hy
    · rw [View.read_writes_apply_of_forall_not_mem v g y L (fun p hp' hm => hy ⟨p, hp', hm⟩)]
      exact hn y (fun p hp' hm => hy ⟨p, hp', hm⟩)
  · obtain ⟨y, hy⟩ := hsurj i
    exact absurd hy (hi y)

/-- The coordinates of a unit-stride rectangle's position `x`: the offsets plus `x`. -/
theorem emb_unit_val {off size : Fin s.rank → Nat} (inb : ∀ a, off a + size a ≤ s.size a)
    (x : (Rect.unit off size inb).shape.Idx) (a : Fin s.rank) :
    ((Rect.unit off size inb).emb x a).val = off a + (x a).val := by
  show off a + 1 * (x a).val = _
  rw [Nat.one_mul]

/-- The same list of stores through a WHOLE buffer, contents and reads being the same thing there. -/
theorem writes_whole_eq_of_agree (b : Ref sig κ) (g G : b.ty.Contents Val)
    (L : List (View.Piece Val b.ty.shape b.ty.elt))
    (hp : ∀ p ∈ L, ∀ x : p.1.shape.Idx, p.2 x = G (p.1.emb x))
    (hn : ∀ y, (∀ p ∈ L, y ∉ p.1.set) → g y = G y) :
    (Memref.whole b : Memref sig κ _ _ _).view.writes Val g L = G :=
  writes_eq_of_agree (Memref.whole b : Memref sig κ _ _ _).view g G L (fun i => ⟨i, rfl⟩) hp hn

/-- A load through a unit-stride rectangle of a whole buffer, cast to another shape and back, read at `x`: the contents
    at the rectangle's position `x`. -/
theorem cast_readAt_whole (b : Ref sig κ) (g : b.ty.Contents Val) {B size : Fin b.ty.shape.rank → Nat}
    (hB : ∀ a, B a + size a ≤ b.ty.shape.size a) {t : Shape} (h1 : (⟨b.ty.shape.rank, size⟩ : Shape).ShapeCasts t)
    (h2 : t.ShapeCasts (⟨b.ty.shape.rank, size⟩ : Shape)) (x : (⟨b.ty.shape.rank, size⟩ : Shape).Idx) :
    shapeCast (⟨b.ty.shape.rank, size⟩ : Shape)
        (shapeCast t ((Memref.whole b : Memref sig κ _ _ _).view.readAt Val (Rect.unit B size hB).toLoadRect g) h1) h2 x
      = g ((Rect.unit B size hB).emb x) := by
  rw [shapeCast_shapeCast]
  rfl

end Cert.RotStep
-- ==== Proof.RotA.lean ====
/-
  The three loops that rotate the FIRST staging buffer's quadrants in place inside the pair loop, by 1, 2 and 3 places.

  Each is a counted loop of 112 trips; trip `k` moves the four 112-wide half rows of rows `k` and `k + 112` among
  themselves, 16 lanes at a time, every position read before it is written. The invariant is the buffer at
  `rotUpTo g k f` (the row pairs below `k` done) for the contents `f` at entry; a trip's 28 stores over `rotUpTo g k f`
  leave `rotUpTo g (k + 1) f`, store by store (each payload is the old contents at the store's source position) and by
  cover (the stores' rectangles are rows `k` and `k + 112` exactly).
-/
import proofs.«208198_g16930761081413_cont_7to1_1121_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«208198_g16930761081413_cont_7to1_1121_27_alg».proof.Proof.Gen.KernelIdeal
import proofs.«208198_g16930761081413_cont_7to1_1121_27_alg».proof.Proof.Gen.KernelIdeal.Skeleton
import proofs.«208198_g16930761081413_cont_7to1_1121_27_alg».proof.Proof.SpecBuf
import proofs.«208198_g16930761081413_cont_7to1_1121_27_alg».proof.Proof.RotStep

noncomputable section

namespace Cert.KernelIdeal.Rot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

abbrev UH : Type := URounds (GSem nD τ sig) ℕ
abbrev UU : Type := UH × (UR sig nD τ × Counters)

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable [FloatOps F]

abbrev cV (L : grid0.Coords) : Fin τ.nSC := (L 0).castLE hcore0
abbrev jV (L : grid0.Coords) : Fin τ.nSub := (L 1).castLE hsub0

/-- The first staging buffer with the row pairs below `k` rotated by `γ` places, over the contents `f` the loop was entered with. -/
def invR0 (γ : Nat) (d : Dev nD) (L : grid0.Coords) (f : Buf (Elt F) ((V d (cV L) (jV L)).loc cc0_scratch0)) (k : Nat) (_ : Unit) : sProp 𝕄 :=
  ((b0).view.loc (V d (cV L) (jV L)) ↦{fullShare} (Cert.Spec.rotUpTo γ k f : Buf (Elt F) ((V d (cV L) (jV L)).loc cc0_scratch0)) : sProp 𝕄)

/-- The same for the second staging buffer. -/
def invR1 (γ : Nat) (d : Dev nD) (L : grid0.Coords) (f : Buf (Elt F) ((V d (cV L) (jV L)).loc cc0_scratch1)) (k : Nat) (_ : Unit) : sProp 𝕄 :=
  ((b1).view.loc (V d (cV L) (jV L)) ↦{fullShare} (Cert.Spec.rotUpTo γ k f : Buf (Elt F) ((V d (cV L) (jV L)).loc cc0_scratch1)) : sProp 𝕄)

set_option maxHeartbeats 4000000 in
/-- The loop that rotates the first staging buffer's quadrants by 1 place, inside the pair loop: entered at contents `f`, it leaves `rotBuf 1 f`.
    Before trip `k` the row pairs below `k` are done; trip `k` is 28 stores of 16 lanes, each of what the buffer held at
    the store's source position when the trip began, and together they cover rows `k` and `k + 112`. -/
theorem rot_t2 (d : Dev nD) (L : grid0.Coords) (k0_t1 : Fin k0_t1_loop.trips) (h : k0_cond2 L k0_t1 = 1#1)
    (v218 v247 c48 v248 : BitVec 32) (v249 : BitVec 1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t2_loop (k0_t2_ok L k0_t1 h) ⟨⟩
            (k0_t2_body L xW (Memref.isWhole_whole _) oW (Memref.isWhole_whole _) b0 (Memref.isWhole_whole _) b1 (Memref.isWhole_whole _)
              cc0_scratch2 cc0_scratch3 cc0_scratch4 cc0_scratch5 k0_t1 v218 v247 c48 v248 v249 h))
          fun _ => ((b0).view.loc (V d (cV L) (jV L)) ↦{fullShare} (Cert.Spec.rotBuf 1 f : Buf (Elt F) ((V d (cV L) (jV L)).loc cc0_scratch0)) : sProp 𝕄) := by
  iintro Hb
  sl_for (invR0 1 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 1 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 1 k.val f _ _ ?_ ?_ ?_ ?_ <;>
          (simp only [Cert.RotStep.emb_unit_val, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 1 k.val f y = Cert.Spec.rotUpTo 1 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 1 k.val f y hr
  · unfold invR0
    isplitl [Hb]
    · rw [Cert.Spec.rotUpTo_zero]; iexact Hb
    iintro %_ HI
    rw [show Cert.Spec.rotUpTo 1 (Scf.trips k0_t2_loop.lb k0_t2_loop.ub k0_t2_loop.st) f = Cert.Spec.rotBuf 1 f from Cert.Spec.rotUpTo_full 1 f]
    iexact HI

set_option maxHeartbeats 4000000 in
/-- The loop that rotates the first staging buffer's quadrants by 2 places, inside the pair loop: entered at contents `f`, it leaves `rotBuf 2 f`.
    Before trip `k` the row pairs below `k` are done; trip `k` is 28 stores of 16 lanes, each of what the buffer held at
    the store's source position when the trip began, and together they cover rows `k` and `k + 112`. -/
theorem rot_t3 (d : Dev nD) (L : grid0.Coords) (k0_t1 : Fin k0_t1_loop.trips) (h : k0_cond3 L k0_t1 = 1#1)
    (v218 v247 c48 v248 : BitVec 32) (v249 : BitVec 1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t3_loop (k0_t3_ok L k0_t1 h) ⟨⟩
            (k0_t3_body L xW (Memref.isWhole_whole _) oW (Memref.isWhole_whole _) b0 (Memref.isWhole_whole _) b1 (Memref.isWhole_whole _)
              cc0_scratch2 cc0_scratch3 cc0_scratch4 cc0_scratch5 k0_t1 v218 v247 c48 v248 v249 h))
          fun _ => ((b0).view.loc (V d (cV L) (jV L)) ↦{fullShare} (Cert.Spec.rotBuf 2 f : Buf (Elt F) ((V d (cV L) (jV L)).loc cc0_scratch0)) : sProp 𝕄) := by
  iintro Hb
  sl_for (invR0 2 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 2 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 2 k.val f _ _ ?_ ?_ ?_ ?_ <;>
          (simp only [Cert.RotStep.emb_unit_val, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 2 k.val f y = Cert.Spec.rotUpTo 2 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 2 k.val f y hr
  · unfold invR0
    isplitl [Hb]
    · rw [Cert.Spec.rotUpTo_zero]; iexact Hb
    iintro %_ HI
    rw [show Cert.Spec.rotUpTo 2 (Scf.trips k0_t3_loop.lb k0_t3_loop.ub k0_t3_loop.st) f = Cert.Spec.rotBuf 2 f from Cert.Spec.rotUpTo_full 2 f]
    iexact HI

set_option maxHeartbeats 4000000 in
/-- The loop that rotates the first staging buffer's quadrants by 3 places, inside the pair loop: entered at contents `f`, it leaves `rotBuf 3 f`.
    Before trip `k` the row pairs below `k` are done; trip `k` is 28 stores of 16 lanes, each of what the buffer held at
    the store's source position when the trip began, and together they cover rows `k` and `k + 112`. -/
theorem rot_t4 (d : Dev nD) (L : grid0.Coords) (k0_t1 : Fin k0_t1_loop.trips) (h : k0_cond4 L k0_t1 = 1#1)
    (v218 v247 c48 v248 : BitVec 32) (v249 : BitVec 1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t4_loop (k0_t4_ok L k0_t1 h) ⟨⟩
            (k0_t4_body L xW (Memref.isWhole_whole _) oW (Memref.isWhole_whole _) b0 (Memref.isWhole_whole _) b1 (Memref.isWhole_whole _)
              cc0_scratch2 cc0_scratch3 cc0_scratch4 cc0_scratch5 k0_t1 v218 v247 c48 v248 v249 h))
          fun _ => ((b0).view.loc (V d (cV L) (jV L)) ↦{fullShare} (Cert.Spec.rotBuf 3 f : Buf (Elt F) ((V d (cV L) (jV L)).loc cc0_scratch0)) : sProp 𝕄) := by
  iintro Hb
  sl_for (invR0 3 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 3 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 3 k.val f _ _ ?_ ?_ ?_ ?_ <;>
          (simp only [Cert.RotStep.emb_unit_val, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 3 k.val f y = Cert.Spec.rotUpTo 3 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 3 k.val f y hr
  · unfold invR0
    isplitl [Hb]
    · rw [Cert.Spec.rotUpTo_zero]; iexact Hb
    iintro %_ HI
    rw [show Cert.Spec.rotUpTo 3 (Scf.trips k0_t4_loop.lb k0_t4_loop.ub k0_t4_loop.st) f = Cert.Spec.rotBuf 3 f from Cert.Spec.rotUpTo_full 3 f]
    iexact HI

end Cert.KernelIdeal.Rot

end
-- ==== Proof.RotB.lean ====
/-
  The three loops that rotate the SECOND staging buffer's quadrants in place inside the pair loop, by 1, 2 and 3 places:
  the same mathematics as for the first buffer, at the second buffer's stores.
-/
import proofs.«208198_g16930761081413_cont_7to1_1121_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«208198_g16930761081413_cont_7to1_1121_27_alg».proof.Proof.Gen.KernelIdeal
import proofs.«208198_g16930761081413_cont_7to1_1121_27_alg».proof.Proof.Gen.KernelIdeal.Skeleton
import proofs.«208198_g16930761081413_cont_7to1_1121_27_alg».proof.Proof.SpecBuf
import proofs.«208198_g16930761081413_cont_7to1_1121_27_alg».proof.Proof.RotStep
import proofs.«208198_g16930761081413_cont_7to1_1121_27_alg».proof.Proof.RotA

noncomputable section

namespace Cert.KernelIdeal.Rot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable [FloatOps F]

set_option maxHeartbeats 4000000 in
/-- The loop that rotates the second staging buffer's quadrants by 1 place, inside the pair loop: entered at contents `f`, it leaves `rotBuf 1 f`.
    Before trip `k` the row pairs below `k` are done; trip `k` is 28 stores of 16 lanes, each of what the buffer held at
    the store's source position when the trip began, and together they cover rows `k` and `k + 112`. -/
theorem rot_t5 (d : Dev nD) (L : grid0.Coords) (v2 c0 : BitVec 32) (k0_t1 : Fin k0_t1_loop.trips) (h : k0_cond5 L k0_t1 = 1#1)
    (f : Buf (Elt F) ((V d (cV L) (jV L)).loc cc0_scratch1)) :
    ((b1).view.loc (V d (cV L) (jV L)) ↦{fullShare} f : sProp 𝕄)
      ⊢ wp frame (wpE (defs₀ (F := F)) 𝒱₀ (V d (cV L) (jV L)) none) Set.univ
          (Scf.Loop.for k0_t5_loop (k0_t5_ok L k0_t1 h) ⟨⟩
            (k0_t5_body L xW (Memref.isWhole_whole _) oW (Memref.isWhole_whole _) b0 (Memref.isWhole_whole _) b1 (Memref.isWhole_whole _)
              cc0_scratch2 cc0_scratch3 cc0_scratch4 cc0_scratch5 v2 c0 k0_t1 h))
          fun _ => ((b1).view.loc (V d (cV L) (jV L)) ↦{fullShare} (Cert.Spec.rotBuf 1 f : Buf (Elt F) ((V d (cV L) (jV L)).loc cc0_scratch1)) : sProp 𝕄) := by
  iintro Hb
  sl_for (invR1 1 d L f) $$ [Hb]
  case region =>
    intro k _
    unfold invR1
    iintro Hb
    sl_exec
    sl_step
    have hk : k.val < 112 := k.isLt
    rw [Cert.RotStep.writes_whole_eq_of_agree cc0_scratch1 _ (Cert.Spec.rotUpTo 1 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch1 _ _ _ _ x).trans ?_
        refine Cert.Spec.rotUpTo_move 1 k.val f _ _ ?_ ?_ ?_ ?_ <;>
          (simp only [Cert.RotStep.emb_unit_val, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 1 k.val f y = Cert.Spec.rotUpTo 1 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 1 k.val f y hr
  · unfold invR1
    isplitl [Hb]
    · rw [Cert.Spec.rotUpTo_zero]; iexact Hb
    iintro %_ HI
    rw [show Cert.Spec.rotUpTo 1 (Scf.trips k0_t5_loop.lb k0_t5_loop.ub k0_t5_loop.st) f = Cert.Spec.rotBuf 1 f from Cert.Spec.rotUpTo_full 1 f]
    iexact HI

set_option maxHeartbeats 4000000 in
/-- The loop that rotates the second staging buffer's quadrants by 2 places, inside the pair loop: entered at contents `f`, it leaves `rotBuf 2 f`.
    Before trip `k` the row pairs below `k` are done; trip `k` is 28 stores of 16 lanes, each of what the buffer held at
    the store's source position when the trip began, and together they cover rows `k` and `k + 112`. -/
theorem rot_t6 (d : Dev nD) (L : grid0.Coords) (v2 c0 : BitVec 32) (k0_t1 : Fin k0_t1_loop.trips) (h : k0_cond6 L k0_t1 = 1#1)
    (f : Buf (Elt F) ((V d (cV L) (jV L)).loc cc0_scratch1)) :
    ((b1).view.loc (V d (cV L) (jV L)) ↦{fullShare} f : sProp 𝕄)
      ⊢ wp frame (wpE (defs₀ (F := F)) 𝒱₀ (V d (cV L) (jV L)) none) Set.univ
          (Scf.Loop.for k0_t6_loop (k0_t6_ok L k0_t1 h) ⟨⟩
            (k0_t6_body L xW (Memref.isWhole_whole _) oW (Memref.isWhole_whole _) b0 (Memref.isWhole_whole _) b1 (Memref.isWhole_whole _)
              cc0_scratch2 cc0_scratch3 cc0_scratch4 cc0_scratch5 v2 c0 k0_t1 h))
          fun _ => ((b1).view.loc (V d (cV L) (jV L)) ↦{fullShare} (Cert.Spec.rotBuf 2 f : Buf (Elt F) ((V d (cV L) (jV L)).loc cc0_scratch1)) : sProp 𝕄) := by
  iintro Hb
  sl_for (invR1 2 d L f) $$ [Hb]
  case region =>
    intro k _
    unfold invR1
    iintro Hb
    sl_exec
    sl_step
    have hk : k.val < 112 := k.isLt
    rw [Cert.RotStep.writes_whole_eq_of_agree cc0_scratch1 _ (Cert.Spec.rotUpTo 2 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch1 _ _ _ _ x).trans ?_
        refine Cert.Spec.rotUpTo_move 2 k.val f _ _ ?_ ?_ ?_ ?_ <;>
          (simp only [Cert.RotStep.emb_unit_val, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 2 k.val f y = Cert.Spec.rotUpTo 2 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 2 k.val f y hr
  · unfold invR1
    isplitl [Hb]
    · rw [Cert.Spec.rotUpTo_zero]; iexact Hb
    iintro %_ HI
    rw [show Cert.Spec.rotUpTo 2 (Scf.trips k0_t6_loop.lb k0_t6_loop.ub k0_t6_loop.st) f = Cert.Spec.rotBuf 2 f from Cert.Spec.rotUpTo_full 2 f]
    iexact HI

set_option maxHeartbeats 4000000 in
/-- The loop that rotates the second staging buffer's quadrants by 3 places, inside the pair loop: entered at contents `f`, it leaves `rotBuf 3 f`.
    Before trip `k` the row pairs below `k` are done; trip `k` is 28 stores of 16 lanes, each of what the buffer held at
    the store's source position when the trip began, and together they cover rows `k` and `k + 112`. -/
theorem rot_t7 (d : Dev nD) (L : grid0.Coords) (v2 c0 : BitVec 32) (k0_t1 : Fin k0_t1_loop.trips) (h : k0_cond7 L k0_t1 = 1#1)
    (f : Buf (Elt F) ((V d (cV L) (jV L)).loc cc0_scratch1)) :
    ((b1).view.loc (V d (cV L) (jV L)) ↦{fullShare} f : sProp 𝕄)
      ⊢ wp frame (wpE (defs₀ (F := F)) 𝒱₀ (V d (cV L) (jV L)) none) Set.univ
          (Scf.Loop.for k0_t7_loop (k0_t7_ok L k0_t1 h) ⟨⟩
            (k0_t7_body L xW (Memref.isWhole_whole _) oW (Memref.isWhole_whole _) b0 (Memref.isWhole_whole _) b1 (Memref.isWhole_whole _)
              cc0_scratch2 cc0_scratch3 cc0_scratch4 cc0_scratch5 v2 c0 k0_t1 h))
          fun _ => ((b1).view.loc (V d (cV L) (jV L)) ↦{fullShare} (Cert.Spec.rotBuf 3 f : Buf (Elt F) ((V d (cV L) (jV L)).loc cc0_scratch1)) : sProp 𝕄) := by
  iintro Hb
  sl_for (invR1 3 d L f) $$ [Hb]
  case region =>
    intro k _
    unfold invR1
    iintro Hb
    sl_exec
    sl_step
    have hk : k.val < 112 := k.isLt
    rw [Cert.RotStep.writes_whole_eq_of_agree cc0_scratch1 _ (Cert.Spec.rotUpTo 3 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch1 _ _ _ _ x).trans ?_
        refine Cert.Spec.rotUpTo_move 3 k.val f _ _ ?_ ?_ ?_ ?_ <;>
          (simp only [Cert.RotStep.emb_unit_val, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 3 k.val f y = Cert.Spec.rotUpTo 3 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 3 k.val f y hr
  · unfold invR1
    isplitl [Hb]
    · rw [Cert.Spec.rotUpTo_zero]; iexact Hb
    iintro %_ HI
    rw [show Cert.Spec.rotUpTo 3 (Scf.trips k0_t7_loop.lb k0_t7_loop.ub k0_t7_loop.st) f = Cert.Spec.rotBuf 3 f from Cert.Spec.rotUpTo_full 3 f]
    iexact HI

end Cert.KernelIdeal.Rot

end
-- ==== Proof.RotC.lean ====
/-
  The three loops that rotate the FIRST staging buffer's quadrants in place after the pair loop, by 1, 2 and 3 places:
  the same mathematics as inside the pair loop, at this site's stores.
-/
import proofs.«208198_g16930761081413_cont_7to1_1121_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«208198_g16930761081413_cont_7to1_1121_27_alg».proof.Proof.Gen.KernelIdeal
import proofs.«208198_g16930761081413_cont_7to1_1121_27_alg».proof.Proof.Gen.KernelIdeal.Skeleton
import proofs.«208198_g16930761081413_cont_7to1_1121_27_alg».proof.Proof.SpecBuf
import proofs.«208198_g16930761081413_cont_7to1_1121_27_alg».proof.Proof.RotStep
import proofs.«208198_g16930761081413_cont_7to1_1121_27_alg».proof.Proof.RotA

noncomputable section

namespace Cert.KernelIdeal.Rot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S2x384x224x224 EltTy.f32)
local notation "oW" => (Memref.whole Cert.KernelIdeal.main_v0_scv : Memref Cert.KernelIdeal.sig Kind.scVector Space.hbm Cert.KernelIdeal.S2x384x224x224 EltTy.f32)
local notation "b0" => (Memref.whole Cert.KernelIdeal.cc0_scratch0 : Memref Cert.KernelIdeal.sig Kind.scVector Space.vmem Cert.KernelIdeal.S224x224 EltTy.f32)
local notation "b1" => (Memref.whole Cert.KernelIdeal.cc0_scratch1 : Memref Cert.KernelIdeal.sig Kind.scVector Space.vmem Cert.KernelIdeal.S224x224 EltTy.f32)

variable [FloatOps F]

set_option maxHeartbeats 4000000 in
/-- The loop that rotates the first staging buffer's quadrants by 1 place, after the pair loop: entered at contents `f`, it leaves `rotBuf 1 f`.
    Before trip `k` the row pairs below `k` are done; trip `k` is 28 stores of 16 lanes, each of what the buffer held at
    the store's source position when the trip began, and together they cover rows `k` and `k + 112`. -/
theorem rot_t8 (d : Dev nD) (L : grid0.Coords) (v2 v82 : BitVec 32) (h : k0_cond9 L = 1#1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t8_loop (k0_t8_ok L h) ⟨⟩
            (k0_t8_body L xW (Memref.isWhole_whole _) oW (Memref.isWhole_whole _) b0 (Memref.isWhole_whole _) b1 (Memref.isWhole_whole _)
              cc0_scratch2 cc0_scratch3 cc0_scratch4 cc0_scratch5 v2 v82 h))
          fun _ => ((b0).view.loc (V d (cV L) (jV L)) ↦{fullShare} (Cert.Spec.rotBuf 1 f : Buf (Elt F) ((V d (cV L) (jV L)).loc cc0_scratch0)) : sProp 𝕄) := by
  iintro Hb
  sl_for (invR0 1 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 1 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 1 k.val f _ _ ?_ ?_ ?_ ?_ <;>
          (simp only [Cert.RotStep.emb_unit_val, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 1 k.val f y = Cert.Spec.rotUpTo 1 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 1 k.val f y hr
  · unfold invR0
    isplitl [Hb]
    · rw [Cert.Spec.rotUpTo_zero]; iexact Hb
    iintro %_ HI
    rw [show Cert.Spec.rotUpTo 1 (Scf.trips k0_t8_loop.lb k0_t8_loop.ub k0_t8_loop.st) f = Cert.Spec.rotBuf 1 f from Cert.Spec.rotUpTo_full 1 f]
    iexact HI

set_option maxHeartbeats 4000000 in
/-- The loop that rotates the first staging buffer's quadrants by 2 places, after the pair loop: entered at contents `f`, it leaves `rotBuf 2 f`.
    Before trip `k` the row pairs below `k` are done; trip `k` is 28 stores of 16 lanes, each of what the buffer held at
    the store's source position when the trip began, and together they cover rows `k` and `k + 112`. -/
theorem rot_t9 (d : Dev nD) (L : grid0.Coords) (v2 v82 : BitVec 32) (h : k0_cond10 L = 1#1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t9_loop (k0_t9_ok L h) ⟨⟩
            (k0_t9_body L xW (Memref.isWhole_whole _) oW (Memref.isWhole_whole _) b0 (Memref.isWhole_whole _) b1 (Memref.isWhole_whole _)
              cc0_scratch2 cc0_scratch3 cc0_scratch4 cc0_scratch5 v2 v82 h))
          fun _ => ((b0).view.loc (V d (cV L) (jV L)) ↦{fullShare} (Cert.Spec.rotBuf 2 f : Buf (Elt F) ((V d (cV L) (jV L)).loc cc0_scratch0)) : sProp 𝕄) := by
  iintro Hb
  sl_for (invR0 2 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 2 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 2 k.val f _ _ ?_ ?_ ?_ ?_ <;>
          (simp only [Cert.RotStep.emb_unit_val, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 2 k.val f y = Cert.Spec.rotUpTo 2 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 2 k.val f y hr
  · unfold invR0
    isplitl [Hb]
    · rw [Cert.Spec.rotUpTo_zero]; iexact Hb
    iintro %_ HI
    rw [show Cert.Spec.rotUpTo 2 (Scf.trips k0_t9_loop.lb k0_t9_loop.ub k0_t9_loop.st) f = Cert.Spec.rotBuf 2 f from Cert.Spec.rotUpTo_full 2 f]
    iexact HI

set_option maxHeartbeats 4000000 in
/-- The loop that rotates the first staging buffer's quadrants by 3 places, after the pair loop: entered at contents `f`, it leaves `rotBuf 3 f`.
    Before trip `k` the row pairs below `k` are done; trip `k` is 28 stores of 16 lanes, each of what the buffer held at
    the store's source position when the trip began, and together they cover rows `k` and `k + 112`. -/
theorem rot_t10 (d : Dev nD) (L : grid0.Coords) (v2 v82 : BitVec 32) (h : k0_cond11 L = 1#1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t10_loop (k0_t10_ok L h) ⟨⟩
            (k0_t10_body L xW (Memref.isWhole_whole _) oW (Memref.isWhole_whole _) b0 (Memref.isWhole_whole _) b1 (Memref.isWhole_whole _)
              cc0_scratch2 cc0_scratch3 cc0_scratch4 cc0_scratch5 v2 v82 h))
          fun _ => ((b0).view.loc (V d (cV L) (jV L)) ↦{fullShare} (Cert.Spec.rotBuf 3 f : Buf (Elt F) ((V d (cV L) (jV L)).loc cc0_scratch0)) : sProp 𝕄) := by
  iintro Hb
  sl_for (invR0 3 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 3 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 3 k.val f _ _ ?_ ?_ ?_ ?_ <;>
          (simp only [Cert.RotStep.emb_unit_val, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 3 k.val f y = Cert.Spec.rotUpTo 3 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 3 k.val f y hr
  · unfold invR0
    isplitl [Hb]
    · rw [Cert.Spec.rotUpTo_zero]; iexact Hb
    iintro %_ HI
    rw [show Cert.Spec.rotUpTo 3 (Scf.trips k0_t10_loop.lb k0_t10_loop.ub k0_t10_loop.st) f = Cert.Spec.rotBuf 3 f from Cert.Spec.rotUpTo_full 3 f]
    iexact HI

end Cert.KernelIdeal.Rot

end
-- ==== Proof.RotAll.lean ====
/-
  The nine rotate loops, gathered as the worker's body takes them: each at the worker's own grid point.
-/
import proofs.«208198_g16930761081413_cont_7to1_1121_27_alg».proof.Proof.TileBase
import proofs.«208198_g16930761081413_cont_7to1_1121_27_alg».proof.Proof.RotA
import proofs.«208198_g16930761081413_cont_7to1_1121_27_alg».proof.Proof.RotB
import proofs.«208198_g16930761081413_cont_7to1_1121_27_alg».proof.Proof.RotC

noncomputable section

namespace Cert.KernelIdeal.Rot

open Cert.KernelIdeal Cert.KernelIdeal.Gen Cert.KernelIdeal.Geom

open Idealize.ShloMosaic

variable {F : FTy → Type} [FloatOps F]

theorem rotFacts (c : Fin (grid0.bound 0)) (s : Fin (grid0.bound 1)) (d : Dev nD) : Cert.KernelIdeal.Tile.RotFacts (F := F) c s d where
  t2 := fun k0_t1 h v218 v247 c48 v248 v249 f => rot_t2 d (coordsV c s) k0_t1 h v218 v247 c48 v248 v249 f
  t3 := fun k0_t1 h v218 v247 c48 v248 v249 f => rot_t3 d (coordsV c s) k0_t1 h v218 v247 c48 v248 v249 f
  t4 := fun k0_t1 h v218 v247 c48 v248 v249 f => rot_t4 d (coordsV c s) k0_t1 h v218 v247 c48 v248 v249 f
  t5 := fun v2 c0 k0_t1 h f => rot_t5 d (coordsV c s) v2 c0 k0_t1 h f
  t6 := fun v2 c0 k0_t1 h f => rot_t6 d (coordsV c s) v2 c0 k0_t1 h f
  t7 := fun v2 c0 k0_t1 h f => rot_t7 d (coordsV c s) v2 c0 k0_t1 h f
  t8 := fun v2 v82 h f => rot_t8 d (coordsV c s) v2 v82 h f
  t9 := fun v2 v82 h f => rot_t9 d (coordsV c s) v2 v82 h f
  t10 := fun v2 v82 h f => rot_t10 d (coordsV c s) v2 v82 h f

end Cert.KernelIdeal.Rot

end
-- ==== Proof.Bits.Setup.lean ====
/-
  What the tile bodies' proof and the launch share: the program as the launch theorem reads it, the ghost state, the
  geometry of the work's division, and what the one SparseCore call hands each vector subcore and takes back.

  The array is [2, 384, 224, 224]. The call works on the 288 images (batch `b`, channel `ch`) with `ch ≥ 240`, numbered
  `n = 144 * b + (ch - 240)`. Vector subcore `s` of SparseCore `c` is worker `2 * s + c` and owns the nine images
  `9 * (2 * s + c) + j`, `j < 9`. It is handed those nine images of the argument `x` and of the call's result `o`, and
  hands them back with `o`'s at the specification's values: each image its quadrants rotated by its channel's group.
-/
import proofs.«208198_g16930761081413_cont_7to1_1121_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«208198_g16930761081413_cont_7to1_1121_27_alg».proof.Proof.Gen.Kernel
import proofs.«208198_g16930761081413_cont_7to1_1121_27_alg».proof.Proof.SpecBuf

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds, the copy region's staging cells, the tiles' transfer counters -/

abbrev UH : Type := URounds (GSem nD τ sig) ℕ
abbrev UU : Type := UH × (UR sig nD τ × Counters)

abbrev EH : Emb UH (MT nD τ sig (HIx 1) (Elt F) ℕ UU ℕ) := embL

/-! ## The arrays -/

abbrev xLoc (d : Dev nD) : Loc nD τ sig := (SparseCore.T d).loc main_arg0
abbrev oLoc (d : Dev nD) : Loc nD τ sig := (SparseCore.T d).loc main_v0

/-! ## The division of the work -/

/-- The number of image `j` of the worker on SparseCore `c`, vector subcore `s`. -/
def imgN (c s j : Nat) : Nat := (s * 2 + c) * 9 + j
/-- Its batch index and its channel. -/
def imgB (c s j : Nat) : Nat := imgN c s j / 144
def imgC (c s j : Nat) : Nat := 240 + imgN c s j % 144

theorem imgB_lt {c s j : Nat} (hc : c < 2) (hs : s < 16) (hj : j < 9) : imgB c s j < 2 := by
  unfold imgB imgN; omega
theorem imgC_lt (c s j : Nat) : imgC c s j < 384 := by
  unfold imgC; omega
theorem imgC_ge (c s j : Nat) : 240 ≤ imgC c s j := by
  unfold imgC; omega

theorem img_inb {b ch : Nat} (hb : b < 2) (hch : ch < 384) :
    ∀ a, (![b, ch, 0, 0] : Fin 4 → Nat) a + S1x1x224x224.size a ≤ S2x384x224x224.size a := by
  intro a; fin_cases a <;> simp <;> omega

/-- Image (`b`, `ch`) of the array, as a rectangle. -/
abbrev imgRect (b ch : Nat) (hb : b < 2) (hch : ch < 384) : Rect S2x384x224x224 :=
  Rect.unit (s := S2x384x224x224) ![b, ch, 0, 0] S1x1x224x224.size (img_inb hb hch)

/-- The index set of image `j` of worker (`c`, `s`). -/
def tileImg (c : Fin 2) (s : Fin 16) (j : Fin 9) : Finset S2x384x224x224.Idx :=
  (imgRect (imgB c.val s.val j.val) (imgC c.val s.val j.val) (imgB_lt c.isLt s.isLt j.isLt) (imgC_lt _ _ _)).set

/-! ## What the handshakes carry -/

section Pay

local notation "𝕄" => MT nD τ sig (HIx 1) (Elt F) ℕ UU ℕ

variable (m : (ℓ : Loc nD τ sig) → Buf (Elt F) ℓ)

/-- The specification's result, as contents of the call's result array. -/
abbrev want (d : Dev nD) : Buf (Elt F) (oLoc d) := Cert.Spec.G (m (xLoc d))

/-- A worker's nine images of `x`, and of `o` at contents `fo`. -/
def tileRes (d : Dev nD) (c : Fin 2) (s : Fin 16) (fo : Buf (Elt F) (oLoc d)) : sProp 𝕄 :=
  bigSep (Finset.univ : Finset (Fin 9)) fun j =>
    iprop((xLoc d ↦[tileImg c s j]{fullShare} m (xLoc d)) ∗ (oLoc d ↦[tileImg c s j]{fullShare} fo))

/-- What a SparseCore's sixteen workers hold together. -/
def coreRes (d : Dev nD) (c : Fin 2) (fo : Buf (Elt F) (oLoc d)) : sProp 𝕄 :=
  bigSep (Finset.univ : Finset (Fin 16)) fun s => tileRes m d c s fo

/-- The one call hands each worker its nine images of `x` and of `o` (at the launch contents) and takes them back with
    `o`'s at the specification's values; a SparseCore is handed, and hands back, its sixteen workers' together. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (want m d)
  go := fun q d c i => match q with | 0 => tileRes m d (Fin.cast nCore_zero c) (Fin.cast nSub_zero i) (m (oLoc d))
  td := fun q d c i => match q with | 0 => tileRes m d (Fin.cast nCore_zero c) (Fin.cast nSub_zero i) (want m d)
  x := fun _ _ => iprop(emp)

instance tileRes_storable (d : Dev nD) (c : Fin 2) (s : Fin 16) (fo : Buf (Elt F) (oLoc d)) :
    BI.Storable (upEmb : UEmb _ 𝕄) (tileRes m d c s fo) := by
  unfold tileRes; infer_instance

instance coreRes_storable (d : Dev nD) (c : Fin 2) (fo : Buf (Elt F) (oLoc d)) :
    BI.Storable (upEmb : UEmb _ 𝕄) (coreRes m d c fo) := by
  unfold coreRes; infer_instance

instance P_storable : (P (F := F) m).IsStorable where
  st q d c := match q with | 0 => (inferInstance : BI.Storable (upEmb : UEmb _ 𝕄) (coreRes m d (Fin.cast nCore_zero c) (m (oLoc d))))
  dn q d c := match q with | 0 => (inferInstance : BI.Storable (upEmb : UEmb _ 𝕄) (coreRes m d (Fin.cast nCore_zero c) (want m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (want m d)))

end Pay

end Cert.Kernel.Setup

end
-- ==== Proof.Bits.LaunchSplit.lean ====
/-
  The launch's set-up, before @main: the facts of the launch semaphores; the geometry of the 288 images the one
  SparseCore call works on (pairwise disjoint, and together the channels from 240 on); an array held whole as those
  images and the rest, and back; a SparseCore's operands as its sixteen workers'; and the launch element of the ghost
  state dealt: the handshakes' rounds, the copy region's staging cells, nothing for the workers.
-/
import proofs.«208198_g16930761081413_cont_7to1_1121_27_alg».proof.Proof.Bits.Setup
import proofs.«208198_g16930761081413_cont_7to1_1121_27_alg».proof.Proof.Gen.Kernel.Launch

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch semaphores -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The images -/

/-- A worker's image, by SparseCore, vector subcore and number. -/
abbrev Img : Type := Fin 2 × Fin 16 × Fin 9

/-- Its index set. -/
def imgK (k : Img) : Finset S2x384x224x224.Idx := tileImg k.1 k.2.1 k.2.2

/-- All 288 images' indices. -/
def imgs : Finset S2x384x224x224.Idx := (Finset.univ : Finset Img).biUnion imgK

/-- An index lies in an image iff its batch and channel are the image's. -/
theorem mem_tileImg (c : Fin 2) (s : Fin 16) (j : Fin 9) (i : S2x384x224x224.Idx) :
    i ∈ tileImg c s j ↔ (i 0).val = imgB c.val s.val j.val ∧ (i 1).val = imgC c.val s.val j.val := by
  unfold tileImg
  rw [Rect.mem_set_unit]
  constructor
  · intro h
    have h0 := h 0
    have h1 := h 1
    change imgB c.val s.val j.val ≤ (i 0).val ∧ (i 0).val < imgB c.val s.val j.val + 1 at h0
    change imgC c.val s.val j.val ≤ (i 1).val ∧ (i 1).val < imgC c.val s.val j.val + 1 at h1
    omega
  · rintro ⟨h0, h1⟩ a
    have h2 : (i 2).val < 224 := (i 2).isLt
    have h3 : (i 3).val < 224 := (i 3).isLt
    match a with
    | ⟨0, _⟩ => change imgB c.val s.val j.val ≤ (i 0).val ∧ (i 0).val < imgB c.val s.val j.val + 1; omega
    | ⟨1, _⟩ => change imgC c.val s.val j.val ≤ (i 1).val ∧ (i 1).val < imgC c.val s.val j.val + 1; omega
    | ⟨2, _⟩ => change 0 ≤ (i 2).val ∧ (i 2).val < 0 + 224; omega
    | ⟨3, _⟩ => change 0 ≤ (i 3).val ∧ (i 3).val < 0 + 224; omega

/-- Distinct images are disjoint: an image's batch and channel name its number, and the number names the worker and
    the image among its nine. -/
theorem imgK_disjoint : ∀ k ∈ (Finset.univ : Finset Img), ∀ k' ∈ (Finset.univ : Finset Img), k ≠ k' → Disjoint (imgK k) (imgK k') := by
  rintro ⟨c, s, j⟩ - ⟨c', s', j'⟩ - hne
  refine Finset.disjoint_left.mpr fun i hi hi' => hne ?_
  obtain ⟨h0, h1⟩ := (mem_tileImg c s j i).mp hi
  obtain ⟨h0', h1'⟩ := (mem_tileImg c' s' j' i).mp hi'
  have hc := c.isLt; have hc' := c'.isLt; have hj := j.isLt; have hj' := j'.isLt
  have hs := s.isLt; have hs' := s'.isLt
  unfold imgB imgC imgN at *
  have e : c.val = c'.val ∧ s.val = s'.val ∧ j.val = j'.val := by omega
  exact Prod.ext (Fin.ext e.1) (Prod.ext (Fin.ext e.2.1) (Fin.ext e.2.2))

/-- Every index whose channel is 240 or more lies in an image. -/
theorem mem_imgs_of_ge (i : S2x384x224x224.Idx) (h : 240 ≤ (i 1).val) : i ∈ imgs := by
  have hb : (i 0).val < 2 := (i 0).isLt
  have hch : (i 1).val < 384 := (i 1).isLt
  have hn : 144 * (i 0).val + ((i 1).val - 240) < 288 := by omega
  refine Finset.mem_biUnion.mpr ⟨(⟨(144 * (i 0).val + ((i 1).val - 240)) / 9 % 2, by omega⟩,
    ⟨(144 * (i 0).val + ((i 1).val - 240)) / 9 / 2, by omega⟩, ⟨(144 * (i 0).val + ((i 1).val - 240)) % 9, by omega⟩), Finset.mem_univ _, ?_⟩
  refine (mem_tileImg _ _ _ i).mpr ?_
  unfold imgB imgC imgN
  dsimp only
  omega

/-- An index in an image has channel 240 or more. -/
theorem ge_of_mem_imgs (i : S2x384x224x224.Idx) (h : i ∈ imgs) : 240 ≤ (i 1).val := by
  obtain ⟨⟨c, s, j⟩, -, hk⟩ := Finset.mem_biUnion.mp h
  have := ((mem_tileImg c s j i).mp hk).2
  unfold imgC at this; omega

/-! ## An array held whole, as the images and the rest -/

section Split

variable (m : (ℓ : Loc nD τ sig) → Buf (Elt F) ℓ)

/-- The argument array held whole is held as the 288 images and the channels below 240. -/
theorem xPts_imgs (d : Dev nD) (f : Buf (Elt F) (xLoc d)) :
    (xLoc d ↦{fullShare} f : sProp 𝕄)
      = iprop((bigSep (Finset.univ : Finset Img) fun k => xLoc d ↦[imgK k]{fullShare} f) ∗ xLoc d ↦[Finset.univ \ imgs]{fullShare} f) := by
  have h := pointsTo_split_subset (Ix := HIx 1) (Name := ℕ) (U := UU) (Lvl := ℕ) (ℓ := xLoc d) (q := fullShare) (f := f) (Finset.subset_univ imgs)
  refine (BI.equiv_iff.mp ⟨h.1, h.2⟩).trans ?_
  unfold imgs
  rw [pointsTo_biUnion Finset.univ (ℓ := xLoc d) imgK imgK_disjoint]

/-- The same for the call's result array. -/
theorem oPts_imgs (d : Dev nD) (f : Buf (Elt F) (oLoc d)) :
    (oLoc d ↦{fullShare} f : sProp 𝕄)
      = iprop((bigSep (Finset.univ : Finset Img) fun k => oLoc d ↦[imgK k]{fullShare} f) ∗ oLoc d ↦[Finset.univ \ imgs]{fullShare} f) := by
  have h := pointsTo_split_subset (Ix := HIx 1) (Name := ℕ) (U := UU) (Lvl := ℕ) (ℓ := oLoc d) (q := fullShare) (f := f) (Finset.subset_univ imgs)
  refine (BI.equiv_iff.mp ⟨h.1, h.2⟩).trans ?_
  unfold imgs
  rw [pointsTo_biUnion Finset.univ (ℓ := oLoc d) imgK imgK_disjoint]

/-- The call's result array after the call: the specification's values on the images, the launch contents elsewhere. -/
def fo1 (d : Dev nD) : Buf (Elt F) (oLoc d) := fun i => if i ∈ imgs then want m d i else m (oLoc d) i

theorem fo1_of_mem (d : Dev nD) {i : S2x384x224x224.Idx} (h : i ∈ imgs) : fo1 m d i = want m d i := by unfold fo1; exact if_pos h
theorem fo1_of_not_mem (d : Dev nD) {i : S2x384x224x224.Idx} (h : i ∉ imgs) : fo1 m d i = m (oLoc d) i := by unfold fo1; exact if_neg h

-- the membership test is not to be evaluated: the two lemmas above are all that is used of it
attribute [irreducible] fo1

/-- The result array's images at the specification's values and its rest as launched make it whole at `fo1`. -/
theorem oPts_join (d : Dev nD) :
    iprop((bigSep (Finset.univ : Finset Img) fun k => oLoc d ↦[imgK k]{fullShare} want m d) ∗ oLoc d ↦[Finset.univ \ imgs]{fullShare} m (oLoc d))
      ⊢ (oLoc d ↦{fullShare} fo1 m d : sProp 𝕄) := by
  rw [oPts_imgs d (fo1 m d),
    bigSep_congr (Φ := fun k : Img => (oLoc d ↦[imgK k]{fullShare} want m d : sProp 𝕄)) (Ψ := fun k : Img => oLoc d ↦[imgK k]{fullShare} fo1 m d)
      fun k _ => pointsTo_congr fun i hi => (fo1_of_mem m d (Finset.mem_biUnion.mpr ⟨k, Finset.mem_univ k, hi⟩)).symm,
    pointsTo_congr (ℓ := oLoc d) (I := Finset.univ \ imgs) (f := m (oLoc d)) (g := fo1 m d)
      fun i hi => (fo1_of_not_mem m d (Finset.mem_sdiff.mp hi).2).symm]

/-- The two SparseCores' operands (at contents `fo` of the result array) are the images of both arrays. -/
theorem cores_eq (d : Dev nD) (fo : Buf (Elt F) (oLoc d)) :
    (bigSep (Finset.univ : Finset (Fin 2)) fun c => coreRes m d c fo)
      = iprop((bigSep (Finset.univ : Finset Img) fun k => xLoc d ↦[imgK k]{fullShare} m (xLoc d))
          ∗ bigSep (Finset.univ : Finset Img) fun k => oLoc d ↦[imgK k]{fullShare} fo) := by
  rw [← bigSep_sep' (Finset.univ : Finset Img), bigSep_univ_prod]
  refine bigSep_congr fun c _ => ?_
  rw [bigSep_univ_prod]
  rfl

theorem st0_eq (d : Dev nD) :
    (bigSep Finset.univ fun c : Fin ((K (F := F)).nCore 0) => (P m).st 0 d c) = bigSep (Finset.univ : Finset (Fin 2)) fun c => coreRes m d c (m (oLoc d)) :=
  bigSep_congr fun _ _ => congrArg (fun c' : Fin 2 => coreRes m d c' (m (oLoc d))) (Fin.ext rfl)

theorem dn0_eq (d : Dev nD) :
    (bigSep Finset.univ fun c : Fin ((K (F := F)).nCore 0) => (P m).dn 0 d c) = bigSep (Finset.univ : Finset (Fin 2)) fun c => coreRes m d c (want m d) :=
  bigSep_congr fun _ _ => congrArg (fun c' : Fin 2 => coreRes m d c' (want m d)) (Fin.ext rfl)

/-! ## A SparseCore's operands, as its sixteen workers' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (want m d))
          -∗ coreRes m d (Fin.cast nCore_zero c) (want m d)))
  rw [bigSep_tasks (F := F) (fun i => tileRes m d (Fin.cast nCore_zero c) i (m (oLoc d))),
    bigSep_tasks (F := F) (fun i => tileRes m d (Fin.cast nCore_zero c) i (want m d))]
  unfold coreRes
  iintro H; imodintro
  isplitl [H]; · iexact H
  iintro H; iexact H

end Split

/-! ## The launch element of the ghost state -/

/-- The copy region's admissible tables: it has none. -/
abbrev adm : (p : Fin 1) → (pcfgs (F := F) p).Adm := fun p => (cfgs p).toPCfg_adm

/-- The pipeline library's rounds, inside the second component of the ghost state. -/
abbrev ER : Emb (UR sig nD τ) (MT nD τ sig (HIx 1) (Elt F) ℕ UU ℕ) :=
  (Emb.inl : Emb (UR sig nD τ) (UR sig nD τ × Counters)).trans embR

instance ER_landsIn : (ER : Emb (UR sig nD τ) 𝕄).LandsIn (upEmb : UEmb _ 𝕄) := by unfold ER embR; infer_instance

/-- The launch element: the handshakes' rounds, the copy region's staging cells and transfers, no counter yet. -/
def u₀ : UU :=
  (initOf (K (F := F)).hsCells (K (F := F)).hsToks, (initOf (Pipeline.cells cfgs cellOf_inj) (Pipeline.launchToks cfgs cellOf_inj), 1))

/-- What @main's proof starts from on each device: the copy region's staging cells' ghost state and its transfers' tokens. -/
abbrev G₀ (d : Dev nD) : sProp 𝕄 :=
  iprop(Pipeline.cellsGhost (Pipeline.pin (pcfgs (F := F)) adm) ER 0 d ∗ Pipeline.toksInit (Pipeline.pin (pcfgs (F := F)) adm) ER 0 d)

theorem bigSep_emp' {I : Type} (s : Finset I) : (bigSep s fun _ => iprop(emp)) = (iprop(emp) : sProp 𝕄) := bigSep_emp_const s

theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P m).x q thr) := by
  have hg : (bigSep Finset.univ fun c : Dev nD => bigSep Finset.univ fun p : Fin 1 => (Pipeline.cellsGhost cfgs (ER (F := F)) p c : sProp 𝕄))
      ⊢ bigSep Finset.univ fun c : Dev nD => Pipeline.cellsGhost (Pipeline.pin (pcfgs (F := F)) adm) ER 0 c :=
    Entails.of_eq (bigSep_congr fun c _ => bigSep_univ_of_subsingleton (0 : Fin 1))
  have ht : (bigSep Finset.univ fun c : Dev nD => bigSep Finset.univ fun p : Fin 1 => (Pipeline.toksInit cfgs (ER (F := F)) p c : sProp 𝕄))
      ⊢ bigSep Finset.univ fun c : Dev nD => Pipeline.toksInit (Pipeline.pin (pcfgs (F := F)) adm) ER 0 c :=
    Entails.of_eq (bigSep_congr fun c _ => bigSep_univ_of_subsingleton (0 : Fin 1))
  unfold u₀
  iintro Hu
  ihave H := (ownU_pair _ _) $$ Hu
  icases H with ⟨HH, HR⟩
  ihave H := (own_pair_emb (embR : Emb (UR sig nD τ × Counters) 𝕄) _ _) $$ HR
  icases H with ⟨HP, -⟩
  imod (Pipeline.fund_ghost cfgs (ER (F := F)) cellOf_inj) $$ HP with ⟨Hg, Ht⟩
  imodintro
  isplitl [HH]; · iexact HH
  isplitl [Hg Ht]
  · rw [bigSep_sep']
    isplitl [Hg]
    · iapply hg; iexact Hg
    · iapply ht; iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Launch

end
-- ==== Proof.Bits.LaunchRegion.lean ====
/-
  The one TensorCore copy region of @main, run by the pipeline library: its proof data (every staging buffer holds,
  after the body at a point, that point's block of the argument array), the body's run (one whole-block load, one
  whole-block store), the body obligation, the region's record around thread states that carry the TensorCore's
  handshake state past it, and the result array's contents after the region: the argument array on the channels
  below 240 (the thirty blocks), the region-entry contents elsewhere.
-/
import proofs.«208198_g16930761081413_cont_7to1_1121_27_alg».proof.Proof.Bits.LaunchSplit
import proofs.«208198_g16930761081413_cont_7to1_1121_27_alg».proof.Proof.Gen.Kernel.Points
import Idealize.ShloMosaic.Lib.Tactic
import Idealize.ShloMosaic.Lib.Pipeline.Regions
import Idealize.ShloMosaic.Lib.Pipeline.Value

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe Idealize.ShloMosaic.Tactic
open Idealize.ShloMosaic.Pipeline (Dat BodyObligation)

variable {F : FTy → Type} [FloatOps F]

local notation "𝕄" => MT nD τ sig (HIx 1) (Elt F) ℕ UU ℕ

/-! ## The body's run -/

theorem hz : (![0, 0, 0, 0] : Fin 4 → Nat) = fun _ => 0 := funext fun a => by fin_cases a <;> rfl

/-- The body at any point, on any two whole staging buffers: the second ends reading what the first reads. -/
theorem bodyRun [∀ e, Nonempty (Elt F e)] (c : Dev nD) (i : grid1.Coords) (M3 M4 : Memref sig .tc .vmem S1x16x224x224 .f32) (h3 : M3.IsWhole) (h4 : M4.IsWhole)
    (f3 : Buf (Elt F) (M3.view.loc (c : Thread nD τ))) (f4 : Buf (Elt F) (M4.view.loc (c : Thread nD τ))) (Q : PUnit → sProp 𝕄) :
    iprop((M3.view.loc (c : Thread nD τ) ↦{fullShare} f3) ∗ (M4.view.loc (c : Thread nD τ) ↦{fullShare} f4)
      ∗ (iprop((M3.view.loc (c : Thread nD τ) ↦{fullShare} f3)
          ∗ ∃ f4', ⌜M4.view.read (Elt F) f4' = M3.view.read (Elt F) f3⌝ ∗ (M4.view.loc (c : Thread nD τ) ↦{fullShare} f4')) -∗ Q ⟨⟩))
      ⊢ wp frame (wpE (defs₀ (F := F)) Variants.none (c : Thread nD τ) none) Set.univ
        (cc1_copy_body i (Memref.whole main_v0) (Memref.isWhole_whole _) M3 h3 M4 h4) Q := by
  iintro ⟨H3, H4, Hk⟩
  sl_exec
  sl_step
  iapply Hk
  isplitl [H3]; · iexact H3
  iexists _; isplitr; swap; (· iexact H4)
  ipureintro
  rw [View.read_writes_eq_canon _ _ _ (fun y => ⟨_, List.mem_singleton_self _, View.mem_set_unit_zero hz inb_S1x16x224x224_S1x16x224x224_0_0_0_0 y⟩), View.canon_unit_zero hz,
    View.readAt_eq_ld, View.ld_unit_zero hz]

/-! ## The proof data -/

section Data

variable (m : (ℓ : Loc nD τ sig) → Buf (Elt F) ℓ)

abbrev v1Loc (d : Dev nD) : Loc nD τ sig := (SparseCore.T d).loc main_v1

/-- Block `t` of the argument array: what the fetch at point `t` stages, and what the body copies. -/
abbrev xblk (c : Dev nD) (t : Fin cfg1.N) : S1x16x224x224.Idx → Elt F .f32 :=
  ((cfg1.win 0).blk t).view.read (Elt F) (m (xLoc c))

/-- The pairs the TensorCore's waits may have recorded: those at level at most 8, the handshakes' of call 0. -/
def rec8 (c : Dev nD) : Set (SemLoc sig × HIx 1) := {p | (K (F := F)).lev (T c, p.1) p.2 ≤ 8}

/-- The region's proof data on device `c`: the argument array, and the result array as the aliasing copy left it;
    after the body at point `t` both staging buffers hold block `t` of the argument; nothing of the kernel's own;
    nothing owed. -/
def dats (_ : Fin 1) (c : Dev nD) : Dat τ (Elt F) (HIx 1) ℕ UU ℕ cfg1 c where
  A w := match w with
    | ⟨0, _⟩ => m (xLoc c)
    | ⟨1, _⟩ => fo1 m c
  after w t := match w with
    | ⟨0, _⟩ => xblk m c t
    | ⟨1, _⟩ => xblk m c t
  Φ _ := iprop(emp)
  q _ := fullShare
  owed _ := 0
  recorded _ := rec8 (F := F) c

abbrev 𝒱r : Variants := Variants.none

/-- The fetched window's buffer holds the argument's block when the body runs. -/
theorem before_0 (c : Dev nD) (t : Fin cfg1.N) (d : (cfg1.win 0).block.Idx → Elt F (cfg1.win 0).elt) :
    (dats m 0 c).before 0 t d = xblk m c t := by
  rw [(dats m 0 c).before_fetched 0 t (fetch1_0 t)]
  unfold Dat.fetched Dat.blockOf
  funext j
  unfold Pipeline.Window.fill
  rw [dif_pos (((cfg1.win 0).moved_iff _ j).mpr fun a => (j a).isLt)]
  rfl

theorem body_obligation [∀ e, Nonempty (Elt F e)] (c : Dev nD) : BodyObligation (dats m 0 c) (defs₀ (F := F)) 𝒱r none Set.univ := fun t => by
  rw [bigSep_W1, bigSep_W1]
  show iprop(iprop(emp) ∗ (dats m 0 c).owesAt none t.castSucc
      ∗ (∃ d, owns (c : Thread nD τ) ((cfg1.win 0).stage (cfg1.slots t 0)) fullShare ((dats m 0 c).before 0 t d))
      ∗ (∃ d, owns (c : Thread nD τ) ((cfg1.win 1).stage (cfg1.slots t 1)) fullShare ((dats m 0 c).before 1 t d)))
    ⊢ wp frame (wpE (defs₀ (F := F)) 𝒱r (c : Thread nD τ) none) Set.univ (bodyAt1 t) fun _ =>
      iprop(iprop(emp) ∗ (dats m 0 c).owesAt none t.castSucc
        ∗ owns (c : Thread nD τ) ((cfg1.win 0).stage (cfg1.slots t 0)) fullShare (xblk m c t)
        ∗ owns (c : Thread nD τ) ((cfg1.win 1).stage (cfg1.slots t 1)) fullShare (xblk m c t))
  have hw0 : ((cfg1.win 0).stage (cfg1.slots t 0)).IsWhole := hstage1_0 ((cfg1.slots t 0).cast nbuf1_0)
  have hw1 : ((cfg1.win 1).stage (cfg1.slots t 1)).IsWhole := hstage1_1 ((cfg1.slots t 1).cast nbuf1_1)
  unfold owns
  rw [hw0.set_eq_univ, hw1.set_eq_univ]
  iintro ⟨-, HO, ⟨%d0, %f0, %hf0, H0⟩, ⟨%d1, %f1, %hf1, H1⟩⟩
  rw [before_0] at hf0
  iapply (bodyRun c (grid1.coords t) ((cfg1.win 0).stage (cfg1.slots t 0)) ((cfg1.win 1).stage (cfg1.slots t 1)) hw0 hw1 f0 f1)
  isplitl [H0]; · iexact H0
  isplitl [H1]; · iexact H1
  iintro ⟨H0, %f1', %hf1', H1⟩
  isplitr; · iempintro
  isplitl [HO]; · iexact HO
  isplitl [H0]
  · iexists f0; isplitr; · ipureintro; exact hf0
    iexact H0
  · iexists f1'; isplitr; · ipureintro; exact hf1'.trans hf0
    iexact H1

end Data

/-! ## The result array after the region -/

section Value

variable (m : (ℓ : Loc nD τ sig) → Buf (Elt F) ℓ)

/-- The result window's block index at point `t`: batch `t / 15`, channel block `t % 15`. -/
theorem idx1 : ∀ t : Fin grid1.N, win1_1.index t 0 = t.val / 15 ∧ win1_1.index t 1 = t.val % 15 ∧ win1_1.index t 2 = 0 ∧ win1_1.index t 3 = 0 := by
  decide +kernel

/-- An index of the result array lies in point `t`'s block iff its batch is `t / 15` and its channel is among the sixteen
    from `16 * (t % 15)`. -/
theorem mem_blk (t : Fin cfg1.N) (i : S2x384x224x224.Idx) :
    i ∈ ((cfg1.win 1).blk t).view.set ↔ (i 0).val = t.val / 15 ∧ 16 * (t.val % 15) ≤ (i 1).val ∧ (i 1).val < 16 * (t.val % 15) + 16 := by
  show i ∈ ((View.whole main_v1).slice (win1_1.rect t)).set ↔ _
  rw [View.set_slice_whole, Rect.mem_set_unit]
  obtain ⟨e0, e1, e2, e3⟩ := idx1 t
  have h2 : (i 2).val < 224 := (i 2).isLt
  have h3 : (i 3).val < 224 := (i 3).isLt
  constructor
  · intro h
    have a0 := h 0
    have a1 := h 1
    change win1_1.index t 0 * 1 ≤ (i 0).val ∧ (i 0).val < win1_1.index t 0 * 1 + 1 at a0
    change win1_1.index t 1 * 16 ≤ (i 1).val ∧ (i 1).val < win1_1.index t 1 * 16 + 16 at a1
    rw [e0] at a0; rw [e1] at a1
    omega
  · rintro ⟨h0, h1, h1'⟩ a
    match a with
    | ⟨0, _⟩ => change win1_1.index t 0 * 1 ≤ (i 0).val ∧ (i 0).val < win1_1.index t 0 * 1 + 1; rw [e0]; omega
    | ⟨1, _⟩ => change win1_1.index t 1 * 16 ≤ (i 1).val ∧ (i 1).val < win1_1.index t 1 * 16 + 16; rw [e1]; omega
    | ⟨2, _⟩ => change win1_1.index t 2 * 224 ≤ (i 2).val ∧ (i 2).val < win1_1.index t 2 * 224 + 224; rw [e2]; omega
    | ⟨3, _⟩ => change win1_1.index t 3 * 224 ≤ (i 3).val ∧ (i 3).val < win1_1.index t 3 * 224 + 224; rw [e3]; omega

end Value

end Cert.Kernel.Launch

end
-- ==== Proof.Bits.LaunchSeg.lean ====
/-
  The copy region as the pipeline library's record, entered from inside the SparseCore program's @main: the thread
  states around it carry the TensorCore's debt (none, after the one call) with its recorded pairs' bound, and whatever
  else @main holds past the region; and the region's step on a device, through the SparseCore launch's lifting of the
  pipeline's labels.
-/
import proofs.«208198_g16930761081413_cont_7to1_1121_27_alg».proof.Proof.Bits.LaunchRegion

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe
open Idealize.ShloMosaic.Pipeline (Dat)

variable {F : FTy → Type} [FloatOps F]

local notation "𝕄" => MT nD τ sig (HIx 1) (Elt F) ℕ UU ℕ

section Region

variable (m : (ℓ : Loc nD τ sig) → Buf (Elt F) ℓ) (Rf : Dev nD → sProp (MT nD τ sig (HIx 1) (Elt F) ℕ UU ℕ))

/-- The TensorCore owing nothing, its recorded pairs at the levels of call 0's handshakes or below. -/
def OW (c : Dev nD) : sProp 𝕄 :=
  iprop(∃ W, ⌜(K (F := F)).WBelow (T c) W (8 * 1)⌝ ∗ owes (T c) (0 : CellTallies nD τ sig (HIx 1)) W)

/-- The region's two arrays, listed. -/
theorem arrays_eq1 (c : Dev nD) (A : (w : Fin cfg1.W) → Buf (Elt F) ((cfg1.win w).arr.view.loc (c : Thread nD τ))) :
    ((dats m 0 c).arrays A : sProp 𝕄) = iprop((xLoc c ↦{fullShare} A 0) ∗ (v1Loc c ↦{fullShare} A 1)) := by
  rw [Pipeline.arrays_eq cfgs (dats m) 0 c launch1.arr_whole ((dats m 0 c).share_full fun _ => rfl) A, bigSep_W1]

theorem A_zero (c : Dev nD) : (dats m 0 c).A 0 = m (xLoc c) := by dsimp only [dats]
theorem A_one' (c : Dev nD) : (dats m 0 c).A 1 = fo1 m c := by dsimp only [dats]

set_option backward.isDefEq.respectTransparency.types false in
/-- THE REGION: the generated layout, no semaphore of the kernel's own, the body obligation; entered holding the argument
    array, the result array as the aliasing copy left it, the TensorCore's debt and `Rf`, which bypasses it; left with the
    result array at what the thirty write-backs made of it. -/
def reg [∀ e, Nonempty (Elt F e)] :
    Pipeline.RegionSeg (pcfgs (F := F)) adm (dats m) none defs₀ 𝒱₀ (K (F := F)).L (K (F := F)).lev 0 := by
  refine
    { win := launch1.win.to₀
      block_pos := launch1.block_pos
      stage_whole := launch1.stage_whole
      K := PEmpty
      osem := fun k => k.elim
      ho := Pipeline.OwnSemFacts.none _
      hbody := fun c => (body_obligation m c).loose
      hwaits := Pipeline.hwaits_of_owed_zero _ _ _ _ _ _ 0 fun _ _ => rfl
      pre := fun c => iprop((xLoc c ↦{fullShare} m (xLoc c)) ∗ (v1Loc c ↦{fullShare} fo1 m c) ∗ OW (F := F) c ∗ Rf c)
      post := fun c => iprop((xLoc c ↦{fullShare} m (xLoc c)) ∗ (v1Loc c ↦{fullShare} (dats m 0 c).arrAt 1 cfg1.N) ∗ OW (F := F) c ∗ Rf c)
      X := fun _ => iprop(emp)
      Y := fun _ => iprop(emp)
      Z := fun c => Rf c
      hentry := ?he
      hin := ?hi
      hout := ?ho
      hexit := ?hx }
  case he =>
    intro c
    rw [arrays_eq1, show (dats m 0 c).arrAt 0 0 = (dats m 0 c).A 0 from rfl, show (dats m 0 c).arrAt 1 0 = (dats m 0 c).A 1 from rfl, A_zero, A_one']
    iintro ⟨⟨Hx, Hv, HO, HR⟩, -, -⟩
    imodintro
    isplitl [Hx Hv]
    · isplitl [Hx]; · iexact Hx
      iexact Hv
    isplitr; · unfold Pipeline.prefHeld; rw [show (Finset.univ : Finset (Fin 0)) = ∅ from rfl, BI.bigSep_empty]; iempintro
    isplitl [HO]
    · unfold OW Pipeline.Dat.owesAt Pipeline.owesWithin
      icases HO with ⟨%W, %hW, HO⟩; iexists W; isplitr
      · ipureintro; exact fun p hp => Or.inl (hW p hp)
      iexact HO
    isplitr; · iempintro
    iexact HR
  case hi =>
    intro c
    rw [show (dats m 0 c).Φ 0 = iprop(emp) from rfl]
    iintro -; iempintro
  case ho =>
    intro c
    rw [Pipeline.ownSems0_none, scopedRest1_eq]
    iintro -
    isplitr; · iempintro
    isplitr <;> iempintro
  case hx =>
    intro c
    rw [arrays_eq1, (dats m 0 c).arrAt_in 0 rfl, A_zero]
    iintro ⟨⟨Hx, Hv⟩, HO, -, HR⟩
    imodintro
    isplitl [Hx]; · iexact Hx
    isplitl [Hv]; · iexact Hv
    isplitl [HO]
    · unfold OW Pipeline.Dat.owesAt Pipeline.owesWithin
      icases HO with ⟨%W, %hW, HO⟩; iexists W; isplitr
      · ipureintro
        intro p hp
        rcases hW hp with h | ⟨w, s, rfl⟩
        · exact h
        · exact Nat.zero_le _
      iexact HO
    iexact HR

end Region

end Cert.Kernel.Launch

end
-- ==== Proof.Bits.LaunchStep.lean ====
/-
  The copy region's step on a device, inside the SparseCore program's @main: the pipeline library's region rule at the
  region's record, lifted through the SparseCore launch's labels.
-/
import proofs.«208198_g16930761081413_cont_7to1_1121_27_alg».proof.Proof.Bits.LaunchSeg

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe
open Idealize.ShloMosaic.Pipeline (Dat)

variable {F : FTy → Type} [FloatOps F]

local notation "𝕄" => MT nD τ sig (HIx 1) (Elt F) ℕ UU ℕ

section Step

variable (m : (ℓ : Loc nD τ sig) → Buf (Elt F) ℓ) (Rf : Dev nD → sProp (MT nD τ sig (HIx 1) (Elt F) ℕ UU ℕ))

/-- The region's call in @main is the pipeline's entry call, lifted to the SparseCore launch's labels. -/
theorem region_prog :
    (Prog.lift (.customCall (SparseCore.inner (Pipeline.entry 0)) ()) :
        Prog (TpuEff nD τ sig (Elt F) (SparseCore.Sig (ΛP (F := F)) 1) .tc) PUnit)
      = SparseCore.liftProg (.op (.customCall (Pipeline.entry 0) ()) fun _ => .ret ⟨⟩) := rfl

set_option backward.isDefEq.respectTransparency.types false in
/-- The region's step on device `d` in the pipeline's own labels. -/
theorem wp_region₀ [∀ e, Nonempty (Elt F e)] (d : Dev nD) (Q : PUnit → sProp 𝕄) :
    iprop((iprop(boundary (T d) ∗ (reg m Rf).post d) -∗ Q ⟨⟩)
        ∗ boundary (T d) ∗ (reg m Rf).pre d ∗ levAts (K (F := F)).L (K (F := F)).lev ∗ G₀ (F := F) d)
      ⊢ wp frame (wpE (D (F := F)) 𝒱 (T d) none) Set.univ (.op (.customCall (Pipeline.entry 0) ()) fun _ => .ret ⟨⟩) Q := by
  have hv : ∀ u ∈ (none : Option (Variants.lift 𝒱₀).V), (Variants.lift 𝒱₀).lt (.inr ((Pipeline.pin (pcfgs (F := F)) adm 0).tripCount + 1)) u :=
    fun _ h => nomatch h
  have key := Pipeline.RegionSeg.wp (nD := nD) (τ := τ) (Val := Elt F) (Ix := HIx 1) (Name := ℕ) (U := UU) (Lvl := ℕ)
    (pcfgs (F := F)) adm (dats m) none cellOf_inj ER defs₀ 𝒱₀ (K (F := F)).L (K (F := F)).lev
    (reg m Rf) d none hv (fun _ => .ret ⟨⟩) Q
  refine BI.Entails.trans ?_ key
  change (_ : sProp 𝕄) ⊢ _
  iintro ⟨Hk, Hb, Hpre, Hlev, Hg, Ht⟩
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

/-- The region's step on device `d`, inside the SparseCore program's @main: from the region boundary, the region's entry
    state, the level facts and the staging cells' ghost state, the call runs to the boundary and the exit state. -/
theorem wp_region [∀ e, Nonempty (Elt F e)] (d : Dev nD) (Q : PUnit → sProp 𝕄) :
    iprop((iprop(boundary (T d) ∗ (reg m Rf).post d) -∗ Q ⟨⟩)
        ∗ boundary (T d) ∗ (reg m Rf).pre d ∗ levAts (K (F := F)).L (K (F := F)).lev ∗ G₀ (F := F) d)
      ⊢ wp frame (wpE ((K (F := F)).defs (D (F := F))) 𝒱 (T d) none) Set.univ
          (Prog.lift (.customCall (SparseCore.inner (Pipeline.entry 0)) ())) Q := by
  rw [region_prog]
  exact (wp_region₀ m Rf d Q).trans ((K (F := F)).wp_liftProg (D (F := F)) 𝒱 (T d) Set.univ none _ Q)

/-- The same, the region's entry and exit states written out. -/
theorem wp_region' [∀ e, Nonempty (Elt F e)] (d : Dev nD) (Q : PUnit → sProp 𝕄) :
    iprop((iprop(boundary (T d) ∗ (xLoc d ↦{fullShare} m (xLoc d)) ∗ (v1Loc d ↦{fullShare} (dats m 0 d).arrAt 1 cfg1.N) ∗ OW (F := F) d ∗ Rf d) -∗ Q ⟨⟩)
        ∗ boundary (T d) ∗ ((xLoc d ↦{fullShare} m (xLoc d)) ∗ (v1Loc d ↦{fullShare} fo1 m d) ∗ OW (F := F) d ∗ Rf d)
        ∗ levAts (K (F := F)).L (K (F := F)).lev ∗ G₀ (F := F) d)
      ⊢ wp frame (wpE ((K (F := F)).defs (D (F := F))) 𝒱 (T d) none) Set.univ
          (Prog.lift (.customCall (SparseCore.inner (Pipeline.entry 0)) ())) Q :=
  wp_region m Rf d Q

end Step

end Cert.Kernel.Launch

end
-- ==== Proof.Bits.LaunchValue.lean ====
/-
  The result array after the copy region: what every point writes back is its block of the argument array, the thirty
  blocks are the channels below 240, and the region-entry contents elsewhere are the SparseCore call's, so the array
  ends at the specification's function of the argument.
-/
import proofs.«208198_g16930761081413_cont_7to1_1121_27_alg».proof.Proof.Bits.LaunchRegion

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe
open Idealize.ShloMosaic.Pipeline (Dat)

variable {F : FTy → Type} [FloatOps F]

local notation "𝕄" => MT nD τ sig (HIx 1) (Elt F) ℕ UU ℕ

section Value

variable (m : (ℓ : Loc nD τ sig) → Buf (Elt F) ℓ)

/-- The two windows have one index map: their blocks at a point are one rectangle of the two arrays. -/
theorem rect_eq (t : Fin grid1.N) : win1_0.rect t = win1_1.rect t := rfl

/-- Block `t` of the argument, read as the fetch reads it or as the write-back's rectangle names it. -/
theorem xblk_eq (c : Dev nD) (t : Fin cfg1.N) :
    xblk m c t = ((cfg1.win 1).blk t).view.read (Elt F) (m (xLoc c)) := by
  funext j
  show ((View.whole main_arg0).slice (win1_0.rect t)).read (Elt F) (m (xLoc c)) j = ((View.whole main_v1).slice (win1_1.rect t)).read (Elt F) (m (xLoc c)) j
  rw [View.read_apply, View.read_apply, View.emb_slice, View.emb_slice]
  rfl

theorem after_one (c : Dev nD) (t : Fin cfg1.N) : (dats m 0 c).after 1 t = xblk m c t := by dsimp only [dats]

theorem A_one (c : Dev nD) : (dats m 0 c).A 1 = fo1 m c := by dsimp only [dats]

/-- What point `t` writes back is block `t` of the argument array. -/
theorem flushed_eq (c : Dev nD) (t : Fin cfg1.N) :
    (dats m 0 c).flushed 1 t = ((cfg1.win 1).blk t).view.read (Elt F) (m (xLoc c)) := by
  rw [← xblk_eq]
  unfold Dat.flushed
  rw [after_one]
  rfl

/-- The result array after the region is the specification's function of the argument: on the channels below 240 the
    argument, written back block by block; on the others the region-entry contents, which the SparseCore call left at the
    specification's values. -/
theorem final_v1 (c : Dev nD) : (dats m 0 c).arrAt 1 cfg1.N = Cert.Spec.G (m (xLoc c)) := by
  funext i
  rw [(dats m 0 c).arrAt_eq_piecewise 1 (m (xLoc c)) (fun t _ => flushed_eq m c t) i]
  have hb : (i 0).val < 2 := (i 0).isLt
  by_cases h : (i 1).val < 240
  · have ht : (i 0).val * 15 + (i 1).val / 16 < cfg1.N := by rw [show cfg1.N = 30 from N_1]; omega
    rw [if_pos ⟨⟨(i 0).val * 15 + (i 1).val / 16, ht⟩, flush1_1 _, (mem_blk _ i).mpr (by dsimp only; omega)⟩, Cert.Spec.G_apply, Cert.Spec.src_of_lt i h]
  · rw [if_neg (fun ⟨t, _, ht⟩ => h (by have := (mem_blk t i).mp ht; omega))]
    rw [A_one, fo1_of_mem m c (mem_imgs_of_ge i (by omega))]

end Value

end Cert.Kernel.Launch

end
-- ==== Proof.Bits.Launch.lean ====
/-
  The whole program's run from the tile obligation: every weakly fair execution of the device's threads ends, nothing
  faulting, with the result array at the specification's function of the argument array and the argument unchanged.
  @main on a TensorCore: the argument and the call's result array split into the 288 images and the rest, the images
  handed to the two SparseCores and taken back at the specification's values, the call's result array rejoined, the
  aliasing copy, the copy region over the channels below 240, and the two arrays read off the final memory.
-/
import proofs.«208198_g16930761081413_cont_7to1_1121_27_alg».proof.Proof.Bits.Setup
import proofs.«208198_g16930761081413_cont_7to1_1121_27_alg».proof.Proof.Gen.Kernel.Launch
import proofs.«208198_g16930761081413_cont_7to1_1121_27_alg».proof.Proof.Gen.Kernel.Points
import proofs.«208198_g16930761081413_cont_7to1_1121_27_alg».proof.Proof.Bits.LaunchStep
import proofs.«208198_g16930761081413_cont_7to1_1121_27_alg».proof.Proof.Bits.LaunchValue

noncomputable section

namespace Cert.Kernel.Launch

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays -/

abbrev x' : DevRef τ sig := Proc.devRef .tc (main_arg0 : Ref sig .tc)
abbrev t' : DevRef τ sig := Proc.devRef .tc (main_v0 : Ref sig .tc)
abbrev r' : DevRef τ sig := Proc.devRef .tc (main_v1 : Ref sig .tc)

/-- The aliasing copy: the region's result array starts as the call's. -/
abbrev opCopy : HloOp τ sig (Elt F) := StableHlo.unary main_v0 main_v1 id

/-- The TensorCore's arrays, all unscoped. -/
abbrev S3 : Finset (DevRef τ sig) := {x', t', r'}

omit [FloatOps F] in
theorem held_S3 (d : Dev nD) (W : Valuation τ sig (Elt F)) :
    (held (T d) S3 W : sProp 𝕄) = iprop((xLoc d ↦{fullShare} W x') ∗ (oLoc d ↦{fullShare} W t') ∗ v1Loc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ v1Loc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The arrays' contents when the copy runs: the argument and the region's result array as launched, the call's result
    array as the call left it. -/
def V1 (d : Dev nD) : Valuation τ sig (Elt F) := Function.update (fun b => m (d, b)) t' (fo1 m d)

theorem V1_x (d : Dev nD) : V1 m d x' = m (xLoc d) := Function.update_of_ne (show x' ≠ t' by decide) _ _
theorem V1_t (d : Dev nD) : V1 m d t' = fo1 m d := Function.update_self _ _ _
theorem V1_r (d : Dev nD) : V1 m d r' = m (v1Loc d) := Function.update_of_ne (show r' ≠ t' by decide) _ _

theorem hCopy : (opCopy (F := F)).bufs ⊆ S3 := show ({t', r'} : Finset (DevRef τ sig)) ⊆ S3 by decide

theorem res_x (d : Dev nD) : (opCopy (F := F)).result (V1 m d) x' = m (xLoc d) :=
  (StableHlo.unary_result_ne (τ := τ) (x := main_v0) (y := main_v1) id _ _ (V1 m d) (r := main_arg0) (by decide)).trans (V1_x m d)
theorem res_t (d : Dev nD) : (opCopy (F := F)).result (V1 m d) t' = fo1 m d :=
  (StableHlo.unary_result_ne (τ := τ) (x := main_v0) (y := main_v1) id _ _ (V1 m d) (r := main_v0) (by decide)).trans (V1_t m d)
theorem res_r (d : Dev nD) : (opCopy (F := F)).result (V1 m d) r' = fo1 m d :=
  (StableHlo.unary_result' (τ := τ) (Val := Elt F) (x := main_v0) (y := main_v1) id ⟨by decide, rfl⟩ ⟨by decide, rfl⟩ (V1 m d)).trans (V1_t m d)

/-! ## The TensorCore's handshake state after the one call -/

/-- All of it but the debt. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the one call the TensorCore owes nothing more. -/
theorem tcSt_one (d : Dev nD) : ((K (F := F)).tcSt EH d 1 : sProp 𝕄) = iprop(OW (F := F) d ∗ tcRest (F := F) d) := by
  unfold SparseCore.Cfg.tcSt OW tcRest
  rw [(K (F := F)).Otc_end d le_rfl]

/-! ## @main on the TensorCore -/

/-- What bypasses the copy region: the handshake state but the debt, and the call's result array. -/
abbrev Rf (d : Dev nD) : sProp 𝕄 := iprop(tcRest (F := F) d ∗ oLoc d ↦{fullShare} fo1 m d)

/-- What @main leaves the claim: the argument as launched, the result array as the region left it. -/
abbrev FIN (d : Dev nD) : sProp 𝕄 :=
  iprop((xLoc d ↦{fullShare} m (xLoc d)) ∗ (v1Loc d ↦{fullShare} (dats m 0 d).arrAt 1 cfg1.N))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G₀ (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho, Hr⟩, -, -⟩, HG⟩
  -- the two arrays as the images and the rest
  ihave Hx' := (Entails.of_eq (xPts_imgs (F := F) d (m (xLoc d)))) $$ Hx
  icases Hx' with ⟨Hxi, Hxr⟩
  ihave Ho' := (Entails.of_eq (oPts_imgs (F := F) d (m (oLoc d)))) $$ Ho
  icases Ho' with ⟨Hoi, Hor⟩
  -- the call: the images to the two SparseCores and back
  iapply ((K (F := F)).wp_run (D (F := F)) 𝒱 (EH := EH) (P := P m) κ d 0) $$ [Hst Hxi Hoi Hxr Hor Hb Hr HG]
  isplitr; · iexact Hctx
  isplitl [Hst]; · iexact Hst
  isplitl [Hxi Hoi]
  · rw [st0_eq, cores_eq]
    isplitl [Hxi]; · iexact Hxi
    iexact Hoi
  iintro ⟨Hst, Hdn⟩
  ihave Hdn' := (Entails.of_eq ((dn0_eq m d).trans (cores_eq m d (want m d)))) $$ Hdn
  icases Hdn' with ⟨Hxi, Hoi⟩
  ihave Hx := (Entails.of_eq (xPts_imgs (F := F) d (m (xLoc d))).symm) $$ [Hxi Hxr]
  · isplitl [Hxi]; · iexact Hxi
    iexact Hxr
  ihave Ho := (oPts_join m d) $$ [Hoi Hor]
  · isplitl [Hoi]; · iexact Hoi
    iexact Hor
  -- the aliasing copy
  iapply (wp_hlo_within 𝒱 (SparseCore.T d) none Set.univ (op := opCopy) (S := S3) hCopy (V := V1 m d)) $$ [Hb Hx Ho Hr]
  · isplitl [Hb]; · iexact Hb
    rw [held_S3, V1_x, V1_t, V1_r]
    isplitl [Hx]; · iexact Hx
    isplitl [Ho]; · iexact Ho
    iexact Hr
  iintro ⟨Hb, Hheld⟩
  ihave Hh := (Entails.of_eq ((held_S3 (F := F) d _).trans (by rw [res_x, res_t, res_r]))) $$ Hheld
  icases Hh with ⟨Hx, Ho, Hr⟩
  rw [wp_ret]; imodintro
  -- the copy region
  ihave Hst' := (show ((K (F := F)).tcSt EH d ((0 : Fin 1).val + 1) : sProp 𝕄) ⊢ iprop(OW (F := F) d ∗ tcRest (F := F) d) from
    Entails.of_eq (tcSt_one (F := F) d)) $$ Hst
  icases Hst' with ⟨HOW, Hrest⟩
  ihave Hlev := ((K (F := F)).ctx_levAts κ) $$ Hctx
  iapply (wp_region' m (Rf m) d) $$ [Hb Hx Ho Hr HOW Hrest Hlev HG]
  isplitr
  · iintro ⟨-, Hx, Hr, HOW, Hrest, -⟩
    imodintro
    isplitl [HOW Hrest]
    · iapply (Entails.of_eq (tcSt_one (F := F) d).symm)
      isplitl [HOW]; · iexact HOW
      iexact Hrest
    isplitl [Hx]; · iexact Hx
    iexact Hr
  isplitl [Hb]; · iexact Hb
  isplitl [Hx Hr HOW Hrest Ho]
  · isplitl [Hx]; · iexact Hx
    isplitl [Hr]; · iexact Hr
    isplitl [HOW]; · iexact HOW
    isplitl [Hrest]; · iexact Hrest
    iexact Ho
  isplitl [Hlev]; · iexact Hlev
  iexact HG

/-! ## The final memory, read -/

def fq (d : Dev nD) (s' : Phys nD τ sig (Elt F)) : Prop :=
  s'.mem.mem (v1Loc d) = Cert.Spec.G (m (xLoc d)) ∧ s'.mem.mem (xLoc d) = m (xLoc d)

theorem hfin (d : Dev nD) (s' : Phys nD τ sig (Elt F)) : iprop(FIN m d ∗ SI s') ⊢ (⌜fq m d s'⌝ : sProp 𝕄) := by
  unfold FIN
  rw [final_v1]
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := v1Loc d) (I := Finset.univ) (q := fullShare) (f := Cert.Spec.G (m (xLoc d)))) $$ [HSI Hr]
  · isplitl [HSI] <;> iassumption
  icases H with %h2
  ipureintro; exact ⟨funext fun i => h2 i (Finset.mem_univ i), funext fun i => h1 i (Finset.mem_univ i)⟩

/-! ## The program's run -/

theorem run_main [∀ e, Nonempty (Elt F e)] (m : (ℓ : Loc nD τ sig) → Buf (Elt F) ℓ) (ρ : Dev nD → PrngReg)
    (htile : (K (F := F)).TileObl (D (F := F)) 𝒱 (P m) v₀ 0) :
    θ_run (Cert.Kernel.defs (F := F)) (Cert.Kernel.threads (F := F)) ⟨m, fun _ => 0, ρ⟩
      (fun r => ∀ c : Dev nD,
        r.2.mem ((c.tc : Thread nD τ).loc main_v1) = Cert.Spec.G (m ((c.tc : Thread nD τ).loc main_arg0))
        ∧ r.2.mem ((c.tc : Thread nD τ).loc main_arg0) = m ((c.tc : Thread nD τ).loc main_arg0)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G₀ (F := F)) (FIN m) (u₀ (F := F)) (sep_elim_left.trans (hu₀ m)) (hmain m ρ) (fq m) (hfin m) _ (fun _ h => h)

end Cert.Kernel.Launch

end
-- ==== Proof.Bits.TileGeom.lean ====
/-
  The tile body's index arithmetic in closed form. Worker (`c`, `s`) owns images `9 * (2 * s + c) + j`, `j < 9`; image `n`
  is batch `n / 144`, channel `240 + n % 144`. Pair `t` of the worker's loop handles its images `2 t` (first buffer) and
  `2 t + 1` (second buffer) and prefetches image `2 t + 2`; the tail handles image 8. Each printed slice offset is the
  image it names, and each printed condition says which pair it is or by how many places the image's quadrants rotate.
-/
import proofs.«208198_g16930761081413_cont_7to1_1121_27_alg».proof.Proof.Bits.Setup

namespace Cert.Kernel.Geom

open Cert.Kernel Cert.Kernel.Gen Cert.Kernel.Setup
open Idealize.ShloMosaic

/-- The grid point of worker (`c`, `s`). -/
def coordsV (c : Fin (grid0.bound 0)) (s : Fin (grid0.bound 1)) : grid0.Coords :=
  fun | 0 => c | 1 => s | ⟨_ + 2, h⟩ => absurd h (Nat.not_lt.2 (Nat.le_add_left _ _))

/-- Image `j` of worker (`c`, `s`) as a slice offset. -/
abbrev imgOff (c s j : Nat) : Fin 4 → Nat := ![imgB c s j, imgC c s j, 0, 0]

section
variable (c : Fin (grid0.bound 0)) (s : Fin (grid0.bound 1)) (t : Fin k0_t1_loop.trips)

/-! ### The slices -/

theorem off1_eq : ∀ (c : Fin (grid0.bound 0)) (s : Fin (grid0.bound 1)), k0_off1 (coordsV c s) = imgOff c.val s.val 0 := by decide +kernel
theorem off2_eq : ∀ (c : Fin (grid0.bound 0)) (s : Fin (grid0.bound 1)) (t : Fin k0_t1_loop.trips),
    k0_off2 (coordsV c s) t = imgOff c.val s.val (2 * t.val + 1) := by decide +kernel
theorem off3_eq : ∀ (c : Fin (grid0.bound 0)) (s : Fin (grid0.bound 1)) (t : Fin k0_t1_loop.trips),
    k0_off3 (coordsV c s) t = imgOff c.val s.val (2 * t.val + 1) := by decide +kernel
theorem off4_eq : ∀ (c : Fin (grid0.bound 0)) (s : Fin (grid0.bound 1)) (t : Fin k0_t1_loop.trips),
    k0_off4 (coordsV c s) t = imgOff c.val s.val (2 * t.val) := by decide +kernel
theorem off173_eq : ∀ (c : Fin (grid0.bound 0)) (s : Fin (grid0.bound 1)) (t : Fin k0_t1_loop.trips),
    k0_off173 (coordsV c s) t = imgOff c.val s.val (2 * t.val) := by decide +kernel
theorem off174_eq : ∀ (c : Fin (grid0.bound 0)) (s : Fin (grid0.bound 1)) (t : Fin k0_t1_loop.trips),
    k0_off174 (coordsV c s) t = imgOff c.val s.val (2 * t.val + 2) := by decide +kernel
theorem off175_6_eq : ∀ (c : Fin (grid0.bound 0)) (s : Fin (grid0.bound 1)), k0_off175 (coordsV c s) 8#32 2#32 = imgOff c.val s.val 6 := by decide +kernel
theorem off175_7_eq : ∀ (c : Fin (grid0.bound 0)) (s : Fin (grid0.bound 1)), k0_off175 (coordsV c s) 8#32 1#32 = imgOff c.val s.val 7 := by decide +kernel
theorem off175_8_eq : ∀ (c : Fin (grid0.bound 0)) (s : Fin (grid0.bound 1)), k0_off175 (coordsV c s) 9#32 1#32 = imgOff c.val s.val 8 := by decide +kernel

/-! ### The conditions -/

theorem cond1_iff : ∀ t : Fin k0_t1_loop.trips, (k0_cond1 t = 1#1) ↔ 0 < t.val := by decide +kernel
theorem cond8_iff : ∀ t : Fin k0_t1_loop.trips, (k0_cond8 t = 1#1) ↔ t.val < 3 := by decide +kernel

theorem cond2_iff : ∀ (c : Fin (grid0.bound 0)) (s : Fin (grid0.bound 1)) (t : Fin k0_t1_loop.trips),
    (k0_cond2 (coordsV c s) t = 1#1) ↔ Cert.Spec.grp (imgC c.val s.val (2 * t.val)) = 1 := by decide +kernel
theorem cond3_iff : ∀ (c : Fin (grid0.bound 0)) (s : Fin (grid0.bound 1)) (t : Fin k0_t1_loop.trips),
    (k0_cond3 (coordsV c s) t = 1#1) ↔ Cert.Spec.grp (imgC c.val s.val (2 * t.val)) = 2 := by decide +kernel
theorem cond4_iff : ∀ (c : Fin (grid0.bound 0)) (s : Fin (grid0.bound 1)) (t : Fin k0_t1_loop.trips),
    (k0_cond4 (coordsV c s) t = 1#1) ↔ Cert.Spec.grp (imgC c.val s.val (2 * t.val)) = 3 := by decide +kernel
theorem cond5_iff : ∀ (c : Fin (grid0.bound 0)) (s : Fin (grid0.bound 1)) (t : Fin k0_t1_loop.trips),
    (k0_cond5 (coordsV c s) t = 1#1) ↔ Cert.Spec.grp (imgC c.val s.val (2 * t.val + 1)) = 1 := by decide +kernel
theorem cond6_iff : ∀ (c : Fin (grid0.bound 0)) (s : Fin (grid0.bound 1)) (t : Fin k0_t1_loop.trips),
    (k0_cond6 (coordsV c s) t = 1#1) ↔ Cert.Spec.grp (imgC c.val s.val (2 * t.val + 1)) = 2 := by decide +kernel
theorem cond7_iff : ∀ (c : Fin (grid0.bound 0)) (s : Fin (grid0.bound 1)) (t : Fin k0_t1_loop.trips),
    (k0_cond7 (coordsV c s) t = 1#1) ↔ Cert.Spec.grp (imgC c.val s.val (2 * t.val + 1)) = 3 := by decide +kernel
theorem cond9_iff : ∀ (c : Fin (grid0.bound 0)) (s : Fin (grid0.bound 1)),
    (k0_cond9 (coordsV c s) = 1#1) ↔ Cert.Spec.grp (imgC c.val s.val 8) = 1 := by decide +kernel
theorem cond10_iff : ∀ (c : Fin (grid0.bound 0)) (s : Fin (grid0.bound 1)),
    (k0_cond10 (coordsV c s) = 1#1) ↔ Cert.Spec.grp (imgC c.val s.val 8) = 2 := by decide +kernel
theorem cond11_iff : ∀ (c : Fin (grid0.bound 0)) (s : Fin (grid0.bound 1)),
    (k0_cond11 (coordsV c s) = 1#1) ↔ Cert.Spec.grp (imgC c.val s.val 8) = 3 := by decide +kernel

end

/-- Every image of the call rotates by one, two or three places. -/
theorem grp_img (c s j : Nat) : Cert.Spec.grp (imgC c s j) = 1 ∨ Cert.Spec.grp (imgC c s j) = 2 ∨ Cert.Spec.grp (imgC c s j) = 3 := by
  have h1 := imgC_ge c s j
  have h2 := imgC_lt c s j
  unfold Cert.Spec.grp
  split
  · omega
  · omega

end Cert.Kernel.Geom
-- ==== Proof.Bits.TileBase.lean ====
/-
  One worker's task. The worker on SparseCore `c`, vector subcore `s` moves its nine images through two staging buffers:
  image `n` is copied in, its quadrants are rotated in place by its channel's group, and it is copied out to the same
  place of the result. Copies overlap with the rotation of the other buffer; each of the four copy semaphores has at
  most one copy outstanding at a time, and no buffer is touched while a copy into or out of it is pending.
-/
import proofs.«208198_g16930761081413_cont_7to1_1121_27_alg».proof.Proof.Bits.Setup
import proofs.«208198_g16930761081413_cont_7to1_1121_27_alg».proof.Proof.Bits.TileGeom
import proofs.«208198_g16930761081413_cont_7to1_1121_27_alg».proof.Proof.Gen.Kernel.Skeleton

noncomputable section

namespace Cert.Kernel.Tile

open Cert.Kernel Cert.Kernel.Gen Cert.Kernel.Setup Cert.Kernel.Geom

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

abbrev cV (L : grid0.Coords) : Fin τ.nSC := (L 0).castLE hcore0
abbrev jV (L : grid0.Coords) : Fin τ.nSub := (L 1).castLE hsub0

/-- An image of a whole array as the body slices it: the slice at the image's offset, squeezed to 224 x 224. -/
abbrev imgM (b : Memref sig .scVector .hbm S2x384x224x224 .f32) (off : Fin 4 → Nat)
    (h : ∀ a, off a + S1x1x224x224.size a ≤ S2x384x224x224.size a) : Memref sig .scVector .hbm S224x224 .f32 :=
  (b.slice (Rect.unit (s := S2x384x224x224) off S1x1x224x224.size h) (fun _ => rfl)).squeeze S224x224 squeezes_S1x1x224x224_S224x224

/-- The image's index set is its rectangle's. -/
theorem set_imgM_x (off : Fin 4 → Nat) (h : ∀ a, off a + S1x1x224x224.size a ≤ S2x384x224x224.size a) :
    (imgM xW off h).view.set = (Rect.unit (s := S2x384x224x224) off S1x1x224x224.size h).set := by
  show (((View.whole (main_arg0_scv : Ref sig .scVector)).slice _).reshape S224x224 _).set = _
  rw [View.set_reshape]; exact View.set_slice_whole _ _
theorem set_imgM_o (off : Fin 4 → Nat) (h : ∀ a, off a + S1x1x224x224.size a ≤ S2x384x224x224.size a) :
    (imgM oW off h).view.set = (Rect.unit (s := S2x384x224x224) off S1x1x224x224.size h).set := by
  show (((View.whole (main_v0_scv : Ref sig .scVector)).slice _).reshape S224x224 _).set = _
  rw [View.set_reshape]; exact View.set_slice_whole _ _

/-- Equal offsets, equal rectangles. -/
theorem unit_congr {off off' : Fin 4 → Nat} (e : off = off')
    (h : ∀ a, off a + S1x1x224x224.size a ≤ S2x384x224x224.size a) (h' : ∀ a, off' a + S1x1x224x224.size a ≤ S2x384x224x224.size a) :
    Rect.unit (s := S2x384x224x224) off S1x1x224x224.size h = Rect.unit (s := S2x384x224x224) off' S1x1x224x224.size h' := by
  subst e; rfl

section Worker

variable (c : Fin (grid0.bound 0)) (s : Fin (grid0.bound 1))

/-- The worker's indices as the launch's payloads spell them. -/
abbrev c2 : Fin 2 := ⟨c.val, c.isLt⟩
abbrev s16 : Fin 16 := ⟨s.val, s.isLt⟩

/-- A slice of the worker whose offset is its image `j`'s has image `j`'s index set. -/
theorem set_x_img (j : Fin 9) (off : Fin 4 → Nat) (h : ∀ a, off a + S1x1x224x224.size a ≤ S2x384x224x224.size a)
    (e : off = imgOff c.val s.val j.val) : (imgM xW off h).view.set = tileImg (c2 c) (s16 s) j := by
  rw [set_imgM_x]; unfold tileImg imgRect
  exact congrArg (fun r : Rect S2x384x224x224 => r.set) (unit_congr e h _)
theorem set_o_img (j : Fin 9) (off : Fin 4 → Nat) (h : ∀ a, off a + S1x1x224x224.size a ≤ S2x384x224x224.size a)
    (e : off = imgOff c.val s.val j.val) : (imgM oW off h).view.set = tileImg (c2 c) (s16 s) j := by
  rw [set_imgM_o]; unfold tileImg imgRect
  exact congrArg (fun r : Rect S2x384x224x224 => r.set) (unit_congr e h _)

variable (d : Dev nD)

abbrev thr : Thread nD τ := V d (cV (coordsV c s)) (jV (coordsV c s))

/-- An image piece of `x` (of `o`), as the launch hands it over, is the piece the body's slice addresses. -/
theorem pts_x_img (j : Fin 9) (off : Fin 4 → Nat) (h : ∀ a, off a + S1x1x224x224.size a ≤ S2x384x224x224.size a)
    (e : off = imgOff c.val s.val j.val) (f : Buf (Elt F) (xLoc d)) :
    ((imgM xW off h).view.loc (thr c s d) ↦[(imgM xW off h).view.set]{fullShare} f : sProp 𝕄)
      = (xLoc d ↦[tileImg (c2 c) (s16 s) j]{fullShare} f) := by
  rw [set_x_img c s j off h e]
theorem pts_o_img (j : Fin 9) (off : Fin 4 → Nat) (h : ∀ a, off a + S1x1x224x224.size a ≤ S2x384x224x224.size a)
    (e : off = imgOff c.val s.val j.val) (f : Buf (Elt F) (oLoc d)) :
    ((imgM oW off h).view.loc (thr c s d) ↦[(imgM oW off h).view.set]{fullShare} f : sProp 𝕄)
      = (oLoc d ↦[tileImg (c2 c) (s16 s) j]{fullShare} f) := by
  rw [set_o_img c s j off h e]

section States

variable [FloatOps F]
variable (fx : Buf (Elt F) (xLoc d)) (fo : Buf (Elt F) (oLoc d))

omit [FloatOps F] in
theorem pts_b0 (g : Buf (Elt F) ((thr c s d).loc cc0_scratch0)) :
    ((b0).view.loc (thr c s d) ↦{fullShare} g : sProp 𝕄) = ((thr c s d).loc cc0_scratch0 ↦{fullShare} g) := rfl
omit [FloatOps F] in
theorem pts_b1 (g : Buf (Elt F) ((thr c s d).loc cc0_scratch1)) :
    ((b1).view.loc (thr c s d) ↦{fullShare} g : sProp 𝕄) = ((thr c s d).loc cc0_scratch1 ↦{fullShare} g) := rfl

/-- The specification's result as contents of the call's result array. -/
abbrev want : Buf (Elt F) (oLoc d) := Cert.Spec.G fx

/-- What a copy of an image of `x` into a scratch delivers: the image. -/
abbrev loaded (off : Fin 4 → Nat) (h : ∀ a, off a + S1x1x224x224.size a ≤ S2x384x224x224.size a) : S224x224.Idx → Elt F EltTy.f32 :=
  ReadAs.same.apply (View.read (Elt F) (imgM xW off h).view fx)

/-- A copy of image `j` of `x` into the first scratch is pending on the first copy-in semaphore: its landing hands back
    the scratch at the image (over whatever it held) and the image's piece of `x`. -/
def FL0 (j : Nat) : sProp 𝕄 :=
  iprop(∃ (off : Fin 4 → Nat) (h : ∀ a, off a + S1x1x224x224.size a ≤ S2x384x224x224.size a)
      (gp : Buf (Elt F) ((thr c s d).loc cc0_scratch0)), ⌜off = imgOff c.val s.val j⌝ ∗
    Transfers.Flight countersEmb (thr c s d) (SemLoc.dma cc0_scratch2.sem) default 1605632
      iprop(((b0).view.loc (thr c s d) ↦{fullShare} View.write (Elt F) (b0).view gp (loaded d fx off h) Finset.univ)
        ∗ ((imgM xW off h).view.loc (thr c s d) ↦[(imgM xW off h).view.set]{fullShare} fx)))

/-- A copy payload is right for the image of the result at offset `off`: at every position it is the specification there. -/
def GoodPay (off : Fin 4 → Nat) (h : ∀ a, off a + S1x1x224x224.size a ≤ S2x384x224x224.size a)
    (w : S224x224.Idx → Elt F EltTy.f32) : Prop :=
  ∀ y, w y = View.read (Elt F) (imgM oW off h).view (want d fx) y

/-- A copy of a scratch `bk` out to image `j` of `o` is pending on semaphore `sm`: its landing hands back image `j`'s
    piece of `o` written with a payload that is right for it, and the scratch at some contents. -/
def FS (bk : Memref sig .scVector .vmem S224x224 .f32) (sm : DmaSem sig) (j : Nat) : sProp 𝕄 :=
  iprop(∃ (off : Fin 4 → Nat) (h : ∀ a, off a + S1x1x224x224.size a ≤ S2x384x224x224.size a)
      (w : S224x224.Idx → Elt F EltTy.f32) (cont : Buf (Elt F) (bk.view.loc (thr c s d))),
    ⌜off = imgOff c.val s.val j ∧ GoodPay d fx off h w⌝ ∗
    Transfers.Flight countersEmb (thr c s d) (SemLoc.dma sm) default 1605632
      iprop(((imgM oW off h).view.loc (thr c s d) ↦[(imgM oW off h).view.set]{fullShare}
            (imgM oW off h).view.writes (Elt F) fo [⟨Rect.whole S224x224, w⟩])
        ∗ (bk.view.loc (thr c s d) ↦[bk.view.set]{fullShare} cont)))

variable (O : CellTallies nD τ sig (HIx 1)) (W : Waits sig (HIx 1))

/-- Before pair 0. -/
def St0 : sProp 𝕄 :=
  iprop(Transfers.MayWaits (thr c s d) (none : HIx 1) O
      ∗ (∃ W', ⌜∀ p ∈ W', p ∈ W ∨ p.2 = none⌝ ∗ owes (thr c s d) O W')
      ∗ FL0 c s d fx 0
      ∗ (∃ g1, (thr c s d).loc cc0_scratch1 ↦{fullShare} g1)
      ∗ semVal (thr c s d, SemLoc.dma cc0_scratch5.sem) 0
      ∗ semVal (thr c s d, SemLoc.dma cc0_scratch3.sem) 0
      ∗ semVal (thr c s d, SemLoc.dma cc0_scratch4.sem) 0
      ∗ (xLoc d ↦[tileImg (c2 c) (s16 s) 1]{fullShare} fx)
      ∗ (xLoc d ↦[tileImg (c2 c) (s16 s) 2]{fullShare} fx)
      ∗ (xLoc d ↦[tileImg (c2 c) (s16 s) 3]{fullShare} fx)
      ∗ (xLoc d ↦[tileImg (c2 c) (s16 s) 4]{fullShare} fx)
      ∗ (xLoc d ↦[tileImg (c2 c) (s16 s) 5]{fullShare} fx)
      ∗ (xLoc d ↦[tileImg (c2 c) (s16 s) 6]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} fo)
      ∗ (oLoc d ↦[tileImg (c2 c) (s16 s) 1]{fullShare} fo)
      ∗ (oLoc d ↦[tileImg (c2 c) (s16 s) 2]{fullShare} fo)
      ∗ (oLoc d ↦[tileImg (c2 c) (s16 s) 3]{fullShare} fo)
      ∗ (oLoc d ↦[tileImg (c2 c) (s16 s) 4]{fullShare} fo)
      ∗ (oLoc d ↦[tileImg (c2 c) (s16 s) 5]{fullShare} fo)
      ∗ (oLoc d ↦[tileImg (c2 c) (s16 s) 6]{fullShare} fo)
      ∗ (oLoc d ↦[tileImg (c2 c) (s16 s) 7]{fullShare} fo)
      ∗ (oLoc d ↦[tileImg (c2 c) (s16 s) 8]{fullShare} fo))

/-- Before pair 1. -/
def St1 : sProp 𝕄 :=
  iprop(Transfers.MayWaits (thr c s d) (none : HIx 1) O
      ∗ (∃ W', ⌜∀ p ∈ W', p ∈ W ∨ p.2 = none⌝ ∗ owes (thr c s d) O W')
      ∗ FL0 c s d fx 2
      ∗ FS c s d fx fo b1 cc0_scratch5.sem 1
      ∗ semVal (thr c s d, SemLoc.dma cc0_scratch3.sem) 0
      ∗ semVal (thr c s d, SemLoc.dma cc0_scratch4.sem) 0
      ∗ (xLoc d ↦[tileImg (c2 c) (s16 s) 0]{fullShare} fx)
      ∗ (xLoc d ↦[tileImg (c2 c) (s16 s) 1]{fullShare} fx)
      ∗ (xLoc d ↦[tileImg (c2 c) (s16 s) 3]{fullShare} fx)
      ∗ (xLoc d ↦[tileImg (c2 c) (s16 s) 4]{fullShare} fx)
      ∗ (xLoc d ↦[tileImg (c2 c) (s16 s) 5]{fullShare} fx)
      ∗ (xLoc d ↦[tileImg (c2 c) (s16 s) 6]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} want d fx)
      ∗ (oLoc d ↦[tileImg (c2 c) (s16 s) 2]{fullShare} fo)
      ∗ (oLoc d ↦[tileImg (c2 c) (s16 s) 3]{fullShare} fo)
      ∗ (oLoc d ↦[tileImg (c2 c) (s16 s) 4]{fullShare} fo)
      ∗ (oLoc d ↦[tileImg (c2 c) (s16 s) 5]{fullShare} fo)
      ∗ (oLoc d ↦[tileImg (c2 c) (s16 s) 6]{fullShare} fo)
      ∗ (oLoc d ↦[tileImg (c2 c) (s16 s) 7]{fullShare} fo)
      ∗ (oLoc d ↦[tileImg (c2 c) (s16 s) 8]{fullShare} fo))

/-- Before pair 2. -/
def St2 : sProp 𝕄 :=
  iprop(Transfers.MayWaits (thr c s d) (none : HIx 1) O
      ∗ (∃ W', ⌜∀ p ∈ W', p ∈ W ∨ p.2 = none⌝ ∗ owes (thr c s d) O W')
      ∗ FL0 c s d fx 4
      ∗ FS c s d fx fo b1 cc0_scratch5.sem 3
      ∗ semVal (thr c s d, SemLoc.dma cc0_scratch3.sem) 0
      ∗ semVal (thr c s d, SemLoc.dma cc0_scratch4.sem) 0
      ∗ (xLoc d ↦[tileImg (c2 c) (s16 s) 0]{fullShare} fx)
      ∗ (xLoc d ↦[tileImg (c2 c) (s16 s) 1]{fullShare} fx)
      ∗ (xLoc d ↦[tileImg (c2 c) (s16 s) 2]{fullShare} fx)
      ∗ (xLoc d ↦[tileImg (c2 c) (s16 s) 3]{fullShare} fx)
      ∗ (xLoc d ↦[tileImg (c2 c) (s16 s) 5]{fullShare} fx)
      ∗ (xLoc d ↦[tileImg (c2 c) (s16 s) 6]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} want d fx)
      ∗ (oLoc d ↦[tileImg (c2 c) (s16 s) 1]{fullShare} want d fx)
      ∗ (oLoc d ↦[tileImg (c2 c) (s16 s) 2]{fullShare} want d fx)
      ∗ (oLoc d ↦[tileImg (c2 c) (s16 s) 4]{fullShare} fo)
      ∗ (oLoc d ↦[tileImg (c2 c) (s16 s) 5]{fullShare} fo)
      ∗ (oLoc d ↦[tileImg (c2 c) (s16 s) 6]{fullShare} fo)
      ∗ (oLoc d ↦[tileImg (c2 c) (s16 s) 7]{fullShare} fo)
      ∗ (oLoc d ↦[tileImg (c2 c) (s16 s) 8]{fullShare} fo))

/-- Before pair 3. -/
def St3 : sProp 𝕄 :=
  iprop(Transfers.MayWaits (thr c s d) (none : HIx 1) O
      ∗ (∃ W', ⌜∀ p ∈ W', p ∈ W ∨ p.2 = none⌝ ∗ owes (thr c s d) O W')
      ∗ FL0 c s d fx 6
      ∗ FS c s d fx fo b1 cc0_scratch5.sem 5
      ∗ semVal (thr c s d, SemLoc.dma cc0_scratch3.sem) 0
      ∗ semVal (thr c s d, SemLoc.dma cc0_scratch4.sem) 0
      ∗ (xLoc d ↦[tileImg (c2 c) (s16 s) 0]{fullShare} fx)
      ∗ (xLoc d ↦[tileImg (c2 c) (s16 s) 1]{fullShare} fx)
      ∗ (xLoc d ↦[tileImg (c2 c) (s16 s) 2]{fullShare} fx)
      ∗ (xLoc d ↦[tileImg (c2 c) (s16 s) 3]{fullShare} fx)
      ∗ (xLoc d ↦[tileImg (c2 c) (s16 s) 4]{fullShare} fx)
      ∗ (xLoc d ↦[tileImg (c2 c) (s16 s) 5]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} want d fx)
      ∗ (oLoc d ↦[tileImg (c2 c) (s16 s) 1]{fullShare} want d fx)
      ∗ (oLoc d ↦[tileImg (c2 c) (s16 s) 2]{fullShare} want d fx)
      ∗ (oLoc d ↦[tileImg (c2 c) (s16 s) 3]{fullShare} want d fx)
      ∗ (oLoc d ↦[tileImg (c2 c) (s16 s) 4]{fullShare} want d fx)
      ∗ (oLoc d ↦[tileImg (c2 c) (s16 s) 6]{fullShare} fo)
      ∗ (oLoc d ↦[tileImg (c2 c) (s16 s) 7]{fullShare} fo)
      ∗ (oLoc d ↦[tileImg (c2 c) (s16 s) 8]{fullShare} fo))

/-- After the last pair. -/
def St4 : sProp 𝕄 :=
  iprop(Transfers.MayWaits (thr c s d) (none : HIx 1) O
      ∗ (∃ W', ⌜∀ p ∈ W', p ∈ W ∨ p.2 = none⌝ ∗ owes (thr c s d) O W')
      ∗ FS c s d fx fo b0 cc0_scratch4.sem 6
      ∗ FS c s d fx fo b1 cc0_scratch5.sem 7
      ∗ semVal (thr c s d, SemLoc.dma cc0_scratch2.sem) 0
      ∗ semVal (thr c s d, SemLoc.dma cc0_scratch3.sem) 0
      ∗ (xLoc d ↦[tileImg (c2 c) (s16 s) 0]{fullShare} fx)
      ∗ (xLoc d ↦[tileImg (c2 c) (s16 s) 1]{fullShare} fx)
      ∗ (xLoc d ↦[tileImg (c2 c) (s16 s) 2]{fullShare} fx)
      ∗ (xLoc d ↦[tileImg (c2 c) (s16 s) 3]{fullShare} fx)
      ∗ (xLoc d ↦[tileImg (c2 c) (s16 s) 4]{fullShare} fx)
      ∗ (xLoc d ↦[tileImg (c2 c) (s16 s) 5]{fullShare} fx)
      ∗ (xLoc d ↦[tileImg (c2 c) (s16 s) 6]{fullShare} fx)
      ∗ (xLoc d ↦[tileImg (c2 c) (s16 s) 7]{fullShare} fx)
      ∗ (xLoc d ↦[tileImg (c2 c) (s16 s) 8]{fullShare} fx)
      ∗ (oLoc d ↦[tileImg (c2 c) (s16 s) 0]{fullShare} want d fx)
      ∗ (oLoc d ↦[tileImg (c2 c) (s16 s) 1]{fullShare} want d fx)
      ∗ (oLoc d ↦[tileImg (c2 c) (s16 s) 2]{fullShare} want d fx)
      ∗ (oLoc d ↦[tileImg (c2 c) (s16 s) 3]{fullShare} want d fx)
      ∗ (oLoc d ↦[tileImg (c2 c) (s16 s) 4]{fullShare} want d fx)
      ∗ (oLoc d ↦[tileImg (c2 c) (s16 s) 5]{fullShare} want d fx)
      ∗ (oLoc d ↦[tileImg (c2 c) (s16 s) 8]{fullShare} fo))

/-- The nine rotate loops, each taking its scratch from contents `f` to `f` with its quadrants rotated. -/
structure RotFacts : Prop where
  t2 : ∀ (k0_t1 : Fin k0_t1_loop.trips) (h : k0_cond2 (coordsV c s) k0_t1 = 1#1) (v218 v247 c48 v248 : BitVec 32) (v249 : BitVec 1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t2_loop (k0_t2_ok (coordsV c s) k0_t1 h) ⟨⟩
              (k0_t2_body (coordsV c s) xW (Memref.isWhole_whole _) oW (Memref.isWhole_whole _) b0 (Memref.isWhole_whole _) b1 (Memref.isWhole_whole _)
                cc0_scratch2 cc0_scratch3 cc0_scratch4 cc0_scratch5 k0_t1 v218 v247 c48 v248 v249 h))
            fun _ => ((b0).view.loc (thr c s d) ↦{fullShare} (Cert.Spec.rotBuf 1 f : Buf (Elt F) ((thr c s d).loc cc0_scratch0)) : sProp 𝕄)
  t3 : ∀ (k0_t1 : Fin k0_t1_loop.trips) (h : k0_cond3 (coordsV c s) k0_t1 = 1#1) (v218 v247 c48 v248 : BitVec 32) (v249 : BitVec 1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t3_loop (k0_t3_ok (coordsV c s) k0_t1 h) ⟨⟩
              (k0_t3_body (coordsV c s) xW (Memref.isWhole_whole _) oW (Memref.isWhole_whole _) b0 (Memref.isWhole_whole _) b1 (Memref.isWhole_whole _)
                cc0_scratch2 cc0_scratch3 cc0_scratch4 cc0_scratch5 k0_t1 v218 v247 c48 v248 v249 h))
            fun _ => ((b0).view.loc (thr c s d) ↦{fullShare} (Cert.Spec.rotBuf 2 f : Buf (Elt F) ((thr c s d).loc cc0_scratch0)) : sProp 𝕄)
  t4 : ∀ (k0_t1 : Fin k0_t1_loop.trips) (h : k0_cond4 (coordsV c s) k0_t1 = 1#1) (v218 v247 c48 v248 : BitVec 32) (v249 : BitVec 1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t4_loop (k0_t4_ok (coordsV c s) k0_t1 h) ⟨⟩
              (k0_t4_body (coordsV c s) xW (Memref.isWhole_whole _) oW (Memref.isWhole_whole _) b0 (Memref.isWhole_whole _) b1 (Memref.isWhole_whole _)
                cc0_scratch2 cc0_scratch3 cc0_scratch4 cc0_scratch5 k0_t1 v218 v247 c48 v248 v249 h))
            fun _ => ((b0).view.loc (thr c s d) ↦{fullShare} (Cert.Spec.rotBuf 3 f : Buf (Elt F) ((thr c s d).loc cc0_scratch0)) : sProp 𝕄)
  t5 : ∀ (v2 c0 : BitVec 32) (k0_t1 : Fin k0_t1_loop.trips) (h : k0_cond5 (coordsV c s) k0_t1 = 1#1) (f : Buf (Elt F) ((thr c s d).loc cc0_scratch1)),
      ((b1).view.loc (thr c s d) ↦{fullShare} f : sProp 𝕄)
        ⊢ wp frame (wpE (defs₀ (F := F)) 𝒱₀ (thr c s d) none) Set.univ
            (Scf.Loop.for k0_t5_loop (k0_t5_ok (coordsV c s) k0_t1 h) ⟨⟩
              (k0_t5_body (coordsV c s) xW (Memref.isWhole_whole _) oW (Memref.isWhole_whole _) b0 (Memref.isWhole_whole _) b1 (Memref.isWhole_whole _)
                cc0_scratch2 cc0_scratch3 cc0_scratch4 cc0_scratch5 v2 c0 k0_t1 h))
            fun _ => ((b1).view.loc (thr c s d) ↦{fullShare} (Cert.Spec.rotBuf 1 f : Buf (Elt F) ((thr c s d).loc cc0_scratch1)) : sProp 𝕄)
  t6 : ∀ (v2 c0 : BitVec 32) (k0_t1 : Fin k0_t1_loop.trips) (h : k0_cond6 (coordsV c s) k0_t1 = 1#1) (f : Buf (Elt F) ((thr c s d).loc cc0_scratch1)),
      ((b1).view.loc (thr c s d) ↦{fullShare} f : sProp 𝕄)
        ⊢ wp frame (wpE (defs₀ (F := F)) 𝒱₀ (thr c s d) none) Set.univ
            (Scf.Loop.for k0_t6_loop (k0_t6_ok (coordsV c s) k0_t1 h) ⟨⟩
              (k0_t6_body (coordsV c s) xW (Memref.isWhole_whole _) oW (Memref.isWhole_whole _) b0 (Memref.isWhole_whole _) b1 (Memref.isWhole_whole _)
                cc0_scratch2 cc0_scratch3 cc0_scratch4 cc0_scratch5 v2 c0 k0_t1 h))
            fun _ => ((b1).view.loc (thr c s d) ↦{fullShare} (Cert.Spec.rotBuf 2 f : Buf (Elt F) ((thr c s d).loc cc0_scratch1)) : sProp 𝕄)
  t7 : ∀ (v2 c0 : BitVec 32) (k0_t1 : Fin k0_t1_loop.trips) (h : k0_cond7 (coordsV c s) k0_t1 = 1#1) (f : Buf (Elt F) ((thr c s d).loc cc0_scratch1)),
      ((b1).view.loc (thr c s d) ↦{fullShare} f : sProp 𝕄)
        ⊢ wp frame (wpE (defs₀ (F := F)) 𝒱₀ (thr c s d) none) Set.univ
            (Scf.Loop.for k0_t7_loop (k0_t7_ok (coordsV c s) k0_t1 h) ⟨⟩
              (k0_t7_body (coordsV c s) xW (Memref.isWhole_whole _) oW (Memref.isWhole_whole _) b0 (Memref.isWhole_whole _) b1 (Memref.isWhole_whole _)
                cc0_scratch2 cc0_scratch3 cc0_scratch4 cc0_scratch5 v2 c0 k0_t1 h))
            fun _ => ((b1).view.loc (thr c s d) ↦{fullShare} (Cert.Spec.rotBuf 3 f : Buf (Elt F) ((thr c s d).loc cc0_scratch1)) : sProp 𝕄)
  t8 : ∀ (v2 v82 : BitVec 32) (h : k0_cond9 (coordsV c s) = 1#1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t8_loop (k0_t8_ok (coordsV c s) h) ⟨⟩
              (k0_t8_body (coordsV c s) xW (Memref.isWhole_whole _) oW (Memref.isWhole_whole _) b0 (Memref.isWhole_whole _) b1 (Memref.isWhole_whole _)
                cc0_scratch2 cc0_scratch3 cc0_scratch4 cc0_scratch5 v2 v82 h))
            fun _ => ((b0).view.loc (thr c s d) ↦{fullShare} (Cert.Spec.rotBuf 1 f : Buf (Elt F) ((thr c s d).loc cc0_scratch0)) : sProp 𝕄)
  t9 : ∀ (v2 v82 : BitVec 32) (h : k0_cond10 (coordsV c s) = 1#1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t9_loop (k0_t9_ok (coordsV c s) h) ⟨⟩
              (k0_t9_body (coordsV c s) xW (Memref.isWhole_whole _) oW (Memref.isWhole_whole _) b0 (Memref.isWhole_whole _) b1 (Memref.isWhole_whole _)
                cc0_scratch2 cc0_scratch3 cc0_scratch4 cc0_scratch5 v2 v82 h))
            fun _ => ((b0).view.loc (thr c s d) ↦{fullShare} (Cert.Spec.rotBuf 2 f : Buf (Elt F) ((thr c s d).loc cc0_scratch0)) : sProp 𝕄)
  t10 : ∀ (v2 v82 : BitVec 32) (h : k0_cond11 (coordsV c s) = 1#1) (f : Buf (Elt F) ((thr c s d).loc cc0_scratch0)),
      ((b0).view.loc (thr c s d) ↦{fullShare} f : sProp 𝕄)
        ⊢ wp frame (wpE (defs₀ (F := F)) 𝒱₀ (thr c s d) none) Set.univ
            (Scf.Loop.for k0_t10_loop (k0_t10_ok (coordsV c s) h) ⟨⟩
              (k0_t10_body (coordsV c s) xW (Memref.isWhole_whole _) oW (Memref.isWhole_whole _) b0 (Memref.isWhole_whole _) b1 (Memref.isWhole_whole _)
                cc0_scratch2 cc0_scratch3 cc0_scratch4 cc0_scratch5 v2 v82 h))
            fun _ => ((b0).view.loc (thr c s d) ↦{fullShare} (Cert.Spec.rotBuf 3 f : Buf (Elt F) ((thr c s d).loc cc0_scratch0)) : sProp 𝕄)

end States

end Worker

end Cert.Kernel.Tile

end
-- ==== Proof.Bits.TileValue.lean ====
/-
  Pure facts about a worker's images: what a staging buffer holds after an image is copied in, that an image copied in,
  rotated by its channel's group and copied out is the specification's image, and small respellings of held pieces.
-/
import proofs.«208198_g16930761081413_cont_7to1_1121_27_alg».proof.Proof.Bits.TileBase

noncomputable section

namespace Cert.Kernel.Tile

open Cert.Kernel Cert.Kernel.Gen Cert.Kernel.Setup Cert.Kernel.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable (c : Fin (grid0.bound 0)) (s : Fin (grid0.bound 1)) (d : Dev nD)
variable [FloatOps F]
variable (fx : Buf (Elt F) (xLoc d)) (fo : Buf (Elt F) (oLoc d))
variable (O : CellTallies nD τ sig (HIx 1)) (W : Waits sig (HIx 1))

/-! ### Small respellings -/

omit [FloatOps F] in
/-- A whole scratch held on its view's set is held whole. -/
theorem pts_set_b0 (g : Buf (Elt F) ((thr c s d).loc cc0_scratch0)) :
    ((b0).view.loc (thr c s d) ↦[(b0).view.set]{fullShare} g : sProp 𝕄) = ((b0).view.loc (thr c s d) ↦{fullShare} g) := by
  simp only [Memref.view_whole, View.set_whole]
omit [FloatOps F] in
theorem pts_set_b1 (g : Buf (Elt F) ((thr c s d).loc cc0_scratch1)) :
    ((b1).view.loc (thr c s d) ↦[(b1).view.set]{fullShare} g : sProp 𝕄) = ((b1).view.loc (thr c s d) ↦{fullShare} g) := by
  simp only [Memref.view_whole, View.set_whole]

omit [FloatOps F] in
/-- A whole scratch written whole, as a one-piece list over any contents, holds the payload. -/
theorem writes_whole_eq0 (f : Buf (Elt F) ((thr c s d).loc cc0_scratch0)) (w : S224x224.Idx → Elt F EltTy.f32) :
    ((b0).view.writes (Elt F) f [⟨Rect.whole S224x224, w⟩] : Buf (Elt F) ((thr c s d).loc cc0_scratch0)) = w := by
  funext i
  have h := View.write_emb_of_mem (Val := Elt F)
    (v := (View.whole (cc0_scratch0 : Ref sig .scVector)).slice (Rect.whole S224x224)) f w (M := Finset.univ) (x := i) (Finset.mem_univ i)
  have he : ((View.whole (cc0_scratch0 : Ref sig .scVector)).slice (Rect.whole S224x224)).emb i = i := by
    show (Rect.whole S224x224).emb i = i
    exact Rect.emb_whole_apply _ _
  rw [he] at h
  exact h
omit [FloatOps F] in
theorem writes_whole_eq1 (f : Buf (Elt F) ((thr c s d).loc cc0_scratch1)) (w : S224x224.Idx → Elt F EltTy.f32) :
    ((b1).view.writes (Elt F) f [⟨Rect.whole S224x224, w⟩] : Buf (Elt F) ((thr c s d).loc cc0_scratch1)) = w := by
  funext i
  have h := View.write_emb_of_mem (Val := Elt F)
    (v := (View.whole (cc0_scratch1 : Ref sig .scVector)).slice (Rect.whole S224x224)) f w (M := Finset.univ) (x := i) (Finset.mem_univ i)
  have he : ((View.whole (cc0_scratch1 : Ref sig .scVector)).slice (Rect.whole S224x224)).emb i = i := by
    show (Rect.whole S224x224).emb i = i
    exact Rect.emb_whole_apply _ _
  rw [he] at h
  exact h

omit [FloatOps F] in
/-- A wait recorded at the kernel's own index keeps the recorded waits admissible. -/
theorem ins_ok {A : Waits sig (HIx 1)} (h : ∀ p ∈ A, p ∈ W ∨ p.2 = none) (sm : SemLoc sig) :
    ∀ p ∈ insert (sm, (default : HIx 1)) A, p ∈ W ∨ p.2 = none := by
  intro p hp
  rcases Finset.mem_insert.mp hp with rfl | hp
  · exact .inr rfl
  · exact h p hp

omit [FloatOps F] in
/-- A whole scratch written whole over any contents holds the payload: here, the loaded image. -/
theorem ld_write0 (gp : Buf (Elt F) ((thr c s d).loc cc0_scratch0)) (off : Fin 4 → Nat)
    (h : ∀ a, off a + S1x1x224x224.size a ≤ S2x384x224x224.size a) :
    (View.write (Elt F) (b0).view gp (loaded d fx off h) Finset.univ : Buf (Elt F) ((thr c s d).loc cc0_scratch0))
      = (loaded d fx off h : Buf (Elt F) ((thr c s d).loc cc0_scratch0)) :=
  View.write_whole_univ (Val := Elt F) (cc0_scratch0 : Ref sig .scVector) gp _
omit [FloatOps F] in
theorem ld_write1 (gp : Buf (Elt F) ((thr c s d).loc cc0_scratch1)) (off : Fin 4 → Nat)
    (h : ∀ a, off a + S1x1x224x224.size a ≤ S2x384x224x224.size a) :
    (View.write (Elt F) (b1).view gp (loaded d fx off h) Finset.univ : Buf (Elt F) ((thr c s d).loc cc0_scratch1))
      = (loaded d fx off h : Buf (Elt F) ((thr c s d).loc cc0_scratch1)) :=
  View.write_whole_univ (Val := Elt F) (cc0_scratch1 : Ref sig .scVector) gp _
omit [FloatOps F] in
theorem ld_writes0 (f : Buf (Elt F) ((thr c s d).loc cc0_scratch0)) (off : Fin 4 → Nat)
    (h : ∀ a, off a + S1x1x224x224.size a ≤ S2x384x224x224.size a) :
    ((b0).view.writes (Elt F) f [⟨Rect.whole S224x224, loaded d fx off h⟩] : Buf (Elt F) ((thr c s d).loc cc0_scratch0))
      = (loaded d fx off h : Buf (Elt F) ((thr c s d).loc cc0_scratch0)) :=
  writes_whole_eq0 c s d f _
omit [FloatOps F] in
theorem ld_writes1 (f : Buf (Elt F) ((thr c s d).loc cc0_scratch1)) (off : Fin 4 → Nat)
    (h : ∀ a, off a + S1x1x224x224.size a ≤ S2x384x224x224.size a) :
    ((b1).view.writes (Elt F) f [⟨Rect.whole S224x224, loaded d fx off h⟩] : Buf (Elt F) ((thr c s d).loc cc0_scratch1))
      = (loaded d fx off h : Buf (Elt F) ((thr c s d).loc cc0_scratch1)) :=
  writes_whole_eq1 c s d f _

section Key
open Idealize.ShloMosaic.ValueIdx

/-! ### Where an image sits in the whole array -/

/-- The whole array's index of position `y` of the image at offset `off`. -/
def imgIdx (off : Fin 4 → Nat) (h : ∀ a, off a + S1x1x224x224.size a ≤ S2x384x224x224.size a) (y : S224x224.Idx) :
    S2x384x224x224.Idx :=
  Idealize.ShloMosaic.ValueIdx.ix4
    (⟨off 0, by have h0 : off 0 + 1 ≤ 2 := h 0; omega⟩ : Fin 2)
    (⟨off 1, by have h1 : off 1 + 1 ≤ 384 := h 1; omega⟩ : Fin 384)
    (⟨off 2 + (y 0).val, by have h2 : off 2 + 224 ≤ 224 := h 2; have hy : (y 0).val < 224 := (y 0).isLt; omega⟩ : Fin 224)
    (⟨off 3 + (y 1).val, by have h3 : off 3 + 224 ≤ 224 := h 3; have hy : (y 1).val < 224 := (y 1).isLt; omega⟩ : Fin 224)

omit [FloatOps F] in
/-- Where an image's positions sit in the whole array: batch and channel the offset's, row and column the offset's plus
    the position's. -/
theorem emb_imgM_x (off : Fin 4 → Nat) (h : ∀ a, off a + S1x1x224x224.size a ≤ S2x384x224x224.size a) (y : S224x224.Idx) :
    ((imgM xW off h).view.emb y : S2x384x224x224.Idx) = imgIdx off h y := by
  have hk : ∀ hn : S224x224.numel = (Rect.unit (s := S2x384x224x224) off S1x1x224x224.size h).shape.numel,
      Shape.reshapeEquiv hn y
        = (ix4 (0 : Fin 1) (0 : Fin 1) (⟨(y 0).val, (y 0).isLt⟩ : Fin 224) (⟨(y 1).val, (y 1).isLt⟩ : Fin 224) :
            (Rect.unit (s := S2x384x224x224) off S1x1x224x224.size h).shape.Idx) := fun hn =>
    Shape.reshapeEquiv_eq_of_rowMajor hn (by
      show ((⟨4, ![1, 1, 224, 224]⟩ : Shape).rowMajor
          (ix4 (0 : Fin 1) (0 : Fin 1) (⟨(y 0).val, (y 0).isLt⟩ : Fin 224) (⟨(y 1).val, (y 1).isLt⟩ : Fin 224)) : Nat)
        = ((⟨2, ![224, 224]⟩ : Shape).rowMajor y : Nat)
      rw [Shape.rowMajor_val_four, Shape.rowMajor_val_two]
      show ((0 * 1 + 0) * 224 + (y 0).val) * 224 + (y 1).val = (y 0).val * 224 + (y 1).val
      omega)
  show (Rect.unit (s := S2x384x224x224) off S1x1x224x224.size h).emb (Shape.reshapeEquiv _ y) = _
  rw [hk]
  funext a
  refine Fin.ext ?_
  rw [Rect.emb_apply]
  match a with
  | ⟨0, _⟩ => show off 0 + 1 * 0 = off 0; omega
  | ⟨1, _⟩ => show off 1 + 1 * 0 = off 1; omega
  | ⟨2, _⟩ => show off 2 + 1 * (y 0).val = off 2 + (y 0).val; omega
  | ⟨3, _⟩ => show off 3 + 1 * (y 1).val = off 3 + (y 1).val; omega

omit [FloatOps F] in
/-- Where an image's positions sit in the whole array: batch and channel the offset's, row and column the offset's plus
    the position's. -/
theorem emb_imgM_o (off : Fin 4 → Nat) (h : ∀ a, off a + S1x1x224x224.size a ≤ S2x384x224x224.size a) (y : S224x224.Idx) :
    ((imgM oW off h).view.emb y : S2x384x224x224.Idx) = imgIdx off h y := by
  have hk : ∀ hn : S224x224.numel = (Rect.unit (s := S2x384x224x224) off S1x1x224x224.size h).shape.numel,
      Shape.reshapeEquiv hn y
        = (ix4 (0 : Fin 1) (0 : Fin 1) (⟨(y 0).val, (y 0).isLt⟩ : Fin 224) (⟨(y 1).val, (y 1).isLt⟩ : Fin 224) :
            (Rect.unit (s := S2x384x224x224) off S1x1x224x224.size h).shape.Idx) := fun hn =>
    Shape.reshapeEquiv_eq_of_rowMajor hn (by
      show ((⟨4, ![1, 1, 224, 224]⟩ : Shape).rowMajor
          (ix4 (0 : Fin 1) (0 : Fin 1) (⟨(y 0).val, (y 0).isLt⟩ : Fin 224) (⟨(y 1).val, (y 1).isLt⟩ : Fin 224)) : Nat)
        = ((⟨2, ![224, 224]⟩ : Shape).rowMajor y : Nat)
      rw [Shape.rowMajor_val_four, Shape.rowMajor_val_two]
      show ((0 * 1 + 0) * 224 + (y 0).val) * 224 + (y 1).val = (y 0).val * 224 + (y 1).val
      omega)
  show (Rect.unit (s := S2x384x224x224) off S1x1x224x224.size h).emb (Shape.reshapeEquiv _ y) = _
  rw [hk]
  funext a
  refine Fin.ext ?_
  rw [Rect.emb_apply]
  match a with
  | ⟨0, _⟩ => show off 0 + 1 * 0 = off 0; omega
  | ⟨1, _⟩ => show off 1 + 1 * 0 = off 1; omega
  | ⟨2, _⟩ => show off 2 + 1 * (y 0).val = off 2 + (y 0).val; omega
  | ⟨3, _⟩ => show off 3 + 1 * (y 1).val = off 3 + (y 1).val; omega

end Key

/-! ### The value of a copied-out image -/

/-- An image copied into scratch 0, rotated there by its channel's group and read back is a right payload for the same image
    of the result. -/
theorem goodPay_rot0 (j : Fin 9) (g : Nat) (hg : g = Cert.Spec.grp (imgC c.val s.val j.val))
    (offx : Fin 4 → Nat) (hx : ∀ a, offx a + S1x1x224x224.size a ≤ S2x384x224x224.size a) (ex : offx = imgOff c.val s.val j.val)
    (offo : Fin 4 → Nat) (ho : ∀ a, offo a + S1x1x224x224.size a ≤ S2x384x224x224.size a) (eo : offo = imgOff c.val s.val j.val)
    (fb : Buf (Elt F) ((thr c s d).loc cc0_scratch0)) (hfb : fb = (loaded d fx offx hx : Buf (Elt F) ((thr c s d).loc cc0_scratch0))) :
    GoodPay d fx offo ho
      (ReadAs.same.apply (View.read (Elt F) (b0).view (Cert.Spec.rotBuf g fb : Buf (Elt F) ((thr c s d).loc cc0_scratch0)))) := by
  subst hfb ex eo hg
  unfold GoodPay
  intro y
  show fx ((imgM xW _ hx).view.emb (Cert.Spec.bufSrc _ y)) = fx (Cert.Spec.src ((imgM oW _ ho).view.emb y))
  rw [emb_imgM_x, emb_imgM_o]
  refine congrArg fx (funext fun a => Fin.ext ?_)
  match a with
  | ⟨0, _⟩ => rfl
  | ⟨1, _⟩ => rfl
  | ⟨2, _⟩ =>
    show 0 + Cert.Spec.bufH (Cert.Spec.grp (imgC c.val s.val j.val)) (y 0).val (y 1).val
      = Cert.Spec.bufH (Cert.Spec.grp (imgC c.val s.val j.val)) (0 + (y 0).val) (0 + (y 1).val)
    simp only [Nat.zero_add]
  | ⟨3, _⟩ =>
    show 0 + Cert.Spec.bufW (Cert.Spec.grp (imgC c.val s.val j.val)) (y 0).val (y 1).val
      = Cert.Spec.bufW (Cert.Spec.grp (imgC c.val s.val j.val)) (0 + (y 0).val) (0 + (y 1).val)
    simp only [Nat.zero_add]

/-- An image copied into scratch 1, rotated there by its channel's group and read back is a right payload for the same image
    of the result. -/
theorem goodPay_rot1 (j : Fin 9) (g : Nat) (hg : g = Cert.Spec.grp (imgC c.val s.val j.val))
    (offx : Fin 4 → Nat) (hx : ∀ a, offx a + S1x1x224x224.size a ≤ S2x384x224x224.size a) (ex : offx = imgOff c.val s.val j.val)
    (offo : Fin 4 → Nat) (ho : ∀ a, offo a + S1x1x224x224.size a ≤ S2x384x224x224.size a) (eo : offo = imgOff c.val s.val j.val)
    (fb : Buf (Elt F) ((thr c s d).loc cc0_scratch1)) (hfb : fb = (loaded d fx offx hx : Buf (Elt F) ((thr c s d).loc cc0_scratch1))) :
    GoodPay d fx offo ho
      (ReadAs.same.apply (View.read (Elt F) (b1).view (Cert.Spec.rotBuf g fb : Buf (Elt F) ((thr c s d).loc cc0_scratch1)))) := by
  subst hfb ex eo hg
  unfold GoodPay
  intro y
  show fx ((imgM xW _ hx).view.emb (Cert.Spec.bufSrc _ y)) = fx (Cert.Spec.src ((imgM oW _ ho).view.emb y))
  rw [emb_imgM_x, emb_imgM_o]
  refine congrArg fx (funext fun a => Fin.ext ?_)
  match a with
  | ⟨0, _⟩ => rfl
  | ⟨1, _⟩ => rfl
  | ⟨2, _⟩ =>
    show 0 + Cert.Spec.bufH (Cert.Spec.grp (imgC c.val s.val j.val)) (y 0).val (y 1).val
      = Cert.Spec.bufH (Cert.Spec.grp (imgC c.val s.val j.val)) (0 + (y 0).val) (0 + (y 1).val)
    simp only [Nat.zero_add]
  | ⟨3, _⟩ =>
    show 0 + Cert.Spec.bufW (Cert.Spec.grp (imgC c.val s.val j.val)) (y 0).val (y 1).val
      = Cert.Spec.bufW (Cert.Spec.grp (imgC c.val s.val j.val)) (0 + (y 0).val) (0 + (y 1).val)
    simp only [Nat.zero_add]

/-- Image `j`'s piece of `o`, written whole with a right payload, is at the specification's values. -/
theorem o_final (j : Fin 9) (off : Fin 4 → Nat) (h : ∀ a, off a + S1x1x224x224.size a ≤ S2x384x224x224.size a)
    (e : off = imgOff c.val s.val j.val) (f' : Buf (Elt F) (oLoc d)) (w : S224x224.Idx → Elt F EltTy.f32) (hw : GoodPay d fx off h w) :
    ((imgM oW off h).view.loc (thr c s d) ↦[(imgM oW off h).view.set]{fullShare}
        (imgM oW off h).view.writes (Elt F) f' [⟨Rect.whole S224x224, w⟩] : sProp 𝕄)
      ⊢ (oLoc d ↦[tileImg (c2 c) (s16 s) j]{fullShare} want d fx) := by
  rw [pts_o_img c s d j off h e]
  refine Entails.of_eq (pointsTo_congr fun i hi => ?_)
  rw [← set_o_img c s j off h e] at hi
  obtain ⟨y, -, rfl⟩ := Finset.mem_map.mp hi
  have h1 := View.read_writes_cons_emb (v := (imgM oW off h).view) (f := f') (Rect.whole S224x224) w [] y
  rw [Rect.emb_whole_apply] at h1
  have h3 := h1.trans (hw y)
  rw [View.read_apply, View.read_apply] at h3
  exact (cast_inj _).mp h3

end Cert.Kernel.Tile

end
-- ==== Proof.Bits.Trip0.lean ====
/-
  Pair 0 of a worker's loop: from the state before it to the state after it.
-/
import proofs.«208198_g16930761081413_cont_7to1_1121_27_alg».proof.Proof.Bits.TileValue

noncomputable section

namespace Cert.Kernel.Tile

open Cert.Kernel Cert.Kernel.Gen Cert.Kernel.Setup Cert.Kernel.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable (c : Fin (grid0.bound 0)) (s : Fin (grid0.bound 1)) (d : Dev nD)
variable (fx : Buf (Elt F) (xLoc d)) (fo : Buf (Elt F) (oLoc d))
variable (O : CellTallies nD τ sig (HIx 1)) (W : Waits sig (HIx 1))

abbrev t0 : Fin k0_t1_loop.trips := ⟨0, by decide⟩

/-- The three conditions on an image's rotation, from its group. -/
theorem conds_b0_0 {g : Nat} (hg : Cert.Spec.grp (imgC c.val s.val (2 * (t0).val)) = g) :
    (k0_cond2 (coordsV c s) t0 = 1#1 ↔ g = 1) ∧ (k0_cond3 (coordsV c s) t0 = 1#1 ↔ g = 2) ∧ (k0_cond4 (coordsV c s) t0 = 1#1 ↔ g = 3) := by
  subst hg; exact ⟨cond2_iff c s t0, cond3_iff c s t0, cond4_iff c s t0⟩
theorem conds_b1_0 {g : Nat} (hg : Cert.Spec.grp (imgC c.val s.val (2 * (t0).val + 1)) = g) :
    (k0_cond5 (coordsV c s) t0 = 1#1 ↔ g = 1) ∧ (k0_cond6 (coordsV c s) t0 = 1#1 ↔ g = 2) ∧ (k0_cond7 (coordsV c s) t0 = 1#1 ↔ g = 3) := by
  subst hg; exact ⟨cond5_iff c s t0, cond6_iff c s t0, cond7_iff c s t0⟩

set_option maxHeartbeats 1600000 in
theorem trip0 (R : RotFacts (F := F) c s d) (v2 c0 : BitVec 32) :
    St0 c s d fx fo O W
      ⊢ wp frame (wpE (defs₀ (F := F)) 𝒱₀ (thr c s d) none) Set.univ
          (k0_t1_body (coordsV c s) xW (Memref.isWhole_whole _) oW (Memref.isWhole_whole _) b0 (Memref.isWhole_whole _) b1 (Memref.isWhole_whole _)
            cc0_scratch2 cc0_scratch3 cc0_scratch4 cc0_scratch5 v2 c0 t0 ())
          fun _ => St1 c s d fx fo O W := by
  have h1 : ¬ k0_cond1 t0 = 1#1 := by rw [cond1_iff]; decide
  have h8 : k0_cond8 t0 = 1#1 := by rw [cond8_iff]; decide
  obtain ⟨g0, hg0, hg0r⟩ : ∃ g, Cert.Spec.grp (imgC c.val s.val (2 * (t0).val)) = g ∧ (g = 1 ∨ g = 2 ∨ g = 3) := ⟨_, rfl, grp_img _ _ _⟩
  obtain ⟨g1', hg1, hg1r⟩ : ∃ g, Cert.Spec.grp (imgC c.val s.val (2 * (t0).val + 1)) = g ∧ (g = 1 ∨ g = 2 ∨ g = 3) := ⟨_, rfl, grp_img _ _ _⟩
  obtain ⟨e2, e3, e4⟩ := conds_b0_0 c s hg0
  obtain ⟨e5, e6, e7⟩ := conds_b1_0 c s hg1
  rcases hg0r with rfl | rfl | rfl <;> rcases hg1r with rfl | rfl | rfl
  case inl.inl =>
    have h2 : k0_cond2 (coordsV c s) t0 = 1#1 := e2.mpr rfl
    have h3 : ¬ k0_cond3 (coordsV c s) t0 = 1#1 := fun h => absurd (e3.mp h) (by decide)
    have h4 : ¬ k0_cond4 (coordsV c s) t0 = 1#1 := fun h => absurd (e4.mp h) (by decide)
    have h5 : k0_cond5 (coordsV c s) t0 = 1#1 := e5.mpr rfl
    have h6 : ¬ k0_cond6 (coordsV c s) t0 = 1#1 := fun h => absurd (e6.mp h) (by decide)
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inl.inr.inl =>
    have h2 : k0_cond2 (coordsV c s) t0 = 1#1 := e2.mpr rfl
    have h3 : ¬ k0_cond3 (coordsV c s) t0 = 1#1 := fun h => absurd (e3.mp h) (by decide)
    have h4 : ¬ k0_cond4 (coordsV c s) t0 = 1#1 := fun h => absurd (e4.mp h) (by decide)
    have h5 : ¬ k0_cond5 (coordsV c s) t0 = 1#1 := fun h => absurd (e5.mp h) (by decide)
    have h6 : k0_cond6 (coordsV c s) t0 = 1#1 := e6.mpr rfl
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inl.inr.inr =>
    have h2 : k0_cond2 (coordsV c s) t0 = 1#1 := e2.mpr rfl
    have h3 : ¬ k0_cond3 (coordsV c s) t0 = 1#1 := fun h => absurd (e3.mp h) (by decide)
    have h4 : ¬ k0_cond4 (coordsV c s) t0 = 1#1 := fun h => absurd (e4.mp h) (by decide)
    have h5 : ¬ k0_cond5 (coordsV c s) t0 = 1#1 := fun h => absurd (e5.mp h) (by decide)
    have h6 : ¬ k0_cond6 (coordsV c s) t0 = 1#1 := fun h => absurd (e6.mp h) (by decide)
    have h7 : k0_cond7 (coordsV c s) t0 = 1#1 := e7.mpr rfl
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inl.inl =>
    have h2 : ¬ k0_cond2 (coordsV c s) t0 = 1#1 := fun h => absurd (e2.mp h) (by decide)
    have h3 : k0_cond3 (coordsV c s) t0 = 1#1 := e3.mpr rfl
    have h4 : ¬ k0_cond4 (coordsV c s) t0 = 1#1 := fun h => absurd (e4.mp h) (by decide)
    have h5 : k0_cond5 (coordsV c s) t0 = 1#1 := e5.mpr rfl
    have h6 : ¬ k0_cond6 (coordsV c s) t0 = 1#1 := fun h => absurd (e6.mp h) (by decide)
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inl.inr.inl =>
    have h2 : ¬ k0_cond2 (coordsV c s) t0 = 1#1 := fun h => absurd (e2.mp h) (by decide)
    have h3 : k0_cond3 (coordsV c s) t0 = 1#1 := e3.mpr rfl
    have h4 : ¬ k0_cond4 (coordsV c s) t0 = 1#1 := fun h => absurd (e4.mp h) (by decide)
    have h5 : ¬ k0_cond5 (coordsV c s) t0 = 1#1 := fun h => absurd (e5.mp h) (by decide)
    have h6 : k0_cond6 (coordsV c s) t0 = 1#1 := e6.mpr rfl
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inl.inr.inr =>
    have h2 : ¬ k0_cond2 (coordsV c s) t0 = 1#1 := fun h => absurd (e2.mp h) (by decide)
    have h3 : k0_cond3 (coordsV c s) t0 = 1#1 := e3.mpr rfl
    have h4 : ¬ k0_cond4 (coordsV c s) t0 = 1#1 := fun h => absurd (e4.mp h) (by decide)
    have h5 : ¬ k0_cond5 (coordsV c s) t0 = 1#1 := fun h => absurd (e5.mp h) (by decide)
    have h6 : ¬ k0_cond6 (coordsV c s) t0 = 1#1 := fun h => absurd (e6.mp h) (by decide)
    have h7 : k0_cond7 (coordsV c s) t0 = 1#1 := e7.mpr rfl
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inr.inl =>
    have h2 : ¬ k0_cond2 (coordsV c s) t0 = 1#1 := fun h => absurd (e2.mp h) (by decide)
    have h3 : ¬ k0_cond3 (coordsV c s) t0 = 1#1 := fun h => absurd (e3.mp h) (by decide)
    have h4 : k0_cond4 (coordsV c s) t0 = 1#1 := e4.mpr rfl
    have h5 : k0_cond5 (coordsV c s) t0 = 1#1 := e5.mpr rfl
    have h6 : ¬ k0_cond6 (coordsV c s) t0 = 1#1 := fun h => absurd (e6.mp h) (by decide)
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inr.inr.inl =>
    have h2 : ¬ k0_cond2 (coordsV c s) t0 = 1#1 := fun h => absurd (e2.mp h) (by decide)
    have h3 : ¬ k0_cond3 (coordsV c s) t0 = 1#1 := fun h => absurd (e3.mp h) (by decide)
    have h4 : k0_cond4 (coordsV c s) t0 = 1#1 := e4.mpr rfl
    have h5 : ¬ k0_cond5 (coordsV c s) t0 = 1#1 := fun h => absurd (e5.mp h) (by decide)
    have h6 : k0_cond6 (coordsV c s) t0 = 1#1 := e6.mpr rfl
    have h7 : ¬ k0_cond7 (coordsV c s) t0 = 1#1 := fun h => absurd (e7.mp h) (by decide)
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  case inr.inr.inr.inr =>
    have h2 : ¬ k0_cond2 (coordsV c s) t0 = 1#1 := fun h => absurd (e2.mp h) (by decide)
    have h3 : ¬ k0_cond3 (coordsV c s) t0 = 1#1 := fun h => absurd (e3.mp h) (by decide)
    have h4 : k0_cond4 (coordsV c s) t0 = 1#1 := e4.mpr rfl
    have h5 : ¬ k0_cond5 (coordsV c s) t0 = 1#1 := fun h => absurd (e5.mp h) (by decide)
    have h6 : ¬ k0_cond6 (coordsV c s) t0 = 1#1 := fun h => absurd (e6.mp h) (by decide)
    have h7 : k0_cond7 (coordsV c s) t0 = 1#1 := e7.mpr rfl
    unfold St0 FL0 k0_t1_body
    iintro ⟨Hmw, ⟨%W', %hW', HO⟩, ⟨%off0, %hoff0, %gp0, %e0, HF0⟩, ⟨%g1, Hb1⟩, Hs5, Hs3, Hs4, HXb, HXc, HXd, HXe, HXf, HXg, HXh, HXi, HOa, HOb, HOc, HOd, HOe, HOf, HOg, HOh, HOi⟩
    have hgp0 := goodPay_rot0 c s d fx 0 _ hg0.symm off0 hoff0 e0 (k0_off4 (coordsV c s) t0) (k0_off4_inb _ _) (off4_eq c s t0) (View.write (Elt F) (b0).view gp0 (loaded d fx off0 hoff0) Finset.univ) (ld_write0 c s d fx gp0 off0 hoff0)
    have hgp1 := goodPay_rot1 c s d fx 1 _ hg1.symm (k0_off3 (coordsV c s) t0) (k0_off3_inb _ _) (off3_eq c s t0) (k0_off3 (coordsV c s) t0) (k0_off3_inb _ _) (off3_eq c s t0) (View.write (Elt F) (b1).view g1 (loaded d fx (k0_off3 (coordsV c s) t0) (k0_off3_inb _ _)) Finset.univ) (ld_write1 c s d fx g1 (k0_off3 (coordsV c s) t0) (k0_off3_inb _ _))
    ihave HXp := (Entails.of_eq (pts_x_img (F := F) c s d 1 (k0_off3 (coordsV c s) t0) (k0_off3_inb _ _) (off3_eq c s t0) fx).symm) $$ HXb
    ihave HOp := (Entails.of_eq (pts_o_img (F := F) c s d 0 (k0_off4 (coordsV c s) t0) (k0_off4_inb _ _) (off4_eq c s t0) fo).symm) $$ HOa
    ihave HOq := (Entails.of_eq (pts_o_img (F := F) c s d 1 (k0_off3 (coordsV c s) t0) (k0_off3_inb _ _) (off3_eq c s t0) fo).symm) $$ HOb
    ihave HXn := (Entails.of_eq (pts_x_img (F := F) c s d 2 (k0_off174 (coordsV c s) t0) (k0_off174_inb _ _ h8) (off174_eq c s t0) fx).symm) $$ HXc
    ihave Hb1v := (Entails.of_eq (pts_b1 (F := F) c s d g1).symm) $$ Hb1
    sl_exec
    rw [wp_bind]
    iapply (wp_wand_r frame _ Set.univ)
    isplitl [HF0_dst]
    · first
        | iapply (R.t2 t0 h2 0 0 0 0 0 _) $$ HF0_dst
        | iapply (R.t3 t0 h3 0 0 0 0 0 _) $$ HF0_dst
        | iapply (R.t4 t0 h4 0 0 0 0 0 _) $$ HF0_dst
    iintro %_ Hb0
    sl_exec
    rw [wp_bind]
    iapply (wp_wand_r frame _ Set.univ)
    isplitl [Hb1v]
    · first
        | iapply (R.t5 v2 c0 t0 h5 _) $$ Hb1v
        | iapply (R.t6 v2 c0 t0 h6 _) $$ Hb1v
        | iapply (R.t7 v2 c0 t0 h7 _) $$ Hb1v
    iintro %_ Hb1r
    sl_exec
    sl_step
    unfold St1 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t0), (k0_off174_inb _ _ h8), _; isplitr
      · ipureintro; exact off174_eq c s t0
      iexact HF0
    isplitl [Hs5]
    · iexists (k0_off3 (coordsV c s) t0), (k0_off3_inb _ _), _, _
      isplitr
      rotate_left
      · iexact Hs5
      ipureintro
      exact ⟨off3_eq c s t0, hgp1⟩
    isplitl [Hs3]
    · iexact Hs3
    isplitl [Hs4]
    · iexact Hs4
    isplitl [HF0_src]
    · iapply (Entails.of_eq (pts_x_img (F := F) c s d 0 off0 hoff0 e0 fx)); iexact HF0_src
    isplitl [HXp]
    · iapply (Entails.of_eq (pts_x_img (F := F) c s d 1 (k0_off3 (coordsV c s) t0) (k0_off3_inb _ _) (off3_eq c s t0) fx)); iexact HXp
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOp]
    · iapply (o_final (F := F) c s d fx 0 (k0_off4 (coordsV c s) t0) (k0_off4_inb _ _) (off4_eq c s t0) _ _ hgp0); iexact HOp
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi

end Cert.Kernel.Tile

end
-- ==== Proof.Bits.Trip1.lean ====
/-
  Pair 1 of a worker's loop: from the state before it to the state after it.
-/
import proofs.«208198_g16930761081413_cont_7to1_1121_27_alg».proof.Proof.Bits.TileValue

noncomputable section

namespace Cert.Kernel.Tile

open Cert.Kernel Cert.Kernel.Gen Cert.Kernel.Setup Cert.Kernel.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable (c : Fin (grid0.bound 0)) (s : Fin (grid0.bound 1)) (d : Dev nD)
variable (fx : Buf (Elt F) (xLoc d)) (fo : Buf (Elt F) (oLoc d))
variable (O : CellTallies nD τ sig (HIx 1)) (W : Waits sig (HIx 1))

abbrev t1 : Fin k0_t1_loop.trips := ⟨1, by decide⟩

/-- The three conditions on an image's rotation, from its group. -/
theorem conds_b0_1 {g : Nat} (hg : Cert.Spec.grp (imgC c.val s.val (2 * (t1).val)) = g) :
    (k0_cond2 (coordsV c s) t1 = 1#1 ↔ g = 1) ∧ (k0_cond3 (coordsV c s) t1 = 1#1 ↔ g = 2) ∧ (k0_cond4 (coordsV c s) t1 = 1#1 ↔ g = 3) := by
  subst hg; exact ⟨cond2_iff c s t1, cond3_iff c s t1, cond4_iff c s t1⟩
theorem conds_b1_1 {g : Nat} (hg : Cert.Spec.grp (imgC c.val s.val (2 * (t1).val + 1)) = g) :
    (k0_cond5 (coordsV c s) t1 = 1#1 ↔ g = 1) ∧ (k0_cond6 (coordsV c s) t1 = 1#1 ↔ g = 2) ∧ (k0_cond7 (coordsV c s) t1 = 1#1 ↔ g = 3) := by
  subst hg; exact ⟨cond5_iff c s t1, cond6_iff c s t1, cond7_iff c s t1⟩

set_option maxHeartbeats 1600000 in
theorem trip1 (R : RotFacts (F := F) c s d) (v2 c0 : BitVec 32) :
    St1 c s d fx fo O W
      ⊢ wp frame (wpE (defs₀ (F := F)) 𝒱₀ (thr c s d) none) Set.univ
          (k0_t1_body (coordsV c s) xW (Memref.isWhole_whole _) oW (Memref.isWhole_whole _) b0 (Memref.isWhole_whole _) b1 (Memref.isWhole_whole _)
            cc0_scratch2 cc0_scratch3 cc0_scratch4 cc0_scratch5 v2 c0 t1 ())
          fun _ => St2 c s d fx fo O W := by
  have h1 : k0_cond1 t1 = 1#1 := by rw [cond1_iff]; decide
  have h8 : k0_cond8 t1 = 1#1 := by rw [cond8_iff]; decide
  obtain ⟨g0, hg0, hg0r⟩ : ∃ g, Cert.Spec.grp (imgC c.val s.val (2 * (t1).val)) = g ∧ (g = 1 ∨ g = 2 ∨ g = 3) := ⟨_, rfl, grp_img _ _ _⟩
  obtain ⟨g1', hg1, hg1r⟩ : ∃ g, Cert.Spec.grp (imgC c.val s.val (2 * (t1).val + 1)) = g ∧ (g = 1 ∨ g = 2 ∨ g = 3) := ⟨_, rfl, grp_img _ _ _⟩
  obtain ⟨e2, e3, e4⟩ := conds_b0_1 c s hg0
  obtain ⟨e5, e6, e7⟩ := conds_b1_1 c s hg1
  rcases hg0r with rfl | rfl | rfl <;> rcases hg1r with rfl | rfl | rfl
  case inl.inl =>
    have h2 : k0_cond2 (coordsV c s) t1 = 1#1 := e2.mpr rfl
    have h3 : ¬ k0_cond3 (coordsV c s) t1 = 1#1 := fun h => absurd (e3.mp h) (by decide)
    have h4 : ¬ k0_cond4 (coordsV c s) t1 = 1#1 := fun h => absurd (e4.mp h) (by decide)
    have h5 : k0_cond5 (coordsV c s) t1 = 1#1 := e5.mpr rfl
    have h6 : ¬ k0_cond6 (coordsV c s) t1 = 1#1 := fun h => absurd (e6.mp h) (by decide)
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inl.inr.inl =>
    have h2 : k0_cond2 (coordsV c s) t1 = 1#1 := e2.mpr rfl
    have h3 : ¬ k0_cond3 (coordsV c s) t1 = 1#1 := fun h => absurd (e3.mp h) (by decide)
    have h4 : ¬ k0_cond4 (coordsV c s) t1 = 1#1 := fun h => absurd (e4.mp h) (by decide)
    have h5 : ¬ k0_cond5 (coordsV c s) t1 = 1#1 := fun h => absurd (e5.mp h) (by decide)
    have h6 : k0_cond6 (coordsV c s) t1 = 1#1 := e6.mpr rfl
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inl.inr.inr =>
    have h2 : k0_cond2 (coordsV c s) t1 = 1#1 := e2.mpr rfl
    have h3 : ¬ k0_cond3 (coordsV c s) t1 = 1#1 := fun h => absurd (e3.mp h) (by decide)
    have h4 : ¬ k0_cond4 (coordsV c s) t1 = 1#1 := fun h => absurd (e4.mp h) (by decide)
    have h5 : ¬ k0_cond5 (coordsV c s) t1 = 1#1 := fun h => absurd (e5.mp h) (by decide)
    have h6 : ¬ k0_cond6 (coordsV c s) t1 = 1#1 := fun h => absurd (e6.mp h) (by decide)
    have h7 : k0_cond7 (coordsV c s) t1 = 1#1 := e7.mpr rfl
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inl.inl =>
    have h2 : ¬ k0_cond2 (coordsV c s) t1 = 1#1 := fun h => absurd (e2.mp h) (by decide)
    have h3 : k0_cond3 (coordsV c s) t1 = 1#1 := e3.mpr rfl
    have h4 : ¬ k0_cond4 (coordsV c s) t1 = 1#1 := fun h => absurd (e4.mp h) (by decide)
    have h5 : k0_cond5 (coordsV c s) t1 = 1#1 := e5.mpr rfl
    have h6 : ¬ k0_cond6 (coordsV c s) t1 = 1#1 := fun h => absurd (e6.mp h) (by decide)
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inl.inr.inl =>
    have h2 : ¬ k0_cond2 (coordsV c s) t1 = 1#1 := fun h => absurd (e2.mp h) (by decide)
    have h3 : k0_cond3 (coordsV c s) t1 = 1#1 := e3.mpr rfl
    have h4 : ¬ k0_cond4 (coordsV c s) t1 = 1#1 := fun h => absurd (e4.mp h) (by decide)
    have h5 : ¬ k0_cond5 (coordsV c s) t1 = 1#1 := fun h => absurd (e5.mp h) (by decide)
    have h6 : k0_cond6 (coordsV c s) t1 = 1#1 := e6.mpr rfl
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inl.inr.inr =>
    have h2 : ¬ k0_cond2 (coordsV c s) t1 = 1#1 := fun h => absurd (e2.mp h) (by decide)
    have h3 : k0_cond3 (coordsV c s) t1 = 1#1 := e3.mpr rfl
    have h4 : ¬ k0_cond4 (coordsV c s) t1 = 1#1 := fun h => absurd (e4.mp h) (by decide)
    have h5 : ¬ k0_cond5 (coordsV c s) t1 = 1#1 := fun h => absurd (e5.mp h) (by decide)
    have h6 : ¬ k0_cond6 (coordsV c s) t1 = 1#1 := fun h => absurd (e6.mp h) (by decide)
    have h7 : k0_cond7 (coordsV c s) t1 = 1#1 := e7.mpr rfl
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inr.inl =>
    have h2 : ¬ k0_cond2 (coordsV c s) t1 = 1#1 := fun h => absurd (e2.mp h) (by decide)
    have h3 : ¬ k0_cond3 (coordsV c s) t1 = 1#1 := fun h => absurd (e3.mp h) (by decide)
    have h4 : k0_cond4 (coordsV c s) t1 = 1#1 := e4.mpr rfl
    have h5 : k0_cond5 (coordsV c s) t1 = 1#1 := e5.mpr rfl
    have h6 : ¬ k0_cond6 (coordsV c s) t1 = 1#1 := fun h => absurd (e6.mp h) (by decide)
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inr.inr.inl =>
    have h2 : ¬ k0_cond2 (coordsV c s) t1 = 1#1 := fun h => absurd (e2.mp h) (by decide)
    have h3 : ¬ k0_cond3 (coordsV c s) t1 = 1#1 := fun h => absurd (e3.mp h) (by decide)
    have h4 : k0_cond4 (coordsV c s) t1 = 1#1 := e4.mpr rfl
    have h5 : ¬ k0_cond5 (coordsV c s) t1 = 1#1 := fun h => absurd (e5.mp h) (by decide)
    have h6 : k0_cond6 (coordsV c s) t1 = 1#1 := e6.mpr rfl
    have h7 : ¬ k0_cond7 (coordsV c s) t1 = 1#1 := fun h => absurd (e7.mp h) (by decide)
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi
  case inr.inr.inr.inr =>
    have h2 : ¬ k0_cond2 (coordsV c s) t1 = 1#1 := fun h => absurd (e2.mp h) (by decide)
    have h3 : ¬ k0_cond3 (coordsV c s) t1 = 1#1 := fun h => absurd (e3.mp h) (by decide)
    have h4 : k0_cond4 (coordsV c s) t1 = 1#1 := e4.mpr rfl
    have h5 : ¬ k0_cond5 (coordsV c s) t1 = 1#1 := fun h => absurd (e5.mp h) (by decide)
    have h6 : ¬ k0_cond6 (coordsV c s) t1 = 1#1 := fun h => absurd (e6.mp h) (by decide)
    have h7 : k0_cond7 (coordsV c s) t1 = 1#1 := e7.mpr rfl
    unfold St1 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXd, HXe, HXf, HXg, HXh, HXi, HOa, HOc, HOd, HOe, HOf, HOg, HOh, HOi⟩
    have hgp0 := goodPay_rot0 c s d fx 2 _ hg0.symm off0 hoff0 e0 (k0_off4 (coordsV c s) t1) (k0_off4_inb _ _) (off4_eq c s t1) (View.write (Elt F) (b0).view gp0 (loaded d fx off0 hoff0) Finset.univ) (ld_write0 c s d fx gp0 off0 hoff0)
    have hgp1 := goodPay_rot1 c s d fx 3 _ hg1.symm (k0_off3 (coordsV c s) t1) (k0_off3_inb _ _) (off3_eq c s t1) (k0_off3 (coordsV c s) t1) (k0_off3_inb _ _) (off3_eq c s t1) ((b1).view.writes (Elt F) (b1).view.junk [⟨Rect.whole S224x224, loaded d fx (k0_off3 (coordsV c s) t1) (k0_off3_inb _ _)⟩]) (ld_writes1 c s d fx (b1).view.junk (k0_off3 (coordsV c s) t1) (k0_off3_inb _ _))
    ihave HXp := (Entails.of_eq (pts_x_img (F := F) c s d 3 (k0_off3 (coordsV c s) t1) (k0_off3_inb _ _) (off3_eq c s t1) fx).symm) $$ HXd
    ihave HOp := (Entails.of_eq (pts_o_img (F := F) c s d 2 (k0_off4 (coordsV c s) t1) (k0_off4_inb _ _) (off4_eq c s t1) fo).symm) $$ HOc
    ihave HOq := (Entails.of_eq (pts_o_img (F := F) c s d 3 (k0_off3 (coordsV c s) t1) (k0_off3_inb _ _) (off3_eq c s t1) fo).symm) $$ HOd
    ihave HXn := (Entails.of_eq (pts_x_img (F := F) c s d 4 (k0_off174 (coordsV c s) t1) (k0_off174_inb _ _ h8) (off174_eq c s t1) fx).symm) $$ HXe
    sl_exec
    rw [wp_bind]
    iapply (wp_wand_r frame _ Set.univ)
    isplitl [HF0_dst]
    · first
        | iapply (R.t2 t1 h2 0 0 0 0 0 _) $$ HF0_dst
        | iapply (R.t3 t1 h3 0 0 0 0 0 _) $$ HF0_dst
        | iapply (R.t4 t1 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t1 h5 _) $$ Hb1v
        | iapply (R.t6 v2 c0 t1 h6 _) $$ Hb1v
        | iapply (R.t7 v2 c0 t1 h7 _) $$ Hb1v
    iintro %_ Hb1r
    sl_exec
    sl_step
    unfold St2 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t1), (k0_off174_inb _ _ h8), _; isplitr
      · ipureintro; exact off174_eq c s t1
      iexact HF0
    isplitl [HF5]
    · iexists (k0_off3 (coordsV c s) t1), (k0_off3_inb _ _), _, _
      isplitr
      rotate_left
      · iexact HF5
      ipureintro
      exact ⟨off3_eq c s t1, hgp1⟩
    isplitl [Hs3]
    · iexact Hs3
    isplitl [Hs4]
    · iexact Hs4
    isplitl [HXa]
    · iexact HXa
    isplitl [HXb]
    · iexact HXb
    isplitl [HF0_src]
    · iapply (Entails.of_eq (pts_x_img (F := F) c s d 2 off0 hoff0 e0 fx)); iexact HF0_src
    isplitl [HXp]
    · iapply (Entails.of_eq (pts_x_img (F := F) c s d 3 (k0_off3 (coordsV c s) t1) (k0_off3_inb _ _) (off3_eq c s t1) fx)); iexact HXp
    isplitl [HXf]
    · iexact HXf
    isplitl [HXg]
    · iexact HXg
    isplitl [HXh]
    · iexact HXh
    isplitl [HXi]
    · iexact HXi
    isplitl [HOa]
    · iexact HOa
    isplitl [HF5_dst]
    · iapply (o_final (F := F) c s d fx 1 off5 hoff5 hp5.1 _ _ hp5.2); iexact HF5_dst
    isplitl [HOp]
    · iapply (o_final (F := F) c s d fx 2 (k0_off4 (coordsV c s) t1) (k0_off4_inb _ _) (off4_eq c s t1) _ _ hgp0); iexact HOp
    isplitl [HOe]
    · iexact HOe
    isplitl [HOf]
    · iexact HOf
    isplitl [HOg]
    · iexact HOg
    isplitl [HOh]
    · iexact HOh
    iexact HOi

end Cert.Kernel.Tile

end
-- ==== Proof.Bits.Trip2.lean ====
/-
  Pair 2 of a worker's loop: from the state before it to the state after it.
-/
import proofs.«208198_g16930761081413_cont_7to1_1121_27_alg».proof.Proof.Bits.TileValue

noncomputable section

namespace Cert.Kernel.Tile

open Cert.Kernel Cert.Kernel.Gen Cert.Kernel.Setup Cert.Kernel.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable (c : Fin (grid0.bound 0)) (s : Fin (grid0.bound 1)) (d : Dev nD)
variable (fx : Buf (Elt F) (xLoc d)) (fo : Buf (Elt F) (oLoc d))
variable (O : CellTallies nD τ sig (HIx 1)) (W : Waits sig (HIx 1))

abbrev t2 : Fin k0_t1_loop.trips := ⟨2, by decide⟩

/-- The three conditions on an image's rotation, from its group. -/
theorem conds_b0_2 {g : Nat} (hg : Cert.Spec.grp (imgC c.val s.val (2 * (t2).val)) = g) :
    (k0_cond2 (coordsV c s) t2 = 1#1 ↔ g = 1) ∧ (k0_cond3 (coordsV c s) t2 = 1#1 ↔ g = 2) ∧ (k0_cond4 (coordsV c s) t2 = 1#1 ↔ g = 3) := by
  subst hg; exact ⟨cond2_iff c s t2, cond3_iff c s t2, cond4_iff c s t2⟩
theorem conds_b1_2 {g : Nat} (hg : Cert.Spec.grp (imgC c.val s.val (2 * (t2).val + 1)) = g) :
    (k0_cond5 (coordsV c s) t2 = 1#1 ↔ g = 1) ∧ (k0_cond6 (coordsV c s) t2 = 1#1 ↔ g = 2) ∧ (k0_cond7 (coordsV c s) t2 = 1#1 ↔ g = 3) := by
  subst hg; exact ⟨cond5_iff c s t2, cond6_iff c s t2, cond7_iff c s t2⟩

set_option maxHeartbeats 1600000 in
theorem trip2 (R : RotFacts (F := F) c s d) (v2 c0 : BitVec 32) :
    St2 c s d fx fo O W
      ⊢ wp frame (wpE (defs₀ (F := F)) 𝒱₀ (thr c s d) none) Set.univ
          (k0_t1_body (coordsV c s) xW (Memref.isWhole_whole _) oW (Memref.isWhole_whole _) b0 (Memref.isWhole_whole _) b1 (Memref.isWhole_whole _)
            cc0_scratch2 cc0_scratch3 cc0_scratch4 cc0_scratch5 v2 c0 t2 ())
          fun _ => St3 c s d fx fo O W := by
  have h1 : k0_cond1 t2 = 1#1 := by rw [cond1_iff]; decide
  have h8 : k0_cond8 t2 = 1#1 := by rw [cond8_iff]; decide
  obtain ⟨g0, hg0, hg0r⟩ : ∃ g, Cert.Spec.grp (imgC c.val s.val (2 * (t2).val)) = g ∧ (g = 1 ∨ g = 2 ∨ g = 3) := ⟨_, rfl, grp_img _ _ _⟩
  obtain ⟨g1', hg1, hg1r⟩ : ∃ g, Cert.Spec.grp (imgC c.val s.val (2 * (t2).val + 1)) = g ∧ (g = 1 ∨ g = 2 ∨ g = 3) := ⟨_, rfl, grp_img _ _ _⟩
  obtain ⟨e2, e3, e4⟩ := conds_b0_2 c s hg0
  obtain ⟨e5, e6, e7⟩ := conds_b1_2 c s hg1
  rcases hg0r with rfl | rfl | rfl <;> rcases hg1r with rfl | rfl | rfl
  case inl.inl =>
    have h2 : k0_cond2 (coordsV c s) t2 = 1#1 := e2.mpr rfl
    have h3 : ¬ k0_cond3 (coordsV c s) t2 = 1#1 := fun h => absurd (e3.mp h) (by decide)
    have h4 : ¬ k0_cond4 (coordsV c s) t2 = 1#1 := fun h => absurd (e4.mp h) (by decide)
    have h5 : k0_cond5 (coordsV c s) t2 = 1#1 := e5.mpr rfl
    have h6 : ¬ k0_cond6 (coordsV c s) t2 = 1#1 := fun h => absurd (e6.mp h) (by decide)
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inl.inr.inl =>
    have h2 : k0_cond2 (coordsV c s) t2 = 1#1 := e2.mpr rfl
    have h3 : ¬ k0_cond3 (coordsV c s) t2 = 1#1 := fun h => absurd (e3.mp h) (by decide)
    have h4 : ¬ k0_cond4 (coordsV c s) t2 = 1#1 := fun h => absurd (e4.mp h) (by decide)
    have h5 : ¬ k0_cond5 (coordsV c s) t2 = 1#1 := fun h => absurd (e5.mp h) (by decide)
    have h6 : k0_cond6 (coordsV c s) t2 = 1#1 := e6.mpr rfl
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inl.inr.inr =>
    have h2 : k0_cond2 (coordsV c s) t2 = 1#1 := e2.mpr rfl
    have h3 : ¬ k0_cond3 (coordsV c s) t2 = 1#1 := fun h => absurd (e3.mp h) (by decide)
    have h4 : ¬ k0_cond4 (coordsV c s) t2 = 1#1 := fun h => absurd (e4.mp h) (by decide)
    have h5 : ¬ k0_cond5 (coordsV c s) t2 = 1#1 := fun h => absurd (e5.mp h) (by decide)
    have h6 : ¬ k0_cond6 (coordsV c s) t2 = 1#1 := fun h => absurd (e6.mp h) (by decide)
    have h7 : k0_cond7 (coordsV c s) t2 = 1#1 := e7.mpr rfl
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inl.inl =>
    have h2 : ¬ k0_cond2 (coordsV c s) t2 = 1#1 := fun h => absurd (e2.mp h) (by decide)
    have h3 : k0_cond3 (coordsV c s) t2 = 1#1 := e3.mpr rfl
    have h4 : ¬ k0_cond4 (coordsV c s) t2 = 1#1 := fun h => absurd (e4.mp h) (by decide)
    have h5 : k0_cond5 (coordsV c s) t2 = 1#1 := e5.mpr rfl
    have h6 : ¬ k0_cond6 (coordsV c s) t2 = 1#1 := fun h => absurd (e6.mp h) (by decide)
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inl.inr.inl =>
    have h2 : ¬ k0_cond2 (coordsV c s) t2 = 1#1 := fun h => absurd (e2.mp h) (by decide)
    have h3 : k0_cond3 (coordsV c s) t2 = 1#1 := e3.mpr rfl
    have h4 : ¬ k0_cond4 (coordsV c s) t2 = 1#1 := fun h => absurd (e4.mp h) (by decide)
    have h5 : ¬ k0_cond5 (coordsV c s) t2 = 1#1 := fun h => absurd (e5.mp h) (by decide)
    have h6 : k0_cond6 (coordsV c s) t2 = 1#1 := e6.mpr rfl
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inl.inr.inr =>
    have h2 : ¬ k0_cond2 (coordsV c s) t2 = 1#1 := fun h => absurd (e2.mp h) (by decide)
    have h3 : k0_cond3 (coordsV c s) t2 = 1#1 := e3.mpr rfl
    have h4 : ¬ k0_cond4 (coordsV c s) t2 = 1#1 := fun h => absurd (e4.mp h) (by decide)
    have h5 : ¬ k0_cond5 (coordsV c s) t2 = 1#1 := fun h => absurd (e5.mp h) (by decide)
    have h6 : ¬ k0_cond6 (coordsV c s) t2 = 1#1 := fun h => absurd (e6.mp h) (by decide)
    have h7 : k0_cond7 (coordsV c s) t2 = 1#1 := e7.mpr rfl
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inr.inl =>
    have h2 : ¬ k0_cond2 (coordsV c s) t2 = 1#1 := fun h => absurd (e2.mp h) (by decide)
    have h3 : ¬ k0_cond3 (coordsV c s) t2 = 1#1 := fun h => absurd (e3.mp h) (by decide)
    have h4 : k0_cond4 (coordsV c s) t2 = 1#1 := e4.mpr rfl
    have h5 : k0_cond5 (coordsV c s) t2 = 1#1 := e5.mpr rfl
    have h6 : ¬ k0_cond6 (coordsV c s) t2 = 1#1 := fun h => absurd (e6.mp h) (by decide)
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inr.inr.inl =>
    have h2 : ¬ k0_cond2 (coordsV c s) t2 = 1#1 := fun h => absurd (e2.mp h) (by decide)
    have h3 : ¬ k0_cond3 (coordsV c s) t2 = 1#1 := fun h => absurd (e3.mp h) (by decide)
    have h4 : k0_cond4 (coordsV c s) t2 = 1#1 := e4.mpr rfl
    have h5 : ¬ k0_cond5 (coordsV c s) t2 = 1#1 := fun h => absurd (e5.mp h) (by decide)
    have h6 : k0_cond6 (coordsV c s) t2 = 1#1 := e6.mpr rfl
    have h7 : ¬ k0_cond7 (coordsV c s) t2 = 1#1 := fun h => absurd (e7.mp h) (by decide)
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi
  case inr.inr.inr.inr =>
    have h2 : ¬ k0_cond2 (coordsV c s) t2 = 1#1 := fun h => absurd (e2.mp h) (by decide)
    have h3 : ¬ k0_cond3 (coordsV c s) t2 = 1#1 := fun h => absurd (e3.mp h) (by decide)
    have h4 : k0_cond4 (coordsV c s) t2 = 1#1 := e4.mpr rfl
    have h5 : ¬ k0_cond5 (coordsV c s) t2 = 1#1 := fun h => absurd (e5.mp h) (by decide)
    have h6 : ¬ k0_cond6 (coordsV c s) t2 = 1#1 := fun h => absurd (e6.mp h) (by decide)
    have h7 : k0_cond7 (coordsV c s) t2 = 1#1 := e7.mpr rfl
    unfold St2 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXf, HXg, HXh, HXi, HOa, HOb, HOc, HOe, HOf, HOg, HOh, HOi⟩
    have hgp0 := goodPay_rot0 c s d fx 4 _ hg0.symm off0 hoff0 e0 (k0_off4 (coordsV c s) t2) (k0_off4_inb _ _) (off4_eq c s t2) (View.write (Elt F) (b0).view gp0 (loaded d fx off0 hoff0) Finset.univ) (ld_write0 c s d fx gp0 off0 hoff0)
    have hgp1 := goodPay_rot1 c s d fx 5 _ hg1.symm (k0_off3 (coordsV c s) t2) (k0_off3_inb _ _) (off3_eq c s t2) (k0_off3 (coordsV c s) t2) (k0_off3_inb _ _) (off3_eq c s t2) ((b1).view.writes (Elt F) (b1).view.junk [⟨Rect.whole S224x224, loaded d fx (k0_off3 (coordsV c s) t2) (k0_off3_inb _ _)⟩]) (ld_writes1 c s d fx (b1).view.junk (k0_off3 (coordsV c s) t2) (k0_off3_inb _ _))
    ihave HXp := (Entails.of_eq (pts_x_img (F := F) c s d 5 (k0_off3 (coordsV c s) t2) (k0_off3_inb _ _) (off3_eq c s t2) fx).symm) $$ HXf
    ihave HOp := (Entails.of_eq (pts_o_img (F := F) c s d 4 (k0_off4 (coordsV c s) t2) (k0_off4_inb _ _) (off4_eq c s t2) fo).symm) $$ HOe
    ihave HOq := (Entails.of_eq (pts_o_img (F := F) c s d 5 (k0_off3 (coordsV c s) t2) (k0_off3_inb _ _) (off3_eq c s t2) fo).symm) $$ HOf
    ihave HXn := (Entails.of_eq (pts_x_img (F := F) c s d 6 (k0_off174 (coordsV c s) t2) (k0_off174_inb _ _ h8) (off174_eq c s t2) fx).symm) $$ HXg
    sl_exec
    rw [wp_bind]
    iapply (wp_wand_r frame _ Set.univ)
    isplitl [HF0_dst]
    · first
        | iapply (R.t2 t2 h2 0 0 0 0 0 _) $$ HF0_dst
        | iapply (R.t3 t2 h3 0 0 0 0 0 _) $$ HF0_dst
        | iapply (R.t4 t2 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t2 h5 _) $$ Hb1v
        | iapply (R.t6 v2 c0 t2 h6 _) $$ Hb1v
        | iapply (R.t7 v2 c0 t2 h7 _) $$ Hb1v
    iintro %_ Hb1r
    sl_exec
    sl_step
    unfold St3 FL0 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [HF0]
    · iexists (k0_off174 (coordsV c s) t2), (k0_off174_inb _ _ h8), _; isplitr
      · ipureintro; exact off174_eq c s t2
      iexact HF0
    isplitl [HF5]
    · iexists (k0_off3 (coordsV c s) t2), (k0_off3_inb _ _), _, _
      isplitr
      rotate_left
      · iexact HF5
      ipureintro
      exact ⟨off3_eq c s t2, hgp1⟩
    isplitl [Hs3]
    · iexact Hs3
    isplitl [Hs4]
    · iexact Hs4
    isplitl [HXa]
    · iexact HXa
    isplitl [HXb]
    · iexact HXb
    isplitl [HXc]
    · iexact HXc
    isplitl [HXd]
    · iexact HXd
    isplitl [HF0_src]
    · iapply (Entails.of_eq (pts_x_img (F := F) c s d 4 off0 hoff0 e0 fx)); iexact HF0_src
    isplitl [HXp]
    · iapply (Entails.of_eq (pts_x_img (F := F) c s d 5 (k0_off3 (coordsV c s) t2) (k0_off3_inb _ _) (off3_eq c s t2) fx)); iexact HXp
    isplitl [HXh]
    · iexact HXh
    isplitl [HXi]
    · iexact HXi
    isplitl [HOa]
    · iexact HOa
    isplitl [HOb]
    · iexact HOb
    isplitl [HOc]
    · iexact HOc
    isplitl [HF5_dst]
    · iapply (o_final (F := F) c s d fx 3 off5 hoff5 hp5.1 _ _ hp5.2); iexact HF5_dst
    isplitl [HOp]
    · iapply (o_final (F := F) c s d fx 4 (k0_off4 (coordsV c s) t2) (k0_off4_inb _ _) (off4_eq c s t2) _ _ hgp0); iexact HOp
    isplitl [HOg]
    · iexact HOg
    isplitl [HOh]
    · iexact HOh
    iexact HOi

end Cert.Kernel.Tile

end
-- ==== Proof.Bits.Trip3.lean ====
/-
  Pair 3 of a worker's loop: from the state before it to the state after it.
-/
import proofs.«208198_g16930761081413_cont_7to1_1121_27_alg».proof.Proof.Bits.TileValue

noncomputable section

namespace Cert.Kernel.Tile

open Cert.Kernel Cert.Kernel.Gen Cert.Kernel.Setup Cert.Kernel.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable (c : Fin (grid0.bound 0)) (s : Fin (grid0.bound 1)) (d : Dev nD)
variable (fx : Buf (Elt F) (xLoc d)) (fo : Buf (Elt F) (oLoc d))
variable (O : CellTallies nD τ sig (HIx 1)) (W : Waits sig (HIx 1))

abbrev t3 : Fin k0_t1_loop.trips := ⟨3, by decide⟩

/-- The three conditions on an image's rotation, from its group. -/
theorem conds_b0_3 {g : Nat} (hg : Cert.Spec.grp (imgC c.val s.val (2 * (t3).val)) = g) :
    (k0_cond2 (coordsV c s) t3 = 1#1 ↔ g = 1) ∧ (k0_cond3 (coordsV c s) t3 = 1#1 ↔ g = 2) ∧ (k0_cond4 (coordsV c s) t3 = 1#1 ↔ g = 3) := by
  subst hg; exact ⟨cond2_iff c s t3, cond3_iff c s t3, cond4_iff c s t3⟩
theorem conds_b1_3 {g : Nat} (hg : Cert.Spec.grp (imgC c.val s.val (2 * (t3).val + 1)) = g) :
    (k0_cond5 (coordsV c s) t3 = 1#1 ↔ g = 1) ∧ (k0_cond6 (coordsV c s) t3 = 1#1 ↔ g = 2) ∧ (k0_cond7 (coordsV c s) t3 = 1#1 ↔ g = 3) := by
  subst hg; exact ⟨cond5_iff c s t3, cond6_iff c s t3, cond7_iff c s t3⟩

set_option maxHeartbeats 1600000 in
theorem trip3 (R : RotFacts (F := F) c s d) (v2 c0 : BitVec 32) :
    St3 c s d fx fo O W
      ⊢ wp frame (wpE (defs₀ (F := F)) 𝒱₀ (thr c s d) none) Set.univ
          (k0_t1_body (coordsV c s) xW (Memref.isWhole_whole _) oW (Memref.isWhole_whole _) b0 (Memref.isWhole_whole _) b1 (Memref.isWhole_whole _)
            cc0_scratch2 cc0_scratch3 cc0_scratch4 cc0_scratch5 v2 c0 t3 ())
          fun _ => St4 c s d fx fo O W := by
  have h1 : k0_cond1 t3 = 1#1 := by rw [cond1_iff]; decide
  have h8 : ¬ k0_cond8 t3 = 1#1 := by rw [cond8_iff]; decide
  obtain ⟨g0, hg0, hg0r⟩ : ∃ g, Cert.Spec.grp (imgC c.val s.val (2 * (t3).val)) = g ∧ (g = 1 ∨ g = 2 ∨ g = 3) := ⟨_, rfl, grp_img _ _ _⟩
  obtain ⟨g1', hg1, hg1r⟩ : ∃ g, Cert.Spec.grp (imgC c.val s.val (2 * (t3).val + 1)) = g ∧ (g = 1 ∨ g = 2 ∨ g = 3) := ⟨_, rfl, grp_img _ _ _⟩
  obtain ⟨e2, e3, e4⟩ := conds_b0_3 c s hg0
  obtain ⟨e5, e6, e7⟩ := conds_b1_3 c s hg1
  rcases hg0r with rfl | rfl | rfl <;> rcases hg1r with rfl | rfl | rfl
  case inl.inl =>
    have h2 : k0_cond2 (coordsV c s) t3 = 1#1 := e2.mpr rfl
    have h3 : ¬ k0_cond3 (coordsV c s) t3 = 1#1 := fun h => absurd (e3.mp h) (by decide)
    have h4 : ¬ k0_cond4 (coordsV c s) t3 = 1#1 := fun h => absurd (e4.mp h) (by decide)
    have h5 : k0_cond5 (coordsV c s) t3 = 1#1 := e5.mpr rfl
    have h6 : ¬ k0_cond6 (coordsV c s) t3 = 1#1 := fun h => absurd (e6.mp h) (by decide)
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inl.inr.inl =>
    have h2 : k0_cond2 (coordsV c s) t3 = 1#1 := e2.mpr rfl
    have h3 : ¬ k0_cond3 (coordsV c s) t3 = 1#1 := fun h => absurd (e3.mp h) (by decide)
    have h4 : ¬ k0_cond4 (coordsV c s) t3 = 1#1 := fun h => absurd (e4.mp h) (by decide)
    have h5 : ¬ k0_cond5 (coordsV c s) t3 = 1#1 := fun h => absurd (e5.mp h) (by decide)
    have h6 : k0_cond6 (coordsV c s) t3 = 1#1 := e6.mpr rfl
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inl.inr.inr =>
    have h2 : k0_cond2 (coordsV c s) t3 = 1#1 := e2.mpr rfl
    have h3 : ¬ k0_cond3 (coordsV c s) t3 = 1#1 := fun h => absurd (e3.mp h) (by decide)
    have h4 : ¬ k0_cond4 (coordsV c s) t3 = 1#1 := fun h => absurd (e4.mp h) (by decide)
    have h5 : ¬ k0_cond5 (coordsV c s) t3 = 1#1 := fun h => absurd (e5.mp h) (by decide)
    have h6 : ¬ k0_cond6 (coordsV c s) t3 = 1#1 := fun h => absurd (e6.mp h) (by decide)
    have h7 : k0_cond7 (coordsV c s) t3 = 1#1 := e7.mpr rfl
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inl.inl =>
    have h2 : ¬ k0_cond2 (coordsV c s) t3 = 1#1 := fun h => absurd (e2.mp h) (by decide)
    have h3 : k0_cond3 (coordsV c s) t3 = 1#1 := e3.mpr rfl
    have h4 : ¬ k0_cond4 (coordsV c s) t3 = 1#1 := fun h => absurd (e4.mp h) (by decide)
    have h5 : k0_cond5 (coordsV c s) t3 = 1#1 := e5.mpr rfl
    have h6 : ¬ k0_cond6 (coordsV c s) t3 = 1#1 := fun h => absurd (e6.mp h) (by decide)
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inl.inr.inl =>
    have h2 : ¬ k0_cond2 (coordsV c s) t3 = 1#1 := fun h => absurd (e2.mp h) (by decide)
    have h3 : k0_cond3 (coordsV c s) t3 = 1#1 := e3.mpr rfl
    have h4 : ¬ k0_cond4 (coordsV c s) t3 = 1#1 := fun h => absurd (e4.mp h) (by decide)
    have h5 : ¬ k0_cond5 (coordsV c s) t3 = 1#1 := fun h => absurd (e5.mp h) (by decide)
    have h6 : k0_cond6 (coordsV c s) t3 = 1#1 := e6.mpr rfl
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inl.inr.inr =>
    have h2 : ¬ k0_cond2 (coordsV c s) t3 = 1#1 := fun h => absurd (e2.mp h) (by decide)
    have h3 : k0_cond3 (coordsV c s) t3 = 1#1 := e3.mpr rfl
    have h4 : ¬ k0_cond4 (coordsV c s) t3 = 1#1 := fun h => absurd (e4.mp h) (by decide)
    have h5 : ¬ k0_cond5 (coordsV c s) t3 = 1#1 := fun h => absurd (e5.mp h) (by decide)
    have h6 : ¬ k0_cond6 (coordsV c s) t3 = 1#1 := fun h => absurd (e6.mp h) (by decide)
    have h7 : k0_cond7 (coordsV c s) t3 = 1#1 := e7.mpr rfl
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inr.inl =>
    have h2 : ¬ k0_cond2 (coordsV c s) t3 = 1#1 := fun h => absurd (e2.mp h) (by decide)
    have h3 : ¬ k0_cond3 (coordsV c s) t3 = 1#1 := fun h => absurd (e3.mp h) (by decide)
    have h4 : k0_cond4 (coordsV c s) t3 = 1#1 := e4.mpr rfl
    have h5 : k0_cond5 (coordsV c s) t3 = 1#1 := e5.mpr rfl
    have h6 : ¬ k0_cond6 (coordsV c s) t3 = 1#1 := fun h => absurd (e6.mp h) (by decide)
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inr.inr.inl =>
    have h2 : ¬ k0_cond2 (coordsV c s) t3 = 1#1 := fun h => absurd (e2.mp h) (by decide)
    have h3 : ¬ k0_cond3 (coordsV c s) t3 = 1#1 := fun h => absurd (e3.mp h) (by decide)
    have h4 : k0_cond4 (coordsV c s) t3 = 1#1 := e4.mpr rfl
    have h5 : ¬ k0_cond5 (coordsV c s) t3 = 1#1 := fun h => absurd (e5.mp h) (by decide)
    have h6 : k0_cond6 (coordsV c s) t3 = 1#1 := e6.mpr rfl
    have h7 : ¬ k0_cond7 (coordsV c s) t3 = 1#1 := fun h => absurd (e7.mp h) (by decide)
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi
  case inr.inr.inr.inr =>
    have h2 : ¬ k0_cond2 (coordsV c s) t3 = 1#1 := fun h => absurd (e2.mp h) (by decide)
    have h3 : ¬ k0_cond3 (coordsV c s) t3 = 1#1 := fun h => absurd (e3.mp h) (by decide)
    have h4 : k0_cond4 (coordsV c s) t3 = 1#1 := e4.mpr rfl
    have h5 : ¬ k0_cond5 (coordsV c s) t3 = 1#1 := fun h => absurd (e5.mp h) (by decide)
    have h6 : ¬ k0_cond6 (coordsV c s) t3 = 1#1 := fun h => absurd (e6.mp h) (by decide)
    have h7 : k0_cond7 (coordsV c s) t3 = 1#1 := e7.mpr rfl
    unfold St3 FL0 FS k0_t1_body
    iintro ⟨Hmw, ⟨%W', %hW', HO⟩, ⟨%off0, %hoff0, %gp0, %e0, HF0⟩, ⟨%off5, %hoff5, %w5, %cont5, %hp5, HF5⟩, Hs3, Hs4, HXa, HXb, HXc, HXd, HXe, HXf, HXh, HXi, HOa, HOb, HOc, HOd, HOe, HOg, HOh, HOi⟩
    have hgp0 := goodPay_rot0 c s d fx 6 _ hg0.symm off0 hoff0 e0 (k0_off4 (coordsV c s) t3) (k0_off4_inb _ _) (off4_eq c s t3) (View.write (Elt F) (b0).view gp0 (loaded d fx off0 hoff0) Finset.univ) (ld_write0 c s d fx gp0 off0 hoff0)
    have hgp1 := goodPay_rot1 c s d fx 7 _ hg1.symm (k0_off3 (coordsV c s) t3) (k0_off3_inb _ _) (off3_eq c s t3) (k0_off3 (coordsV c s) t3) (k0_off3_inb _ _) (off3_eq c s t3) ((b1).view.writes (Elt F) (b1).view.junk [⟨Rect.whole S224x224, loaded d fx (k0_off3 (coordsV c s) t3) (k0_off3_inb _ _)⟩]) (ld_writes1 c s d fx (b1).view.junk (k0_off3 (coordsV c s) t3) (k0_off3_inb _ _))
    ihave HXp := (Entails.of_eq (pts_x_img (F := F) c s d 7 (k0_off3 (coordsV c s) t3) (k0_off3_inb _ _) (off3_eq c s t3) fx).symm) $$ HXh
    ihave HOp := (Entails.of_eq (pts_o_img (F := F) c s d 6 (k0_off4 (coordsV c s) t3) (k0_off4_inb _ _) (off4_eq c s t3) fo).symm) $$ HOg
    ihave HOq := (Entails.of_eq (pts_o_img (F := F) c s d 7 (k0_off3 (coordsV c s) t3) (k0_off3_inb _ _) (off3_eq c s t3) fo).symm) $$ HOh
    sl_exec
    rw [wp_bind]
    iapply (wp_wand_r frame _ Set.univ)
    isplitl [HF0_dst]
    · first
        | iapply (R.t2 t3 h2 0 0 0 0 0 _) $$ HF0_dst
        | iapply (R.t3 t3 h3 0 0 0 0 0 _) $$ HF0_dst
        | iapply (R.t4 t3 h4 0 0 0 0 0 _) $$ HF0_dst
    iintro %_ Hb0
    sl_exec
    ihave Hb1v := (Entails.of_eq (pts_set_b1 (F := F) c s d _)) $$ HF5_src
    rw [wp_bind]
    iapply (wp_wand_r frame _ Set.univ)
    isplitl [Hb1v]
    · first
        | iapply (R.t5 v2 c0 t3 h5 _) $$ Hb1v
        | iapply (R.t6 v2 c0 t3 h6 _) $$ Hb1v
        | iapply (R.t7 v2 c0 t3 h7 _) $$ Hb1v
    iintro %_ Hb1r
    sl_exec
    sl_step
    unfold St4 FS
    isplitl [Hmw]
    · iexact Hmw
    isplitl [HO]
    · iexists _
      isplitr
      rotate_left
      · iexact HO
      ipureintro
      first
        | exact ins_ok W (ins_ok W (ins_ok W (ins_ok W hW' _) _) _) _
        | exact ins_ok W (ins_ok W (ins_ok W hW' _) _) _
        | exact ins_ok W (ins_ok W hW' _) _
    isplitl [Hs4]
    · iexists (k0_off4 (coordsV c s) t3), (k0_off4_inb _ _), _, _
      isplitr
      rotate_left
      · iexact Hs4
      ipureintro
      exact ⟨off4_eq c s t3, hgp0⟩
    isplitl [HF5]
    · iexists (k0_off3 (coordsV c s) t3), (k0_off3_inb _ _), _, _
      isplitr
      rotate_left
      · iexact HF5
      ipureintro
      exact ⟨off3_eq c s t3, hgp1⟩
    isplitl [HF0]
    · iexact HF0
    isplitl [Hs3]
    · iexact Hs3
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HF0_src]
    · iapply (Entails.of_eq (pts_x_img (F := F) c s d 6 off0 hoff0 e0 fx)); iexact HF0_src
    isplitl [HXp]
    · iapply (Entails.of_eq (pts_x_img (F := F) c s d 7 (k0_off3 (coordsV c s) t3) (k0_off3_inb _ _) (off3_eq c s t3) fx)); iexact HXp
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HF5_dst]
    · iapply (o_final (F := F) c s d fx 5 off5 hoff5 hp5.1 _ _ hp5.2); iexact HF5_dst
    iexact HOi

end Cert.Kernel.Tile

end
-- ==== Proof.Bits.TileCore.lean ====
/-
  One worker's whole task: from its nine images of `x` and of `o`, its two staging buffers and its four copy semaphores
  at zero, the body ends with the nine images of `o` at the specification's values and everything else as it was.
-/
import proofs.«208198_g16930761081413_cont_7to1_1121_27_alg».proof.Proof.Bits.Trip0
import proofs.«208198_g16930761081413_cont_7to1_1121_27_alg».proof.Proof.Bits.Trip1
import proofs.«208198_g16930761081413_cont_7to1_1121_27_alg».proof.Proof.Bits.Trip2
import proofs.«208198_g16930761081413_cont_7to1_1121_27_alg».proof.Proof.Bits.Trip3

noncomputable section

namespace Cert.Kernel.Tile

open Cert.Kernel Cert.Kernel.Gen Cert.Kernel.Setup Cert.Kernel.Geom

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable (c : Fin (grid0.bound 0)) (s : Fin (grid0.bound 1)) (d : Dev nD)
variable [FloatOps F]
variable (fx : Buf (Elt F) (xLoc d)) (fo : Buf (Elt F) (oLoc d))
variable (O : CellTallies nD τ sig (HIx 1)) (W : Waits sig (HIx 1))

open Idealize.ShloMosaic.Tactic

/-- Before pair `k` (after the last pair for `k ≥ 4`). -/
def inv (k : Nat) (_ : Unit) : sProp 𝕄 :=
  match k with
  | 0 => St0 c s d fx fo O W
  | 1 => St1 c s d fx fo O W
  | 2 => St2 c s d fx fo O W
  | 3 => St3 c s d fx fo O W
  | _ => St4 c s d fx fo O W

/-- The three conditions on the last image's rotation, from its group. -/
theorem conds_tail {g : Nat} (hg : Cert.Spec.grp (imgC c.val s.val 8) = g) :
    (k0_cond9 (coordsV c s) = 1#1 ↔ g = 1) ∧ (k0_cond10 (coordsV c s) = 1#1 ↔ g = 2) ∧ (k0_cond11 (coordsV c s) = 1#1 ↔ g = 3) := by
  subst hg; exact ⟨cond9_iff c s, cond10_iff c s, cond11_iff c s⟩

set_option maxHeartbeats 3200000 in
set_option pp.deepTerms false in
set_option pp.proofs false in
/-- The worker's task, over explicit resources. -/
theorem tile_core (R : RotFacts (F := F) c s d) :
        (iprop(Transfers.MayWaits (thr c s d) (none : HIx 1) O
        ∗ (xLoc d ↦[tileImg (c2 c) (s16 s) 0]{fullShare} fx)
        ∗ (xLoc d ↦[tileImg (c2 c) (s16 s) 1]{fullShare} fx)
        ∗ (xLoc d ↦[tileImg (c2 c) (s16 s) 2]{fullShare} fx)
        ∗ (xLoc d ↦[tileImg (c2 c) (s16 s) 3]{fullShare} fx)
        ∗ (xLoc d ↦[tileImg (c2 c) (s16 s) 4]{fullShare} fx)
        ∗ (xLoc d ↦[tileImg (c2 c) (s16 s) 5]{fullShare} fx)
        ∗ (xLoc d ↦[tileImg (c2 c) (s16 s) 6]{fullShare} fx)
        ∗ (xLoc d ↦[tileImg (c2 c) (s16 s) 7]{fullShare} fx)
        ∗ (xLoc d ↦[tileImg (c2 c) (s16 s) 8]{fullShare} fx)
        ∗ (oLoc d ↦[tileImg (c2 c) (s16 s) 0]{fullShare} fo)
        ∗ (oLoc d ↦[tileImg (c2 c) (s16 s) 1]{fullShare} fo)
        ∗ (oLoc d ↦[tileImg (c2 c) (s16 s) 2]{fullShare} fo)
        ∗ (oLoc d ↦[tileImg (c2 c) (s16 s) 3]{fullShare} fo)
        ∗ (oLoc d ↦[tileImg (c2 c) (s16 s) 4]{fullShare} fo)
        ∗ (oLoc d ↦[tileImg (c2 c) (s16 s) 5]{fullShare} fo)
        ∗ (oLoc d ↦[tileImg (c2 c) (s16 s) 6]{fullShare} fo)
        ∗ (oLoc d ↦[tileImg (c2 c) (s16 s) 7]{fullShare} fo)
        ∗ (oLoc d ↦[tileImg (c2 c) (s16 s) 8]{fullShare} fo)
        ∗ (∃ g, (thr c s d).loc cc0_scratch0 ↦{fullShare} g)
        ∗ (∃ g, (thr c s d).loc cc0_scratch1 ↦{fullShare} g)
        ∗ semVal (thr c s d, SemLoc.dma cc0_scratch2.sem) 0
        ∗ semVal (thr c s d, SemLoc.dma cc0_scratch3.sem) 0
        ∗ semVal (thr c s d, SemLoc.dma cc0_scratch4.sem) 0
        ∗ semVal (thr c s d, SemLoc.dma cc0_scratch5.sem) 0
        ∗ owes (thr c s d) O W) : sProp 𝕄)
      ⊢ wp frame (wpE (defs₀ (F := F)) 𝒱₀ (thr c s d) none) Set.univ
          (cc0_k (coordsV c s) xW (Memref.isWhole_whole _) oW (Memref.isWhole_whole _) b0 (Memref.isWhole_whole _) b1 (Memref.isWhole_whole _)
            cc0_scratch2 cc0_scratch3 cc0_scratch4 cc0_scratch5)
          fun _ => (iprop((xLoc d ↦[tileImg (c2 c) (s16 s) 0]{fullShare} fx)
            ∗ (xLoc d ↦[tileImg (c2 c) (s16 s) 1]{fullShare} fx)
            ∗ (xLoc d ↦[tileImg (c2 c) (s16 s) 2]{fullShare} fx)
            ∗ (xLoc d ↦[tileImg (c2 c) (s16 s) 3]{fullShare} fx)
            ∗ (xLoc d ↦[tileImg (c2 c) (s16 s) 4]{fullShare} fx)
            ∗ (xLoc d ↦[tileImg (c2 c) (s16 s) 5]{fullShare} fx)
            ∗ (xLoc d ↦[tileImg (c2 c) (s16 s) 6]{fullShare} fx)
            ∗ (xLoc d ↦[tileImg (c2 c) (s16 s) 7]{fullShare} fx)
            ∗ (xLoc d ↦[tileImg (c2 c) (s16 s) 8]{fullShare} fx)
            ∗ (oLoc d ↦[tileImg (c2 c) (s16 s) 0]{fullShare} want d fx)
            ∗ (oLoc d ↦[tileImg (c2 c) (s16 s) 1]{fullShare} want d fx)
            ∗ (oLoc d ↦[tileImg (c2 c) (s16 s) 2]{fullShare} want d fx)
            ∗ (oLoc d ↦[tileImg (c2 c) (s16 s) 3]{fullShare} want d fx)
            ∗ (oLoc d ↦[tileImg (c2 c) (s16 s) 4]{fullShare} want d fx)
            ∗ (oLoc d ↦[tileImg (c2 c) (s16 s) 5]{fullShare} want d fx)
            ∗ (oLoc d ↦[tileImg (c2 c) (s16 s) 6]{fullShare} want d fx)
            ∗ (oLoc d ↦[tileImg (c2 c) (s16 s) 7]{fullShare} want d fx)
            ∗ (oLoc d ↦[tileImg (c2 c) (s16 s) 8]{fullShare} want d fx)
            ∗ (∃ g, (thr c s d).loc cc0_scratch0 ↦{fullShare} g)
            ∗ (∃ g, (thr c s d).loc cc0_scratch1 ↦{fullShare} g)
            ∗ semVal (thr c s d, SemLoc.dma cc0_scratch2.sem) 0
            ∗ semVal (thr c s d, SemLoc.dma cc0_scratch3.sem) 0
            ∗ semVal (thr c s d, SemLoc.dma cc0_scratch4.sem) 0
            ∗ semVal (thr c s d, SemLoc.dma cc0_scratch5.sem) 0
            ∗ ∃ W', ⌜∀ p ∈ W', p ∈ W ∨ p.2 = none⌝ ∗ owes (thr c s d) O W') : sProp 𝕄) := by
  obtain ⟨g8, hg8, hg8r⟩ : ∃ g, Cert.Spec.grp (imgC c.val s.val 8) = g ∧ (g = 1 ∨ g = 2 ∨ g = 3) := ⟨_, rfl, grp_img _ _ _⟩
  obtain ⟨e9, e10, e11⟩ := conds_tail c s hg8
  rw [cc0_k_eq_skeleton]; unfold cc0_k_skel
  iintro ⟨Hmw, HXa, HXb, HXc, HXd, HXe, HXf, HXg, HXh, HXi, HOa, HOb, HOc, HOd, HOe, HOf, HOg, HOh, HOi, ⟨%g0, Hb0⟩, HB1, Hs2, Hs3, Hs4, Hs5, HO⟩
  ihave HXa' := (Entails.of_eq (pts_x_img (F := F) c s d 0 (k0_off1 (coordsV c s)) (k0_off1_inb _) (off1_eq c s) fx).symm) $$ HXa
  ihave Hb0' := (Entails.of_eq (pts_b0 (F := F) c s d g0).symm) $$ Hb0
  sl_exec
  sl_for (inv c s d fx fo O W) $$ [Hmw HXb HXc HXd HXe HXf HXg HXh HXi HOa HOb HOc HOd HOe HOf HOg HOh HOi HB1 Hs2 Hs3 Hs4 Hs5 HO]
  case region =>
    intro k _
    match k with
    | ⟨0, _⟩ => exact trip0 c s d fx fo O W R _ _
    | ⟨1, _⟩ => exact trip1 c s d fx fo O W R _ _
    | ⟨2, _⟩ => exact trip2 c s d fx fo O W R _ _
    | ⟨3, _⟩ => exact trip3 c s d fx fo O W R _ _
    | ⟨n + 4, h⟩ => exact absurd h (Nat.not_lt.2 (Nat.le_trans k0_t1_abs.2.1 (Nat.le_add_left 4 n)))
  · rw [show inv c s d fx fo O W 0 PUnit.unit = St0 c s d fx fo O W from rfl]
    unfold St0 FL0
    isplitl [Hmw]
    · iexact Hmw
    isplitl [HO]
    · iexists W; isplitr
      · ipureintro; exact fun p hp => .inl hp
      iexact HO
    isplitl [Hs2]
    · iexists (k0_off1 (coordsV c s)), (k0_off1_inb _), _; isplitr
      · ipureintro; exact off1_eq c s
      iexact Hs2
    isplitl [HB1]
    · iexact HB1
    isplitl [Hs5]
    · iexact Hs5
    isplitl [Hs3]
    · iexact Hs3
    isplitl [Hs4]
    · iexact Hs4
    isplitl [HXb]
    · iexact HXb
    isplitl [HXc]
    · iexact HXc
    isplitl [HXd]
    · iexact HXd
    isplitl [HXe]
    · iexact HXe
    isplitl [HXf]
    · iexact HXf
    isplitl [HXg]
    · iexact HXg
    isplitl [HXh]
    · iexact HXh
    isplitl [HXi]
    · iexact HXi
    isplitl [HOa]
    · iexact HOa
    isplitl [HOb]
    · iexact HOb
    isplitl [HOc]
    · iexact HOc
    isplitl [HOd]
    · iexact HOd
    isplitl [HOe]
    · iexact HOe
    isplitl [HOf]
    · iexact HOf
    isplitl [HOg]
    · iexact HOg
    isplitl [HOh]
    · iexact HOh
    iexact HOi
  iintro %_ HI
  ihave HI4 := (Entails.of_eq (show inv c s d fx fo O W _ _ = St4 c s d fx fo O W from rfl)) $$ HI
  unfold St4 FS
  icases HI4 with ⟨Hmw, ⟨%W', %hW', HO⟩, ⟨%off4, %hoff4, %w4, %cont4, %hp4, HF4⟩, ⟨%off5, %hoff5, %w5, %cont5, %hp5, HF5⟩, Hs2, Hs3, HXa, HXb, HXc, HXd, HXe, HXf, HXg, HXh, HXi, HOa, HOb, HOc, HOd, HOe, HOf, HOi⟩
  ihave HXi' := (Entails.of_eq (pts_x_img (F := F) c s d 8 (k0_off175 (coordsV c s) 9#32 1#32) (k0_off175_inb _ 1) (off175_8_eq c s) fx).symm) $$ HXi
  ihave HOi' := (Entails.of_eq (pts_o_img (F := F) c s d 8 (k0_off175 (coordsV c s) 9#32 1#32) (k0_off175_inb _ 1) (off175_8_eq c s) fo).symm) $$ HOi
  rcases hg8r with rfl | rfl | rfl
  · have h9 : k0_cond9 (coordsV c s) = 1#1 := e9.mpr rfl
    have h10 : ¬ k0_cond10 (coordsV c s) = 1#1 := fun h => absurd (e10.mp h) (by decide)
    have h11 : ¬ k0_cond11 (coordsV c s) = 1#1 := fun h => absurd (e11.mp h) (by decide)
    have hgp8 := goodPay_rot0 c s d fx 8 _ hg8.symm (k0_off175 (coordsV c s) 9#32 1#32) (k0_off175_inb _ 1) (off175_8_eq c s) (k0_off175 (coordsV c s) 9#32 1#32) (k0_off175_inb _ 1) (off175_8_eq c s) ((b0).view.writes (Elt F) (b0).view.junk [⟨Rect.whole S224x224, loaded d fx (k0_off175 (coordsV c s) 9#32 1#32) (k0_off175_inb _ 1)⟩]) (ld_writes0 c s d fx (b0).view.junk (k0_off175 (coordsV c s) 9#32 1#32) (k0_off175_inb _ 1))
    sl_exec
    ihave Hb0v := (Entails.of_eq (pts_set_b0 (F := F) c s d _)) $$ HF4_src
    rw [wp_bind]
    iapply (wp_wand_r frame _ Set.univ)
    isplitl [Hb0v]
    · first
        | iapply (R.t8 0 0 h9 _) $$ Hb0v
        | iapply (R.t9 0 0 h10 _) $$ Hb0v
        | iapply (R.t10 0 0 h11 _) $$ Hb0v
    iintro %_ Hb0r
    sl_exec
    sl_step
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HXg]
    · iexact HXg
    isplitl [HXh]
    · iexact HXh
    isplitl [HXi']
    · iapply (Entails.of_eq (pts_x_img (F := F) c s d 8 (k0_off175 (coordsV c s) 9#32 1#32) (k0_off175_inb _ 1) (off175_8_eq c s) fx)); iexact HXi'
    isplitl [HOa]
    · iexact HOa
    isplitl [HOb]
    · iexact HOb
    isplitl [HOc]
    · iexact HOc
    isplitl [HOd]
    · iexact HOd
    isplitl [HOe]
    · iexact HOe
    isplitl [HOf]
    · iexact HOf
    isplitl [HF4_dst]
    · iapply (o_final (F := F) c s d fx 6 off4 hoff4 hp4.1 _ _ hp4.2); iexact HF4_dst
    isplitl [HF5_dst]
    · iapply (o_final (F := F) c s d fx 7 off5 hoff5 hp5.1 _ _ hp5.2); iexact HF5_dst
    isplitl [HOi']
    · iapply (o_final (F := F) c s d fx 8 (k0_off175 (coordsV c s) 9#32 1#32) (k0_off175_inb _ 1) (off175_8_eq c s) _ _ hgp8); iexact HOi'
    isplitl [Hb0r]
    · iexists _; iapply (Entails.of_eq (pts_b0 (F := F) c s d _)); iexact Hb0r
    isplitl [HF5_src]
    · iexists _; iapply (Entails.of_eq (pts_b1 (F := F) c s d _)); iapply (Entails.of_eq (pts_set_b1 (F := F) c s d _)); iexact HF5_src
    isplitl [Hs2]
    · iexact Hs2
    isplitl [Hs3]
    · iexact Hs3
    isplitl [HF4]
    · iexact HF4
    isplitl [HF5]
    · iexact HF5
    iexists _
    isplitr
    rotate_left
    · iexact HO
    ipureintro
    exact ins_ok W (ins_ok W (ins_ok W (ins_ok W hW' _) _) _) _
  · have h9 : ¬ k0_cond9 (coordsV c s) = 1#1 := fun h => absurd (e9.mp h) (by decide)
    have h10 : k0_cond10 (coordsV c s) = 1#1 := e10.mpr rfl
    have h11 : ¬ k0_cond11 (coordsV c s) = 1#1 := fun h => absurd (e11.mp h) (by decide)
    have hgp8 := goodPay_rot0 c s d fx 8 _ hg8.symm (k0_off175 (coordsV c s) 9#32 1#32) (k0_off175_inb _ 1) (off175_8_eq c s) (k0_off175 (coordsV c s) 9#32 1#32) (k0_off175_inb _ 1) (off175_8_eq c s) ((b0).view.writes (Elt F) (b0).view.junk [⟨Rect.whole S224x224, loaded d fx (k0_off175 (coordsV c s) 9#32 1#32) (k0_off175_inb _ 1)⟩]) (ld_writes0 c s d fx (b0).view.junk (k0_off175 (coordsV c s) 9#32 1#32) (k0_off175_inb _ 1))
    sl_exec
    ihave Hb0v := (Entails.of_eq (pts_set_b0 (F := F) c s d _)) $$ HF4_src
    rw [wp_bind]
    iapply (wp_wand_r frame _ Set.univ)
    isplitl [Hb0v]
    · first
        | iapply (R.t8 0 0 h9 _) $$ Hb0v
        | iapply (R.t9 0 0 h10 _) $$ Hb0v
        | iapply (R.t10 0 0 h11 _) $$ Hb0v
    iintro %_ Hb0r
    sl_exec
    sl_step
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HXg]
    · iexact HXg
    isplitl [HXh]
    · iexact HXh
    isplitl [HXi']
    · iapply (Entails.of_eq (pts_x_img (F := F) c s d 8 (k0_off175 (coordsV c s) 9#32 1#32) (k0_off175_inb _ 1) (off175_8_eq c s) fx)); iexact HXi'
    isplitl [HOa]
    · iexact HOa
    isplitl [HOb]
    · iexact HOb
    isplitl [HOc]
    · iexact HOc
    isplitl [HOd]
    · iexact HOd
    isplitl [HOe]
    · iexact HOe
    isplitl [HOf]
    · iexact HOf
    isplitl [HF4_dst]
    · iapply (o_final (F := F) c s d fx 6 off4 hoff4 hp4.1 _ _ hp4.2); iexact HF4_dst
    isplitl [HF5_dst]
    · iapply (o_final (F := F) c s d fx 7 off5 hoff5 hp5.1 _ _ hp5.2); iexact HF5_dst
    isplitl [HOi']
    · iapply (o_final (F := F) c s d fx 8 (k0_off175 (coordsV c s) 9#32 1#32) (k0_off175_inb _ 1) (off175_8_eq c s) _ _ hgp8); iexact HOi'
    isplitl [Hb0r]
    · iexists _; iapply (Entails.of_eq (pts_b0 (F := F) c s d _)); iexact Hb0r
    isplitl [HF5_src]
    · iexists _; iapply (Entails.of_eq (pts_b1 (F := F) c s d _)); iapply (Entails.of_eq (pts_set_b1 (F := F) c s d _)); iexact HF5_src
    isplitl [Hs2]
    · iexact Hs2
    isplitl [Hs3]
    · iexact Hs3
    isplitl [HF4]
    · iexact HF4
    isplitl [HF5]
    · iexact HF5
    iexists _
    isplitr
    rotate_left
    · iexact HO
    ipureintro
    exact ins_ok W (ins_ok W (ins_ok W (ins_ok W hW' _) _) _) _
  · have h9 : ¬ k0_cond9 (coordsV c s) = 1#1 := fun h => absurd (e9.mp h) (by decide)
    have h10 : ¬ k0_cond10 (coordsV c s) = 1#1 := fun h => absurd (e10.mp h) (by decide)
    have h11 : k0_cond11 (coordsV c s) = 1#1 := e11.mpr rfl
    have hgp8 := goodPay_rot0 c s d fx 8 _ hg8.symm (k0_off175 (coordsV c s) 9#32 1#32) (k0_off175_inb _ 1) (off175_8_eq c s) (k0_off175 (coordsV c s) 9#32 1#32) (k0_off175_inb _ 1) (off175_8_eq c s) ((b0).view.writes (Elt F) (b0).view.junk [⟨Rect.whole S224x224, loaded d fx (k0_off175 (coordsV c s) 9#32 1#32) (k0_off175_inb _ 1)⟩]) (ld_writes0 c s d fx (b0).view.junk (k0_off175 (coordsV c s) 9#32 1#32) (k0_off175_inb _ 1))
    sl_exec
    ihave Hb0v := (Entails.of_eq (pts_set_b0 (F := F) c s d _)) $$ HF4_src
    rw [wp_bind]
    iapply (wp_wand_r frame _ Set.univ)
    isplitl [Hb0v]
    · first
        | iapply (R.t8 0 0 h9 _) $$ Hb0v
        | iapply (R.t9 0 0 h10 _) $$ Hb0v
        | iapply (R.t10 0 0 h11 _) $$ Hb0v
    iintro %_ Hb0r
    sl_exec
    sl_step
    isplitl [HXa]
    · iexact HXa
    isplitl [HXb]
    · iexact HXb
    isplitl [HXc]
    · iexact HXc
    isplitl [HXd]
    · iexact HXd
    isplitl [HXe]
    · iexact HXe
    isplitl [HXf]
    · iexact HXf
    isplitl [HXg]
    · iexact HXg
    isplitl [HXh]
    · iexact HXh
    isplitl [HXi']
    · iapply (Entails.of_eq (pts_x_img (F := F) c s d 8 (k0_off175 (coordsV c s) 9#32 1#32) (k0_off175_inb _ 1) (off175_8_eq c s) fx)); iexact HXi'
    isplitl [HOa]
    · iexact HOa
    isplitl [HOb]
    · iexact HOb
    isplitl [HOc]
    · iexact HOc
    isplitl [HOd]
    · iexact HOd
    isplitl [HOe]
    · iexact HOe
    isplitl [HOf]
    · iexact HOf
    isplitl [HF4_dst]
    · iapply (o_final (F := F) c s d fx 6 off4 hoff4 hp4.1 _ _ hp4.2); iexact HF4_dst
    isplitl [HF5_dst]
    · iapply (o_final (F := F) c s d fx 7 off5 hoff5 hp5.1 _ _ hp5.2); iexact HF5_dst
    isplitl [HOi']
    · iapply (o_final (F := F) c s d fx 8 (k0_off175 (coordsV c s) 9#32 1#32) (k0_off175_inb _ 1) (off175_8_eq c s) _ _ hgp8); iexact HOi'
    isplitl [Hb0r]
    · iexists _; iapply (Entails.of_eq (pts_b0 (F := F) c s d _)); iexact Hb0r
    isplitl [HF5_src]
    · iexists _; iapply (Entails.of_eq (pts_b1 (F := F) c s d _)); iapply (Entails.of_eq (pts_set_b1 (F := F) c s d _)); iexact HF5_src
    isplitl [Hs2]
    · iexact Hs2
    isplitl [Hs3]
    · iexact Hs3
    isplitl [HF4]
    · iexact HF4
    isplitl [HF5]
    · iexact HF5
    iexists _
    isplitr
    rotate_left
    · iexact HO
    ipureintro
    exact ins_ok W (ins_ok W (ins_ok W (ins_ok W hW' _) _) _) _

end Cert.Kernel.Tile

end
-- ==== Proof.Bits.TileObl.lean ====
/-
  From the worker's task over explicit resources to the launch theorem's obligation for the one SparseCore call: a
  vector subcore is handed its nine images of `x` and of `o` as one iterated conjunction, and its scoped buffers and
  semaphores as the launch deals them; unpacked they are the task's explicit resources and a remainder that is framed;
  the task's result packs back the same way.
-/
import proofs.«208198_g16930761081413_cont_7to1_1121_27_alg».proof.Proof.Bits.TileCore

noncomputable section

namespace Cert.Kernel.Tile

open Cert.Kernel Cert.Kernel.Gen Cert.Kernel.Setup Cert.Kernel.Geom

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

/-! ## The launch semaphores' facts -/

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The subcore's own semaphores and buffers -/

section Own

variable (c : Fin (grid0.bound 0)) (s : Fin (grid0.bound 1)) (d : Dev nD)

/-- The four copy semaphores are among the subcore's own cells: they are them, at zero, and the rest. -/
theorem ownSems0_thr :
    (ownSems0 (thr c s d) : sProp 𝕄)
      = iprop(semVal (thr c s d, SemLoc.dma cc0_scratch2.sem) 0 ∗ semVal (thr c s d, SemLoc.dma cc0_scratch3.sem) 0 ∗ semVal (thr c s d, SemLoc.dma cc0_scratch4.sem) 0 ∗ semVal (thr c s d, SemLoc.dma cc0_scratch5.sem) 0
          ∗ bigSep (((((ownCells (thr c s d)).erase ((thr c s d, SemLoc.dma cc0_scratch2.sem) : GSem nD τ sig)).erase ((thr c s d, SemLoc.dma cc0_scratch3.sem) : GSem nD τ sig)).erase ((thr c s d, SemLoc.dma cc0_scratch4.sem) : GSem nD τ sig)).erase ((thr c s d, SemLoc.dma cc0_scratch5.sem) : GSem nD τ sig))
              fun g => semVal g 0) := by
  unfold SparseCore.Cfg.ownSems0
  rw [SparseCore.bigSep_erase' ((mem_ownCells (g := ((thr c s d, SemLoc.dma cc0_scratch2.sem) : GSem nD τ sig))).mpr ⟨rfl, by show (SemLoc.dma cc0_scratch2.sem : SemLoc sig).isScoped .scVector = true; decide⟩),
    SparseCore.bigSep_erase' (Finset.mem_erase.mpr ⟨fun e => absurd (congrArg (fun g : GSem nD τ sig => g.2) e) (show (SemLoc.dma cc0_scratch3.sem : SemLoc sig) ≠ SemLoc.dma cc0_scratch2.sem by decide), (mem_ownCells (g := ((thr c s d, SemLoc.dma cc0_scratch3.sem) : GSem nD τ sig))).mpr ⟨rfl, by show (SemLoc.dma cc0_scratch3.sem : SemLoc sig).isScoped .scVector = true; decide⟩⟩),
    SparseCore.bigSep_erase' (Finset.mem_erase.mpr ⟨fun e => absurd (congrArg (fun g : GSem nD τ sig => g.2) e) (show (SemLoc.dma cc0_scratch4.sem : SemLoc sig) ≠ SemLoc.dma cc0_scratch3.sem by decide), Finset.mem_erase.mpr ⟨fun e => absurd (congrArg (fun g : GSem nD τ sig => g.2) e) (show (SemLoc.dma cc0_scratch4.sem : SemLoc sig) ≠ SemLoc.dma cc0_scratch2.sem by decide), (mem_ownCells (g := ((thr c s d, SemLoc.dma cc0_scratch4.sem) : GSem nD τ sig))).mpr ⟨rfl, by show (SemLoc.dma cc0_scratch4.sem : SemLoc sig).isScoped .scVector = true; decide⟩⟩⟩),
    SparseCore.bigSep_erase' (Finset.mem_erase.mpr ⟨fun e => absurd (congrArg (fun g : GSem nD τ sig => g.2) e) (show (SemLoc.dma cc0_scratch5.sem : SemLoc sig) ≠ SemLoc.dma cc0_scratch4.sem by decide), Finset.mem_erase.mpr ⟨fun e => absurd (congrArg (fun g : GSem nD τ sig => g.2) e) (show (SemLoc.dma cc0_scratch5.sem : SemLoc sig) ≠ SemLoc.dma cc0_scratch3.sem by decide), Finset.mem_erase.mpr ⟨fun e => absurd (congrArg (fun g : GSem nD τ sig => g.2) e) (show (SemLoc.dma cc0_scratch5.sem : SemLoc sig) ≠ SemLoc.dma cc0_scratch2.sem by decide), (mem_ownCells (g := ((thr c s d, SemLoc.dma cc0_scratch5.sem) : GSem nD τ sig))).mpr ⟨rfl, by show (SemLoc.dma cc0_scratch5.sem : SemLoc sig).isScoped .scVector = true; decide⟩⟩⟩⟩)]

/-- The two staging buffers are among the subcore's own: they are them, at some contents, and the rest. -/
theorem ownBufs_thr :
    (ownBufs (thr c s d) : sProp 𝕄)
      = iprop((∃ f, (thr c s d).loc cc0_scratch0 ↦{fullShare} f) ∗ (∃ f, (thr c s d).loc cc0_scratch1 ↦{fullShare} f)
          ∗ bigSep (((ownRefs (τ := τ) (Proc.scVector (cV (coordsV c s)) (jV (coordsV c s)))).erase ((Proc.scVector (cV (coordsV c s)) (jV (coordsV c s))).devRef cc0_scratch0)).erase ((Proc.scVector (cV (coordsV c s)) (jV (coordsV c s))).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV (coordsV c s)) (jV (coordsV c s))))
    (b := (Proc.scVector (cV (coordsV c s)) (jV (coordsV c s))).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (Proc.scVector (cV (coordsV c s)) (jV (coordsV c s)))) (b := (Proc.scVector (cV (coordsV c s)) (jV (coordsV c s))).devRef cc0_scratch1) rfl⟩)]

end Own

/-! ## A worker's nine images, one by one -/

theorem nine_eq : (Finset.univ : Finset (Fin 9)) = {0, 1, 2, 3, 4, 5, 6, 7, 8} := by decide

theorem tileRes_nine (m : (ℓ : Loc nD τ sig) → Buf (Elt F) ℓ) (d : Dev nD) (c : Fin 2) (s : Fin 16) (fo : Buf (Elt F) (oLoc d)) :
    (tileRes m d c s fo : sProp 𝕄)
      = iprop(((xLoc d ↦[tileImg c s 0]{fullShare} m (xLoc d)) ∗ (oLoc d ↦[tileImg c s 0]{fullShare} fo))
          ∗ ((xLoc d ↦[tileImg c s 1]{fullShare} m (xLoc d)) ∗ (oLoc d ↦[tileImg c s 1]{fullShare} fo))
          ∗ ((xLoc d ↦[tileImg c s 2]{fullShare} m (xLoc d)) ∗ (oLoc d ↦[tileImg c s 2]{fullShare} fo))
          ∗ ((xLoc d ↦[tileImg c s 3]{fullShare} m (xLoc d)) ∗ (oLoc d ↦[tileImg c s 3]{fullShare} fo))
          ∗ ((xLoc d ↦[tileImg c s 4]{fullShare} m (xLoc d)) ∗ (oLoc d ↦[tileImg c s 4]{fullShare} fo))
          ∗ ((xLoc d ↦[tileImg c s 5]{fullShare} m (xLoc d)) ∗ (oLoc d ↦[tileImg c s 5]{fullShare} fo))
          ∗ ((xLoc d ↦[tileImg c s 6]{fullShare} m (xLoc d)) ∗ (oLoc d ↦[tileImg c s 6]{fullShare} fo))
          ∗ ((xLoc d ↦[tileImg c s 7]{fullShare} m (xLoc d)) ∗ (oLoc d ↦[tileImg c s 7]{fullShare} fo))
          ∗ ((xLoc d ↦[tileImg c s 8]{fullShare} m (xLoc d)) ∗ (oLoc d ↦[tileImg c s 8]{fullShare} fo))) := by
  unfold tileRes
  rw [nine_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The task, from what the launch hands the subcore -/

section Task

variable [FloatOps F]
variable (m : (ℓ : Loc nD τ sig) → Buf (Elt F) ℓ)
variable (c : Fin (grid0.bound 0)) (s : Fin (grid0.bound 1)) (d : Dev nD)

theorem tile_task (R : RotFacts (F := F) c s d) (O : CellTallies nD τ sig (HIx 1)) (W : Waits sig (HIx 1)) (hO : ∀ g, O g none = 0) :
    (iprop(levAts (K (F := F)).L (K (F := F)).lev ∗ emp ∗ tileRes m d (c2 c) (s16 s) (m (oLoc d))
        ∗ scopedBufs (thr c s d) ∗ scopedSems0 (thr c s d) ∗ owes (thr c s d) O W) : sProp 𝕄)
      ⊢ wp frame (wpE (defs₀ (F := F)) 𝒱₀ (thr c s d) none) Set.univ
          (cc0_k (coordsV c s) xW (Memref.isWhole_whole _) oW (Memref.isWhole_whole _) b0 (Memref.isWhole_whole _) b1 (Memref.isWhole_whole _)
            cc0_scratch2 cc0_scratch3 cc0_scratch4 cc0_scratch5)
          fun _ => iprop(tileRes m d (c2 c) (s16 s) (Setup.want m d) ∗ scopedBufs (thr c s d) ∗ scopedSems0 (thr c s d)
            ∗ ∃ W', ⌜∀ p ∈ W', p ∈ W ∨ p.2 = none⌝ ∗ owes (thr c s d) O W') := by
  rw [(K (F := F)).scopedBufs_V kFacts d (cV (coordsV c s)) (jV (coordsV c s)),
    SparseCore.Cfg.scopedSems0_V (Val := Elt F) d (cV (coordsV c s)) (jV (coordsV c s)), ownSems0_thr, ownBufs_thr,
    tileRes_nine, tileRes_nine]
  iintro ⟨#Hlv, -, ⟨⟨Hx0, Ho0⟩, ⟨Hx1, Ho1⟩, ⟨Hx2, Ho2⟩, ⟨Hx3, Ho3⟩, ⟨Hx4, Ho4⟩, ⟨Hx5, Ho5⟩, ⟨Hx6, Ho6⟩, ⟨Hx7, Ho7⟩, ⟨Hx8, Ho8⟩⟩,
    ⟨Hb0, Hb1, Hbufs⟩, ⟨Hs2, Hs3, Hs4, Hs5, Hsems⟩, HO⟩
  ihave Hmw := ((K (F := F)).mayWaits_none (thr := (thr c s d)) hO) $$ Hlv
  iapply (wp_wand_r frame _ Set.univ)
  isplitl [Hx0 Hx1 Hx2 Hx3 Hx4 Hx5 Hx6 Hx7 Hx8 Ho0 Ho1 Ho2 Ho3 Ho4 Ho5 Ho6 Ho7 Ho8 Hb0 Hb1 Hs2 Hs3 Hs4 Hs5 HO]
  · iapply (tile_core c s d (m (xLoc d)) (m (oLoc d)) O W R)
    iframe
    iexact Hmw
  iintro %_ ⟨Hx0, Hx1, Hx2, Hx3, Hx4, Hx5, Hx6, Hx7, Hx8, Ho0, Ho1, Ho2, Ho3, Ho4, Ho5, Ho6, Ho7, Ho8, Hb0, Hb1, Hs2, Hs3, Hs4, Hs5, HO⟩
  iframe

end Task

/-! ## The launch theorem's obligation -/

theorem defs₀_vector [FloatOps F] (c : Fin τ.nSC) (s : Fin τ.nSub) :
    defs₀ (F := F) (.scVector c s) 0 ()
      = SparseCore.onTile hcore0 hsub0 (fun c s => (cc0_k (coordsV c s) xW (Memref.isWhole_whole _) oW (Memref.isWhole_whole _) b0 (Memref.isWhole_whole _) b1 (Memref.isWhole_whole _)
            cc0_scratch2 cc0_scratch3 cc0_scratch4 cc0_scratch5)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (m : (ℓ : Loc nD τ sig) → Buf (Elt F) ℓ)
    (R : ∀ (c : Fin (grid0.bound 0)) (s : Fin (grid0.bound 1)) (d : Dev nD), RotFacts (F := F) c s d) :
    (K (F := F)).TileObl (D (F := F)) 𝒱 (P m) v₀ 0 := by
  intro d c i O W hO _ _
  -- the call owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m ⟨_, hc.1⟩ ⟨_, hc.2⟩ d (R _ _ _) O W hO).trans (wp_mono frame _ _ fun _ => obl_post)

end Cert.Kernel.Tile

end
-- ==== Proof.Bits.RotA.lean ====
/-
  The three loops that rotate the FIRST staging buffer's quadrants in place inside the pair loop, by 1, 2 and 3 places.

  Each is a counted loop of 112 trips; trip `k` moves the four 112-wide half rows of rows `k` and `k + 112` among
  themselves, 16 lanes at a time, every position read before it is written. The invariant is the buffer at
  `rotUpTo g k f` (the row pairs below `k` done) for the contents `f` at entry; a trip's 28 stores over `rotUpTo g k f`
  leave `rotUpTo g (k + 1) f`, store by store (each payload is the old contents at the store's source position) and by
  cover (the stores' rectangles are rows `k` and `k + 112` exactly).
-/
import proofs.«208198_g16930761081413_cont_7to1_1121_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«208198_g16930761081413_cont_7to1_1121_27_alg».proof.Proof.Gen.Kernel
import proofs.«208198_g16930761081413_cont_7to1_1121_27_alg».proof.Proof.Gen.Kernel.Skeleton
import proofs.«208198_g16930761081413_cont_7to1_1121_27_alg».proof.Proof.SpecBuf
import proofs.«208198_g16930761081413_cont_7to1_1121_27_alg».proof.Proof.RotStep

noncomputable section

namespace Cert.Kernel.Rot

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

abbrev UH : Type := URounds (GSem nD τ sig) ℕ
abbrev UU : Type := UH × (UR sig nD τ × Counters)

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable [FloatOps F]

abbrev cV (L : grid0.Coords) : Fin τ.nSC := (L 0).castLE hcore0
abbrev jV (L : grid0.Coords) : Fin τ.nSub := (L 1).castLE hsub0

/-- The first staging buffer with the row pairs below `k` rotated by `γ` places, over the contents `f` the loop was entered with. -/
def invR0 (γ : Nat) (d : Dev nD) (L : grid0.Coords) (f : Buf (Elt F) ((V d (cV L) (jV L)).loc cc0_scratch0)) (k : Nat) (_ : Unit) : sProp 𝕄 :=
  ((b0).view.loc (V d (cV L) (jV L)) ↦{fullShare} (Cert.Spec.rotUpTo γ k f : Buf (Elt F) ((V d (cV L) (jV L)).loc cc0_scratch0)) : sProp 𝕄)

/-- The same for the second staging buffer. -/
def invR1 (γ : Nat) (d : Dev nD) (L : grid0.Coords) (f : Buf (Elt F) ((V d (cV L) (jV L)).loc cc0_scratch1)) (k : Nat) (_ : Unit) : sProp 𝕄 :=
  ((b1).view.loc (V d (cV L) (jV L)) ↦{fullShare} (Cert.Spec.rotUpTo γ k f : Buf (Elt F) ((V d (cV L) (jV L)).loc cc0_scratch1)) : sProp 𝕄)

set_option maxHeartbeats 4000000 in
/-- The loop that rotates the first staging buffer's quadrants by 1 place, inside the pair loop: entered at contents `f`, it leaves `rotBuf 1 f`.
    Before trip `k` the row pairs below `k` are done; trip `k` is 28 stores of 16 lanes, each of what the buffer held at
    the store's source position when the trip began, and together they cover rows `k` and `k + 112`. -/
theorem rot_t2 (d : Dev nD) (L : grid0.Coords) (k0_t1 : Fin k0_t1_loop.trips) (h : k0_cond2 L k0_t1 = 1#1)
    (v218 v247 c48 v248 : BitVec 32) (v249 : BitVec 1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t2_loop (k0_t2_ok L k0_t1 h) ⟨⟩
            (k0_t2_body L xW (Memref.isWhole_whole _) oW (Memref.isWhole_whole _) b0 (Memref.isWhole_whole _) b1 (Memref.isWhole_whole _)
              cc0_scratch2 cc0_scratch3 cc0_scratch4 cc0_scratch5 k0_t1 v218 v247 c48 v248 v249 h))
          fun _ => ((b0).view.loc (V d (cV L) (jV L)) ↦{fullShare} (Cert.Spec.rotBuf 1 f : Buf (Elt F) ((V d (cV L) (jV L)).loc cc0_scratch0)) : sProp 𝕄) := by
  iintro Hb
  sl_for (invR0 1 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 1 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 1 k.val f _ _ ?_ ?_ ?_ ?_ <;>
          (simp only [Cert.RotStep.emb_unit_val, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 1 k.val f y = Cert.Spec.rotUpTo 1 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 1 k.val f y hr
  · unfold invR0
    isplitl [Hb]
    · rw [Cert.Spec.rotUpTo_zero]; iexact Hb
    iintro %_ HI
    rw [show Cert.Spec.rotUpTo 1 (Scf.trips k0_t2_loop.lb k0_t2_loop.ub k0_t2_loop.st) f = Cert.Spec.rotBuf 1 f from Cert.Spec.rotUpTo_full 1 f]
    iexact HI

set_option maxHeartbeats 4000000 in
/-- The loop that rotates the first staging buffer's quadrants by 2 places, inside the pair loop: entered at contents `f`, it leaves `rotBuf 2 f`.
    Before trip `k` the row pairs below `k` are done; trip `k` is 28 stores of 16 lanes, each of what the buffer held at
    the store's source position when the trip began, and together they cover rows `k` and `k + 112`. -/
theorem rot_t3 (d : Dev nD) (L : grid0.Coords) (k0_t1 : Fin k0_t1_loop.trips) (h : k0_cond3 L k0_t1 = 1#1)
    (v218 v247 c48 v248 : BitVec 32) (v249 : BitVec 1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t3_loop (k0_t3_ok L k0_t1 h) ⟨⟩
            (k0_t3_body L xW (Memref.isWhole_whole _) oW (Memref.isWhole_whole _) b0 (Memref.isWhole_whole _) b1 (Memref.isWhole_whole _)
              cc0_scratch2 cc0_scratch3 cc0_scratch4 cc0_scratch5 k0_t1 v218 v247 c48 v248 v249 h))
          fun _ => ((b0).view.loc (V d (cV L) (jV L)) ↦{fullShare} (Cert.Spec.rotBuf 2 f : Buf (Elt F) ((V d (cV L) (jV L)).loc cc0_scratch0)) : sProp 𝕄) := by
  iintro Hb
  sl_for (invR0 2 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 2 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 2 k.val f _ _ ?_ ?_ ?_ ?_ <;>
          (simp only [Cert.RotStep.emb_unit_val, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 2 k.val f y = Cert.Spec.rotUpTo 2 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 2 k.val f y hr
  · unfold invR0
    isplitl [Hb]
    · rw [Cert.Spec.rotUpTo_zero]; iexact Hb
    iintro %_ HI
    rw [show Cert.Spec.rotUpTo 2 (Scf.trips k0_t3_loop.lb k0_t3_loop.ub k0_t3_loop.st) f = Cert.Spec.rotBuf 2 f from Cert.Spec.rotUpTo_full 2 f]
    iexact HI

set_option maxHeartbeats 4000000 in
/-- The loop that rotates the first staging buffer's quadrants by 3 places, inside the pair loop: entered at contents `f`, it leaves `rotBuf 3 f`.
    Before trip `k` the row pairs below `k` are done; trip `k` is 28 stores of 16 lanes, each of what the buffer held at
    the store's source position when the trip began, and together they cover rows `k` and `k + 112`. -/
theorem rot_t4 (d : Dev nD) (L : grid0.Coords) (k0_t1 : Fin k0_t1_loop.trips) (h : k0_cond4 L k0_t1 = 1#1)
    (v218 v247 c48 v248 : BitVec 32) (v249 : BitVec 1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t4_loop (k0_t4_ok L k0_t1 h) ⟨⟩
            (k0_t4_body L xW (Memref.isWhole_whole _) oW (Memref.isWhole_whole _) b0 (Memref.isWhole_whole _) b1 (Memref.isWhole_whole _)
              cc0_scratch2 cc0_scratch3 cc0_scratch4 cc0_scratch5 k0_t1 v218 v247 c48 v248 v249 h))
          fun _ => ((b0).view.loc (V d (cV L) (jV L)) ↦{fullShare} (Cert.Spec.rotBuf 3 f : Buf (Elt F) ((V d (cV L) (jV L)).loc cc0_scratch0)) : sProp 𝕄) := by
  iintro Hb
  sl_for (invR0 3 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 3 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 3 k.val f _ _ ?_ ?_ ?_ ?_ <;>
          (simp only [Cert.RotStep.emb_unit_val, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 3 k.val f y = Cert.Spec.rotUpTo 3 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 3 k.val f y hr
  · unfold invR0
    isplitl [Hb]
    · rw [Cert.Spec.rotUpTo_zero]; iexact Hb
    iintro %_ HI
    rw [show Cert.Spec.rotUpTo 3 (Scf.trips k0_t4_loop.lb k0_t4_loop.ub k0_t4_loop.st) f = Cert.Spec.rotBuf 3 f from Cert.Spec.rotUpTo_full 3 f]
    iexact HI

end Cert.Kernel.Rot

end
-- ==== Proof.Bits.RotB.lean ====
/-
  The three loops that rotate the SECOND staging buffer's quadrants in place inside the pair loop, by 1, 2 and 3 places:
  the same mathematics as for the first buffer, at the second buffer's stores.
-/
import proofs.«208198_g16930761081413_cont_7to1_1121_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«208198_g16930761081413_cont_7to1_1121_27_alg».proof.Proof.Gen.Kernel
import proofs.«208198_g16930761081413_cont_7to1_1121_27_alg».proof.Proof.Gen.Kernel.Skeleton
import proofs.«208198_g16930761081413_cont_7to1_1121_27_alg».proof.Proof.SpecBuf
import proofs.«208198_g16930761081413_cont_7to1_1121_27_alg».proof.Proof.RotStep
import proofs.«208198_g16930761081413_cont_7to1_1121_27_alg».proof.Proof.Bits.RotA

noncomputable section

namespace Cert.Kernel.Rot

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable [FloatOps F]

set_option maxHeartbeats 4000000 in
/-- The loop that rotates the second staging buffer's quadrants by 1 place, inside the pair loop: entered at contents `f`, it leaves `rotBuf 1 f`.
    Before trip `k` the row pairs below `k` are done; trip `k` is 28 stores of 16 lanes, each of what the buffer held at
    the store's source position when the trip began, and together they cover rows `k` and `k + 112`. -/
theorem rot_t5 (d : Dev nD) (L : grid0.Coords) (v2 c0 : BitVec 32) (k0_t1 : Fin k0_t1_loop.trips) (h : k0_cond5 L k0_t1 = 1#1)
    (f : Buf (Elt F) ((V d (cV L) (jV L)).loc cc0_scratch1)) :
    ((b1).view.loc (V d (cV L) (jV L)) ↦{fullShare} f : sProp 𝕄)
      ⊢ wp frame (wpE (defs₀ (F := F)) 𝒱₀ (V d (cV L) (jV L)) none) Set.univ
          (Scf.Loop.for k0_t5_loop (k0_t5_ok L k0_t1 h) ⟨⟩
            (k0_t5_body L xW (Memref.isWhole_whole _) oW (Memref.isWhole_whole _) b0 (Memref.isWhole_whole _) b1 (Memref.isWhole_whole _)
              cc0_scratch2 cc0_scratch3 cc0_scratch4 cc0_scratch5 v2 c0 k0_t1 h))
          fun _ => ((b1).view.loc (V d (cV L) (jV L)) ↦{fullShare} (Cert.Spec.rotBuf 1 f : Buf (Elt F) ((V d (cV L) (jV L)).loc cc0_scratch1)) : sProp 𝕄) := by
  iintro Hb
  sl_for (invR1 1 d L f) $$ [Hb]
  case region =>
    intro k _
    unfold invR1
    iintro Hb
    sl_exec
    sl_step
    have hk : k.val < 112 := k.isLt
    rw [Cert.RotStep.writes_whole_eq_of_agree cc0_scratch1 _ (Cert.Spec.rotUpTo 1 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch1 _ _ _ _ x).trans ?_
        refine Cert.Spec.rotUpTo_move 1 k.val f _ _ ?_ ?_ ?_ ?_ <;>
          (simp only [Cert.RotStep.emb_unit_val, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 1 k.val f y = Cert.Spec.rotUpTo 1 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 1 k.val f y hr
  · unfold invR1
    isplitl [Hb]
    · rw [Cert.Spec.rotUpTo_zero]; iexact Hb
    iintro %_ HI
    rw [show Cert.Spec.rotUpTo 1 (Scf.trips k0_t5_loop.lb k0_t5_loop.ub k0_t5_loop.st) f = Cert.Spec.rotBuf 1 f from Cert.Spec.rotUpTo_full 1 f]
    iexact HI

set_option maxHeartbeats 4000000 in
/-- The loop that rotates the second staging buffer's quadrants by 2 places, inside the pair loop: entered at contents `f`, it leaves `rotBuf 2 f`.
    Before trip `k` the row pairs below `k` are done; trip `k` is 28 stores of 16 lanes, each of what the buffer held at
    the store's source position when the trip began, and together they cover rows `k` and `k + 112`. -/
theorem rot_t6 (d : Dev nD) (L : grid0.Coords) (v2 c0 : BitVec 32) (k0_t1 : Fin k0_t1_loop.trips) (h : k0_cond6 L k0_t1 = 1#1)
    (f : Buf (Elt F) ((V d (cV L) (jV L)).loc cc0_scratch1)) :
    ((b1).view.loc (V d (cV L) (jV L)) ↦{fullShare} f : sProp 𝕄)
      ⊢ wp frame (wpE (defs₀ (F := F)) 𝒱₀ (V d (cV L) (jV L)) none) Set.univ
          (Scf.Loop.for k0_t6_loop (k0_t6_ok L k0_t1 h) ⟨⟩
            (k0_t6_body L xW (Memref.isWhole_whole _) oW (Memref.isWhole_whole _) b0 (Memref.isWhole_whole _) b1 (Memref.isWhole_whole _)
              cc0_scratch2 cc0_scratch3 cc0_scratch4 cc0_scratch5 v2 c0 k0_t1 h))
          fun _ => ((b1).view.loc (V d (cV L) (jV L)) ↦{fullShare} (Cert.Spec.rotBuf 2 f : Buf (Elt F) ((V d (cV L) (jV L)).loc cc0_scratch1)) : sProp 𝕄) := by
  iintro Hb
  sl_for (invR1 2 d L f) $$ [Hb]
  case region =>
    intro k _
    unfold invR1
    iintro Hb
    sl_exec
    sl_step
    have hk : k.val < 112 := k.isLt
    rw [Cert.RotStep.writes_whole_eq_of_agree cc0_scratch1 _ (Cert.Spec.rotUpTo 2 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch1 _ _ _ _ x).trans ?_
        refine Cert.Spec.rotUpTo_move 2 k.val f _ _ ?_ ?_ ?_ ?_ <;>
          (simp only [Cert.RotStep.emb_unit_val, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 2 k.val f y = Cert.Spec.rotUpTo 2 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 2 k.val f y hr
  · unfold invR1
    isplitl [Hb]
    · rw [Cert.Spec.rotUpTo_zero]; iexact Hb
    iintro %_ HI
    rw [show Cert.Spec.rotUpTo 2 (Scf.trips k0_t6_loop.lb k0_t6_loop.ub k0_t6_loop.st) f = Cert.Spec.rotBuf 2 f from Cert.Spec.rotUpTo_full 2 f]
    iexact HI

set_option maxHeartbeats 4000000 in
/-- The loop that rotates the second staging buffer's quadrants by 3 places, inside the pair loop: entered at contents `f`, it leaves `rotBuf 3 f`.
    Before trip `k` the row pairs below `k` are done; trip `k` is 28 stores of 16 lanes, each of what the buffer held at
    the store's source position when the trip began, and together they cover rows `k` and `k + 112`. -/
theorem rot_t7 (d : Dev nD) (L : grid0.Coords) (v2 c0 : BitVec 32) (k0_t1 : Fin k0_t1_loop.trips) (h : k0_cond7 L k0_t1 = 1#1)
    (f : Buf (Elt F) ((V d (cV L) (jV L)).loc cc0_scratch1)) :
    ((b1).view.loc (V d (cV L) (jV L)) ↦{fullShare} f : sProp 𝕄)
      ⊢ wp frame (wpE (defs₀ (F := F)) 𝒱₀ (V d (cV L) (jV L)) none) Set.univ
          (Scf.Loop.for k0_t7_loop (k0_t7_ok L k0_t1 h) ⟨⟩
            (k0_t7_body L xW (Memref.isWhole_whole _) oW (Memref.isWhole_whole _) b0 (Memref.isWhole_whole _) b1 (Memref.isWhole_whole _)
              cc0_scratch2 cc0_scratch3 cc0_scratch4 cc0_scratch5 v2 c0 k0_t1 h))
          fun _ => ((b1).view.loc (V d (cV L) (jV L)) ↦{fullShare} (Cert.Spec.rotBuf 3 f : Buf (Elt F) ((V d (cV L) (jV L)).loc cc0_scratch1)) : sProp 𝕄) := by
  iintro Hb
  sl_for (invR1 3 d L f) $$ [Hb]
  case region =>
    intro k _
    unfold invR1
    iintro Hb
    sl_exec
    sl_step
    have hk : k.val < 112 := k.isLt
    rw [Cert.RotStep.writes_whole_eq_of_agree cc0_scratch1 _ (Cert.Spec.rotUpTo 3 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch1 _ _ _ _ x).trans ?_
        refine Cert.Spec.rotUpTo_move 3 k.val f _ _ ?_ ?_ ?_ ?_ <;>
          (simp only [Cert.RotStep.emb_unit_val, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 3 k.val f y = Cert.Spec.rotUpTo 3 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq, k0_off162_eq, k0_off163_eq, k0_off164_eq, k0_off165_eq, k0_off166_eq, k0_off167_eq, k0_off168_eq, k0_off169_eq, k0_off170_eq, k0_off171_eq, k0_off172_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 3 k.val f y hr
  · unfold invR1
    isplitl [Hb]
    · rw [Cert.Spec.rotUpTo_zero]; iexact Hb
    iintro %_ HI
    rw [show Cert.Spec.rotUpTo 3 (Scf.trips k0_t7_loop.lb k0_t7_loop.ub k0_t7_loop.st) f = Cert.Spec.rotBuf 3 f from Cert.Spec.rotUpTo_full 3 f]
    iexact HI

end Cert.Kernel.Rot

end
-- ==== Proof.Bits.RotC.lean ====
/-
  The three loops that rotate the FIRST staging buffer's quadrants in place after the pair loop, by 1, 2 and 3 places:
  the same mathematics as inside the pair loop, at this site's stores.
-/
import proofs.«208198_g16930761081413_cont_7to1_1121_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«208198_g16930761081413_cont_7to1_1121_27_alg».proof.Proof.Gen.Kernel
import proofs.«208198_g16930761081413_cont_7to1_1121_27_alg».proof.Proof.Gen.Kernel.Skeleton
import proofs.«208198_g16930761081413_cont_7to1_1121_27_alg».proof.Proof.SpecBuf
import proofs.«208198_g16930761081413_cont_7to1_1121_27_alg».proof.Proof.RotStep
import proofs.«208198_g16930761081413_cont_7to1_1121_27_alg».proof.Proof.Bits.RotA

noncomputable section

namespace Cert.Kernel.Rot

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S2x384x224x224 EltTy.f32)
local notation "oW" => (Memref.whole Cert.Kernel.main_v0_scv : Memref Cert.Kernel.sig Kind.scVector Space.hbm Cert.Kernel.S2x384x224x224 EltTy.f32)
local notation "b0" => (Memref.whole Cert.Kernel.cc0_scratch0 : Memref Cert.Kernel.sig Kind.scVector Space.vmem Cert.Kernel.S224x224 EltTy.f32)
local notation "b1" => (Memref.whole Cert.Kernel.cc0_scratch1 : Memref Cert.Kernel.sig Kind.scVector Space.vmem Cert.Kernel.S224x224 EltTy.f32)

variable [FloatOps F]

set_option maxHeartbeats 4000000 in
/-- The loop that rotates the first staging buffer's quadrants by 1 place, after the pair loop: entered at contents `f`, it leaves `rotBuf 1 f`.
    Before trip `k` the row pairs below `k` are done; trip `k` is 28 stores of 16 lanes, each of what the buffer held at
    the store's source position when the trip began, and together they cover rows `k` and `k + 112`. -/
theorem rot_t8 (d : Dev nD) (L : grid0.Coords) (v2 v82 : BitVec 32) (h : k0_cond9 L = 1#1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t8_loop (k0_t8_ok L h) ⟨⟩
            (k0_t8_body L xW (Memref.isWhole_whole _) oW (Memref.isWhole_whole _) b0 (Memref.isWhole_whole _) b1 (Memref.isWhole_whole _)
              cc0_scratch2 cc0_scratch3 cc0_scratch4 cc0_scratch5 v2 v82 h))
          fun _ => ((b0).view.loc (V d (cV L) (jV L)) ↦{fullShare} (Cert.Spec.rotBuf 1 f : Buf (Elt F) ((V d (cV L) (jV L)).loc cc0_scratch0)) : sProp 𝕄) := by
  iintro Hb
  sl_for (invR0 1 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 1 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 1 k.val f _ _ ?_ ?_ ?_ ?_ <;>
          (simp only [Cert.RotStep.emb_unit_val, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 1 k.val f y = Cert.Spec.rotUpTo 1 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 1 k.val f y hr
  · unfold invR0
    isplitl [Hb]
    · rw [Cert.Spec.rotUpTo_zero]; iexact Hb
    iintro %_ HI
    rw [show Cert.Spec.rotUpTo 1 (Scf.trips k0_t8_loop.lb k0_t8_loop.ub k0_t8_loop.st) f = Cert.Spec.rotBuf 1 f from Cert.Spec.rotUpTo_full 1 f]
    iexact HI

set_option maxHeartbeats 4000000 in
/-- The loop that rotates the first staging buffer's quadrants by 2 places, after the pair loop: entered at contents `f`, it leaves `rotBuf 2 f`.
    Before trip `k` the row pairs below `k` are done; trip `k` is 28 stores of 16 lanes, each of what the buffer held at
    the store's source position when the trip began, and together they cover rows `k` and `k + 112`. -/
theorem rot_t9 (d : Dev nD) (L : grid0.Coords) (v2 v82 : BitVec 32) (h : k0_cond10 L = 1#1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t9_loop (k0_t9_ok L h) ⟨⟩
            (k0_t9_body L xW (Memref.isWhole_whole _) oW (Memref.isWhole_whole _) b0 (Memref.isWhole_whole _) b1 (Memref.isWhole_whole _)
              cc0_scratch2 cc0_scratch3 cc0_scratch4 cc0_scratch5 v2 v82 h))
          fun _ => ((b0).view.loc (V d (cV L) (jV L)) ↦{fullShare} (Cert.Spec.rotBuf 2 f : Buf (Elt F) ((V d (cV L) (jV L)).loc cc0_scratch0)) : sProp 𝕄) := by
  iintro Hb
  sl_for (invR0 2 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 2 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 2 k.val f _ _ ?_ ?_ ?_ ?_ <;>
          (simp only [Cert.RotStep.emb_unit_val, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 2 k.val f y = Cert.Spec.rotUpTo 2 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 2 k.val f y hr
  · unfold invR0
    isplitl [Hb]
    · rw [Cert.Spec.rotUpTo_zero]; iexact Hb
    iintro %_ HI
    rw [show Cert.Spec.rotUpTo 2 (Scf.trips k0_t9_loop.lb k0_t9_loop.ub k0_t9_loop.st) f = Cert.Spec.rotBuf 2 f from Cert.Spec.rotUpTo_full 2 f]
    iexact HI

set_option maxHeartbeats 4000000 in
/-- The loop that rotates the first staging buffer's quadrants by 3 places, after the pair loop: entered at contents `f`, it leaves `rotBuf 3 f`.
    Before trip `k` the row pairs below `k` are done; trip `k` is 28 stores of 16 lanes, each of what the buffer held at
    the store's source position when the trip began, and together they cover rows `k` and `k + 112`. -/
theorem rot_t10 (d : Dev nD) (L : grid0.Coords) (v2 v82 : BitVec 32) (h : k0_cond11 L = 1#1)
    (f : Buf (Elt F) ((V d (cV L) (jV L)).loc cc0_scratch0)) :
    ((b0).view.loc (V d (cV L) (jV L)) ↦{fullShare} f : sProp 𝕄)
      ⊢ wp frame (wpE (defs₀ (F := F)) 𝒱₀ (V d (cV L) (jV L)) none) Set.univ
          (Scf.Loop.for k0_t10_loop (k0_t10_ok L h) ⟨⟩
            (k0_t10_body L xW (Memref.isWhole_whole _) oW (Memref.isWhole_whole _) b0 (Memref.isWhole_whole _) b1 (Memref.isWhole_whole _)
              cc0_scratch2 cc0_scratch3 cc0_scratch4 cc0_scratch5 v2 v82 h))
          fun _ => ((b0).view.loc (V d (cV L) (jV L)) ↦{fullShare} (Cert.Spec.rotBuf 3 f : Buf (Elt F) ((V d (cV L) (jV L)).loc cc0_scratch0)) : sProp 𝕄) := by
  iintro Hb
  sl_for (invR0 3 d L f) $$ [Hb]
  case region =>
    intro k _
    unfold invR0
    iintro Hb
    sl_exec
    sl_step
    have hk : k.val < 112 := k.isLt
    rw [Cert.RotStep.writes_whole_eq_of_agree cc0_scratch0 _ (Cert.Spec.rotUpTo 3 (k.val + 1) f) _ ?hp ?hn]
    · iexact Hb
    case hp =>
      -- each store's payload is the buffer at the trip's start, read at the store's source position
      repeat' (first | (refine List.forall_mem_cons.mpr ⟨?_, ?_⟩) | (intro p hp; exact absurd hp List.not_mem_nil))
      all_goals
        dsimp only
        sl_unfold_run_names
        intro x
        have h0 : (x 0).val < 1 := (x 0).isLt
        have h1 : (x 1).val < 16 := (x 1).isLt
        refine (Cert.RotStep.cast_readAt_whole cc0_scratch0 _ _ _ _ x).trans ?_
        refine Cert.Spec.rotUpTo_move 3 k.val f _ _ ?_ ?_ ?_ ?_ <;>
          (simp only [Cert.RotStep.emb_unit_val, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq,
            Matrix.cons_val_zero, Matrix.cons_val_one, Matrix.head_cons, Cert.Spec.bufH, Cert.Spec.bufW, Cert.Spec.quadB]; omega)
    case hn =>
      -- a position no store covers lies outside rows `k` and `k + 112`
      show ∀ y : S224x224.Idx, (∀ p ∈ (_ : List (View.Piece (Elt F) S224x224 EltTy.f32)), y ∉ p.1.set) →
        Cert.Spec.rotUpTo 3 k.val f y = Cert.Spec.rotUpTo 3 (k.val + 1) f y
      intro y hy
      by_cases hr : (y 0).val % 112 = k.val
      · exfalso
        have hy0 : (y 0).val < 224 := (y 0).isLt
        have hy1 : (y 1).val < 224 := (y 1).isLt
        simp only [List.forall_mem_cons, Rect.mem_set_unit, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq,
          Fin.forall_fin_two, Matrix.cons_val_zero, Matrix.cons_val_one, Matrix.head_cons, show S1x16.size = ![1, 16] from rfl] at hy
        have hrow : (y 0).val = k.val ∨ (y 0).val = k.val + 112 := by omega
        have hc : (y 1).val / 16 < 14 := by omega
        rcases hrow with hrow | hrow <;> interval_cases hcc : (y 1).val / 16 <;>
          repeat (first | exact hy.1 (by clear hy; omega) | replace hy := hy.2)
      · exact Cert.Spec.rotUpTo_succ_of_ne 3 k.val f y hr
  · unfold invR0
    isplitl [Hb]
    · rw [Cert.Spec.rotUpTo_zero]; iexact Hb
    iintro %_ HI
    rw [show Cert.Spec.rotUpTo 3 (Scf.trips k0_t10_loop.lb k0_t10_loop.ub k0_t10_loop.st) f = Cert.Spec.rotBuf 3 f from Cert.Spec.rotUpTo_full 3 f]
    iexact HI

end Cert.Kernel.Rot

end
-- ==== Proof.Bits.RotAll.lean ====
/-
  The nine rotate loops, gathered as the worker's body takes them: each at the worker's own grid point.
-/
import proofs.«208198_g16930761081413_cont_7to1_1121_27_alg».proof.Proof.Bits.TileBase
import proofs.«208198_g16930761081413_cont_7to1_1121_27_alg».proof.Proof.Bits.RotA
import proofs.«208198_g16930761081413_cont_7to1_1121_27_alg».proof.Proof.Bits.RotB
import proofs.«208198_g16930761081413_cont_7to1_1121_27_alg».proof.Proof.Bits.RotC

noncomputable section

namespace Cert.Kernel.Rot

open Cert.Kernel Cert.Kernel.Gen Cert.Kernel.Geom

open Idealize.ShloMosaic

variable {F : FTy → Type} [FloatOps F]

theorem rotFacts (c : Fin (grid0.bound 0)) (s : Fin (grid0.bound 1)) (d : Dev nD) : Cert.Kernel.Tile.RotFacts (F := F) c s d where
  t2 := fun k0_t1 h v218 v247 c48 v248 v249 f => rot_t2 d (coordsV c s) k0_t1 h v218 v247 c48 v248 v249 f
  t3 := fun k0_t1 h v218 v247 c48 v248 v249 f => rot_t3 d (coordsV c s) k0_t1 h v218 v247 c48 v248 v249 f
  t4 := fun k0_t1 h v218 v247 c48 v248 v249 f => rot_t4 d (coordsV c s) k0_t1 h v218 v247 c48 v248 v249 f
  t5 := fun v2 c0 k0_t1 h f => rot_t5 d (coordsV c s) v2 c0 k0_t1 h f
  t6 := fun v2 c0 k0_t1 h f => rot_t6 d (coordsV c s) v2 c0 k0_t1 h f
  t7 := fun v2 c0 k0_t1 h f => rot_t7 d (coordsV c s) v2 c0 k0_t1 h f
  t8 := fun v2 v82 h f => rot_t8 d (coordsV c s) v2 v82 h f
  t9 := fun v2 v82 h f => rot_t9 d (coordsV c s) v2 v82 h f
  t10 := fun v2 v82 h f => rot_t10 d (coordsV c s) v2 v82 h f

end Cert.Kernel.Rot

end
-- ==== Proof.lean ====
/-
  The proof of the certificate's claim. Both programs compute, from `x : [2, 384, 224, 224]`, the array that keeps the
  channels below 192 and, in the upper 192 channels (four groups of 48), rotates each 224 x 224 image's four 112 x 112
  quadrants by the group's number of places: the specification `Cert.Spec.G`. The kernel does it with one copy per
  image through two staging buffers on 32 vector subcores, nine images each, for channels 240 and up, followed by a
  block copy of channels below 240; the reference by reshapes, transposes and a gather along the quadrant axis. Each
  program's run is proved to end, nothing faulting, with its result at `G` of its argument and the argument unchanged;
  the frames are those runs with the values dropped, and the two results agree because both are `G` of equal arguments.
  The idealization changes no operation, so nothing is owed for it.
-/
import proofs.«208198_g16930761081413_cont_7to1_1121_27_alg».proof.Defs
import proofs.«208198_g16930761081413_cont_7to1_1121_27_alg».proof.Proof.Gen.Kernel
import proofs.«208198_g16930761081413_cont_7to1_1121_27_alg».proof.Proof.Gen.KernelIdeal
import proofs.«208198_g16930761081413_cont_7to1_1121_27_alg».proof.Proof.Gen.ReferenceIdeal
import proofs.«208198_g16930761081413_cont_7to1_1121_27_alg».proof.Proof.Gen.Pre_finite_inputs
import proofs.«208198_g16930761081413_cont_7to1_1121_27_alg».proof.Proof.RefSide
import proofs.«208198_g16930761081413_cont_7to1_1121_27_alg».proof.Proof.Launch
import proofs.«208198_g16930761081413_cont_7to1_1121_27_alg».proof.Proof.TileObl
import proofs.«208198_g16930761081413_cont_7to1_1121_27_alg».proof.Proof.RotAll
import proofs.«208198_g16930761081413_cont_7to1_1121_27_alg».proof.Proof.Bits.Launch
import proofs.«208198_g16930761081413_cont_7to1_1121_27_alg».proof.Proof.Bits.TileObl
import proofs.«208198_g16930761081413_cont_7to1_1121_27_alg».proof.Proof.Bits.RotAll
import Idealize.ShloMosaic.Adequacy
import Idealize.ShloMosaic.Init

noncomputable section

namespace Cert.Proof

open Idealize.ShloMosaic Idealize.SL.Sem

/-- The idealized kernel's run: the result at the specification of the argument, the argument unchanged. -/
theorem run_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩
      (fun r => ∀ c : Dev Cert.KernelIdeal.nD,
        r.2.mem ((c.tc : Thread Cert.KernelIdeal.nD Cert.KernelIdeal.τ).loc Cert.KernelIdeal.main_v1)
            = Cert.Spec.G (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  Cert.KernelIdeal.Launch.run_main (F := Ideal) m ρ
    (Cert.KernelIdeal.Tile.tileObl (F := Ideal) m fun c s d => Cert.KernelIdeal.Rot.rotFacts (F := Ideal) c s d)

/-- The word-level kernel's run. -/
theorem run_bits (m : (ℓ : Loc Cert.Kernel.nD Cert.Kernel.τ Cert.Kernel.sig) → Buf (Elt Bits) ℓ)
    (ρ : Dev Cert.Kernel.nD → PrngReg) :
    θ_run (Cert.Kernel.defs (F := Bits)) (Cert.Kernel.threads (F := Bits)) ⟨m, fun _ => 0, ρ⟩
      (fun r => ∀ c : Dev Cert.Kernel.nD,
        r.2.mem ((c.tc : Thread Cert.Kernel.nD Cert.Kernel.τ).loc Cert.Kernel.main_v1)
            = Cert.Spec.G (m ((c.tc : Thread Cert.Kernel.nD Cert.Kernel.τ).loc Cert.Kernel.main_arg0))
        ∧ r.2.mem ((c.tc : Thread Cert.Kernel.nD Cert.Kernel.τ).loc Cert.Kernel.main_arg0)
            = m ((c.tc : Thread Cert.Kernel.nD Cert.Kernel.τ).loc Cert.Kernel.main_arg0)) :=
  Cert.Kernel.Launch.run_main (F := Bits) m ρ
    (Cert.Kernel.Tile.tileObl (F := Bits) m fun c s d => Cert.Kernel.Rot.rotFacts (F := Bits) c s d)

theorem frame_k : Cert.frame_Kernel := fun m ρ _ =>
  (θ_run Cert.Kernel.defs _ _).mono (fun _ h c => (h c).2) (run_bits m ρ)

theorem frame_ki : Cert.frame_KernelIdeal := fun m ρ _ =>
  (θ_run Cert.KernelIdeal.defs _ _).mono (fun _ h c => (h c).2) (run_ideal m ρ)

theorem frame_ri : Cert.frame_ReferenceIdeal := fun m ρ _ =>
  (θ_run Cert.ReferenceIdeal.defs _ _).mono (fun _ h c => (h c).2) (Cert.RefSide.run m ρ)

/-- Both results are the specification of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), run_ideal m ρ, ?_⟩
  refine (θ_run Cert.ReferenceIdeal.defs _ _).mono (fun _ h c => ⟨(h c).1.trans ?_, (h c).2⟩) (Cert.RefSide.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
